-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1002 : Shape := ⟨2, ![50000, 1002]⟩
abbrev S2x800000 : Shape := ⟨2, ![2, 800000]⟩
abbrev S1002x256 : Shape := ⟨2, ![1002, 256]⟩
abbrev S256x256 : Shape := ⟨2, ![256, 256]⟩
abbrev S256 : Shape := ⟨1, ![256]⟩
abbrev S256x20 : Shape := ⟨2, ![256, 20]⟩
abbrev S20 : Shape := ⟨1, ![20]⟩
abbrev S_ : Shape := ⟨0, ![]⟩

class Facts : Prop where
  bcast_S_S50000x1002 : S_.BroadcastsInDim S50000x1002 (![] : Fin 0 → Fin S50000x1002.rank)
  reducesTo_S50000x1002_S_d0_1 : S50000x1002.ReducesTo [0, 1] S_
  h_S_ : 0 < S_.numel
  bcast_S_S1002x256 : S_.BroadcastsInDim S1002x256 (![] : Fin 0 → Fin S1002x256.rank)
  reducesTo_S1002x256_S_d0_1 : S1002x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x20 : S_.BroadcastsInDim S256x20 (![] : Fin 0 → Fin S256x20.rank)
  reducesTo_S256x20_S_d0_1 : S256x20.ReducesTo [0, 1] S_
  bcast_S_S20 : S_.BroadcastsInDim S20 (![] : Fin 0 → Fin S20.rank)
  reducesTo_S20_S_d0 : S20.ReducesTo [0] S_

variable [Facts]

def fn_part3 {F : FTy → Type} [FloatOps F] (main_arg12 : FVec F S20 .f32) (main_v48 : IVec S_ 1) (main_v49 : FVec F S256x20 .f32) (main_v50 : FVec F S256x20 .f32) : IVec S_ 1 :=
  let main_v51 : IVec S256x20 1 := cmpf .olt main_v49 main_v50
  let main_c_19 : IVec S_ 1 := constantI S_ 1 1#1
  let main_v52 : IVec S_ 1 := (fun x v => Host.reduce IntOp.andi x v reducesTo_S256x20_S_d0_1 h_S_) main_v51 main_c_19
  let main_v53 : IVec S_ 1 := andi main_v48 main_v52
  let main_v54 : FVec F S20 .f32 := Host.absf main_arg12
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  main_v58

def fn_part2 {F : FTy → Type} [FloatOps F] (main_arg8 : FVec F S256 .f32) (main_arg9 : FVec F S256 .f32) (main_arg10 : FVec F S256 .f32) (main_arg11 : FVec F S256x20 .f32) (main_arg12 : FVec F S20 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x20 .f32 := Host.absf main_arg11
  let main_cst_18 : FVec F S_ .f32 := constant S_ .f32 0x7F800000#32
  let main_v50 : FVec F S256x20 .f32 := broadcastInDim S256x20 ![] bcast_S_S256x20 main_cst_18
  fn_part3 (F := F) main_arg12 main_v48 main_v49 main_v50

def fn_part1 {F : FTy → Type} [FloatOps F] (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256x20 .f32) (main_arg12 : FVec F S20 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x1002 .f32) (main_arg1 : IVec S2x800000 32) (main_arg2 : FVec F S1002x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256x20 .f32) (main_arg12 : FVec F S20 .f32) : IVec S_ 1 :=
  let main_v0 : FVec F S50000x1002 .f32 := Host.absf main_arg0
  let main_cst : FVec F S_ .f32 := constant S_ .f32 0x7F800000#32
  let main_v1 : FVec F S50000x1002 .f32 := broadcastInDim S50000x1002 ![] bcast_S_S50000x1002 main_cst
  let main_v2 : IVec S50000x1002 1 := cmpf .olt main_v0 main_v1
  let main_c : IVec S_ 1 := constantI S_ 1 1#1
  let main_v3 : IVec S_ 1 := (fun x v => Host.reduce IntOp.andi x v reducesTo_S50000x1002_S_d0_1 h_S_) main_v2 main_c
  let main_v4 : FVec F S1002x256 .f32 := Host.absf main_arg2
  let main_cst_0 : FVec F S_ .f32 := constant S_ .f32 0x7F800000#32
  let main_v5 : FVec F S1002x256 .f32 := broadcastInDim S1002x256 ![] bcast_S_S1002x256 main_cst_0
  let main_v6 : IVec S1002x256 1 := cmpf .olt main_v4 main_v5
  let main_c_1 : IVec S_ 1 := constantI S_ 1 1#1
  let main_v7 : IVec S_ 1 := (fun x v => Host.reduce IntOp.andi x v reducesTo_S1002x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_v13 main_v16
-- ==== Kernel.lean ====
abbrev S50000x1002 : Shape := ⟨2, ![50000, 1002]⟩
abbrev S2x800000 : Shape := ⟨2, ![2, 800000]⟩
abbrev S1002x256 : Shape := ⟨2, ![1002, 256]⟩
abbrev S256x256 : Shape := ⟨2, ![256, 256]⟩
abbrev S256 : Shape := ⟨1, ![256]⟩
abbrev S256x20 : Shape := ⟨2, ![256, 20]⟩
abbrev S20 : Shape := ⟨1, ![20]⟩
abbrev S1x800000 : Shape := ⟨2, ![1, 800000]⟩
abbrev S800000 : Shape := ⟨1, ![800000]⟩
abbrev S50000x256 : Shape := ⟨2, ![50000, 256]⟩
abbrev S2000x1002 : Shape := ⟨2, ![2000, 1002]⟩
abbrev S2000x256 : Shape := ⟨2, ![2000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S2000x1 : Shape := ⟨2, ![2000, 1]⟩
abbrev S1x20 : Shape := ⟨2, ![1, 20]⟩
abbrev S50000x20 : Shape := ⟨2, ![50000, 20]⟩
abbrev S2000x20 : Shape := ⟨2, ![2000, 20]⟩
abbrev S2000 : Shape := ⟨1, ![2000]⟩

abbrev nBuf : Space → Nat
  | .hbm => 146
  | .vmem => 51
  | .smem => 0
  | _ => 0

abbrev hbmTy0_0 (i : Nat) : BufTy := match i % 128 with
  | 0 => ⟨S50000x1002, .f32⟩
  | 1 => ⟨S2x800000, .i32⟩
  | 2 => ⟨S1002x256, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256, .f32⟩
  | 10 => ⟨S256, .f32⟩
  | 11 => ⟨S256x20, .f32⟩
  | 12 => ⟨S20, .f32⟩
  | 13 => ⟨S1x800000, .i32⟩
  | 14 => ⟨S800000, .i32⟩
  | 15 => ⟨S1x800000, .i32⟩
  | 16 => ⟨S800000, .i32⟩
  | 17 => ⟨S50000x256, .f32⟩
  | 18 => ⟨S50000x256, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S800000x1, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x256, .f32⟩
  | 58 => ⟨S800000x256, .f32⟩
  | 59 => ⟨S800000x256, .f32⟩
  | 60 => ⟨S_, .f32⟩
  | 61 => ⟨S50000x256, .f32⟩
  | 62 => ⟨S800000x1, .i32⟩
  | 63 => ⟨S50000x256, .f32⟩
  | 64 => ⟨S_, .f32⟩
  | 65 => ⟨S50000, .f32⟩
  | 66 => ⟨S50000, .f32⟩
  | 67 => ⟨S50000x1, .f32⟩
  | 68 => ⟨S1x256, .f32⟩
  | 69 => ⟨S50000x256, .f32⟩
  | 70 => ⟨S50000x256, .f32⟩
  | 71 => ⟨S_, .f32⟩
  | 72 => ⟨S800000, .f32⟩
  | 73 => ⟨S_, .f32⟩
  | 74 => ⟨S50000, .f32⟩
  | 75 => ⟨S800000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000, .f32⟩
  | 99 => ⟨S800000, .f32⟩
  | 100 => ⟨S800000x1, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x256, .f32⟩
  | 110 => ⟨S800000x256, .f32⟩
  | 111 => ⟨S800000x256, .f32⟩
  | 112 => ⟨S_, .f32⟩
  | 113 => ⟨S50000x256, .f32⟩
  | 114 => ⟨S800000x1, .i32⟩
  | 115 => ⟨S50000x256, .f32⟩
  | 116 => ⟨S_, .f32⟩
  | 117 => ⟨S50000, .f32⟩
  | 118 => ⟨S50000, .f32⟩
  | 119 => ⟨S50000x1, .f32⟩
  | 120 => ⟨S1x256, .f32⟩
  | 121 => ⟨S50000x256, .f32⟩
  | 122 => ⟨S1x256, .f32⟩
  | 123 => ⟨S50000x256, .f32⟩
  | 124 => ⟨S1x256, .f32⟩
  | 125 => ⟨S1x256, .f32⟩
  | 126 => ⟨S256, .f32⟩
  | 127 => ⟨S_, .f32⟩
  | _ => ⟨S50000x1002, .f32⟩

abbrev hbmTy0_1 (i : Nat) : BufTy := match i % 128 with
  | 0 => ⟨S256, .f32⟩
  | 1 => ⟨S256, .f32⟩
  | 2 => ⟨S1x256, .f32⟩
  | 3 => ⟨S256, .f32⟩
  | 4 => ⟨S_, .f32⟩
  | 5 => ⟨S256, .f32⟩
  | 6 => ⟨S256, .f32⟩
  | 7 => ⟨S256, .f32⟩
  | 8 => ⟨S_, .f32⟩
  | 9 => ⟨S256, .f32⟩
  | 10 => ⟨S256, .f32⟩
  | 11 => ⟨S256, .f32⟩
  | 12 => ⟨S256, .f32⟩
  | 13 => ⟨S1x256, .f32⟩
  | 14 => ⟨S1x256, .f32⟩
  | 15 => ⟨S1x256, .f32⟩
  | 16 => ⟨S1x20, .f32⟩
  | 17 => ⟨S50000x20, .f32⟩
  | _ => ⟨S50000x1002, .f32⟩

abbrev hbmTy (i : Nat) : BufTy := match i / 128 with
  | 0 => hbmTy0_0 i
  | 1 => hbmTy0_1 i
  | _ => ⟨S50000x1002, .f32⟩

abbrev bufTy : (tb : Table) → Fin (tcTables nBuf tb) → BufTy
  | .hbm, ⟨i, _⟩ => hbmTy i
  | .local _ .vmem, ⟨0, _⟩ => ⟨S2000x1002, .f32⟩
  | .local _ .vmem, ⟨1, _⟩ => ⟨S2000x1002, .f32⟩
  | .local _ .vmem, ⟨2, _⟩ => ⟨S1002x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x1, .f32⟩
  | .local _ .vmem, ⟨15, _⟩ => ⟨S2000x1, .f32⟩
  | .local _ .vmem, ⟨16, _⟩ => ⟨S1x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S256x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x1, .f32⟩
  | .local _ .vmem, ⟨29, _⟩ => ⟨S2000x1, .f32⟩
  | .local _ .vmem, ⟨30, _⟩ => ⟨S1x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S256x256, .f32⟩
  | .local _ .vmem, ⟨36, _⟩ => ⟨S1x256, .f32⟩
  | .local _ .vmem, ⟨37, _⟩ => ⟨S2000x256, .f32⟩
  | .local _ .vmem, ⟨38, _⟩ => ⟨S2000x256, .f32⟩
  | .local _ .vmem, ⟨39, _⟩ => ⟨S1x256, .f32⟩
  | .local _ .vmem, ⟨40, _⟩ => ⟨S1x256, .f32⟩
  | .local _ .vmem, ⟨41, _⟩ => ⟨S2000x256, .f32⟩
  | .local _ .vmem, ⟨42, _⟩ => ⟨S2000x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S1x256, .f32⟩
  | .local _ .vmem, ⟨47, _⟩ => ⟨S256x20, .f32⟩
  | .local _ .vmem, ⟨48, _⟩ => ⟨S1x20, .f32⟩
  | .local _ .vmem, ⟨49, _⟩ => ⟨S2000x20, .f32⟩
  | .local _ .vmem, ⟨50, _⟩ => ⟨S2000x20, .f32⟩
  | _, _ => ⟨S50000x1002, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_c_13 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_c_15 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_19 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88_0 : Ref sig .tc := ⟨.hbm, 123, rfl⟩
abbrev main_v88_1 : Ref sig .tc := ⟨.hbm, 124, rfl⟩
abbrev main_v88_2 : Ref sig .tc := ⟨.hbm, 125, rfl⟩
abbrev main_v89 : Ref sig .tc := ⟨.hbm, 126, rfl⟩
abbrev main_cst_20 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_22 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg4_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg3_1 : Ref sig .tc := ⟨.vmem, 38, rfl⟩
abbrev cc5_stg4_0 : Ref sig .tc := ⟨.vmem, 39, rfl⟩
abbrev cc5_stg5_0 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc6_stg7_0 : Ref sig .tc := ⟨.vmem, 49, rfl⟩
abbrev cc6_stg7_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem4_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem3_1 : DmaSem sig := 38
abbrev cc5_sem4_0 : DmaSem sig := 39
abbrev cc5_sem5_0 : DmaSem sig := 40
abbrev cc6_sem0_0 : DmaSem sig := 41
abbrev cc6_sem0_1 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48
abbrev cc6_sem7_0 : DmaSem sig := 49
abbrev cc6_sem7_1 : DmaSem sig := 50

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1002 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1002x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x20 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x20 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x20 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x1002_S2000x1002_0_0 : ∀ a, (![0, 0] : Fin 2 → Nat) a + S2000x1002.size a ≤ S2000x1002.size a
  h_S2000x1002 : 0 < S2000x1002.numel
  bitsLt_bf16_f32 : FTy.bits .bf16 < FTy.bits .f32
  inb_S1002x256_S1002x256_0_0 : ∀ a, (![0, 0] : Fin 2 → Nat) a + S1002x256.size a ≤ S1002x256.size a
  h_S1002x256 : 0 < S1002x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S256 : S2000x256.Reduces [0] S256
  shapeCasts_S1x256_S256 : S1x256.ShapeCasts S256
  bcast_S_S256 : S_.BroadcastsInDim S256 (![] : Fin 0 → Fin S256.rank)
  shapeCasts_S20_S1x20 : S20.ShapeCasts S1x20
  inb_S256x20_S256x20_0_0 : ∀ a, (![0, 0] : Fin 2 → Nat) a + S256x20.size a ≤ S256x20.size a
  h_S256x20 : 0 < S256x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S2000x20 : S1x20.Broadcasts S2000x20
  reduces_S2000x20_S2000 : S2000x20.Reduces [1] S2000
  shapeCasts_S2000_S2000x1 : S2000.ShapeCasts S2000x1
  broadcasts_S2000x1_S2000x20 : S2000x1.Broadcasts S2000x20
  inb_S2000x20_S2000x20_0_0 : ∀ a, (![0, 0] : Fin 2 → Nat) a + S2000x20.size a ≤ S2000x20.size a
  h_S2000x20 : 0 < S2000x20.numel
  dot_S2000x1002_S1002x256_S2000x256_1_0_0_1_n_n_wf : DotDims.WF S2000x1002 S1002x256 S2000x256 [1] [0] [0] [1] [] []
  dot_S2000x256_S256x256_S2000x256_1_0_0_1_n_n_wf : DotDims.WF S2000x256 S256x256 S2000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x20_S2000x20_1_0_0_1_n_n_wf : DotDims.WF S2000x256 S256x20 S2000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1002.size a ≤ S50000x1002.size a
  hwx0_0 : ∀ i : grid0.Coords, EltTy.bits .f32 = 32 ∨ (Rect.block (s := S50000x1002) S2000x1002.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1002x256.size a ≤ S1002x256.size a
  hwx0_1 : ∀ i : grid0.Coords, EltTy.bits .f32 = 32 ∨ (Rect.block (s := S1002x256) S1002x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .f32 = 32 ∨ (Rect.block (s := S50000x256) S2000x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S50000x256.size a
  hwx5_3 : ∀ i : grid5.Coords, EltTy.bits .f32 = 32 ∨ (Rect.block (s := S50000x256) S2000x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x20.size a ≤ S256x20.size a
  hwx6_5 : ∀ i : grid6.Coords, EltTy.bits .f32 = 32 ∨ (Rect.block (s := S256x20) S256x20.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x20.size a ≤ S1x20.size a
  hwx6_6 : ∀ i : grid6.Coords, EltTy.bits .f32 = 32 ∨ (Rect.block (s := S1x20) S1x20.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x20.size a ≤ S50000x20.size a
  hwx6_7 : ∀ i : grid6.Coords, EltTy.bits .f32 = 32 ∨ (Rect.block (s := S50000x20) S2000x20.size (cc6_transform_7 i) (hinb6_7 i)).WholeWords (EltTy.packing .f32)

variable [Facts₀]

def dot_S2000x1002_S1002x256_S2000x256_1_0_0_1_n_n : DotDims S2000x1002 S1002x256 S2000x256 where
  lhsContracting := [1]
  rhsContracting := [0]
  lhsNonContracting := [0]
  rhsNonContracting := [1]
  lhsBatch := []
  rhsBatch := []
  wf := dot_S2000x1002_S1002x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x20_S2000x20_1_0_0_1_n_n : DotDims S2000x256 S256x20 S2000x20 where
  lhsContracting := [1]
  rhsContracting := [0]
  lhsNonContracting := [0]
  rhsNonContracting := [1]
  lhsBatch := []
  rhsBatch := []
  wf := dot_S2000x256_S256x20_S2000x20_1_0_0_1_n_n_wf

abbrev win0_0 : Pipeline.Window sig grid0 :=
  Pipeline.Window.ofSpec (Memref.whole main_arg0) S2000x1002.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1002x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v45) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v81) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v84) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v85) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S2000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v86) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v88_0) S2000x256.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v88_1) S1x256.size cc5_transform_4 reads5_4 true true 1 stage5_4 sem5_4
    hrank5 hreads5_4 hinb5_4 nbuf5_4 (Memref.isWhole_whole _) hwx5_4 hstage5_4

abbrev win5_5 : Pipeline.Window sig grid5 :=
  Pipeline.Window.ofSpec (Memref.whole main_v88_2) S1x256.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v88_0) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v101) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v102) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v103) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg11) S256x20.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v104) S1x20.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v105) S2000x20.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x1002 : Shape := ⟨2, ![50000, 1002]⟩
abbrev S2x800000 : Shape := ⟨2, ![2, 800000]⟩
abbrev S1002x256 : Shape := ⟨2, ![1002, 256]⟩
abbrev S256x256 : Shape := ⟨2, ![256, 256]⟩
abbrev S256 : Shape := ⟨1, ![256]⟩
abbrev S256x20 : Shape := ⟨2, ![256, 20]⟩
abbrev S20 : Shape := ⟨1, ![20]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x20 : Shape := ⟨2, ![50000, 20]⟩
abbrev S1x20 : Shape := ⟨2, ![1, 20]⟩

abbrev nBuf : Space → Nat
  | .hbm => 205
  | .vmem => 0
  | .smem => 0
  | _ => 0

abbrev hbmTy0_0 (i : Nat) : BufTy := match i % 128 with
  | 0 => ⟨S50000x1002, .f32⟩
  | 1 => ⟨S2x800000, .i32⟩
  | 2 => ⟨S1002x256, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256, .f32⟩
  | 10 => ⟨S256, .f32⟩
  | 11 => ⟨S256x20, .f32⟩
  | 12 => ⟨S20, .f32⟩
  | 13 => ⟨S1x800000, .i32⟩
  | 14 => ⟨S800000, .i32⟩
  | 15 => ⟨S1x800000, .i32⟩
  | 16 => ⟨S800000, .i32⟩
  | 17 => ⟨S50000x256, .f32⟩
  | 18 => ⟨S50000x256, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S800000x1, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x256, .f32⟩
  | 58 => ⟨S800000x256, .f32⟩
  | 59 => ⟨S800000x256, .f32⟩
  | 60 => ⟨S_, .f32⟩
  | 61 => ⟨S50000x256, .f32⟩
  | 62 => ⟨S800000x1, .i32⟩
  | 63 => ⟨S50000x256, .f32⟩
  | 64 => ⟨S_, .f32⟩
  | 65 => ⟨S50000, .f32⟩
  | 66 => ⟨S50000, .f32⟩
  | 67 => ⟨S50000x1, .f32⟩
  | 68 => ⟨S50000x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000x256, .f32⟩
  | 78 => ⟨S_, .f32⟩
  | 79 => ⟨S800000, .f32⟩
  | 80 => ⟨S_, .f32⟩
  | 81 => ⟨S50000, .f32⟩
  | 82 => ⟨S800000x1, .i32⟩
  | 83 => ⟨S50000, .f32⟩
  | 84 => ⟨S_, .f32⟩
  | 85 => ⟨S50000, .f32⟩
  | 86 => ⟨S50000, .f32⟩
  | 87 => ⟨S50000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000, .f32⟩
  | 106 => ⟨S800000, .f32⟩
  | 107 => ⟨S800000x1, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x256, .f32⟩
  | 117 => ⟨S800000x256, .f32⟩
  | 118 => ⟨S800000x256, .f32⟩
  | 119 => ⟨S_, .f32⟩
  | 120 => ⟨S50000x256, .f32⟩
  | 121 => ⟨S800000x1, .i32⟩
  | 122 => ⟨S50000x256, .f32⟩
  | 123 => ⟨S_, .f32⟩
  | 124 => ⟨S50000, .f32⟩
  | 125 => ⟨S50000, .f32⟩
  | 126 => ⟨S50000x1, .f32⟩
  | 127 => ⟨S50000x256, .f32⟩
  | _ => ⟨S50000x1002, .f32⟩

abbrev hbmTy0_1 (i : Nat) : BufTy := match i % 128 with
  | 0 => ⟨S50000x256, .f32⟩
  | 1 => ⟨S50000x256, .f32⟩
  | 2 => ⟨S1x256, .f32⟩
  | 3 => ⟨S50000x256, .f32⟩
  | 4 => ⟨S50000x256, .f32⟩
  | 5 => ⟨S_, .f32⟩
  | 6 => ⟨S50000x256, .f32⟩
  | 7 => ⟨S50000x256, .f32⟩
  | 8 => ⟨S50000x256, .f32⟩
  | 9 => ⟨S1x256, .f32⟩
  | 10 => ⟨S50000x256, .f32⟩
  | 11 => ⟨S50000x256, .f32⟩
  | 12 => ⟨S_, .f32⟩
  | 13 => ⟨S256, .f32⟩
  | 14 => ⟨S_, .f32⟩
  | 15 => ⟨S256, .f32⟩
  | 16 => ⟨S256, .f32⟩
  | 17 => ⟨S_, .i32⟩
  | 18 => ⟨S_, .f32⟩
  | 19 => ⟨S256, .f32⟩
  | 20 => ⟨S1x256, .f32⟩
  | 21 => ⟨S_, .f32⟩
  | 22 => ⟨S1x256, .f32⟩
  | 23 => ⟨S1x256, .f32⟩
  | 24 => ⟨S50000x256, .f32⟩
  | 25 => ⟨S50000x256, .f32⟩
  | 26 => ⟨S50000x256, .f32⟩
  | 27 => ⟨S_, .f32⟩
  | 28 => ⟨S_, .f32⟩
  | 29 => ⟨S_, .f32⟩
  | 30 => ⟨S_, .f32⟩
  | 31 => ⟨S256, .f32⟩
  | 32 => ⟨S256, .f32⟩
  | 33 => ⟨S256, .f32⟩
  | 34 => ⟨S_, .f32⟩
  | 35 => ⟨S_, .i1⟩
  | 36 => ⟨S_, .f32⟩
  | 37 => ⟨S_, .f32⟩
  | 38 => ⟨S256, .f32⟩
  | 39 => ⟨S256, .f32⟩
  | 40 => ⟨S1x256, .f32⟩
  | 41 => ⟨S50000x256, .f32⟩
  | 42 => ⟨S50000x256, .f32⟩
  | 43 => ⟨S_, .f32⟩
  | 44 => ⟨S256, .f32⟩
  | 45 => ⟨S256, .f32⟩
  | 46 => ⟨S256, .f32⟩
  | 47 => ⟨S1x256, .f32⟩
  | 48 => ⟨S50000x256, .f32⟩
  | 49 => ⟨S50000x256, .f32⟩
  | 50 => ⟨S1x256, .f32⟩
  | 51 => ⟨S50000x256, .f32⟩
  | 52 => ⟨S50000x256, .f32⟩
  | 53 => ⟨S1x256, .f32⟩
  | 54 => ⟨S50000x256, .f32⟩
  | 55 => ⟨S50000x256, .f32⟩
  | 56 => ⟨S_, .f32⟩
  | 57 => ⟨S50000x256, .f32⟩
  | 58 => ⟨S50000x256, .f32⟩
  | 59 => ⟨S50000x20, .f32⟩
  | 60 => ⟨S1x20, .f32⟩
  | 61 => ⟨S50000x20, .f32⟩
  | 62 => ⟨S50000x20, .f32⟩
  | 63 => ⟨S_, .f32⟩
  | 64 => ⟨S50000, .f32⟩
  | 65 => ⟨S_, .f32⟩
  | 66 => ⟨S50000, .f32⟩
  | 67 => ⟨S50000, .f32⟩
  | 68 => ⟨S50000x1, .f32⟩
  | 69 => ⟨S50000x20, .f32⟩
  | 70 => ⟨S50000x20, .f32⟩
  | 71 => ⟨S50000x20, .f32⟩
  | 72 => ⟨S_, .f32⟩
  | 73 => ⟨S50000, .f32⟩
  | 74 => ⟨S50000x1, .f32⟩
  | 75 => ⟨S50000x20, .f32⟩
  | 76 => ⟨S50000x20, .f32⟩
  | _ => ⟨S50000x1002, .f32⟩

abbrev hbmTy (i : Nat) : BufTy := match i / 128 with
  | 0 => hbmTy0_0 i
  | 1 => hbmTy0_1 i
  | _ => ⟨S50000x1002, .f32⟩

abbrev bufTy : (tb : Table) → Fin (tcTables nBuf tb) → BufTy
  | .hbm, ⟨i, _⟩ => hbmTy i
  | _, _ => ⟨S50000x1002, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call0_cst : Ref sig .tc := ⟨.hbm, 74, rfl⟩
abbrev main_call0_v0 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_16 : Ref sig .tc := ⟨.hbm, 108, rfl⟩
abbrev main_v75 : Ref sig .tc := ⟨.hbm, 109, rfl⟩
abbrev main_v76 : Ref sig .tc := ⟨.hbm, 110, rfl⟩
abbrev main_c_17 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_call1_cst : Ref sig .tc := ⟨.hbm, 133, rfl⟩
abbrev main_call1_v0 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_20 : Ref sig .tc := ⟨.hbm, 140, rfl⟩
abbrev main_v101 : Ref sig .tc := ⟨.hbm, 141, rfl⟩
abbrev main_cst_21 : Ref sig .tc := ⟨.hbm, 142, rfl⟩
abbrev main_v102 : Ref sig .tc := ⟨.hbm, 143, rfl⟩
abbrev main_v103 : Ref sig .tc := ⟨.hbm, 144, rfl⟩
abbrev main_c_22 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_cst_0 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_cst_1 : Ref sig .tc := ⟨.hbm, 156, rfl⟩
abbrev main_call2_v8 : Ref sig .tc := ⟨.hbm, 157, rfl⟩
abbrev main_call2_cst_2 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_cst_3 : Ref sig .tc := ⟨.hbm, 162, rfl⟩
abbrev main_call2_v12 : Ref sig .tc := ⟨.hbm, 163, rfl⟩
abbrev main_call2_cst_4 : Ref sig .tc := ⟨.hbm, 164, rfl⟩
abbrev main_call2_call0_v0 : Ref sig .tc := ⟨.hbm, 165, rfl⟩
abbrev main_call2_call0_v1 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_cst_23 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_call3_cst : Ref sig .tc := ⟨.hbm, 184, rfl⟩
abbrev main_call3_v0 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_24 : Ref sig .tc := ⟨.hbm, 191, rfl⟩
abbrev main_v125 : Ref sig .tc := ⟨.hbm, 192, rfl⟩
abbrev main_cst_25 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_cst_26 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S20_S1x20_1 : S20.BroadcastsInDim S1x20 (![1] : Fin 1 → Fin S1x20.rank)
  bcast_S1x20_S50000x20_0_1 : S1x20.BroadcastsInDim S50000x20 (![0, 1] : Fin 2 → Fin S50000x20.rank)
  reducesTo_S50000x20_S50000_d1 : S50000x20.ReducesTo [1] S50000
  bcast_S50000x1_S50000x20_0_1 : S50000x1.BroadcastsInDim S50000x20 (![0, 1] : Fin 2 → Fin S50000x20.rank)
  dot_S50000x1002_S1002x256_S50000x256_1_0_0_1_n_n_wf : DotDims.WF S50000x1002 S1002x256 S50000x256 [1] [0] [0] [1] [] []
  dot_S50000x256_S256x256_S50000x256_1_0_0_1_n_n_wf : DotDims.WF S50000x256 S256x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x20_S50000x20_1_0_0_1_n_n_wf : DotDims.WF S50000x256 S256x20 S50000x20 [1] [0] [0] [1] [] []

variable [Facts₀]

def dot_S50000x1002_S1002x256_S50000x256_1_0_0_1_n_n : DotDims S50000x1002 S1002x256 S50000x256 where
  lhsContracting := [1]
  rhsContracting := [0]
  lhsNonContracting := [0]
  rhsNonContracting := [1]
  lhsBatch := []
  rhsBatch := []
  wf := dot_S50000x1002_S1002x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x20_S50000x20_1_0_0_1_n_n : DotDims S50000x256 S256x20 S50000x20 where
  lhsContracting := [1]
  rhsContracting := [0]
  lhsNonContracting := [0]
  rhsNonContracting := [1]
  lhsBatch := []
  rhsBatch := []
  wf := dot_S50000x256_S256x20_S50000x20_1_0_0_1_n_n_wf

class Facts : Prop extends Facts₀ where

variable [Facts]
-- ==== Proof.LibWrittenRefs.lean ====
/-
  A straight line of host operations each of which writes exactly one buffer: when the buffers written, in order,
  are the references of a list `W`, a reference outside `W` is written by no operation of the line, and so keeps its
  contents across the line. The hypothesis is one equation between two lists (the operations' written sets against the
  singletons of `W`), which for a literal line holds by unfolding; membership in `W` is then decided over references alone.
-/
import Idealize.ShloMosaic.Lib.StableHlo.Run

namespace Idealize.ShloMosaic.StableHlo

variable {τ : Topo} {sig : RefSig} {Val : EltTy → Type}

/-- Every operation of a line whose written sets are, in order, the singletons of the references `W` writes only
    references of `W`. -/
theorem writes_sub_of_map_eq :
    ∀ (ops : List (HloOp τ sig Val)) (W : List (Ref sig .tc)),
      ops.map (fun op => op.writes) = W.map (fun r => ({Proc.devRef (τ := τ) .tc r} : Finset (DevRef τ sig))) →
      ∀ op ∈ ops, op.writes ⊆ (W.map (Proc.devRef (τ := τ) .tc)).toFinset
  | [], _, _ => fun _ hop => nomatch hop
  | _ :: _, [], h => nomatch h
  | o :: os, r :: W', h => by
    simp only [List.map_cons, List.cons.injEq] at h
    intro op hop
    rcases List.mem_cons.mp hop with rfl | hop
    · rw [h.1]
      intro b hb
      rw [Finset.mem_singleton] at hb
      subst hb
      exact List.mem_toFinset.mpr (List.mem_map.mpr ⟨r, List.mem_cons_self, rfl⟩)
    · refine (writes_sub_of_map_eq os W' h.2 op hop).trans fun b hb => ?_
      obtain ⟨y, hy, he⟩ := List.mem_map.mp (List.mem_toFinset.mp hb)
      exact List.mem_toFinset.mpr (List.mem_map.mpr ⟨y, List.mem_cons_of_mem _ hy, he⟩)

/-- No operation of such a line writes a reference outside `W`. -/
theorem not_mem_writes_of_map_eq {ops : List (HloOp τ sig Val)} {W : List (Ref sig .tc)}
    (h : ops.map (fun op => op.writes) = W.map (fun r => ({Proc.devRef (τ := τ) .tc r} : Finset (DevRef τ sig))))
    {r : Ref sig .tc} (hr : r ∉ W) {op : HloOp τ sig Val} (hop : op ∈ ops) : Proc.devRef (τ := τ) .tc r ∉ op.writes := fun hw => by
  obtain ⟨y, hy, he⟩ := List.mem_map.mp (List.mem_toFinset.mp (writes_sub_of_map_eq ops W h op hop hw))
  exact hr (Proc.devRef_injective _ he ▸ hy)

/-- A reference outside `W` holds after such a line what it held before it. -/
theorem after_of_map_writes_eq {ops : List (HloOp τ sig Val)} {W : List (Ref sig .tc)}
    (h : ops.map (fun op => op.writes) = W.map (fun r => ({Proc.devRef (τ := τ) .tc r} : Finset (DevRef τ sig))))
    (V : Valuation τ sig Val) {r : Ref sig .tc} (hr : r ∉ W) :
    after ops V (Proc.devRef .tc r) = V (Proc.devRef .tc r) :=
  after_of_forall_not_mem ops V fun _ hop => not_mem_writes_of_map_eq h hr hop

end Idealize.ShloMosaic.StableHlo
-- ==== Proof.LibSingleAssign.lean ====
/-
  Straight lines of host operations in single-assignment form: each operation writes exactly one buffer, and no buffer is
  written twice. For such a line the valuation after the whole line can be read one variable at a time: the final value of
  the variable the `j`-th operation assigns is that operation's function of the FINAL values of its operands, provided
  each operand is assigned before position `j` or not at all (it is then never touched again). So a value computed by a
  long line is described by one small equation per operation, and two lines can be compared variable by variable
  without ever writing out a whole composed term.
-/
import Idealize.ShloMosaic.Lib.StableHlo.Run
import proofs.«116509_j71700184039973_1_alg».proof.Proof.LibWrittenRefs

namespace Idealize.ShloMosaic.StableHlo

variable {τ : Topo} {sig : RefSig} {Val : EltTy → Type}

/-- The line `ops` assigns the references `W`, one per operation in order, each once. -/
structure SingleAssign (ops : List (HloOp τ sig Val)) (W : List (Ref sig .tc)) : Prop where
  writes : ops.map (fun op => op.writes) = W.map (fun r => ({Proc.devRef (τ := τ) .tc r} : Finset (DevRef τ sig)))
  nodup : W.Nodup

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- In a list without repetition the entry at position `i` does not occur from a later position `j` on. -/
theorem not_mem_drop_of_nodup {α : Type} : ∀ (W : List α), W.Nodup → ∀ (i j : Nat) (x : α), W[i]? = some x → i < j → x ∉ W.drop j
  | [], _, _, _, _, h, _ => by simp at h
  | _ :: _, _, _, 0, _, _, hlt => absurd hlt (Nat.not_lt_zero _)
  | r :: W', hn, 0, j + 1, x, h, _ => by
    simp only [List.getElem?_cons_zero, Option.some.injEq] at h
    subst h
    rw [List.drop_succ_cons]
    exact fun hm => (List.nodup_cons.mp hn).1 (List.mem_of_mem_drop hm)
  | r :: W', hn, i + 1, j + 1, x, h, hlt => by
    rw [List.drop_succ_cons]
    rw [List.getElem?_cons_succ] at h
    exact not_mem_drop_of_nodup W' (List.nodup_cons.mp hn).2 i j x h (Nat.lt_of_succ_lt_succ hlt)

/-- The final value of the variable the `j`-th operation assigns is that operation's result over the valuation before it. -/
theorem after_at : ∀ (ops : List (HloOp τ sig Val)) (W : List (Ref sig .tc)),
    ops.map (fun op => op.writes) = W.map (fun r => ({Proc.devRef (τ := τ) .tc r} : Finset (DevRef τ sig))) → W.Nodup →
    ∀ (V : Valuation τ sig Val) (j : Nat) (op : HloOp τ sig Val) (y : Ref sig .tc), ops[j]? = some op → W[j]? = some y →
      after ops V (Proc.devRef .tc y) = op.result (after (ops.take j) V) (Proc.devRef .tc y)
  | [], _, _, _, _, _, _, _, hop, _ => by simp at hop
  | _ :: _, [], hw, _, _, _, _, _, _, _ => by simp at hw
  | o :: os, r :: W', hw, hn, V, 0, op, y, hop, hy => by
    simp only [List.getElem?_cons_zero, Option.some.injEq] at hop hy
    subst hop hy
    simp only [List.map_cons, List.cons.injEq] at hw
    rw [after_cons, List.take_zero, after_nil]
    exact after_of_map_writes_eq hw.2 _ (List.nodup_cons.mp hn).1
  | o :: os, r :: W', hw, hn, V, j + 1, op, y, hop, hy => by
    simp only [List.map_cons, List.cons.injEq] at hw
    rw [List.getElem?_cons_succ] at hop hy
    rw [after_cons, List.take_succ_cons, after_cons]
    exact after_at os W' hw.2 (List.nodup_cons.mp hn).2 (o.result V) j op y hop hy

variable {ops : List (HloOp τ sig Val)} {W : List (Ref sig .tc)}

/-- A reference not assigned from position `j` on already holds its final value before position `j`. -/
theorem after_take_of_not_mem_drop (h : SingleAssign ops W) (V : Valuation τ sig Val) (j : Nat) {x : Ref sig .tc} (hx : x ∉ W.drop j) :
    after (ops.take j) V (Proc.devRef .tc x) = after ops V (Proc.devRef .tc x) := by
  conv_rhs => rw [← List.take_append_drop j ops, after_append]
  refine (after_of_map_writes_eq (W := W.drop j) ?_ _ hx).symm
  rw [List.map_drop, h.writes, List.map_drop]

/-- A reference assigned at an earlier position already holds its final value. -/
theorem after_take_of_lt (h : SingleAssign ops W) (V : Valuation τ sig Val) {i j : Nat} {x : Ref sig .tc} (hi : W[i]? = some x) (hij : i < j) :
    after (ops.take j) V (Proc.devRef .tc x) = after ops V (Proc.devRef .tc x) :=
  after_take_of_not_mem_drop h V j (not_mem_drop_of_nodup W h.nodup i j x hi hij)

/-- A reference the line never assigns holds throughout what it held before the line. -/
theorem after_of_not_assigned (h : SingleAssign ops W) (V : Valuation τ sig Val) {x : Ref sig .tc} (hx : x ∉ W) :
    after ops V (Proc.devRef .tc x) = V (Proc.devRef .tc x) :=
  after_of_map_writes_eq h.writes V hx

/-- and so did it before any position. -/
theorem after_take_of_not_assigned (h : SingleAssign ops W) (V : Valuation τ sig Val) (j : Nat) {x : Ref sig .tc} (hx : x ∉ W) :
    after (ops.take j) V (Proc.devRef .tc x) = after ops V (Proc.devRef .tc x) :=
  after_take_of_not_mem_drop h V j fun hm => hx (List.mem_of_mem_drop hm)

/-! ## The final value of an assigned variable, builder by builder -/

theorem final_nullary (h : SingleAssign ops W) (V : Valuation τ sig Val) (j : Nat) {y : Ref sig .tc} {v : y.ty.Contents Val} {hy}
    (hop : ops[j]? = some (nullary y v hy)) (hw : W[j]? = some y) :
    after ops V (Proc.devRef .tc y) = v := by
  rw [after_at ops W h.writes h.nodup V j _ y hop hw, nullary_result]

theorem final_unary (h : SingleAssign ops W) (V : Valuation τ sig Val) (j : Nat) {x y : Ref sig .tc}
    {f : x.ty.Contents Val → y.ty.Contents Val} {hx hy}
    (hop : ops[j]? = some (unary x y f hx hy)) (hw : W[j]? = some y)
    (sx : after (ops.take j) V (Proc.devRef .tc x) = after ops V (Proc.devRef .tc x)) :
    after ops V (Proc.devRef .tc y) = f (after ops V (Proc.devRef .tc x)) := by
  rw [after_at ops W h.writes h.nodup V j _ y hop hw, unary_result, sx]

theorem final_binary (h : SingleAssign ops W) (V : Valuation τ sig Val) (j : Nat) {a b y : Ref sig .tc}
    {f : a.ty.Contents Val → b.ty.Contents Val → y.ty.Contents Val} {ha hb hy}
    (hop : ops[j]? = some (binary a b y f ha hb hy)) (hw : W[j]? = some y)
    (sa : after (ops.take j) V (Proc.devRef .tc a) = after ops V (Proc.devRef .tc a))
    (sb : after (ops.take j) V (Proc.devRef .tc b) = after ops V (Proc.devRef .tc b)) :
    after ops V (Proc.devRef .tc y) = f (after ops V (Proc.devRef .tc a)) (after ops V (Proc.devRef .tc b)) := by
  rw [after_at ops W h.writes h.nodup V j _ y hop hw, binary_result, sa, sb]

theorem final_ternary (h : SingleAssign ops W) (V : Valuation τ sig Val) (j : Nat) {c a b y : Ref sig .tc}
    {f : c.ty.Contents Val → a.ty.Contents Val → b.ty.Contents Val → y.ty.Contents Val} {hc ha hb hy}
    (hop : ops[j]? = some (ternary c a b y f hc ha hb hy)) (hw : W[j]? = some y)
    (sc : after (ops.take j) V (Proc.devRef .tc c) = after ops V (Proc.devRef .tc c))
    (sa : after (ops.take j) V (Proc.devRef .tc a) = after ops V (Proc.devRef .tc a))
    (sb : after (ops.take j) V (Proc.devRef .tc b) = after ops V (Proc.devRef .tc b)) :
    after ops V (Proc.devRef .tc y)
      = f (after ops V (Proc.devRef .tc c)) (after ops V (Proc.devRef .tc a)) (after ops V (Proc.devRef .tc b)) := by
  rw [after_at ops W h.writes h.nodup V j _ y hop hw, ternary_result, sc, sa, sb]

theorem final_reshape (h : SingleAssign ops W) (V : Valuation τ sig Val) (j : Nat) {x y : Ref sig .tc}
    {he : x.ty.elt = y.ty.elt} {hn : x.ty.shape.ShapeCasts y.ty.shape} {hx hy}
    (hop : ops[j]? = some (reshape x y he hn hx hy)) (hw : W[j]? = some y)
    (sx : after (ops.take j) V (Proc.devRef .tc x) = after ops V (Proc.devRef .tc x)) :
    after ops V (Proc.devRef .tc y) = fun i => he ▸ shapeCast y.ty.shape (after ops V (Proc.devRef .tc x)) hn i := by
  rw [after_at ops W h.writes h.nodup V j _ y hop hw, reshape_result, sx]

end Idealize.ShloMosaic.StableHlo
-- ==== Proof.RefOps.lean ====
/-
  The reference program's @main read as one straight line of host operations.

  @main is printed in three windows and calls three outlined functions (the rectifier three times, the two-pass
  variance once, which itself calls the scalar-predicate select). Unfolding the windows and the callees at their
  call sites — each callee's operations over that call's own record of buffers — gives one list `ops` of
  192 operations, and @main is `seq ops`. Every operation writes one buffer and no buffer is written twice:
  `written` lists the assigned references in order and `assign` states the single-assignment form, from which the
  final value of each variable is read by one small equation (the next module).
-/
import proofs.«116509_j71700184039973_1_alg».proof.Proof.Gen.ReferenceIdeal
import proofs.«116509_j71700184039973_1_alg».proof.Proof.LibSingleAssign
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call's callee operations inline at the call site over that call's record. -/
abbrev ops : List (HloOp τ sig (Elt F)) :=
  [
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x1002_S1002x256_S50000x256_1_0_0_1_n_n none l r) : (⟨S50000x1002, .f32⟩ : BufTy).Contents (Elt F) → (⟨S1002x256, .f32⟩ : BufTy).Contents (Elt F) → (⟨S50000x256, .f32⟩ : BufTy).Contents (Elt F)),
    StableHlo.binary main_v4 main_arg3 main_v5 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_cst (constant S_ .f32 0x3F800000#32),
    StableHlo.unary main_cst main_v6 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v7 (broadcastInDim S50000 ![] bcast_S_S50000 : (⟨S_, .f32⟩ : BufTy).Contents (Elt F) → (⟨S50000, .f32⟩ : BufTy).Contents (Elt F)),
    StableHlo.unary main_v3 main_v8 (broadcastInDim S800000x1 ![0] bcast_S800000_S800000x1_0 : (⟨S800000, .i32⟩ : BufTy).Contents (Elt F) → (⟨S800000x1, .i32⟩ : BufTy).Contents (Elt F)),
    StableHlo.ternary main_v7 main_v8 main_v6 main_v9 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v10 (broadcastInDim S50000 ![] bcast_S_S50000 : (⟨S_, .f32⟩ : BufTy).Contents (Elt F) → (⟨S50000, .f32⟩ : BufTy).Contents (Elt F)),
    StableHlo.binary main_v9 main_v10 main_v11 (addf : (⟨S50000, .f32⟩ : BufTy).Contents (Elt F) → (⟨S50000, .f32⟩ : BufTy).Contents (Elt F) → (⟨S50000, .f32⟩ : BufTy).Contents (Elt F)),
    StableHlo.unary main_v11 main_v12 (Host.rsqrt : (⟨S50000, .f32⟩ : BufTy).Contents (Elt F) → (⟨S50000, .f32⟩ : BufTy).Contents (Elt F)),
    StableHlo.nullary main_c (constantI S_ 32 0#32),
    StableHlo.unary main_c main_v13 (broadcastInDim S800000 ![] bcast_S_S800000 : (⟨S_, .i32⟩ : BufTy).Contents (Elt F) → (⟨S800000, .i32⟩ : BufTy).Contents (Elt F)),
    StableHlo.binary main_v1 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v15 (broadcastInDim S800000 ![] bcast_S_S800000 : (⟨S_, .i32⟩ : BufTy).Contents (Elt F) → (⟨S800000, .i32⟩ : BufTy).Contents (Elt F)),
    StableHlo.binary main_v1 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_v12 main_v18 main_v19 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_3 (constantI S_ 32 0#32),
    StableHlo.unary main_c_3 main_v20 (broadcastInDim S800000 ![] bcast_S_S800000 : (⟨S_, .i32⟩ : BufTy).Contents (Elt F) → (⟨S800000, .i32⟩ : BufTy).Contents (Elt F)),
    StableHlo.binary main_v3 main_v20 main_v21 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v22 (broadcastInDim S800000 ![] bcast_S_S800000 : (⟨S_, .i32⟩ : BufTy).Contents (Elt F) → (⟨S800000, .i32⟩ : BufTy).Contents (Elt F)),
    StableHlo.binary main_v3 main_v22 main_v23 (addi : (⟨S800000, .i32⟩ : BufTy).Contents (Elt F) → (⟨S800000, .i32⟩ : BufTy).Contents (Elt F) → (⟨S800000, .i32⟩ : BufTy).Contents (Elt F)),
    StableHlo.ternary main_v21 main_v23 main_v3 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v24 main_v25 (broadcastInDim S800000x1 ![0] bcast_S800000_S800000x1_0 : (⟨S800000, .i32⟩ : BufTy).Contents (Elt F) → (⟨S800000x1, .i32⟩ : BufTy).Contents (Elt F)),
    StableHlo.binary main_v12 main_v25 main_v26 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v19 main_v26 main_v27 (mulf : (⟨S800000, .f32⟩ : BufTy).Contents (Elt F) → (⟨S800000, .f32⟩ : BufTy).Contents (Elt F) → (⟨S800000, .f32⟩ : BufTy).Contents (Elt F)),
    StableHlo.unary main_v27 main_v28 (broadcastInDim S800000x1 ![0] bcast_S800000_S800000x1_0 : (⟨S800000, .f32⟩ : BufTy).Contents (Elt F) → (⟨S800000x1, .f32⟩ : BufTy).Contents (Elt F)),
    StableHlo.nullary main_c_5 (constantI S_ 32 0#32),
    StableHlo.unary main_c_5 main_v29 (broadcastInDim S800000 ![] bcast_S_S800000 : (⟨S_, .i32⟩ : BufTy).Contents (Elt F) → (⟨S800000, .i32⟩ : BufTy).Contents (Elt F)),
    StableHlo.binary main_v1 main_v29 main_v30 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v31 (broadcastInDim S800000 ![] bcast_S_S800000 : (⟨S_, .i32⟩ : BufTy).Contents (Elt F) → (⟨S800000, .i32⟩ : BufTy).Contents (Elt F)),
    StableHlo.binary main_v1 main_v31 main_v32 (addi : (⟨S800000, .i32⟩ : BufTy).Contents (Elt F) → (⟨S800000, .i32⟩ : BufTy).Contents (Elt F) → (⟨S800000, .i32⟩ : BufTy).Contents (Elt F)),
    StableHlo.ternary main_v30 main_v32 main_v1 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v33 main_v34 (broadcastInDim S800000x1 ![0] bcast_S800000_S800000x1_0 : (⟨S800000, .i32⟩ : BufTy).Contents (Elt F) → (⟨S800000x1, .i32⟩ : BufTy).Contents (Elt F)),
    StableHlo.binary main_v5 main_v34 main_v35 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v28 main_v36 (broadcastInDim S800000x256 ![0, 1] bcast_S800000x1_S800000x256_0_1 : (⟨S800000x1, .f32⟩ : BufTy).Contents (Elt F) → (⟨S800000x256, .f32⟩ : BufTy).Contents (Elt F)),
    StableHlo.binary main_v36 main_v35 main_v37 (mulf : (⟨S800000x256, .f32⟩ : BufTy).Contents (Elt F) → (⟨S800000x256, .f32⟩ : BufTy).Contents (Elt F) → (⟨S800000x256, .f32⟩ : BufTy).Contents (Elt F)),
    StableHlo.nullary main_cst_7 (constant S_ .f32 0x00000000#32),
    StableHlo.unary main_cst_7 main_v38 (broadcastInDim S50000x256 ![] bcast_S_S50000x256 : (⟨S_, .f32⟩ : BufTy).Contents (Elt F) → (⟨S50000x256, .f32⟩ : BufTy).Contents (Elt F)),
    StableHlo.unary main_v3 main_v39 (broadcastInDim S800000x1 ![0] bcast_S800000_S800000x1_0 : (⟨S800000, .i32⟩ : BufTy).Contents (Elt F) → (⟨S800000x1, .i32⟩ : BufTy).Contents (Elt F)),
    StableHlo.ternary main_v38 main_v39 main_v37 main_v40 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_8 (constant S_ .f32 0x3F800000#32),
    StableHlo.unary main_cst_8 main_v41 (broadcastInDim S50000 ![] bcast_S_S50000 : (⟨S_, .f32⟩ : BufTy).Contents (Elt F) → (⟨S50000, .f32⟩ : BufTy).Contents (Elt F)),
    StableHlo.binary main_v41 main_v11 main_v42 (Host.divf : (⟨S50000, .f32⟩ : BufTy).Contents (Elt F) → (⟨S50000, .f32⟩ : BufTy).Contents (Elt F) → (⟨S50000, .f32⟩ : BufTy).Contents (Elt F)),
    StableHlo.unary main_v42 main_v43 (broadcastInDim S50000x1 ![0] bcast_S50000_S50000x1_0 : (⟨S50000, .f32⟩ : BufTy).Contents (Elt F) → (⟨S50000x1, .f32⟩ : BufTy).Contents (Elt F)),
    StableHlo.unary main_v43 main_v44 (broadcastInDim S50000x256 ![0, 1] bcast_S50000x1_S50000x256_0_1 : (⟨S50000x1, .f32⟩ : BufTy).Contents (Elt F) → (⟨S50000x256, .f32⟩ : BufTy).Contents (Elt F)),
    StableHlo.binary main_v5 main_v44 main_v45 (mulf : (⟨S50000x256, .f32⟩ : BufTy).Contents (Elt F) → (⟨S50000x256, .f32⟩ : BufTy).Contents (Elt F) → (⟨S50000x256, .f32⟩ : BufTy).Contents (Elt F)),
    StableHlo.binary main_v40 main_v45 main_v46 (addf : (⟨S50000x256, .f32⟩ : BufTy).Contents (Elt F) → (⟨S50000x256, .f32⟩ : BufTy).Contents (Elt F) → (⟨S50000x256, .f32⟩ : BufTy).Contents (Elt F)),
    StableHlo.unary main_arg4 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S50000x256 ![0, 1] bcast_S1x256_S50000x256_0_1 : (⟨S1x256, .f32⟩ : BufTy).Contents (Elt F) → (⟨S50000x256, .f32⟩ : BufTy).Contents (Elt F)),
    StableHlo.binary main_v46 main_v48 main_v49 (addf : (⟨S50000x256, .f32⟩ : BufTy).Contents (Elt F) → (⟨S50000x256, .f32⟩ : BufTy).Contents (Elt F) → (⟨S50000x256, .f32⟩ : BufTy).Contents (Elt F)),
    StableHlo.TRef.nullary main_call0.cst (constant S_ .f32 0x00000000#32),
    StableHlo.TRef.unary main_call0.cst main_call0.v0 (broadcastInDim S50000x256 ![] bcast_S_S50000x256),
    StableHlo.TRef.binary (.of main_v49) main_call0.v0 main_call0.v1 maximumf,
    StableHlo.binary main_v50 main_arg5 main_v51 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_cst_9 (constant S_ .f32 0x3F800000#32),
    StableHlo.unary main_cst_9 main_v52 (broadcastInDim S800000 ![] bcast_S_S800000 : (⟨S_, .f32⟩ : BufTy).Contents (Elt F) → (⟨S800000, .f32⟩ : BufTy).Contents (Elt F)),
    StableHlo.nullary main_cst_10 (constant S_ .f32 0x00000000#32),
    StableHlo.unary main_cst_10 main_v53 (broadcastInDim S50000 ![] bcast_S_S50000 : (⟨S_, .f32⟩ : BufTy).Contents (Elt F) → (⟨S50000, .f32⟩ : BufTy).Contents (Elt F)),
    StableHlo.unary main_v3 main_v54 (broadcastInDim S800000x1 ![0] bcast_S800000_S800000x1_0 : (⟨S800000, .i32⟩ : BufTy).Contents (Elt F) → (⟨S800000x1, .i32⟩ : BufTy).Contents (Elt F)),
    StableHlo.ternary main_v53 main_v54 main_v52 main_v55 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_11 (constant S_ .f32 0x3F800000#32),
    StableHlo.unary main_cst_11 main_v56 (broadcastInDim S50000 ![] bcast_S_S50000 : (⟨S_, .f32⟩ : BufTy).Contents (Elt F) → (⟨S50000, .f32⟩ : BufTy).Contents (Elt F)),
    StableHlo.binary main_v55 main_v56 main_v57 (addf : (⟨S50000, .f32⟩ : BufTy).Contents (Elt F) → (⟨S50000, .f32⟩ : BufTy).Contents (Elt F) → (⟨S50000, .f32⟩ : BufTy).Contents (Elt F)),
    StableHlo.unary main_v57 main_v58 (Host.rsqrt : (⟨S50000, .f32⟩ : BufTy).Contents (Elt F) → (⟨S50000, .f32⟩ : BufTy).Contents (Elt F)),
    StableHlo.nullary main_c_12 (constantI S_ 32 0#32),
    StableHlo.unary main_c_12 main_v59 (broadcastInDim S800000 ![] bcast_S_S800000 : (⟨S_, .i32⟩ : BufTy).Contents (Elt F) → (⟨S800000, .i32⟩ : BufTy).Contents (Elt F)),
    StableHlo.binary main_v1 main_v59 main_v60 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v61 (broadcastInDim S800000 ![] bcast_S_S800000 : (⟨S_, .i32⟩ : BufTy).Contents (Elt F) → (⟨S800000, .i32⟩ : BufTy).Contents (Elt F)),
    StableHlo.binary main_v1 main_v61 main_v62 (addi : (⟨S800000, .i32⟩ : BufTy).Contents (Elt F) → (⟨S800000, .i32⟩ : BufTy).Contents (Elt F) → (⟨S800000, .i32⟩ : BufTy).Contents (Elt F)),
    StableHlo.ternary main_v60 main_v62 main_v1 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v63 main_v64 (broadcastInDim S800000x1 ![0] bcast_S800000_S800000x1_0 : (⟨S800000, .i32⟩ : BufTy).Contents (Elt F) → (⟨S800000x1, .i32⟩ : BufTy).Contents (Elt F)),
    StableHlo.binary main_v58 main_v64 main_v65 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_14 (constantI S_ 32 0#32),
    StableHlo.unary main_c_14 main_v66 (broadcastInDim S800000 ![] bcast_S_S800000 : (⟨S_, .i32⟩ : BufTy).Contents (Elt F) → (⟨S800000, .i32⟩ : BufTy).Contents (Elt F)),
    StableHlo.binary main_v3 main_v66 main_v67 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v68 (broadcastInDim S800000 ![] bcast_S_S800000 : (⟨S_, .i32⟩ : BufTy).Contents (Elt F) → (⟨S800000, .i32⟩ : BufTy).Contents (Elt F)),
    StableHlo.binary main_v3 main_v68 main_v69 (addi : (⟨S800000, .i32⟩ : BufTy).Contents (Elt F) → (⟨S800000, .i32⟩ : BufTy).Contents (Elt F) → (⟨S800000, .i32⟩ : BufTy).Contents (Elt F)),
    StableHlo.ternary main_v67 main_v69 main_v3 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v70 main_v71 (broadcastInDim S800000x1 ![0] bcast_S800000_S800000x1_0 : (⟨S800000, .i32⟩ : BufTy).Contents (Elt F) → (⟨S800000x1, .i32⟩ : BufTy).Contents (Elt F)),
    StableHlo.binary main_v58 main_v71 main_v72 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v65 main_v72 main_v73 (mulf : (⟨S800000, .f32⟩ : BufTy).Contents (Elt F) → (⟨S800000, .f32⟩ : BufTy).Contents (Elt F) → (⟨S800000, .f32⟩ : BufTy).Contents (Elt F)),
    StableHlo.unary main_v73 main_v74 (broadcastInDim S800000x1 ![0] bcast_S800000_S800000x1_0 : (⟨S800000, .f32⟩ : BufTy).Contents (Elt F) → (⟨S800000x1, .f32⟩ : BufTy).Contents (Elt F)),
    StableHlo.nullary main_c_16 (constantI S_ 32 0#32),
    StableHlo.unary main_c_16 main_v75 (broadcastInDim S800000 ![] bcast_S_S800000 : (⟨S_, .i32⟩ : BufTy).Contents (Elt F) → (⟨S800000, .i32⟩ : BufTy).Contents (Elt F)),
    StableHlo.binary main_v1 main_v75 main_v76 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v77 (broadcastInDim S800000 ![] bcast_S_S800000 : (⟨S_, .i32⟩ : BufTy).Contents (Elt F) → (⟨S800000, .i32⟩ : BufTy).Contents (Elt F)),
    StableHlo.binary main_v1 main_v77 main_v78 (addi : (⟨S800000, .i32⟩ : BufTy).Contents (Elt F) → (⟨S800000, .i32⟩ : BufTy).Contents (Elt F) → (⟨S800000, .i32⟩ : BufTy).Contents (Elt F)),
    StableHlo.ternary main_v76 main_v78 main_v1 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v79 main_v80 (broadcastInDim S800000x1 ![0] bcast_S800000_S800000x1_0 : (⟨S800000, .i32⟩ : BufTy).Contents (Elt F) → (⟨S800000x1, .i32⟩ : BufTy).Contents (Elt F)),
    StableHlo.binary main_v51 main_v80 main_v81 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_v74 main_v82 (broadcastInDim S800000x256 ![0, 1] bcast_S800000x1_S800000x256_0_1 : (⟨S800000x1, .f32⟩ : BufTy).Contents (Elt F) → (⟨S800000x256, .f32⟩ : BufTy).Contents (Elt F)),
    StableHlo.binary main_v82 main_v81 main_v83 (mulf : (⟨S800000x256, .f32⟩ : BufTy).Contents (Elt F) → (⟨S800000x256, .f32⟩ : BufTy).Contents (Elt F) → (⟨S800000x256, .f32⟩ : BufTy).Contents (Elt F)),
    StableHlo.nullary main_cst_18 (constant S_ .f32 0x00000000#32),
    StableHlo.unary main_cst_18 main_v84 (broadcastInDim S50000x256 ![] bcast_S_S50000x256 : (⟨S_, .f32⟩ : BufTy).Contents (Elt F) → (⟨S50000x256, .f32⟩ : BufTy).Contents (Elt F)),
    StableHlo.unary main_v3 main_v85 (broadcastInDim S800000x1 ![0] bcast_S800000_S800000x1_0 : (⟨S800000, .i32⟩ : BufTy).Contents (Elt F) → (⟨S800000x1, .i32⟩ : BufTy).Contents (Elt F)),
    StableHlo.ternary main_v84 main_v85 main_v83 main_v86 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_19 (constant S_ .f32 0x3F800000#32),
    StableHlo.unary main_cst_19 main_v87 (broadcastInDim S50000 ![] bcast_S_S50000 : (⟨S_, .f32⟩ : BufTy).Contents (Elt F) → (⟨S50000, .f32⟩ : BufTy).Contents (Elt F)),
    StableHlo.binary main_v87 main_v57 main_v88 (Host.divf : (⟨S50000, .f32⟩ : BufTy).Contents (Elt F) → (⟨S50000, .f32⟩ : BufTy).Contents (Elt F) → (⟨S50000, .f32⟩ : BufTy).Contents (Elt F)),
    StableHlo.unary main_v88 main_v89 (broadcastInDim S50000x1 ![0] bcast_S50000_S50000x1_0 : (⟨S50000, .f32⟩ : BufTy).Contents (Elt F) → (⟨S50000x1, .f32⟩ : BufTy).Contents (Elt F)),
    StableHlo.unary main_v89 main_v90 (broadcastInDim S50000x256 ![0, 1] bcast_S50000x1_S50000x256_0_1 : (⟨S50000x1, .f32⟩ : BufTy).Contents (Elt F) → (⟨S50000x256, .f32⟩ : BufTy).Contents (Elt F)),
    StableHlo.binary main_v51 main_v90 main_v91 (mulf : (⟨S50000x256, .f32⟩ : BufTy).Contents (Elt F) → (⟨S50000x256, .f32⟩ : BufTy).Contents (Elt F) → (⟨S50000x256, .f32⟩ : BufTy).Contents (Elt F)),
    StableHlo.binary main_v86 main_v91 main_v92 (addf : (⟨S50000x256, .f32⟩ : BufTy).Contents (Elt F) → (⟨S50000x256, .f32⟩ : BufTy).Contents (Elt F) → (⟨S50000x256, .f32⟩ : BufTy).Contents (Elt F)),
    StableHlo.unary main_arg6 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S50000x256 ![0, 1] bcast_S1x256_S50000x256_0_1 : (⟨S1x256, .f32⟩ : BufTy).Contents (Elt F) → (⟨S50000x256, .f32⟩ : BufTy).Contents (Elt F)),
    StableHlo.binary main_v92 main_v94 main_v95 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v95) main_call1.v0 main_call1.v1 maximumf,
    StableHlo.binary main_v96 main_arg7 main_v97 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v98 (broadcastInDim S1x256 ![1] bcast_S256_S1x256_1 : (⟨S256, .f32⟩ : BufTy).Contents (Elt F) → (⟨S1x256, .f32⟩ : BufTy).Contents (Elt F)),
    StableHlo.unary main_v98 main_v99 (broadcastInDim S50000x256 ![0, 1] bcast_S1x256_S50000x256_0_1 : (⟨S1x256, .f32⟩ : BufTy).Contents (Elt F) → (⟨S50000x256, .f32⟩ : BufTy).Contents (Elt F)),
    StableHlo.binary main_v97 main_v99 main_v100 (addf : (⟨S50000x256, .f32⟩ : BufTy).Contents (Elt F) → (⟨S50000x256, .f32⟩ : BufTy).Contents (Elt F) → (⟨S50000x256, .f32⟩ : BufTy).Contents (Elt F)),
    StableHlo.nullary main_cst_20 (constant S_ .f32 0x00000000#32),
    StableHlo.binary main_v100 main_cst_20 main_v101 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_21 (constant S_ .f32 0x47435000#32),
    StableHlo.unary main_cst_21 main_v102 (broadcastInDim S256 ![] bcast_S_S256 : (⟨S_, .f32⟩ : BufTy).Contents (Elt F) → (⟨S256, .f32⟩ : BufTy).Contents (Elt F)),
    StableHlo.binary main_v101 main_v102 main_v103 (Host.divf : (⟨S256, .f32⟩ : BufTy).Contents (Elt F) → (⟨S256, .f32⟩ : BufTy).Contents (Elt F) → (⟨S256, .f32⟩ : BufTy).Contents (Elt F)),
    StableHlo.nullary main_c_22 (constantI S_ 32 0#32),
    StableHlo.TRef.nullary main_call2.cst (constant S_ .f32 0x00000000#32),
    StableHlo.TRef.binary (.of main_v100) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v100) main_call2.v4 main_call2.v5 subf,
    StableHlo.TRef.binary main_call2.v5 main_call2.v5 main_call2.v6 mulf,
    StableHlo.TRef.unary (.of main_c_22) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v103 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S50000x256 ![0, 1] bcast_S1x256_S50000x256_0_1 : (⟨S1x256, .f32⟩ : BufTy).Contents (Elt F) → (⟨S50000x256, .f32⟩ : BufTy).Contents (Elt F)),
    StableHlo.binary main_v100 main_v106 main_v107 (subf : (⟨S50000x256, .f32⟩ : BufTy).Contents (Elt F) → (⟨S50000x256, .f32⟩ : BufTy).Contents (Elt F) → (⟨S50000x256, .f32⟩ : BufTy).Contents (Elt F)),
    StableHlo.nullary main_cst_23 (constant S_ .f32 0x3727C5AC#32),
    StableHlo.unary main_cst_23 main_v108 (broadcastInDim S256 ![] bcast_S_S256 : (⟨S_, .f32⟩ : BufTy).Contents (Elt F) → (⟨S256, .f32⟩ : BufTy).Contents (Elt F)),
    StableHlo.binary main_v104 main_v108 main_v109 (addf : (⟨S256, .f32⟩ : BufTy).Contents (Elt F) → (⟨S256, .f32⟩ : BufTy).Contents (Elt F) → (⟨S256, .f32⟩ : BufTy).Contents (Elt F)),
    StableHlo.unary main_v109 main_v110 (Host.rsqrt : (⟨S256, .f32⟩ : BufTy).Contents (Elt F) → (⟨S256, .f32⟩ : BufTy).Contents (Elt F)),
    StableHlo.unary main_v110 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S50000x256 ![0, 1] bcast_S1x256_S50000x256_0_1 : (⟨S1x256, .f32⟩ : BufTy).Contents (Elt F) → (⟨S50000x256, .f32⟩ : BufTy).Contents (Elt F)),
    StableHlo.binary main_v107 main_v112 main_v113 (mulf : (⟨S50000x256, .f32⟩ : BufTy).Contents (Elt F) → (⟨S50000x256, .f32⟩ : BufTy).Contents (Elt F) → (⟨S50000x256, .f32⟩ : BufTy).Contents (Elt F)),
    StableHlo.unary main_arg9 main_v114 (broadcastInDim S1x256 ![1] bcast_S256_S1x256_1 : (⟨S256, .f32⟩ : BufTy).Contents (Elt F) → (⟨S1x256, .f32⟩ : BufTy).Contents (Elt F)),
    StableHlo.unary main_v114 main_v115 (broadcastInDim S50000x256 ![0, 1] bcast_S1x256_S50000x256_0_1 : (⟨S1x256, .f32⟩ : BufTy).Contents (Elt F) → (⟨S50000x256, .f32⟩ : BufTy).Contents (Elt F)),
    StableHlo.binary main_v113 main_v115 main_v116 (mulf : (⟨S50000x256, .f32⟩ : BufTy).Contents (Elt F) → (⟨S50000x256, .f32⟩ : BufTy).Contents (Elt F) → (⟨S50000x256, .f32⟩ : BufTy).Contents (Elt F)),
    StableHlo.unary main_arg10 main_v117 (broadcastInDim S1x256 ![1] bcast_S256_S1x256_1 : (⟨S256, .f32⟩ : BufTy).Contents (Elt F) → (⟨S1x256, .f32⟩ : BufTy).Contents (Elt F)),
    StableHlo.unary main_v117 main_v118 (broadcastInDim S50000x256 ![0, 1] bcast_S1x256_S50000x256_0_1 : (⟨S1x256, .f32⟩ : BufTy).Contents (Elt F) → (⟨S50000x256, .f32⟩ : BufTy).Contents (Elt F)),
    StableHlo.binary main_v116 main_v118 main_v119 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v119) main_call3.v0 main_call3.v1 maximumf,
    StableHlo.binary main_v120 main_arg11 main_v121 ((fun l r => Host.dotGeneral dot_S50000x256_S256x20_S50000x20_1_0_0_1_n_n none l r) : (⟨S50000x256, .f32⟩ : BufTy).Contents (Elt F) → (⟨S256x20, .f32⟩ : BufTy).Contents (Elt F) → (⟨S50000x20, .f32⟩ : BufTy).Contents (Elt F)),
    StableHlo.unary main_arg12 main_v122 (broadcastInDim S1x20 ![1] bcast_S20_S1x20_1 : (⟨S20, .f32⟩ : BufTy).Contents (Elt F) → (⟨S1x20, .f32⟩ : BufTy).Contents (Elt F)),
    StableHlo.unary main_v122 main_v123 (broadcastInDim S50000x20 ![0, 1] bcast_S1x20_S50000x20_0_1 : (⟨S1x20, .f32⟩ : BufTy).Contents (Elt F) → (⟨S50000x20, .f32⟩ : BufTy).Contents (Elt F)),
    StableHlo.binary main_v121 main_v123 main_v124 (addf : (⟨S50000x20, .f32⟩ : BufTy).Contents (Elt F) → (⟨S50000x20, .f32⟩ : BufTy).Contents (Elt F) → (⟨S50000x20, .f32⟩ : BufTy).Contents (Elt F)),
    StableHlo.nullary main_cst_24 (constant S_ .f32 0xFF800000#32),
    StableHlo.binary main_v124 main_cst_24 main_v125 ((fun x v => Host.reduce FloatOps.maximumf x v reducesTo_S50000x20_S50000_d1 h_S_) : (⟨S50000x20, .f32⟩ : BufTy).Contents (Elt F) → (⟨S_, .f32⟩ : BufTy).Contents (Elt F) → (⟨S50000, .f32⟩ : BufTy).Contents (Elt F)),
    StableHlo.nullary main_cst_25 (constant S_ .f32 0xFF800000#32),
    StableHlo.unary main_cst_25 main_v126 (broadcastInDim S50000 ![] bcast_S_S50000 : (⟨S_, .f32⟩ : BufTy).Contents (Elt F) → (⟨S50000, .f32⟩ : BufTy).Contents (Elt F)),
    StableHlo.binary main_v126 main_v125 main_v127 (maximumf : (⟨S50000, .f32⟩ : BufTy).Contents (Elt F) → (⟨S50000, .f32⟩ : BufTy).Contents (Elt F) → (⟨S50000, .f32⟩ : BufTy).Contents (Elt F)),
    StableHlo.unary main_v127 main_v128 (broadcastInDim S50000x1 ![0] bcast_S50000_S50000x1_0 : (⟨S50000, .f32⟩ : BufTy).Contents (Elt F) → (⟨S50000x1, .f32⟩ : BufTy).Contents (Elt F)),
    StableHlo.unary main_v128 main_v129 (broadcastInDim S50000x20 ![0, 1] bcast_S50000x1_S50000x20_0_1 : (⟨S50000x1, .f32⟩ : BufTy).Contents (Elt F) → (⟨S50000x20, .f32⟩ : BufTy).Contents (Elt F)),
    StableHlo.binary main_v124 main_v129 main_v130 (subf : (⟨S50000x20, .f32⟩ : BufTy).Contents (Elt F) → (⟨S50000x20, .f32⟩ : BufTy).Contents (Elt F) → (⟨S50000x20, .f32⟩ : BufTy).Contents (Elt F)),
    StableHlo.unary main_v130 main_v131 (Host.exp : (⟨S50000x20, .f32⟩ : BufTy).Contents (Elt F) → (⟨S50000x20, .f32⟩ : BufTy).Contents (Elt F)),
    StableHlo.nullary main_cst_26 (constant S_ .f32 0x00000000#32),
    StableHlo.binary main_v131 main_cst_26 main_v132 ((fun x v => Host.reduceAdd x v reducesTo_S50000x20_S50000_d1 h_S_) : (⟨S50000x20, .f32⟩ : BufTy).Contents (Elt F) → (⟨S_, .f32⟩ : BufTy).Contents (Elt F) → (⟨S50000, .f32⟩ : BufTy).Contents (Elt F)),
    StableHlo.unary main_v132 main_v133 (broadcastInDim S50000x1 ![0] bcast_S50000_S50000x1_0 : (⟨S50000, .f32⟩ : BufTy).Contents (Elt F) → (⟨S50000x1, .f32⟩ : BufTy).Contents (Elt F)),
    StableHlo.unary main_v133 main_v134 (broadcastInDim S50000x20 ![0, 1] bcast_S50000x1_S50000x20_0_1 : (⟨S50000x1, .f32⟩ : BufTy).Contents (Elt F) → (⟨S50000x20, .f32⟩ : BufTy).Contents (Elt F)),
    StableHlo.binary main_v131 main_v134 main_v135 (Host.divf : (⟨S50000x20, .f32⟩ : BufTy).Contents (Elt F) → (⟨S50000x20, .f32⟩ : BufTy).Contents (Elt F) → (⟨S50000x20, .f32⟩ : BufTy).Contents (Elt F)) ]

/-- The references the line assigns, one per operation, in order. -/
abbrev written : List (Ref sig .tc) :=
  [ main_v0, main_v1, main_v2, main_v3, main_v4, main_v5, main_cst, main_v6,
    main_cst_0, main_v7, main_v8, main_v9, main_cst_1, main_v10, main_v11, main_v12,
    main_c, main_v13, main_v14, main_c_2, main_v15, main_v16, main_v17, main_v18,
    main_v19, main_c_3, main_v20, main_v21, main_c_4, main_v22, main_v23, main_v24,
    main_v25, main_v26, main_v27, main_v28, main_c_5, main_v29, main_v30, main_c_6,
    main_v31, main_v32, main_v33, main_v34, main_v35, main_v36, main_v37, main_cst_7,
    main_v38, main_v39, main_v40, main_cst_8, main_v41, main_v42, main_v43, main_v44,
    main_v45, main_v46, main_v47, main_v48, main_v49, main_call0_cst, main_call0_v0, main_v50,
    main_v51, main_cst_9, main_v52, main_cst_10, main_v53, main_v54, main_v55, main_cst_11,
    main_v56, main_v57, main_v58, main_c_12, main_v59, main_v60, main_c_13, main_v61,
    main_v62, main_v63, main_v64, main_v65, main_c_14, main_v66, main_v67, main_c_15,
    main_v68, main_v69, main_v70, main_v71, main_v72, main_v73, main_v74, main_c_16,
    main_v75, main_v76, main_c_17, main_v77, main_v78, main_v79, main_v80, main_v81,
    main_v82, main_v83, main_cst_18, main_v84, main_v85, main_v86, main_cst_19, main_v87,
    main_v88, main_v89, main_v90, main_v91, main_v92, main_v93, main_v94, main_v95,
    main_call1_cst, main_call1_v0, main_v96, main_v97, main_v98, main_v99, main_v100, main_cst_20,
    main_v101, main_cst_21, main_v102, main_v103, main_c_22, main_call2_cst, main_call2_v0, main_call2_v1,
    main_call2_cst_0, main_call2_v2, main_call2_v3, main_call2_v4, main_call2_v5, main_call2_v6, main_call2_v7, main_call2_cst_1,
    main_call2_v8, main_call2_cst_2, main_call2_v9, main_call2_v10, main_call2_v11, main_call2_cst_3, main_call2_v12, main_call2_cst_4,
    main_call2_call0_v0, main_call2_call0_v1, main_v104, main_v105, main_v106, main_v107, main_cst_23, main_v108,
    main_v109, main_v110, main_v111, main_v112, main_v113, main_v114, main_v115, main_v116,
    main_v117, main_v118, main_v119, main_call3_cst, main_call3_v0, main_v120, main_v121, main_v122,
    main_v123, main_v124, main_cst_24, main_v125, main_cst_25, main_v126, main_v127, main_v128,
    main_v129, main_v130, main_v131, main_cst_26, main_v132, main_v133, main_v134, main_v135 ]

set_option maxRecDepth 8192 in
set_option maxHeartbeats 4000000 in
/-- @main is that straight line: the windows and the callees unfolded, sequencing reassociated. -/
theorem main_eq (c : Dev nD) : main (F := F) c = seq ops := by
  simp only [main, main_part0, main_part1, main_part2, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., binary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., binary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..⟩

/-- Every operation of the line writes exactly the one reference `written` lists for it, and no reference is listed
    twice: the references are told apart by their index in the buffer table. -/
theorem assign : StableHlo.SingleAssign (ops (F := F)) written where
  writes := rfl
  nodup := List.Nodup.of_map (fun r : Ref sig .tc => (r.idx : Nat)) (by decide)

theorem arg0_not_written : main_arg0 ∉ written := by decide
theorem arg1_not_written : main_arg1 ∉ written := by decide
theorem arg2_not_written : main_arg2 ∉ written := by decide
theorem arg3_not_written : main_arg3 ∉ written := by decide
theorem arg4_not_written : main_arg4 ∉ written := by decide
theorem arg5_not_written : main_arg5 ∉ written := by decide
theorem arg6_not_written : main_arg6 ∉ written := by decide
theorem arg7_not_written : main_arg7 ∉ written := by decide
theorem arg8_not_written : main_arg8 ∉ written := by decide
theorem arg9_not_written : main_arg9 ∉ written := by decide
theorem arg10_not_written : main_arg10 ∉ written := by decide
theorem arg11_not_written : main_arg11 ∉ written := by decide
theorem arg12_not_written : main_arg12 ∉ written := by decide

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The final contents of a TensorCore reference after the whole line, from the valuation `V` before it. -/
abbrev R (V : Valuation τ sig (Elt F)) (b : Ref sig .tc) := after (ops (F := F)) V (Proc.devRef .tc b)

end Cert.ReferenceIdeal.Hand

end
-- ==== Proof.RefVals0.lean ====
/-
  The reference's run read one variable at a time (operations 0 … 63 of the line `ops`).

  The line is in single-assignment form, so the final contents `R V y` of the variable an operation assigns is that
  operation's function of the FINAL contents of its operands: each operand is assigned earlier in the line, or never
  (an argument of @main), and is not touched afterwards. One equation per variable, spelt with the operation the
  program prints; no composed term is written.
  Also: @main's thirteen arguments are assigned by no operation and keep their contents.
-/
import proofs.«116509_j71700184039973_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem val_v0 (V : Valuation τ sig (Elt F)) :
    R V main_v0 = extractStridedSlice S1x800000 ![0, 0] (R V main_arg1 : (⟨S2x800000, .i32⟩ : BufTy).Contents (Elt F)) slices_S2x800000_S1x800000_0_0 :=
  final_unary (x := main_arg1) (y := main_v0) (f := ((extractStridedSlice S1x800000 ![0, 0] · slices_S2x800000_S1x800000_0_0) : (⟨S2x800000, .i32⟩ : BufTy).Contents (Elt F) → (⟨S1x800000, .i32⟩ : BufTy).Contents (Elt F))) assign V 0 rfl rfl
    (after_take_of_not_assigned assign V 0 arg1_not_written)

theorem val_v1 (V : Valuation τ sig (Elt F)) :
    R V main_v1 = shapeCast S800000 (R V main_v0 : (⟨S1x800000, .i32⟩ : BufTy).Contents (Elt F)) shapeCasts_S1x800000_S800000 :=
  final_reshape (x := main_v0) (y := main_v1) assign V 1 rfl rfl (after_take_of_lt assign V (i := 0) (j := 1) (x := main_v0) rfl (by decide))

theorem val_v2 (V : Valuation τ sig (Elt F)) :
    R V main_v2 = extractStridedSlice S1x800000 ![1, 0] (R V main_arg1 : (⟨S2x800000, .i32⟩ : BufTy).Contents (Elt F)) slices_S2x800000_S1x800000_1_0 :=
  final_unary (x := main_arg1) (y := main_v2) (f := ((extractStridedSlice S1x800000 ![1, 0] · slices_S2x800000_S1x800000_1_0) : (⟨S2x800000, .i32⟩ : BufTy).Contents (Elt F) → (⟨S1x800000, .i32⟩ : BufTy).Contents (Elt F))) assign V 2 rfl rfl
    (after_take_of_not_assigned assign V 2 arg1_not_written)

theorem val_v3 (V : Valuation τ sig (Elt F)) :
    R V main_v3 = shapeCast S800000 (R V main_v2 : (⟨S1x800000, .i32⟩ : BufTy).Contents (Elt F)) shapeCasts_S1x800000_S800000 :=
  final_reshape (x := main_v2) (y := main_v3) assign V 3 rfl rfl (after_take_of_lt assign V (i := 2) (j := 3) (x := main_v2) rfl (by decide))

theorem val_v4 (V : Valuation τ sig (Elt F)) :
    R V main_v4 = Host.dotGeneral dot_S50000x1002_S1002x256_S50000x256_1_0_0_1_n_n none (R V main_arg0 : (⟨S50000x1002, .f32⟩ : BufTy).Contents (Elt F)) (R V main_arg2 : (⟨S1002x256, .f32⟩ : BufTy).Contents (Elt F)) :=
  final_binary (a := main_arg0) (b := main_arg2) (y := main_v4) (f := ((fun l r => Host.dotGeneral dot_S50000x1002_S1002x256_S50000x256_1_0_0_1_n_n none l r) : (⟨S50000x1002, .f32⟩ : BufTy).Contents (Elt F) → (⟨S1002x256, .f32⟩ : BufTy).Contents (Elt F) → (⟨S50000x256, .f32⟩ : BufTy).Contents (Elt F))) assign V 4 rfl rfl
    (after_take_of_not_assigned assign V 4 arg0_not_written)
    (after_take_of_not_assigned assign V 4 arg2_not_written)

theorem val_v5 (V : Valuation τ sig (Elt F)) :
    R V main_v5 = Host.dotGeneral dot_S50000x256_S256x256_S50000x256_1_0_0_1_n_n none (R V main_v4 : (⟨S50000x256, .f32⟩ : BufTy).Contents (Elt F)) (R V main_arg3 : (⟨S256x256, .f32⟩ : BufTy).Contents (Elt F)) :=
  final_binary (a := main_v4) (b := main_arg3) (y := main_v5) (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) assign V 5 rfl rfl
    (after_take_of_lt assign V (i := 4) (j := 5) (x := main_v4) rfl (by decide))
    (after_take_of_not_assigned assign V 5 arg3_not_written)

theorem val_cst (V : Valuation τ sig (Elt F)) :
    R V main_cst = (constant S_ .f32 0x3F800000#32 : (⟨S_, .f32⟩ : BufTy).Contents (Elt F)) :=
  final_nullary (y := main_cst) assign V 6 rfl rfl

theorem val_v6 (V : Valuation τ sig (Elt F)) :
    R V main_v6 = broadcastInDim S800000 ![] bcast_S_S800000 (R V main_cst : (⟨S_, .f32⟩ : BufTy).Contents (Elt F)) :=
  final_unary (x := main_cst) (y := main_v6) (f := (broadcastInDim S800000 ![] bcast_S_S800000 : (⟨S_, .f32⟩ : BufTy).Contents (Elt F) → (⟨S800000, .f32⟩ : BufTy).Contents (Elt F))) assign V 7 rfl rfl
    (after_take_of_lt assign V (i := 6) (j := 7) (x := main_cst) rfl (by decide))

theorem val_cst_0 (V : Valuation τ sig (Elt F)) :
    R V main_cst_0 = (constant S_ .f32 0x00000000#32 : (⟨S_, .f32⟩ : BufTy).Contents (Elt F)) :=
  final_nullary (y := main_cst_0) assign V 8 rfl rfl

theorem val_v7 (V : Valuation τ sig (Elt F)) :
    R V main_v7 = broadcastInDim S50000 ![] bcast_S_S50000 (R V main_cst_0 : (⟨S_, .f32⟩ : BufTy).Contents (Elt F)) :=
  final_unary (x := main_cst_0) (y := main_v7) (f := (broadcastInDim S50000 ![] bcast_S_S50000 : (⟨S_, .f32⟩ : BufTy).Contents (Elt F) → (⟨S50000, .f32⟩ : BufTy).Contents (Elt F))) assign V 9 rfl rfl
    (after_take_of_lt assign V (i := 8) (j := 9) (x := main_cst_0) rfl (by decide))

theorem val_v8 (V : Valuation τ sig (Elt F)) :
    R V main_v8 = broadcastInDim S800000x1 ![0] bcast_S800000_S800000x1_0 (R V main_v3 : (⟨S800000, .i32⟩ : BufTy).Contents (Elt F)) :=
  final_unary (x := main_v3) (y := main_v8) (f := (broadcastInDim S800000x1 ![0] bcast_S800000_S800000x1_0 : (⟨S800000, .i32⟩ : BufTy).Contents (Elt F) → (⟨S800000x1, .i32⟩ : BufTy).Contents (Elt F))) assign V 10 rfl rfl
    (after_take_of_lt assign V (i := 3) (j := 10) (x := main_v3) rfl (by decide))

theorem val_v9 (V : Valuation τ sig (Elt F)) :
    R V main_v9 = Host.scatterAdd scatter_S50000_S800000x1_S800000_n_0_0_1 (R V main_v7 : (⟨S50000, .f32⟩ : BufTy).Contents (Elt F)) (R V main_v8 : (⟨S800000x1, .i32⟩ : BufTy).Contents (Elt F)) (R V main_v6 : (⟨S800000, .f32⟩ : BufTy).Contents (Elt F)) :=
  final_ternary (c := main_v7) (a := main_v8) (b := main_v6) (y := main_v9) (f := ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F))) assign V 11 rfl rfl
    (after_take_of_lt assign V (i := 9) (j := 11) (x := main_v7) rfl (by decide))
    (after_take_of_lt assign V (i := 10) (j := 11) (x := main_v8) rfl (by decide))
    (after_take_of_lt assign V (i := 7) (j := 11) (x := main_v6) rfl (by decide))

theorem val_cst_1 (V : Valuation τ sig (Elt F)) :
    R V main_cst_1 = (constant S_ .f32 0x3F800000#32 : (⟨S_, .f32⟩ : BufTy).Contents (Elt F)) :=
  final_nullary (y := main_cst_1) assign V 12 rfl rfl

theorem val_v10 (V : Valuation τ sig (Elt F)) :
    R V main_v10 = broadcastInDim S50000 ![] bcast_S_S50000 (R V main_cst_1 : (⟨S_, .f32⟩ : BufTy).Contents (Elt F)) :=
  final_unary (x := main_cst_1) (y := main_v10) (f := (broadcastInDim S50000 ![] bcast_S_S50000 : (⟨S_, .f32⟩ : BufTy).Contents (Elt F) → (⟨S50000, .f32⟩ : BufTy).Contents (Elt F))) assign V 13 rfl rfl
    (after_take_of_lt assign V (i := 12) (j := 13) (x := main_cst_1) rfl (by decide))

theorem val_v11 (V : Valuation τ sig (Elt F)) :
    R V main_v11 = addf (R V main_v9 : (⟨S50000, .f32⟩ : BufTy).Contents (Elt F)) (R V main_v10 : (⟨S50000, .f32⟩ : BufTy).Contents (Elt F)) :=
  final_binary (a := main_v9) (b := main_v10) (y := main_v11) (f := (addf : (⟨S50000, .f32⟩ : BufTy).Contents (Elt F) → (⟨S50000, .f32⟩ : BufTy).Contents (Elt F) → (⟨S50000, .f32⟩ : BufTy).Contents (Elt F))) assign V 14 rfl rfl
    (after_take_of_lt assign V (i := 11) (j := 14) (x := main_v9) rfl (by decide))
    (after_take_of_lt assign V (i := 13) (j := 14) (x := main_v10) rfl (by decide))

theorem val_v12 (V : Valuation τ sig (Elt F)) :
    R V main_v12 = Host.rsqrt (R V main_v11 : (⟨S50000, .f32⟩ : BufTy).Contents (Elt F)) :=
  final_unary (x := main_v11) (y := main_v12) (f := (Host.rsqrt : (⟨S50000, .f32⟩ : BufTy).Contents (Elt F) → (⟨S50000, .f32⟩ : BufTy).Contents (Elt F))) assign V 15 rfl rfl
    (after_take_of_lt assign V (i := 14) (j := 15) (x := main_v11) rfl (by decide))

theorem val_c (V : Valuation τ sig (Elt F)) :
    R V main_c = (constantI S_ 32 0#32 : (⟨S_, .i32⟩ : BufTy).Contents (Elt F)) :=
  final_nullary (y := main_c) assign V 16 rfl rfl

theorem val_v13 (V : Valuation τ sig (Elt F)) :
    R V main_v13 = broadcastInDim S800000 ![] bcast_S_S800000 (R V main_c : (⟨S_, .i32⟩ : BufTy).Contents (Elt F)) :=
  final_unary (x := main_c) (y := main_v13) (f := (broadcastInDim S800000 ![] bcast_S_S800000 : (⟨S_, .i32⟩ : BufTy).Contents (Elt F) → (⟨S800000, .i32⟩ : BufTy).Contents (Elt F))) assign V 17 rfl rfl
    (after_take_of_lt assign V (i := 16) (j := 17) (x := main_c) rfl (by decide))

theorem val_v14 (V : Valuation τ sig (Elt F)) :
    R V main_v14 = cmpi .slt (R V main_v1 : (⟨S800000, .i32⟩ : BufTy).Contents (Elt F)) (R V main_v13 : (⟨S800000, .i32⟩ : BufTy).Contents (Elt F)) :=
  final_binary (a := main_v1) (b := main_v13) (y := main_v14) (f := (cmpi .slt : (⟨S800000, .i32⟩ : BufTy).Contents (Elt F) → (⟨S800000, .i32⟩ : BufTy).Contents (Elt F) → (⟨S800000, .i1⟩ : BufTy).Contents (Elt F))) assign V 18 rfl rfl
    (after_take_of_lt assign V (i := 1) (j := 18) (x := main_v1) rfl (by decide))
    (after_take_of_lt assign V (i := 17) (j := 18) (x := main_v13) rfl (by decide))

theorem val_c_2 (V : Valuation τ sig (Elt F)) :
    R V main_c_2 = (constantI S_ 32 50000#32 : (⟨S_, .i32⟩ : BufTy).Contents (Elt F)) :=
  final_nullary (y := main_c_2) assign V 19 rfl rfl

theorem val_v15 (V : Valuation τ sig (Elt F)) :
    R V main_v15 = broadcastInDim S800000 ![] bcast_S_S800000 (R V main_c_2 : (⟨S_, .i32⟩ : BufTy).Contents (Elt F)) :=
  final_unary (x := main_c_2) (y := main_v15) (f := (broadcastInDim S800000 ![] bcast_S_S800000 : (⟨S_, .i32⟩ : BufTy).Contents (Elt F) → (⟨S800000, .i32⟩ : BufTy).Contents (Elt F))) assign V 20 rfl rfl
    (after_take_of_lt assign V (i := 19) (j := 20) (x := main_c_2) rfl (by decide))

theorem val_v16 (V : Valuation τ sig (Elt F)) :
    R V main_v16 = addi (R V main_v1 : (⟨S800000, .i32⟩ : BufTy).Contents (Elt F)) (R V main_v15 : (⟨S800000, .i32⟩ : BufTy).Contents (Elt F)) :=
  final_binary (a := main_v1) (b := main_v15) (y := main_v16) (f := (addi : (⟨S800000, .i32⟩ : BufTy).Contents (Elt F) → (⟨S800000, .i32⟩ : BufTy).Contents (Elt F) → (⟨S800000, .i32⟩ : BufTy).Contents (Elt F))) assign V 21 rfl rfl
    (after_take_of_lt assign V (i := 1) (j := 21) (x := main_v1) rfl (by decide))
    (after_take_of_lt assign V (i := 20) (j := 21) (x := main_v15) rfl (by decide))

theorem val_v17 (V : Valuation τ sig (Elt F)) :
    R V main_v17 = select (R V main_v14 : (⟨S800000, .i1⟩ : BufTy).Contents (Elt F)) (R V main_v16 : (⟨S800000, .i32⟩ : BufTy).Contents (Elt F)) (R V main_v1 : (⟨S800000, .i32⟩ : BufTy).Contents (Elt F)) :=
  final_ternary (c := main_v14) (a := main_v16) (b := main_v1) (y := main_v17) (f := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) assign V 22 rfl rfl
    (after_take_of_lt assign V (i := 18) (j := 22) (x := main_v14) rfl (by decide))
    (after_take_of_lt assign V (i := 21) (j := 22) (x := main_v16) rfl (by decide))
    (after_take_of_lt assign V (i := 1) (j := 22) (x := main_v1) rfl (by decide))

theorem val_v18 (V : Valuation τ sig (Elt F)) :
    R V main_v18 = broadcastInDim S800000x1 ![0] bcast_S800000_S800000x1_0 (R V main_v17 : (⟨S800000, .i32⟩ : BufTy).Contents (Elt F)) :=
  final_unary (x := main_v17) (y := main_v18) (f := (broadcastInDim S800000x1 ![0] bcast_S800000_S800000x1_0 : (⟨S800000, .i32⟩ : BufTy).Contents (Elt F) → (⟨S800000x1, .i32⟩ : BufTy).Contents (Elt F))) assign V 23 rfl rfl
    (after_take_of_lt assign V (i := 22) (j := 23) (x := main_v17) rfl (by decide))

theorem val_v19 (V : Valuation τ sig (Elt F)) :
    R V main_v19 = Host.gather gather_S50000_S800000x1_S800000_n_0_n_n_0_1_1 (R V main_v12 : (⟨S50000, .f32⟩ : BufTy).Contents (Elt F)) (R V main_v18 : (⟨S800000x1, .i32⟩ : BufTy).Contents (Elt F)) :=
  final_binary (a := main_v12) (b := main_v18) (y := main_v19) (f := ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F))) assign V 24 rfl rfl
    (after_take_of_lt assign V (i := 15) (j := 24) (x := main_v12) rfl (by decide))
    (after_take_of_lt assign V (i := 23) (j := 24) (x := main_v18) rfl (by decide))

theorem val_c_3 (V : Valuation τ sig (Elt F)) :
    R V main_c_3 = (constantI S_ 32 0#32 : (⟨S_, .i32⟩ : BufTy).Contents (Elt F)) :=
  final_nullary (y := main_c_3) assign V 25 rfl rfl

theorem val_v20 (V : Valuation τ sig (Elt F)) :
    R V main_v20 = broadcastInDim S800000 ![] bcast_S_S800000 (R V main_c_3 : (⟨S_, .i32⟩ : BufTy).Contents (Elt F)) :=
  final_unary (x := main_c_3) (y := main_v20) (f := (broadcastInDim S800000 ![] bcast_S_S800000 : (⟨S_, .i32⟩ : BufTy).Contents (Elt F) → (⟨S800000, .i32⟩ : BufTy).Contents (Elt F))) assign V 26 rfl rfl
    (after_take_of_lt assign V (i := 25) (j := 26) (x := main_c_3) rfl (by decide))

theorem val_v21 (V : Valuation τ sig (Elt F)) :
    R V main_v21 = cmpi .slt (R V main_v3 : (⟨S800000, .i32⟩ : BufTy).Contents (Elt F)) (R V main_v20 : (⟨S800000, .i32⟩ : BufTy).Contents (Elt F)) :=
  final_binary (a := main_v3) (b := main_v20) (y := main_v21) (f := (cmpi .slt : (⟨S800000, .i32⟩ : BufTy).Contents (Elt F) → (⟨S800000, .i32⟩ : BufTy).Contents (Elt F) → (⟨S800000, .i1⟩ : BufTy).Contents (Elt F))) assign V 27 rfl rfl
    (after_take_of_lt assign V (i := 3) (j := 27) (x := main_v3) rfl (by decide))
    (after_take_of_lt assign V (i := 26) (j := 27) (x := main_v20) rfl (by decide))

theorem val_c_4 (V : Valuation τ sig (Elt F)) :
    R V main_c_4 = (constantI S_ 32 50000#32 : (⟨S_, .i32⟩ : BufTy).Contents (Elt F)) :=
  final_nullary (y := main_c_4) assign V 28 rfl rfl

theorem val_v22 (V : Valuation τ sig (Elt F)) :
    R V main_v22 = broadcastInDim S800000 ![] bcast_S_S800000 (R V main_c_4 : (⟨S_, .i32⟩ : BufTy).Contents (Elt F)) :=
  final_unary (x := main_c_4) (y := main_v22) (f := (broadcastInDim S800000 ![] bcast_S_S800000 : (⟨S_, .i32⟩ : BufTy).Contents (Elt F) → (⟨S800000, .i32⟩ : BufTy).Contents (Elt F))) assign V 29 rfl rfl
    (after_take_of_lt assign V (i := 28) (j := 29) (x := main_c_4) rfl (by decide))

theorem val_v23 (V : Valuation τ sig (Elt F)) :
    R V main_v23 = addi (R V main_v3 : (⟨S800000, .i32⟩ : BufTy).Contents (Elt F)) (R V main_v22 : (⟨S800000, .i32⟩ : BufTy).Contents (Elt F)) :=
  final_binary (a := main_v3) (b := main_v22) (y := main_v23) (f := (addi : (⟨S800000, .i32⟩ : BufTy).Contents (Elt F) → (⟨S800000, .i32⟩ : BufTy).Contents (Elt F) → (⟨S800000, .i32⟩ : BufTy).Contents (Elt F))) assign V 30 rfl rfl
    (after_take_of_lt assign V (i := 3) (j := 30) (x := main_v3) rfl (by decide))
    (after_take_of_lt assign V (i := 29) (j := 30) (x := main_v22) rfl (by decide))

theorem val_v24 (V : Valuation τ sig (Elt F)) :
    R V main_v24 = select (R V main_v21 : (⟨S800000, .i1⟩ : BufTy).Contents (Elt F)) (R V main_v23 : (⟨S800000, .i32⟩ : BufTy).Contents (Elt F)) (R V main_v3 : (⟨S800000, .i32⟩ : BufTy).Contents (Elt F)) :=
  final_ternary (c := main_v21) (a := main_v23) (b := main_v3) (y := main_v24) (f := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) assign V 31 rfl rfl
    (after_take_of_lt assign V (i := 27) (j := 31) (x := main_v21) rfl (by decide))
    (after_take_of_lt assign V (i := 30) (j := 31) (x := main_v23) rfl (by decide))
    (after_take_of_lt assign V (i := 3) (j := 31) (x := main_v3) rfl (by decide))

theorem val_v25 (V : Valuation τ sig (Elt F)) :
    R V main_v25 = broadcastInDim S800000x1 ![0] bcast_S800000_S800000x1_0 (R V main_v24 : (⟨S800000, .i32⟩ : BufTy).Contents (Elt F)) :=
  final_unary (x := main_v24) (y := main_v25) (f := (broadcastInDim S800000x1 ![0] bcast_S800000_S800000x1_0 : (⟨S800000, .i32⟩ : BufTy).Contents (Elt F) → (⟨S800000x1, .i32⟩ : BufTy).Contents (Elt F))) assign V 32 rfl rfl
    (after_take_of_lt assign V (i := 31) (j := 32) (x := main_v24) rfl (by decide))

theorem val_v26 (V : Valuation τ sig (Elt F)) :
    R V main_v26 = Host.gather gather_S50000_S800000x1_S800000_n_0_n_n_0_1_1 (R V main_v12 : (⟨S50000, .f32⟩ : BufTy).Contents (Elt F)) (R V main_v25 : (⟨S800000x1, .i32⟩ : BufTy).Contents (Elt F)) :=
  final_binary (a := main_v12) (b := main_v25) (y := main_v26) (f := ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F))) assign V 33 rfl rfl
    (after_take_of_lt assign V (i := 15) (j := 33) (x := main_v12) rfl (by decide))
    (after_take_of_lt assign V (i := 32) (j := 33) (x := main_v25) rfl (by decide))

theorem val_v27 (V : Valuation τ sig (Elt F)) :
    R V main_v27 = mulf (R V main_v19 : (⟨S800000, .f32⟩ : BufTy).Contents (Elt F)) (R V main_v26 : (⟨S800000, .f32⟩ : BufTy).Contents (Elt F)) :=
  final_binary (a := main_v19) (b := main_v26) (y := main_v27) (f := (mulf : (⟨S800000, .f32⟩ : BufTy).Contents (Elt F) → (⟨S800000, .f32⟩ : BufTy).Contents (Elt F) → (⟨S800000, .f32⟩ : BufTy).Contents (Elt F))) assign V 34 rfl rfl
    (after_take_of_lt assign V (i := 24) (j := 34) (x := main_v19) rfl (by decide))
    (after_take_of_lt assign V (i := 33) (j := 34) (x := main_v26) rfl (by decide))

theorem val_v28 (V : Valuation τ sig (Elt F)) :
    R V main_v28 = broadcastInDim S800000x1 ![0] bcast_S800000_S800000x1_0 (R V main_v27 : (⟨S800000, .f32⟩ : BufTy).Contents (Elt F)) :=
  final_unary (x := main_v27) (y := main_v28) (f := (broadcastInDim S800000x1 ![0] bcast_S800000_S800000x1_0 : (⟨S800000, .f32⟩ : BufTy).Contents (Elt F) → (⟨S800000x1, .f32⟩ : BufTy).Contents (Elt F))) assign V 35 rfl rfl
    (after_take_of_lt assign V (i := 34) (j := 35) (x := main_v27) rfl (by decide))

theorem val_c_5 (V : Valuation τ sig (Elt F)) :
    R V main_c_5 = (constantI S_ 32 0#32 : (⟨S_, .i32⟩ : BufTy).Contents (Elt F)) :=
  final_nullary (y := main_c_5) assign V 36 rfl rfl

theorem val_v29 (V : Valuation τ sig (Elt F)) :
    R V main_v29 = broadcastInDim S800000 ![] bcast_S_S800000 (R V main_c_5 : (⟨S_, .i32⟩ : BufTy).Contents (Elt F)) :=
  final_unary (x := main_c_5) (y := main_v29) (f := (broadcastInDim S800000 ![] bcast_S_S800000 : (⟨S_, .i32⟩ : BufTy).Contents (Elt F) → (⟨S800000, .i32⟩ : BufTy).Contents (Elt F))) assign V 37 rfl rfl
    (after_take_of_lt assign V (i := 36) (j := 37) (x := main_c_5) rfl (by decide))

theorem val_v30 (V : Valuation τ sig (Elt F)) :
    R V main_v30 = cmpi .slt (R V main_v1 : (⟨S800000, .i32⟩ : BufTy).Contents (Elt F)) (R V main_v29 : (⟨S800000, .i32⟩ : BufTy).Contents (Elt F)) :=
  final_binary (a := main_v1) (b := main_v29) (y := main_v30) (f := (cmpi .slt : (⟨S800000, .i32⟩ : BufTy).Contents (Elt F) → (⟨S800000, .i32⟩ : BufTy).Contents (Elt F) → (⟨S800000, .i1⟩ : BufTy).Contents (Elt F))) assign V 38 rfl rfl
    (after_take_of_lt assign V (i := 1) (j := 38) (x := main_v1) rfl (by decide))
    (after_take_of_lt assign V (i := 37) (j := 38) (x := main_v29) rfl (by decide))

theorem val_c_6 (V : Valuation τ sig (Elt F)) :
    R V main_c_6 = (constantI S_ 32 50000#32 : (⟨S_, .i32⟩ : BufTy).Contents (Elt F)) :=
  final_nullary (y := main_c_6) assign V 39 rfl rfl

theorem val_v31 (V : Valuation τ sig (Elt F)) :
    R V main_v31 = broadcastInDim S800000 ![] bcast_S_S800000 (R V main_c_6 : (⟨S_, .i32⟩ : BufTy).Contents (Elt F)) :=
  final_unary (x := main_c_6) (y := main_v31) (f := (broadcastInDim S800000 ![] bcast_S_S800000 : (⟨S_, .i32⟩ : BufTy).Contents (Elt F) → (⟨S800000, .i32⟩ : BufTy).Contents (Elt F))) assign V 40 rfl rfl
    (after_take_of_lt assign V (i := 39) (j := 40) (x := main_c_6) rfl (by decide))

theorem val_v32 (V : Valuation τ sig (Elt F)) :
    R V main_v32 = addi (R V main_v1 : (⟨S800000, .i32⟩ : BufTy).Contents (Elt F)) (R V main_v31 : (⟨S800000, .i32⟩ : BufTy).Contents (Elt F)) :=
  final_binary (a := main_v1) (b := main_v31) (y := main_v32) (f := (addi : (⟨S800000, .i32⟩ : BufTy).Contents (Elt F) → (⟨S800000, .i32⟩ : BufTy).Contents (Elt F) → (⟨S800000, .i32⟩ : BufTy).Contents (Elt F))) assign V 41 rfl rfl
    (after_take_of_lt assign V (i := 1) (j := 41) (x := main_v1) rfl (by decide))
    (after_take_of_lt assign V (i := 40) (j := 41) (x := main_v31) rfl (by decide))

theorem val_v33 (V : Valuation τ sig (Elt F)) :
    R V main_v33 = select (R V main_v30 : (⟨S800000, .i1⟩ : BufTy).Contents (Elt F)) (R V main_v32 : (⟨S800000, .i32⟩ : BufTy).Contents (Elt F)) (R V main_v1 : (⟨S800000, .i32⟩ : BufTy).Contents (Elt F)) :=
  final_ternary (c := main_v30) (a := main_v32) (b := main_v1) (y := main_v33) (f := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) assign V 42 rfl rfl
    (after_take_of_lt assign V (i := 38) (j := 42) (x := main_v30) rfl (by decide))
    (after_take_of_lt assign V (i := 41) (j := 42) (x := main_v32) rfl (by decide))
    (after_take_of_lt assign V (i := 1) (j := 42) (x := main_v1) rfl (by decide))

theorem val_v34 (V : Valuation τ sig (Elt F)) :
    R V main_v34 = broadcastInDim S800000x1 ![0] bcast_S800000_S800000x1_0 (R V main_v33 : (⟨S800000, .i32⟩ : BufTy).Contents (Elt F)) :=
  final_unary (x := main_v33) (y := main_v34) (f := (broadcastInDim S800000x1 ![0] bcast_S800000_S800000x1_0 : (⟨S800000, .i32⟩ : BufTy).Contents (Elt F) → (⟨S800000x1, .i32⟩ : BufTy).Contents (Elt F))) assign V 43 rfl rfl
    (after_take_of_lt assign V (i := 42) (j := 43) (x := main_v33) rfl (by decide))

theorem val_v35 (V : Valuation τ sig (Elt F)) :
    R V main_v35 = Host.gather gather_S50000x256_S800000x1_S800000x256_1_0_n_n_0_1_1256 (R V main_v5 : (⟨S50000x256, .f32⟩ : BufTy).Contents (Elt F)) (R V main_v34 : (⟨S800000x1, .i32⟩ : BufTy).Contents (Elt F)) :=
  final_binary (a := main_v5) (b := main_v34) (y := main_v35) (f := ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F))) assign V 44 rfl rfl
    (after_take_of_lt assign V (i := 5) (j := 44) (x := main_v5) rfl (by decide))
    (after_take_of_lt assign V (i := 43) (j := 44) (x := main_v34) rfl (by decide))

theorem val_v36 (V : Valuation τ sig (Elt F)) :
    R V main_v36 = broadcastInDim S800000x256 ![0, 1] bcast_S800000x1_S800000x256_0_1 (R V main_v28 : (⟨S800000x1, .f32⟩ : BufTy).Contents (Elt F)) :=
  final_unary (x := main_v28) (y := main_v36) (f := (broadcastInDim S800000x256 ![0, 1] bcast_S800000x1_S800000x256_0_1 : (⟨S800000x1, .f32⟩ : BufTy).Contents (Elt F) → (⟨S800000x256, .f32⟩ : BufTy).Contents (Elt F))) assign V 45 rfl rfl
    (after_take_of_lt assign V (i := 35) (j := 45) (x := main_v28) rfl (by decide))

theorem val_v37 (V : Valuation τ sig (Elt F)) :
    R V main_v37 = mulf (R V main_v36 : (⟨S800000x256, .f32⟩ : BufTy).Contents (Elt F)) (R V main_v35 : (⟨S800000x256, .f32⟩ : BufTy).Contents (Elt F)) :=
  final_binary (a := main_v36) (b := main_v35) (y := main_v37) (f := (mulf : (⟨S800000x256, .f32⟩ : BufTy).Contents (Elt F) → (⟨S800000x256, .f32⟩ : BufTy).Contents (Elt F) → (⟨S800000x256, .f32⟩ : BufTy).Contents (Elt F))) assign V 46 rfl rfl
    (after_take_of_lt assign V (i := 45) (j := 46) (x := main_v36) rfl (by decide))
    (after_take_of_lt assign V (i := 44) (j := 46) (x := main_v35) rfl (by decide))

theorem val_cst_7 (V : Valuation τ sig (Elt F)) :
    R V main_cst_7 = (constant S_ .f32 0x00000000#32 : (⟨S_, .f32⟩ : BufTy).Contents (Elt F)) :=
  final_nullary (y := main_cst_7) assign V 47 rfl rfl

theorem val_v38 (V : Valuation τ sig (Elt F)) :
    R V main_v38 = broadcastInDim S50000x256 ![] bcast_S_S50000x256 (R V main_cst_7 : (⟨S_, .f32⟩ : BufTy).Contents (Elt F)) :=
  final_unary (x := main_cst_7) (y := main_v38) (f := (broadcastInDim S50000x256 ![] bcast_S_S50000x256 : (⟨S_, .f32⟩ : BufTy).Contents (Elt F) → (⟨S50000x256, .f32⟩ : BufTy).Contents (Elt F))) assign V 48 rfl rfl
    (after_take_of_lt assign V (i := 47) (j := 48) (x := main_cst_7) rfl (by decide))

theorem val_v39 (V : Valuation τ sig (Elt F)) :
    R V main_v39 = broadcastInDim S800000x1 ![0] bcast_S800000_S800000x1_0 (R V main_v3 : (⟨S800000, .i32⟩ : BufTy).Contents (Elt F)) :=
  final_unary (x := main_v3) (y := main_v39) (f := (broadcastInDim S800000x1 ![0] bcast_S800000_S800000x1_0 : (⟨S800000, .i32⟩ : BufTy).Contents (Elt F) → (⟨S800000x1, .i32⟩ : BufTy).Contents (Elt F))) assign V 49 rfl rfl
    (after_take_of_lt assign V (i := 3) (j := 49) (x := main_v3) rfl (by decide))

theorem val_v40 (V : Valuation τ sig (Elt F)) :
    R V main_v40 = Host.scatterAdd scatter_S50000x256_S800000x1_S800000x256_1_0_0_1 (R V main_v38 : (⟨S50000x256, .f32⟩ : BufTy).Contents (Elt F)) (R V main_v39 : (⟨S800000x1, .i32⟩ : BufTy).Contents (Elt F)) (R V main_v37 : (⟨S800000x256, .f32⟩ : BufTy).Contents (Elt F)) :=
  final_ternary (c := main_v38) (a := main_v39) (b := main_v37) (y := main_v40) (f := ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F))) assign V 50 rfl rfl
    (after_take_of_lt assign V (i := 48) (j := 50) (x := main_v38) rfl (by decide))
    (after_take_of_lt assign V (i := 49) (j := 50) (x := main_v39) rfl (by decide))
    (after_take_of_lt assign V (i := 46) (j := 50) (x := main_v37) rfl (by decide))

theorem val_cst_8 (V : Valuation τ sig (Elt F)) :
    R V main_cst_8 = (constant S_ .f32 0x3F800000#32 : (⟨S_, .f32⟩ : BufTy).Contents (Elt F)) :=
  final_nullary (y := main_cst_8) assign V 51 rfl rfl

theorem val_v41 (V : Valuation τ sig (Elt F)) :
    R V main_v41 = broadcastInDim S50000 ![] bcast_S_S50000 (R V main_cst_8 : (⟨S_, .f32⟩ : BufTy).Contents (Elt F)) :=
  final_unary (x := main_cst_8) (y := main_v41) (f := (broadcastInDim S50000 ![] bcast_S_S50000 : (⟨S_, .f32⟩ : BufTy).Contents (Elt F) → (⟨S50000, .f32⟩ : BufTy).Contents (Elt F))) assign V 52 rfl rfl
    (after_take_of_lt assign V (i := 51) (j := 52) (x := main_cst_8) rfl (by decide))

theorem val_v42 (V : Valuation τ sig (Elt F)) :
    R V main_v42 = Host.divf (R V main_v41 : (⟨S50000, .f32⟩ : BufTy).Contents (Elt F)) (R V main_v11 : (⟨S50000, .f32⟩ : BufTy).Contents (Elt F)) :=
  final_binary (a := main_v41) (b := main_v11) (y := main_v42) (f := (Host.divf : (⟨S50000, .f32⟩ : BufTy).Contents (Elt F) → (⟨S50000, .f32⟩ : BufTy).Contents (Elt F) → (⟨S50000, .f32⟩ : BufTy).Contents (Elt F))) assign V 53 rfl rfl
    (after_take_of_lt assign V (i := 52) (j := 53) (x := main_v41) rfl (by decide))
    (after_take_of_lt assign V (i := 14) (j := 53) (x := main_v11) rfl (by decide))

theorem val_v43 (V : Valuation τ sig (Elt F)) :
    R V main_v43 = broadcastInDim S50000x1 ![0] bcast_S50000_S50000x1_0 (R V main_v42 : (⟨S50000, .f32⟩ : BufTy).Contents (Elt F)) :=
  final_unary (x := main_v42) (y := main_v43) (f := (broadcastInDim S50000x1 ![0] bcast_S50000_S50000x1_0 : (⟨S50000, .f32⟩ : BufTy).Contents (Elt F) → (⟨S50000x1, .f32⟩ : BufTy).Contents (Elt F))) assign V 54 rfl rfl
    (after_take_of_lt assign V (i := 53) (j := 54) (x := main_v42) rfl (by decide))

theorem val_v44 (V : Valuation τ sig (Elt F)) :
    R V main_v44 = broadcastInDim S50000x256 ![0, 1] bcast_S50000x1_S50000x256_0_1 (R V main_v43 : (⟨S50000x1, .f32⟩ : BufTy).Contents (Elt F)) :=
  final_unary (x := main_v43) (y := main_v44) (f := (broadcastInDim S50000x256 ![0, 1] bcast_S50000x1_S50000x256_0_1 : (⟨S50000x1, .f32⟩ : BufTy).Contents (Elt F) → (⟨S50000x256, .f32⟩ : BufTy).Contents (Elt F))) assign V 55 rfl rfl
    (after_take_of_lt assign V (i := 54) (j := 55) (x := main_v43) rfl (by decide))

theorem val_v45 (V : Valuation τ sig (Elt F)) :
    R V main_v45 = mulf (R V main_v5 : (⟨S50000x256, .f32⟩ : BufTy).Contents (Elt F)) (R V main_v44 : (⟨S50000x256, .f32⟩ : BufTy).Contents (Elt F)) :=
  final_binary (a := main_v5) (b := main_v44) (y := main_v45) (f := (mulf : (⟨S50000x256, .f32⟩ : BufTy).Contents (Elt F) → (⟨S50000x256, .f32⟩ : BufTy).Contents (Elt F) → (⟨S50000x256, .f32⟩ : BufTy).Contents (Elt F))) assign V 56 rfl rfl
    (after_take_of_lt assign V (i := 5) (j := 56) (x := main_v5) rfl (by decide))
    (after_take_of_lt assign V (i := 55) (j := 56) (x := main_v44) rfl (by decide))

theorem val_v46 (V : Valuation τ sig (Elt F)) :
    R V main_v46 = addf (R V main_v40 : (⟨S50000x256, .f32⟩ : BufTy).Contents (Elt F)) (R V main_v45 : (⟨S50000x256, .f32⟩ : BufTy).Contents (Elt F)) :=
  final_binary (a := main_v40) (b := main_v45) (y := main_v46) (f := (addf : (⟨S50000x256, .f32⟩ : BufTy).Contents (Elt F) → (⟨S50000x256, .f32⟩ : BufTy).Contents (Elt F) → (⟨S50000x256, .f32⟩ : BufTy).Contents (Elt F))) assign V 57 rfl rfl
    (after_take_of_lt assign V (i := 50) (j := 57) (x := main_v40) rfl (by decide))
    (after_take_of_lt assign V (i := 56) (j := 57) (x := main_v45) rfl (by decide))

theorem val_v47 (V : Valuation τ sig (Elt F)) :
    R V main_v47 = broadcastInDim S1x256 ![1] bcast_S256_S1x256_1 (R V main_arg4 : (⟨S256, .f32⟩ : BufTy).Contents (Elt F)) :=
  final_unary (x := main_arg4) (y := main_v47) (f := (broadcastInDim S1x256 ![1] bcast_S256_S1x256_1 : (⟨S256, .f32⟩ : BufTy).Contents (Elt F) → (⟨S1x256, .f32⟩ : BufTy).Contents (Elt F))) assign V 58 rfl rfl
    (after_take_of_not_assigned assign V 58 arg4_not_written)

theorem val_v48 (V : Valuation τ sig (Elt F)) :
    R V main_v48 = broadcastInDim S50000x256 ![0, 1] bcast_S1x256_S50000x256_0_1 (R V main_v47 : (⟨S1x256, .f32⟩ : BufTy).Contents (Elt F)) :=
  final_unary (x := main_v47) (y := main_v48) (f := (broadcastInDim S50000x256 ![0, 1] bcast_S1x256_S50000x256_0_1 : (⟨S1x256, .f32⟩ : BufTy).Contents (Elt F) → (⟨S50000x256, .f32⟩ : BufTy).Contents (Elt F))) assign V 59 rfl rfl
    (after_take_of_lt assign V (i := 58) (j := 59) (x := main_v47) rfl (by decide))

theorem val_v49 (V : Valuation τ sig (Elt F)) :
    R V main_v49 = addf (R V main_v46 : (⟨S50000x256, .f32⟩ : BufTy).Contents (Elt F)) (R V main_v48 : (⟨S50000x256, .f32⟩ : BufTy).Contents (Elt F)) :=
  final_binary (a := main_v46) (b := main_v48) (y := main_v49) (f := (addf : (⟨S50000x256, .f32⟩ : BufTy).Contents (Elt F) → (⟨S50000x256, .f32⟩ : BufTy).Contents (Elt F) → (⟨S50000x256, .f32⟩ : BufTy).Contents (Elt F))) assign V 60 rfl rfl
    (after_take_of_lt assign V (i := 57) (j := 60) (x := main_v46) rfl (by decide))
    (after_take_of_lt assign V (i := 59) (j := 60) (x := main_v48) rfl (by decide))

theorem val_call0_cst (V : Valuation τ sig (Elt F)) :
    R V main_call0_cst = (constant S_ .f32 0x00000000#32 : (⟨S_, .f32⟩ : BufTy).Contents (Elt F)) :=
  final_nullary (y := main_call0_cst) assign V 61 rfl rfl

theorem val_call0_v0 (V : Valuation τ sig (Elt F)) :
    R V main_call0_v0 = broadcastInDim S50000x256 ![] bcast_S_S50000x256 (R V main_call0_cst : (⟨S_, .f32⟩ : BufTy).Contents (Elt F)) :=
  final_unary (x := main_call0_cst) (y := main_call0_v0) (f := ((broadcastInDim S50000x256 ![] bcast_S_S50000x256) : (⟨S_, .f32⟩ : BufTy).Contents (Elt F) → (⟨S50000x256, .f32⟩ : BufTy).Contents (Elt F))) assign V 62 rfl rfl
    (after_take_of_lt assign V (i := 61) (j := 62) (x := main_call0_cst) rfl (by decide))

theorem val_v50 (V : Valuation τ sig (Elt F)) :
    R V main_v50 = maximumf (R V main_v49 : (⟨S50000x256, .f32⟩ : BufTy).Contents (Elt F)) (R V main_call0_v0 : (⟨S50000x256, .f32⟩ : BufTy).Contents (Elt F)) :=
  final_binary (a := main_v49) (b := main_call0_v0) (y := main_v50) (f := (maximumf : (⟨S50000x256, .f32⟩ : BufTy).Contents (Elt F) → (⟨S50000x256, .f32⟩ : BufTy).Contents (Elt F) → (⟨S50000x256, .f32⟩ : BufTy).Contents (Elt F))) assign V 63 rfl rfl
    (after_take_of_lt assign V (i := 60) (j := 63) (x := main_v49) rfl (by decide))
    (after_take_of_lt assign V (i := 62) (j := 63) (x := main_call0_v0) rfl (by decide))

/-! ## The arguments are never assigned: they keep their launch contents -/

theorem kept_arg0 (V : Valuation τ sig (Elt F)) : R V main_arg0 = V (Proc.devRef .tc main_arg0) :=
  after_of_not_assigned assign V arg0_not_written

theorem kept_arg1 (V : Valuation τ sig (Elt F)) : R V main_arg1 = V (Proc.devRef .tc main_arg1) :=
  after_of_not_assigned assign V arg1_not_written

theorem kept_arg2 (V : Valuation τ sig (Elt F)) : R V main_arg2 = V (Proc.devRef .tc main_arg2) :=
  after_of_not_assigned assign V arg2_not_written

theorem kept_arg3 (V : Valuation τ sig (Elt F)) : R V main_arg3 = V (Proc.devRef .tc main_arg3) :=
  after_of_not_assigned assign V arg3_not_written

theorem kept_arg4 (V : Valuation τ sig (Elt F)) : R V main_arg4 = V (Proc.devRef .tc main_arg4) :=
  after_of_not_assigned assign V arg4_not_written

theorem kept_arg5 (V : Valuation τ sig (Elt F)) : R V main_arg5 = V (Proc.devRef .tc main_arg5) :=
  after_of_not_assigned assign V arg5_not_written

theorem kept_arg6 (V : Valuation τ sig (Elt F)) : R V main_arg6 = V (Proc.devRef .tc main_arg6) :=
  after_of_not_assigned assign V arg6_not_written

theorem kept_arg7 (V : Valuation τ sig (Elt F)) : R V main_arg7 = V (Proc.devRef .tc main_arg7) :=
  after_of_not_assigned assign V arg7_not_written

theorem kept_arg8 (V : Valuation τ sig (Elt F)) : R V main_arg8 = V (Proc.devRef .tc main_arg8) :=
  after_of_not_assigned assign V arg8_not_written

theorem kept_arg9 (V : Valuation τ sig (Elt F)) : R V main_arg9 = V (Proc.devRef .tc main_arg9) :=
  after_of_not_assigned assign V arg9_not_written

theorem kept_arg10 (V : Valuation τ sig (Elt F)) : R V main_arg10 = V (Proc.devRef .tc main_arg10) :=
  after_of_not_assigned assign V arg10_not_written

theorem kept_arg11 (V : Valuation τ sig (Elt F)) : R V main_arg11 = V (Proc.devRef .tc main_arg11) :=
  after_of_not_assigned assign V arg11_not_written

theorem kept_arg12 (V : Valuation τ sig (Elt F)) : R V main_arg12 = V (Proc.devRef .tc main_arg12) :=
  after_of_not_assigned assign V arg12_not_written
end Cert.ReferenceIdeal.Hand

end
-- ==== Proof.RefVals1.lean ====
/-
  The reference's run read one variable at a time (operations 64 … 122 of the line `ops`).

  The line is in single-assignment form, so the final contents `R V y` of the variable an operation assigns is that
  operation's function of the FINAL contents of its operands: each operand is assigned earlier in the line, or never
  (an argument of @main), and is not touched afterwards. One equation per variable, spelt with the operation the
  program prints; no composed term is written.
-/
import proofs.«116509_j71700184039973_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem val_v51 (V : Valuation τ sig (Elt F)) :
    R V main_v51 = Host.dotGeneral dot_S50000x256_S256x256_S50000x256_1_0_0_1_n_n none (R V main_v50 : (⟨S50000x256, .f32⟩ : BufTy).Contents (Elt F)) (R V main_arg5 : (⟨S256x256, .f32⟩ : BufTy).Contents (Elt F)) :=
  final_binary (a := main_v50) (b := main_arg5) (y := main_v51) (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) assign V 64 rfl rfl
    (after_take_of_lt assign V (i := 63) (j := 64) (x := main_v50) rfl (by decide))
    (after_take_of_not_assigned assign V 64 arg5_not_written)

theorem val_cst_9 (V : Valuation τ sig (Elt F)) :
    R V main_cst_9 = (constant S_ .f32 0x3F800000#32 : (⟨S_, .f32⟩ : BufTy).Contents (Elt F)) :=
  final_nullary (y := main_cst_9) assign V 65 rfl rfl

theorem val_v52 (V : Valuation τ sig (Elt F)) :
    R V main_v52 = broadcastInDim S800000 ![] bcast_S_S800000 (R V main_cst_9 : (⟨S_, .f32⟩ : BufTy).Contents (Elt F)) :=
  final_unary (x := main_cst_9) (y := main_v52) (f := (broadcastInDim S800000 ![] bcast_S_S800000 : (⟨S_, .f32⟩ : BufTy).Contents (Elt F) → (⟨S800000, .f32⟩ : BufTy).Contents (Elt F))) assign V 66 rfl rfl
    (after_take_of_lt assign V (i := 65) (j := 66) (x := main_cst_9) rfl (by decide))

theorem val_cst_10 (V : Valuation τ sig (Elt F)) :
    R V main_cst_10 = (constant S_ .f32 0x00000000#32 : (⟨S_, .f32⟩ : BufTy).Contents (Elt F)) :=
  final_nullary (y := main_cst_10) assign V 67 rfl rfl

theorem val_v53 (V : Valuation τ sig (Elt F)) :
    R V main_v53 = broadcastInDim S50000 ![] bcast_S_S50000 (R V main_cst_10 : (⟨S_, .f32⟩ : BufTy).Contents (Elt F)) :=
  final_unary (x := main_cst_10) (y := main_v53) (f := (broadcastInDim S50000 ![] bcast_S_S50000 : (⟨S_, .f32⟩ : BufTy).Contents (Elt F) → (⟨S50000, .f32⟩ : BufTy).Contents (Elt F))) assign V 68 rfl rfl
    (after_take_of_lt assign V (i := 67) (j := 68) (x := main_cst_10) rfl (by decide))

theorem val_v54 (V : Valuation τ sig (Elt F)) :
    R V main_v54 = broadcastInDim S800000x1 ![0] bcast_S800000_S800000x1_0 (R V main_v3 : (⟨S800000, .i32⟩ : BufTy).Contents (Elt F)) :=
  final_unary (x := main_v3) (y := main_v54) (f := (broadcastInDim S800000x1 ![0] bcast_S800000_S800000x1_0 : (⟨S800000, .i32⟩ : BufTy).Contents (Elt F) → (⟨S800000x1, .i32⟩ : BufTy).Contents (Elt F))) assign V 69 rfl rfl
    (after_take_of_lt assign V (i := 3) (j := 69) (x := main_v3) rfl (by decide))

theorem val_v55 (V : Valuation τ sig (Elt F)) :
    R V main_v55 = Host.scatterAdd scatter_S50000_S800000x1_S800000_n_0_0_1 (R V main_v53 : (⟨S50000, .f32⟩ : BufTy).Contents (Elt F)) (R V main_v54 : (⟨S800000x1, .i32⟩ : BufTy).Contents (Elt F)) (R V main_v52 : (⟨S800000, .f32⟩ : BufTy).Contents (Elt F)) :=
  final_ternary (c := main_v53) (a := main_v54) (b := main_v52) (y := main_v55) (f := ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F))) assign V 70 rfl rfl
    (after_take_of_lt assign V (i := 68) (j := 70) (x := main_v53) rfl (by decide))
    (after_take_of_lt assign V (i := 69) (j := 70) (x := main_v54) rfl (by decide))
    (after_take_of_lt assign V (i := 66) (j := 70) (x := main_v52) rfl (by decide))

theorem val_cst_11 (V : Valuation τ sig (Elt F)) :
    R V main_cst_11 = (constant S_ .f32 0x3F800000#32 : (⟨S_, .f32⟩ : BufTy).Contents (Elt F)) :=
  final_nullary (y := main_cst_11) assign V 71 rfl rfl

theorem val_v56 (V : Valuation τ sig (Elt F)) :
    R V main_v56 = broadcastInDim S50000 ![] bcast_S_S50000 (R V main_cst_11 : (⟨S_, .f32⟩ : BufTy).Contents (Elt F)) :=
  final_unary (x := main_cst_11) (y := main_v56) (f := (broadcastInDim S50000 ![] bcast_S_S50000 : (⟨S_, .f32⟩ : BufTy).Contents (Elt F) → (⟨S50000, .f32⟩ : BufTy).Contents (Elt F))) assign V 72 rfl rfl
    (after_take_of_lt assign V (i := 71) (j := 72) (x := main_cst_11) rfl (by decide))

theorem val_v57 (V : Valuation τ sig (Elt F)) :
    R V main_v57 = addf (R V main_v55 : (⟨S50000, .f32⟩ : BufTy).Contents (Elt F)) (R V main_v56 : (⟨S50000, .f32⟩ : BufTy).Contents (Elt F)) :=
  final_binary (a := main_v55) (b := main_v56) (y := main_v57) (f := (addf : (⟨S50000, .f32⟩ : BufTy).Contents (Elt F) → (⟨S50000, .f32⟩ : BufTy).Contents (Elt F) → (⟨S50000, .f32⟩ : BufTy).Contents (Elt F))) assign V 73 rfl rfl
    (after_take_of_lt assign V (i := 70) (j := 73) (x := main_v55) rfl (by decide))
    (after_take_of_lt assign V (i := 72) (j := 73) (x := main_v56) rfl (by decide))

theorem val_v58 (V : Valuation τ sig (Elt F)) :
    R V main_v58 = Host.rsqrt (R V main_v57 : (⟨S50000, .f32⟩ : BufTy).Contents (Elt F)) :=
  final_unary (x := main_v57) (y := main_v58) (f := (Host.rsqrt : (⟨S50000, .f32⟩ : BufTy).Contents (Elt F) → (⟨S50000, .f32⟩ : BufTy).Contents (Elt F))) assign V 74 rfl rfl
    (after_take_of_lt assign V (i := 73) (j := 74) (x := main_v57) rfl (by decide))

theorem val_c_12 (V : Valuation τ sig (Elt F)) :
    R V main_c_12 = (constantI S_ 32 0#32 : (⟨S_, .i32⟩ : BufTy).Contents (Elt F)) :=
  final_nullary (y := main_c_12) assign V 75 rfl rfl

theorem val_v59 (V : Valuation τ sig (Elt F)) :
    R V main_v59 = broadcastInDim S800000 ![] bcast_S_S800000 (R V main_c_12 : (⟨S_, .i32⟩ : BufTy).Contents (Elt F)) :=
  final_unary (x := main_c_12) (y := main_v59) (f := (broadcastInDim S800000 ![] bcast_S_S800000 : (⟨S_, .i32⟩ : BufTy).Contents (Elt F) → (⟨S800000, .i32⟩ : BufTy).Contents (Elt F))) assign V 76 rfl rfl
    (after_take_of_lt assign V (i := 75) (j := 76) (x := main_c_12) rfl (by decide))

theorem val_v60 (V : Valuation τ sig (Elt F)) :
    R V main_v60 = cmpi .slt (R V main_v1 : (⟨S800000, .i32⟩ : BufTy).Contents (Elt F)) (R V main_v59 : (⟨S800000, .i32⟩ : BufTy).Contents (Elt F)) :=
  final_binary (a := main_v1) (b := main_v59) (y := main_v60) (f := (cmpi .slt : (⟨S800000, .i32⟩ : BufTy).Contents (Elt F) → (⟨S800000, .i32⟩ : BufTy).Contents (Elt F) → (⟨S800000, .i1⟩ : BufTy).Contents (Elt F))) assign V 77 rfl rfl
    (after_take_of_lt assign V (i := 1) (j := 77) (x := main_v1) rfl (by decide))
    (after_take_of_lt assign V (i := 76) (j := 77) (x := main_v59) rfl (by decide))

theorem val_c_13 (V : Valuation τ sig (Elt F)) :
    R V main_c_13 = (constantI S_ 32 50000#32 : (⟨S_, .i32⟩ : BufTy).Contents (Elt F)) :=
  final_nullary (y := main_c_13) assign V 78 rfl rfl

theorem val_v61 (V : Valuation τ sig (Elt F)) :
    R V main_v61 = broadcastInDim S800000 ![] bcast_S_S800000 (R V main_c_13 : (⟨S_, .i32⟩ : BufTy).Contents (Elt F)) :=
  final_unary (x := main_c_13) (y := main_v61) (f := (broadcastInDim S800000 ![] bcast_S_S800000 : (⟨S_, .i32⟩ : BufTy).Contents (Elt F) → (⟨S800000, .i32⟩ : BufTy).Contents (Elt F))) assign V 79 rfl rfl
    (after_take_of_lt assign V (i := 78) (j := 79) (x := main_c_13) rfl (by decide))

theorem val_v62 (V : Valuation τ sig (Elt F)) :
    R V main_v62 = addi (R V main_v1 : (⟨S800000, .i32⟩ : BufTy).Contents (Elt F)) (R V main_v61 : (⟨S800000, .i32⟩ : BufTy).Contents (Elt F)) :=
  final_binary (a := main_v1) (b := main_v61) (y := main_v62) (f := (addi : (⟨S800000, .i32⟩ : BufTy).Contents (Elt F) → (⟨S800000, .i32⟩ : BufTy).Contents (Elt F) → (⟨S800000, .i32⟩ : BufTy).Contents (Elt F))) assign V 80 rfl rfl
    (after_take_of_lt assign V (i := 1) (j := 80) (x := main_v1) rfl (by decide))
    (after_take_of_lt assign V (i := 79) (j := 80) (x := main_v61) rfl (by decide))

theorem val_v63 (V : Valuation τ sig (Elt F)) :
    R V main_v63 = select (R V main_v60 : (⟨S800000, .i1⟩ : BufTy).Contents (Elt F)) (R V main_v62 : (⟨S800000, .i32⟩ : BufTy).Contents (Elt F)) (R V main_v1 : (⟨S800000, .i32⟩ : BufTy).Contents (Elt F)) :=
  final_ternary (c := main_v60) (a := main_v62) (b := main_v1) (y := main_v63) (f := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) assign V 81 rfl rfl
    (after_take_of_lt assign V (i := 77) (j := 81) (x := main_v60) rfl (by decide))
    (after_take_of_lt assign V (i := 80) (j := 81) (x := main_v62) rfl (by decide))
    (after_take_of_lt assign V (i := 1) (j := 81) (x := main_v1) rfl (by decide))

theorem val_v64 (V : Valuation τ sig (Elt F)) :
    R V main_v64 = broadcastInDim S800000x1 ![0] bcast_S800000_S800000x1_0 (R V main_v63 : (⟨S800000, .i32⟩ : BufTy).Contents (Elt F)) :=
  final_unary (x := main_v63) (y := main_v64) (f := (broadcastInDim S800000x1 ![0] bcast_S800000_S800000x1_0 : (⟨S800000, .i32⟩ : BufTy).Contents (Elt F) → (⟨S800000x1, .i32⟩ : BufTy).Contents (Elt F))) assign V 82 rfl rfl
    (after_take_of_lt assign V (i := 81) (j := 82) (x := main_v63) rfl (by decide))

theorem val_v65 (V : Valuation τ sig (Elt F)) :
    R V main_v65 = Host.gather gather_S50000_S800000x1_S800000_n_0_n_n_0_1_1 (R V main_v58 : (⟨S50000, .f32⟩ : BufTy).Contents (Elt F)) (R V main_v64 : (⟨S800000x1, .i32⟩ : BufTy).Contents (Elt F)) :=
  final_binary (a := main_v58) (b := main_v64) (y := main_v65) (f := ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F))) assign V 83 rfl rfl
    (after_take_of_lt assign V (i := 74) (j := 83) (x := main_v58) rfl (by decide))
    (after_take_of_lt assign V (i := 82) (j := 83) (x := main_v64) rfl (by decide))

theorem val_c_14 (V : Valuation τ sig (Elt F)) :
    R V main_c_14 = (constantI S_ 32 0#32 : (⟨S_, .i32⟩ : BufTy).Contents (Elt F)) :=
  final_nullary (y := main_c_14) assign V 84 rfl rfl

theorem val_v66 (V : Valuation τ sig (Elt F)) :
    R V main_v66 = broadcastInDim S800000 ![] bcast_S_S800000 (R V main_c_14 : (⟨S_, .i32⟩ : BufTy).Contents (Elt F)) :=
  final_unary (x := main_c_14) (y := main_v66) (f := (broadcastInDim S800000 ![] bcast_S_S800000 : (⟨S_, .i32⟩ : BufTy).Contents (Elt F) → (⟨S800000, .i32⟩ : BufTy).Contents (Elt F))) assign V 85 rfl rfl
    (after_take_of_lt assign V (i := 84) (j := 85) (x := main_c_14) rfl (by decide))

theorem val_v67 (V : Valuation τ sig (Elt F)) :
    R V main_v67 = cmpi .slt (R V main_v3 : (⟨S800000, .i32⟩ : BufTy).Contents (Elt F)) (R V main_v66 : (⟨S800000, .i32⟩ : BufTy).Contents (Elt F)) :=
  final_binary (a := main_v3) (b := main_v66) (y := main_v67) (f := (cmpi .slt : (⟨S800000, .i32⟩ : BufTy).Contents (Elt F) → (⟨S800000, .i32⟩ : BufTy).Contents (Elt F) → (⟨S800000, .i1⟩ : BufTy).Contents (Elt F))) assign V 86 rfl rfl
    (after_take_of_lt assign V (i := 3) (j := 86) (x := main_v3) rfl (by decide))
    (after_take_of_lt assign V (i := 85) (j := 86) (x := main_v66) rfl (by decide))

theorem val_c_15 (V : Valuation τ sig (Elt F)) :
    R V main_c_15 = (constantI S_ 32 50000#32 : (⟨S_, .i32⟩ : BufTy).Contents (Elt F)) :=
  final_nullary (y := main_c_15) assign V 87 rfl rfl

theorem val_v68 (V : Valuation τ sig (Elt F)) :
    R V main_v68 = broadcastInDim S800000 ![] bcast_S_S800000 (R V main_c_15 : (⟨S_, .i32⟩ : BufTy).Contents (Elt F)) :=
  final_unary (x := main_c_15) (y := main_v68) (f := (broadcastInDim S800000 ![] bcast_S_S800000 : (⟨S_, .i32⟩ : BufTy).Contents (Elt F) → (⟨S800000, .i32⟩ : BufTy).Contents (Elt F))) assign V 88 rfl rfl
    (after_take_of_lt assign V (i := 87) (j := 88) (x := main_c_15) rfl (by decide))

theorem val_v69 (V : Valuation τ sig (Elt F)) :
    R V main_v69 = addi (R V main_v3 : (⟨S800000, .i32⟩ : BufTy).Contents (Elt F)) (R V main_v68 : (⟨S800000, .i32⟩ : BufTy).Contents (Elt F)) :=
  final_binary (a := main_v3) (b := main_v68) (y := main_v69) (f := (addi : (⟨S800000, .i32⟩ : BufTy).Contents (Elt F) → (⟨S800000, .i32⟩ : BufTy).Contents (Elt F) → (⟨S800000, .i32⟩ : BufTy).Contents (Elt F))) assign V 89 rfl rfl
    (after_take_of_lt assign V (i := 3) (j := 89) (x := main_v3) rfl (by decide))
    (after_take_of_lt assign V (i := 88) (j := 89) (x := main_v68) rfl (by decide))

theorem val_v70 (V : Valuation τ sig (Elt F)) :
    R V main_v70 = select (R V main_v67 : (⟨S800000, .i1⟩ : BufTy).Contents (Elt F)) (R V main_v69 : (⟨S800000, .i32⟩ : BufTy).Contents (Elt F)) (R V main_v3 : (⟨S800000, .i32⟩ : BufTy).Contents (Elt F)) :=
  final_ternary (c := main_v67) (a := main_v69) (b := main_v3) (y := main_v70) (f := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) assign V 90 rfl rfl
    (after_take_of_lt assign V (i := 86) (j := 90) (x := main_v67) rfl (by decide))
    (after_take_of_lt assign V (i := 89) (j := 90) (x := main_v69) rfl (by decide))
    (after_take_of_lt assign V (i := 3) (j := 90) (x := main_v3) rfl (by decide))

theorem val_v71 (V : Valuation τ sig (Elt F)) :
    R V main_v71 = broadcastInDim S800000x1 ![0] bcast_S800000_S800000x1_0 (R V main_v70 : (⟨S800000, .i32⟩ : BufTy).Contents (Elt F)) :=
  final_unary (x := main_v70) (y := main_v71) (f := (broadcastInDim S800000x1 ![0] bcast_S800000_S800000x1_0 : (⟨S800000, .i32⟩ : BufTy).Contents (Elt F) → (⟨S800000x1, .i32⟩ : BufTy).Contents (Elt F))) assign V 91 rfl rfl
    (after_take_of_lt assign V (i := 90) (j := 91) (x := main_v70) rfl (by decide))

theorem val_v72 (V : Valuation τ sig (Elt F)) :
    R V main_v72 = Host.gather gather_S50000_S800000x1_S800000_n_0_n_n_0_1_1 (R V main_v58 : (⟨S50000, .f32⟩ : BufTy).Contents (Elt F)) (R V main_v71 : (⟨S800000x1, .i32⟩ : BufTy).Contents (Elt F)) :=
  final_binary (a := main_v58) (b := main_v71) (y := main_v72) (f := ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F))) assign V 92 rfl rfl
    (after_take_of_lt assign V (i := 74) (j := 92) (x := main_v58) rfl (by decide))
    (after_take_of_lt assign V (i := 91) (j := 92) (x := main_v71) rfl (by decide))

theorem val_v73 (V : Valuation τ sig (Elt F)) :
    R V main_v73 = mulf (R V main_v65 : (⟨S800000, .f32⟩ : BufTy).Contents (Elt F)) (R V main_v72 : (⟨S800000, .f32⟩ : BufTy).Contents (Elt F)) :=
  final_binary (a := main_v65) (b := main_v72) (y := main_v73) (f := (mulf : (⟨S800000, .f32⟩ : BufTy).Contents (Elt F) → (⟨S800000, .f32⟩ : BufTy).Contents (Elt F) → (⟨S800000, .f32⟩ : BufTy).Contents (Elt F))) assign V 93 rfl rfl
    (after_take_of_lt assign V (i := 83) (j := 93) (x := main_v65) rfl (by decide))
    (after_take_of_lt assign V (i := 92) (j := 93) (x := main_v72) rfl (by decide))

theorem val_v74 (V : Valuation τ sig (Elt F)) :
    R V main_v74 = broadcastInDim S800000x1 ![0] bcast_S800000_S800000x1_0 (R V main_v73 : (⟨S800000, .f32⟩ : BufTy).Contents (Elt F)) :=
  final_unary (x := main_v73) (y := main_v74) (f := (broadcastInDim S800000x1 ![0] bcast_S800000_S800000x1_0 : (⟨S800000, .f32⟩ : BufTy).Contents (Elt F) → (⟨S800000x1, .f32⟩ : BufTy).Contents (Elt F))) assign V 94 rfl rfl
    (after_take_of_lt assign V (i := 93) (j := 94) (x := main_v73) rfl (by decide))

theorem val_c_16 (V : Valuation τ sig (Elt F)) :
    R V main_c_16 = (constantI S_ 32 0#32 : (⟨S_, .i32⟩ : BufTy).Contents (Elt F)) :=
  final_nullary (y := main_c_16) assign V 95 rfl rfl

theorem val_v75 (V : Valuation τ sig (Elt F)) :
    R V main_v75 = broadcastInDim S800000 ![] bcast_S_S800000 (R V main_c_16 : (⟨S_, .i32⟩ : BufTy).Contents (Elt F)) :=
  final_unary (x := main_c_16) (y := main_v75) (f := (broadcastInDim S800000 ![] bcast_S_S800000 : (⟨S_, .i32⟩ : BufTy).Contents (Elt F) → (⟨S800000, .i32⟩ : BufTy).Contents (Elt F))) assign V 96 rfl rfl
    (after_take_of_lt assign V (i := 95) (j := 96) (x := main_c_16) rfl (by decide))

theorem val_v76 (V : Valuation τ sig (Elt F)) :
    R V main_v76 = cmpi .slt (R V main_v1 : (⟨S800000, .i32⟩ : BufTy).Contents (Elt F)) (R V main_v75 : (⟨S800000, .i32⟩ : BufTy).Contents (Elt F)) :=
  final_binary (a := main_v1) (b := main_v75) (y := main_v76) (f := (cmpi .slt : (⟨S800000, .i32⟩ : BufTy).Contents (Elt F) → (⟨S800000, .i32⟩ : BufTy).Contents (Elt F) → (⟨S800000, .i1⟩ : BufTy).Contents (Elt F))) assign V 97 rfl rfl
    (after_take_of_lt assign V (i := 1) (j := 97) (x := main_v1) rfl (by decide))
    (after_take_of_lt assign V (i := 96) (j := 97) (x := main_v75) rfl (by decide))

theorem val_c_17 (V : Valuation τ sig (Elt F)) :
    R V main_c_17 = (constantI S_ 32 50000#32 : (⟨S_, .i32⟩ : BufTy).Contents (Elt F)) :=
  final_nullary (y := main_c_17) assign V 98 rfl rfl

theorem val_v77 (V : Valuation τ sig (Elt F)) :
    R V main_v77 = broadcastInDim S800000 ![] bcast_S_S800000 (R V main_c_17 : (⟨S_, .i32⟩ : BufTy).Contents (Elt F)) :=
  final_unary (x := main_c_17) (y := main_v77) (f := (broadcastInDim S800000 ![] bcast_S_S800000 : (⟨S_, .i32⟩ : BufTy).Contents (Elt F) → (⟨S800000, .i32⟩ : BufTy).Contents (Elt F))) assign V 99 rfl rfl
    (after_take_of_lt assign V (i := 98) (j := 99) (x := main_c_17) rfl (by decide))

theorem val_v78 (V : Valuation τ sig (Elt F)) :
    R V main_v78 = addi (R V main_v1 : (⟨S800000, .i32⟩ : BufTy).Contents (Elt F)) (R V main_v77 : (⟨S800000, .i32⟩ : BufTy).Contents (Elt F)) :=
  final_binary (a := main_v1) (b := main_v77) (y := main_v78) (f := (addi : (⟨S800000, .i32⟩ : BufTy).Contents (Elt F) → (⟨S800000, .i32⟩ : BufTy).Contents (Elt F) → (⟨S800000, .i32⟩ : BufTy).Contents (Elt F))) assign V 100 rfl rfl
    (after_take_of_lt assign V (i := 1) (j := 100) (x := main_v1) rfl (by decide))
    (after_take_of_lt assign V (i := 99) (j := 100) (x := main_v77) rfl (by decide))

theorem val_v79 (V : Valuation τ sig (Elt F)) :
    R V main_v79 = select (R V main_v76 : (⟨S800000, .i1⟩ : BufTy).Contents (Elt F)) (R V main_v78 : (⟨S800000, .i32⟩ : BufTy).Contents (Elt F)) (R V main_v1 : (⟨S800000, .i32⟩ : BufTy).Contents (Elt F)) :=
  final_ternary (c := main_v76) (a := main_v78) (b := main_v1) (y := main_v79) (f := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) assign V 101 rfl rfl
    (after_take_of_lt assign V (i := 97) (j := 101) (x := main_v76) rfl (by decide))
    (after_take_of_lt assign V (i := 100) (j := 101) (x := main_v78) rfl (by decide))
    (after_take_of_lt assign V (i := 1) (j := 101) (x := main_v1) rfl (by decide))

theorem val_v80 (V : Valuation τ sig (Elt F)) :
    R V main_v80 = broadcastInDim S800000x1 ![0] bcast_S800000_S800000x1_0 (R V main_v79 : (⟨S800000, .i32⟩ : BufTy).Contents (Elt F)) :=
  final_unary (x := main_v79) (y := main_v80) (f := (broadcastInDim S800000x1 ![0] bcast_S800000_S800000x1_0 : (⟨S800000, .i32⟩ : BufTy).Contents (Elt F) → (⟨S800000x1, .i32⟩ : BufTy).Contents (Elt F))) assign V 102 rfl rfl
    (after_take_of_lt assign V (i := 101) (j := 102) (x := main_v79) rfl (by decide))

theorem val_v81 (V : Valuation τ sig (Elt F)) :
    R V main_v81 = Host.gather gather_S50000x256_S800000x1_S800000x256_1_0_n_n_0_1_1256 (R V main_v51 : (⟨S50000x256, .f32⟩ : BufTy).Contents (Elt F)) (R V main_v80 : (⟨S800000x1, .i32⟩ : BufTy).Contents (Elt F)) :=
  final_binary (a := main_v51) (b := main_v80) (y := main_v81) (f := ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F))) assign V 103 rfl rfl
    (after_take_of_lt assign V (i := 64) (j := 103) (x := main_v51) rfl (by decide))
    (after_take_of_lt assign V (i := 102) (j := 103) (x := main_v80) rfl (by decide))

theorem val_v82 (V : Valuation τ sig (Elt F)) :
    R V main_v82 = broadcastInDim S800000x256 ![0, 1] bcast_S800000x1_S800000x256_0_1 (R V main_v74 : (⟨S800000x1, .f32⟩ : BufTy).Contents (Elt F)) :=
  final_unary (x := main_v74) (y := main_v82) (f := (broadcastInDim S800000x256 ![0, 1] bcast_S800000x1_S800000x256_0_1 : (⟨S800000x1, .f32⟩ : BufTy).Contents (Elt F) → (⟨S800000x256, .f32⟩ : BufTy).Contents (Elt F))) assign V 104 rfl rfl
    (after_take_of_lt assign V (i := 94) (j := 104) (x := main_v74) rfl (by decide))

theorem val_v83 (V : Valuation τ sig (Elt F)) :
    R V main_v83 = mulf (R V main_v82 : (⟨S800000x256, .f32⟩ : BufTy).Contents (Elt F)) (R V main_v81 : (⟨S800000x256, .f32⟩ : BufTy).Contents (Elt F)) :=
  final_binary (a := main_v82) (b := main_v81) (y := main_v83) (f := (mulf : (⟨S800000x256, .f32⟩ : BufTy).Contents (Elt F) → (⟨S800000x256, .f32⟩ : BufTy).Contents (Elt F) → (⟨S800000x256, .f32⟩ : BufTy).Contents (Elt F))) assign V 105 rfl rfl
    (after_take_of_lt assign V (i := 104) (j := 105) (x := main_v82) rfl (by decide))
    (after_take_of_lt assign V (i := 103) (j := 105) (x := main_v81) rfl (by decide))

theorem val_cst_18 (V : Valuation τ sig (Elt F)) :
    R V main_cst_18 = (constant S_ .f32 0x00000000#32 : (⟨S_, .f32⟩ : BufTy).Contents (Elt F)) :=
  final_nullary (y := main_cst_18) assign V 106 rfl rfl

theorem val_v84 (V : Valuation τ sig (Elt F)) :
    R V main_v84 = broadcastInDim S50000x256 ![] bcast_S_S50000x256 (R V main_cst_18 : (⟨S_, .f32⟩ : BufTy).Contents (Elt F)) :=
  final_unary (x := main_cst_18) (y := main_v84) (f := (broadcastInDim S50000x256 ![] bcast_S_S50000x256 : (⟨S_, .f32⟩ : BufTy).Contents (Elt F) → (⟨S50000x256, .f32⟩ : BufTy).Contents (Elt F))) assign V 107 rfl rfl
    (after_take_of_lt assign V (i := 106) (j := 107) (x := main_cst_18) rfl (by decide))

theorem val_v85 (V : Valuation τ sig (Elt F)) :
    R V main_v85 = broadcastInDim S800000x1 ![0] bcast_S800000_S800000x1_0 (R V main_v3 : (⟨S800000, .i32⟩ : BufTy).Contents (Elt F)) :=
  final_unary (x := main_v3) (y := main_v85) (f := (broadcastInDim S800000x1 ![0] bcast_S800000_S800000x1_0 : (⟨S800000, .i32⟩ : BufTy).Contents (Elt F) → (⟨S800000x1, .i32⟩ : BufTy).Contents (Elt F))) assign V 108 rfl rfl
    (after_take_of_lt assign V (i := 3) (j := 108) (x := main_v3) rfl (by decide))

theorem val_v86 (V : Valuation τ sig (Elt F)) :
    R V main_v86 = Host.scatterAdd scatter_S50000x256_S800000x1_S800000x256_1_0_0_1 (R V main_v84 : (⟨S50000x256, .f32⟩ : BufTy).Contents (Elt F)) (R V main_v85 : (⟨S800000x1, .i32⟩ : BufTy).Contents (Elt F)) (R V main_v83 : (⟨S800000x256, .f32⟩ : BufTy).Contents (Elt F)) :=
  final_ternary (c := main_v84) (a := main_v85) (b := main_v83) (y := main_v86) (f := ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F))) assign V 109 rfl rfl
    (after_take_of_lt assign V (i := 107) (j := 109) (x := main_v84) rfl (by decide))
    (after_take_of_lt assign V (i := 108) (j := 109) (x := main_v85) rfl (by decide))
    (after_take_of_lt assign V (i := 105) (j := 109) (x := main_v83) rfl (by decide))

theorem val_cst_19 (V : Valuation τ sig (Elt F)) :
    R V main_cst_19 = (constant S_ .f32 0x3F800000#32 : (⟨S_, .f32⟩ : BufTy).Contents (Elt F)) :=
  final_nullary (y := main_cst_19) assign V 110 rfl rfl

theorem val_v87 (V : Valuation τ sig (Elt F)) :
    R V main_v87 = broadcastInDim S50000 ![] bcast_S_S50000 (R V main_cst_19 : (⟨S_, .f32⟩ : BufTy).Contents (Elt F)) :=
  final_unary (x := main_cst_19) (y := main_v87) (f := (broadcastInDim S50000 ![] bcast_S_S50000 : (⟨S_, .f32⟩ : BufTy).Contents (Elt F) → (⟨S50000, .f32⟩ : BufTy).Contents (Elt F))) assign V 111 rfl rfl
    (after_take_of_lt assign V (i := 110) (j := 111) (x := main_cst_19) rfl (by decide))

theorem val_v88 (V : Valuation τ sig (Elt F)) :
    R V main_v88 = Host.divf (R V main_v87 : (⟨S50000, .f32⟩ : BufTy).Contents (Elt F)) (R V main_v57 : (⟨S50000, .f32⟩ : BufTy).Contents (Elt F)) :=
  final_binary (a := main_v87) (b := main_v57) (y := main_v88) (f := (Host.divf : (⟨S50000, .f32⟩ : BufTy).Contents (Elt F) → (⟨S50000, .f32⟩ : BufTy).Contents (Elt F) → (⟨S50000, .f32⟩ : BufTy).Contents (Elt F))) assign V 112 rfl rfl
    (after_take_of_lt assign V (i := 111) (j := 112) (x := main_v87) rfl (by decide))
    (after_take_of_lt assign V (i := 73) (j := 112) (x := main_v57) rfl (by decide))

theorem val_v89 (V : Valuation τ sig (Elt F)) :
    R V main_v89 = broadcastInDim S50000x1 ![0] bcast_S50000_S50000x1_0 (R V main_v88 : (⟨S50000, .f32⟩ : BufTy).Contents (Elt F)) :=
  final_unary (x := main_v88) (y := main_v89) (f := (broadcastInDim S50000x1 ![0] bcast_S50000_S50000x1_0 : (⟨S50000, .f32⟩ : BufTy).Contents (Elt F) → (⟨S50000x1, .f32⟩ : BufTy).Contents (Elt F))) assign V 113 rfl rfl
    (after_take_of_lt assign V (i := 112) (j := 113) (x := main_v88) rfl (by decide))

theorem val_v90 (V : Valuation τ sig (Elt F)) :
    R V main_v90 = broadcastInDim S50000x256 ![0, 1] bcast_S50000x1_S50000x256_0_1 (R V main_v89 : (⟨S50000x1, .f32⟩ : BufTy).Contents (Elt F)) :=
  final_unary (x := main_v89) (y := main_v90) (f := (broadcastInDim S50000x256 ![0, 1] bcast_S50000x1_S50000x256_0_1 : (⟨S50000x1, .f32⟩ : BufTy).Contents (Elt F) → (⟨S50000x256, .f32⟩ : BufTy).Contents (Elt F))) assign V 114 rfl rfl
    (after_take_of_lt assign V (i := 113) (j := 114) (x := main_v89) rfl (by decide))

theorem val_v91 (V : Valuation τ sig (Elt F)) :
    R V main_v91 = mulf (R V main_v51 : (⟨S50000x256, .f32⟩ : BufTy).Contents (Elt F)) (R V main_v90 : (⟨S50000x256, .f32⟩ : BufTy).Contents (Elt F)) :=
  final_binary (a := main_v51) (b := main_v90) (y := main_v91) (f := (mulf : (⟨S50000x256, .f32⟩ : BufTy).Contents (Elt F) → (⟨S50000x256, .f32⟩ : BufTy).Contents (Elt F) → (⟨S50000x256, .f32⟩ : BufTy).Contents (Elt F))) assign V 115 rfl rfl
    (after_take_of_lt assign V (i := 64) (j := 115) (x := main_v51) rfl (by decide))
    (after_take_of_lt assign V (i := 114) (j := 115) (x := main_v90) rfl (by decide))

theorem val_v92 (V : Valuation τ sig (Elt F)) :
    R V main_v92 = addf (R V main_v86 : (⟨S50000x256, .f32⟩ : BufTy).Contents (Elt F)) (R V main_v91 : (⟨S50000x256, .f32⟩ : BufTy).Contents (Elt F)) :=
  final_binary (a := main_v86) (b := main_v91) (y := main_v92) (f := (addf : (⟨S50000x256, .f32⟩ : BufTy).Contents (Elt F) → (⟨S50000x256, .f32⟩ : BufTy).Contents (Elt F) → (⟨S50000x256, .f32⟩ : BufTy).Contents (Elt F))) assign V 116 rfl rfl
    (after_take_of_lt assign V (i := 109) (j := 116) (x := main_v86) rfl (by decide))
    (after_take_of_lt assign V (i := 115) (j := 116) (x := main_v91) rfl (by decide))

theorem val_v93 (V : Valuation τ sig (Elt F)) :
    R V main_v93 = broadcastInDim S1x256 ![1] bcast_S256_S1x256_1 (R V main_arg6 : (⟨S256, .f32⟩ : BufTy).Contents (Elt F)) :=
  final_unary (x := main_arg6) (y := main_v93) (f := (broadcastInDim S1x256 ![1] bcast_S256_S1x256_1 : (⟨S256, .f32⟩ : BufTy).Contents (Elt F) → (⟨S1x256, .f32⟩ : BufTy).Contents (Elt F))) assign V 117 rfl rfl
    (after_take_of_not_assigned assign V 117 arg6_not_written)

theorem val_v94 (V : Valuation τ sig (Elt F)) :
    R V main_v94 = broadcastInDim S50000x256 ![0, 1] bcast_S1x256_S50000x256_0_1 (R V main_v93 : (⟨S1x256, .f32⟩ : BufTy).Contents (Elt F)) :=
  final_unary (x := main_v93) (y := main_v94) (f := (broadcastInDim S50000x256 ![0, 1] bcast_S1x256_S50000x256_0_1 : (⟨S1x256, .f32⟩ : BufTy).Contents (Elt F) → (⟨S50000x256, .f32⟩ : BufTy).Contents (Elt F))) assign V 118 rfl rfl
    (after_take_of_lt assign V (i := 117) (j := 118) (x := main_v93) rfl (by decide))

theorem val_v95 (V : Valuation τ sig (Elt F)) :
    R V main_v95 = addf (R V main_v92 : (⟨S50000x256, .f32⟩ : BufTy).Contents (Elt F)) (R V main_v94 : (⟨S50000x256, .f32⟩ : BufTy).Contents (Elt F)) :=
  final_binary (a := main_v92) (b := main_v94) (y := main_v95) (f := (addf : (⟨S50000x256, .f32⟩ : BufTy).Contents (Elt F) → (⟨S50000x256, .f32⟩ : BufTy).Contents (Elt F) → (⟨S50000x256, .f32⟩ : BufTy).Contents (Elt F))) assign V 119 rfl rfl
    (after_take_of_lt assign V (i := 116) (j := 119) (x := main_v92) rfl (by decide))
    (after_take_of_lt assign V (i := 118) (j := 119) (x := main_v94) rfl (by decide))

theorem val_call1_cst (V : Valuation τ sig (Elt F)) :
    R V main_call1_cst = (constant S_ .f32 0x00000000#32 : (⟨S_, .f32⟩ : BufTy).Contents (Elt F)) :=
  final_nullary (y := main_call1_cst) assign V 120 rfl rfl

theorem val_call1_v0 (V : Valuation τ sig (Elt F)) :
    R V main_call1_v0 = broadcastInDim S50000x256 ![] bcast_S_S50000x256 (R V main_call1_cst : (⟨S_, .f32⟩ : BufTy).Contents (Elt F)) :=
  final_unary (x := main_call1_cst) (y := main_call1_v0) (f := ((broadcastInDim S50000x256 ![] bcast_S_S50000x256) : (⟨S_, .f32⟩ : BufTy).Contents (Elt F) → (⟨S50000x256, .f32⟩ : BufTy).Contents (Elt F))) assign V 121 rfl rfl
    (after_take_of_lt assign V (i := 120) (j := 121) (x := main_call1_cst) rfl (by decide))

theorem val_v96 (V : Valuation τ sig (Elt F)) :
    R V main_v96 = maximumf (R V main_v95 : (⟨S50000x256, .f32⟩ : BufTy).Contents (Elt F)) (R V main_call1_v0 : (⟨S50000x256, .f32⟩ : BufTy).Contents (Elt F)) :=
  final_binary (a := main_v95) (b := main_call1_v0) (y := main_v96) (f := (maximumf : (⟨S50000x256, .f32⟩ : BufTy).Contents (Elt F) → (⟨S50000x256, .f32⟩ : BufTy).Contents (Elt F) → (⟨S50000x256, .f32⟩ : BufTy).Contents (Elt F))) assign V 122 rfl rfl
    (after_take_of_lt assign V (i := 119) (j := 122) (x := main_v95) rfl (by decide))
    (after_take_of_lt assign V (i := 121) (j := 122) (x := main_call1_v0) rfl (by decide))
end Cert.ReferenceIdeal.Hand

end
-- ==== Proof.RefVals2.lean ====
/-
  The reference's run read one variable at a time (operations 123 … 191 of the line `ops`).

  The line is in single-assignment form, so the final contents `R V y` of the variable an operation assigns is that
  operation's function of the FINAL contents of its operands: each operand is assigned earlier in the line, or never
  (an argument of @main), and is not touched afterwards. One equation per variable, spelt with the operation the
  program prints; no composed term is written.
-/
import proofs.«116509_j71700184039973_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem val_v97 (V : Valuation τ sig (Elt F)) :
    R V main_v97 = Host.dotGeneral dot_S50000x256_S256x256_S50000x256_1_0_0_1_n_n none (R V main_v96 : (⟨S50000x256, .f32⟩ : BufTy).Contents (Elt F)) (R V main_arg7 : (⟨S256x256, .f32⟩ : BufTy).Contents (Elt F)) :=
  final_binary (a := main_v96) (b := main_arg7) (y := main_v97) (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) assign V 123 rfl rfl
    (after_take_of_lt assign V (i := 122) (j := 123) (x := main_v96) rfl (by decide))
    (after_take_of_not_assigned assign V 123 arg7_not_written)

theorem val_v98 (V : Valuation τ sig (Elt F)) :
    R V main_v98 = broadcastInDim S1x256 ![1] bcast_S256_S1x256_1 (R V main_arg8 : (⟨S256, .f32⟩ : BufTy).Contents (Elt F)) :=
  final_unary (x := main_arg8) (y := main_v98) (f := (broadcastInDim S1x256 ![1] bcast_S256_S1x256_1 : (⟨S256, .f32⟩ : BufTy).Contents (Elt F) → (⟨S1x256, .f32⟩ : BufTy).Contents (Elt F))) assign V 124 rfl rfl
    (after_take_of_not_assigned assign V 124 arg8_not_written)

theorem val_v99 (V : Valuation τ sig (Elt F)) :
    R V main_v99 = broadcastInDim S50000x256 ![0, 1] bcast_S1x256_S50000x256_0_1 (R V main_v98 : (⟨S1x256, .f32⟩ : BufTy).Contents (Elt F)) :=
  final_unary (x := main_v98) (y := main_v99) (f := (broadcastInDim S50000x256 ![0, 1] bcast_S1x256_S50000x256_0_1 : (⟨S1x256, .f32⟩ : BufTy).Contents (Elt F) → (⟨S50000x256, .f32⟩ : BufTy).Contents (Elt F))) assign V 125 rfl rfl
    (after_take_of_lt assign V (i := 124) (j := 125) (x := main_v98) rfl (by decide))

theorem val_v100 (V : Valuation τ sig (Elt F)) :
    R V main_v100 = addf (R V main_v97 : (⟨S50000x256, .f32⟩ : BufTy).Contents (Elt F)) (R V main_v99 : (⟨S50000x256, .f32⟩ : BufTy).Contents (Elt F)) :=
  final_binary (a := main_v97) (b := main_v99) (y := main_v100) (f := (addf : (⟨S50000x256, .f32⟩ : BufTy).Contents (Elt F) → (⟨S50000x256, .f32⟩ : BufTy).Contents (Elt F) → (⟨S50000x256, .f32⟩ : BufTy).Contents (Elt F))) assign V 126 rfl rfl
    (after_take_of_lt assign V (i := 123) (j := 126) (x := main_v97) rfl (by decide))
    (after_take_of_lt assign V (i := 125) (j := 126) (x := main_v99) rfl (by decide))

theorem val_cst_20 (V : Valuation τ sig (Elt F)) :
    R V main_cst_20 = (constant S_ .f32 0x00000000#32 : (⟨S_, .f32⟩ : BufTy).Contents (Elt F)) :=
  final_nullary (y := main_cst_20) assign V 127 rfl rfl

theorem val_v101 (V : Valuation τ sig (Elt F)) :
    R V main_v101 = Host.reduceAdd (R V main_v100 : (⟨S50000x256, .f32⟩ : BufTy).Contents (Elt F)) (R V main_cst_20 : (⟨S_, .f32⟩ : BufTy).Contents (Elt F)) reducesTo_S50000x256_S256_d0 h_S_ :=
  final_binary (a := main_v100) (b := main_cst_20) (y := main_v101) (f := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F))) assign V 128 rfl rfl
    (after_take_of_lt assign V (i := 126) (j := 128) (x := main_v100) rfl (by decide))
    (after_take_of_lt assign V (i := 127) (j := 128) (x := main_cst_20) rfl (by decide))

theorem val_cst_21 (V : Valuation τ sig (Elt F)) :
    R V main_cst_21 = (constant S_ .f32 0x47435000#32 : (⟨S_, .f32⟩ : BufTy).Contents (Elt F)) :=
  final_nullary (y := main_cst_21) assign V 129 rfl rfl

theorem val_v102 (V : Valuation τ sig (Elt F)) :
    R V main_v102 = broadcastInDim S256 ![] bcast_S_S256 (R V main_cst_21 : (⟨S_, .f32⟩ : BufTy).Contents (Elt F)) :=
  final_unary (x := main_cst_21) (y := main_v102) (f := (broadcastInDim S256 ![] bcast_S_S256 : (⟨S_, .f32⟩ : BufTy).Contents (Elt F) → (⟨S256, .f32⟩ : BufTy).Contents (Elt F))) assign V 130 rfl rfl
    (after_take_of_lt assign V (i := 129) (j := 130) (x := main_cst_21) rfl (by decide))

theorem val_v103 (V : Valuation τ sig (Elt F)) :
    R V main_v103 = Host.divf (R V main_v101 : (⟨S256, .f32⟩ : BufTy).Contents (Elt F)) (R V main_v102 : (⟨S256, .f32⟩ : BufTy).Contents (Elt F)) :=
  final_binary (a := main_v101) (b := main_v102) (y := main_v103) (f := (Host.divf : (⟨S256, .f32⟩ : BufTy).Contents (Elt F) → (⟨S256, .f32⟩ : BufTy).Contents (Elt F) → (⟨S256, .f32⟩ : BufTy).Contents (Elt F))) assign V 131 rfl rfl
    (after_take_of_lt assign V (i := 128) (j := 131) (x := main_v101) rfl (by decide))
    (after_take_of_lt assign V (i := 130) (j := 131) (x := main_v102) rfl (by decide))

theorem val_c_22 (V : Valuation τ sig (Elt F)) :
    R V main_c_22 = (constantI S_ 32 0#32 : (⟨S_, .i32⟩ : BufTy).Contents (Elt F)) :=
  final_nullary (y := main_c_22) assign V 132 rfl rfl

theorem val_call2_cst (V : Valuation τ sig (Elt F)) :
    R V main_call2_cst = (constant S_ .f32 0x00000000#32 : (⟨S_, .f32⟩ : BufTy).Contents (Elt F)) :=
  final_nullary (y := main_call2_cst) assign V 133 rfl rfl

theorem val_call2_v0 (V : Valuation τ sig (Elt F)) :
    R V main_call2_v0 = Host.reduceAdd (R V main_v100 : (⟨S50000x256, .f32⟩ : BufTy).Contents (Elt F)) (R V main_call2_cst : (⟨S_, .f32⟩ : BufTy).Contents (Elt F)) reducesTo_S50000x256_S256_d0 h_S_ :=
  final_binary (a := main_v100) (b := main_call2_cst) (y := main_call2_v0) (f := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F))) assign V 134 rfl rfl
    (after_take_of_lt assign V (i := 126) (j := 134) (x := main_v100) rfl (by decide))
    (after_take_of_lt assign V (i := 133) (j := 134) (x := main_call2_cst) rfl (by decide))

theorem val_call2_v1 (V : Valuation τ sig (Elt F)) :
    R V main_call2_v1 = broadcastInDim S1x256 ![1] bcast_S256_S1x256_1 (R V main_call2_v0 : (⟨S256, .f32⟩ : BufTy).Contents (Elt F)) :=
  final_unary (x := main_call2_v0) (y := main_call2_v1) (f := ((broadcastInDim S1x256 ![1] bcast_S256_S1x256_1) : (⟨S256, .f32⟩ : BufTy).Contents (Elt F) → (⟨S1x256, .f32⟩ : BufTy).Contents (Elt F))) assign V 135 rfl rfl
    (after_take_of_lt assign V (i := 134) (j := 135) (x := main_call2_v0) rfl (by decide))

theorem val_call2_cst_0 (V : Valuation τ sig (Elt F)) :
    R V main_call2_cst_0 = (constant S_ .f32 0x47435000#32 : (⟨S_, .f32⟩ : BufTy).Contents (Elt F)) :=
  final_nullary (y := main_call2_cst_0) assign V 136 rfl rfl

theorem val_call2_v2 (V : Valuation τ sig (Elt F)) :
    R V main_call2_v2 = broadcastInDim S1x256 ![] bcast_S_S1x256 (R V main_call2_cst_0 : (⟨S_, .f32⟩ : BufTy).Contents (Elt F)) :=
  final_unary (x := main_call2_cst_0) (y := main_call2_v2) (f := ((broadcastInDim S1x256 ![] bcast_S_S1x256) : (⟨S_, .f32⟩ : BufTy).Contents (Elt F) → (⟨S1x256, .f32⟩ : BufTy).Contents (Elt F))) assign V 137 rfl rfl
    (after_take_of_lt assign V (i := 136) (j := 137) (x := main_call2_cst_0) rfl (by decide))

theorem val_call2_v3 (V : Valuation τ sig (Elt F)) :
    R V main_call2_v3 = Host.divf (R V main_call2_v1 : (⟨S1x256, .f32⟩ : BufTy).Contents (Elt F)) (R V main_call2_v2 : (⟨S1x256, .f32⟩ : BufTy).Contents (Elt F)) :=
  final_binary (a := main_call2_v1) (b := main_call2_v2) (y := main_call2_v3) (f := (Host.divf : (⟨S1x256, .f32⟩ : BufTy).Contents (Elt F) → (⟨S1x256, .f32⟩ : BufTy).Contents (Elt F) → (⟨S1x256, .f32⟩ : BufTy).Contents (Elt F))) assign V 138 rfl rfl
    (after_take_of_lt assign V (i := 135) (j := 138) (x := main_call2_v1) rfl (by decide))
    (after_take_of_lt assign V (i := 137) (j := 138) (x := main_call2_v2) rfl (by decide))

theorem val_call2_v4 (V : Valuation τ sig (Elt F)) :
    R V main_call2_v4 = broadcastInDim S50000x256 ![0, 1] bcast_S1x256_S50000x256_0_1 (R V main_call2_v3 : (⟨S1x256, .f32⟩ : BufTy).Contents (Elt F)) :=
  final_unary (x := main_call2_v3) (y := main_call2_v4) (f := ((broadcastInDim S50000x256 ![0, 1] bcast_S1x256_S50000x256_0_1) : (⟨S1x256, .f32⟩ : BufTy).Contents (Elt F) → (⟨S50000x256, .f32⟩ : BufTy).Contents (Elt F))) assign V 139 rfl rfl
    (after_take_of_lt assign V (i := 138) (j := 139) (x := main_call2_v3) rfl (by decide))

theorem val_call2_v5 (V : Valuation τ sig (Elt F)) :
    R V main_call2_v5 = subf (R V main_v100 : (⟨S50000x256, .f32⟩ : BufTy).Contents (Elt F)) (R V main_call2_v4 : (⟨S50000x256, .f32⟩ : BufTy).Contents (Elt F)) :=
  final_binary (a := main_v100) (b := main_call2_v4) (y := main_call2_v5) (f := (subf : (⟨S50000x256, .f32⟩ : BufTy).Contents (Elt F) → (⟨S50000x256, .f32⟩ : BufTy).Contents (Elt F) → (⟨S50000x256, .f32⟩ : BufTy).Contents (Elt F))) assign V 140 rfl rfl
    (after_take_of_lt assign V (i := 126) (j := 140) (x := main_v100) rfl (by decide))
    (after_take_of_lt assign V (i := 139) (j := 140) (x := main_call2_v4) rfl (by decide))

theorem val_call2_v6 (V : Valuation τ sig (Elt F)) :
    R V main_call2_v6 = mulf (R V main_call2_v5 : (⟨S50000x256, .f32⟩ : BufTy).Contents (Elt F)) (R V main_call2_v5 : (⟨S50000x256, .f32⟩ : BufTy).Contents (Elt F)) :=
  final_binary (a := main_call2_v5) (b := main_call2_v5) (y := main_call2_v6) (f := (mulf : (⟨S50000x256, .f32⟩ : BufTy).Contents (Elt F) → (⟨S50000x256, .f32⟩ : BufTy).Contents (Elt F) → (⟨S50000x256, .f32⟩ : BufTy).Contents (Elt F))) assign V 141 rfl rfl
    (after_take_of_lt assign V (i := 140) (j := 141) (x := main_call2_v5) rfl (by decide))
    (after_take_of_lt assign V (i := 140) (j := 141) (x := main_call2_v5) rfl (by decide))

theorem val_call2_v7 (V : Valuation τ sig (Elt F)) :
    R V main_call2_v7 = sitofp .f32 (R V main_c_22 : (⟨S_, .i32⟩ : BufTy).Contents (Elt F)) :=
  final_unary (x := main_c_22) (y := main_call2_v7) (f := ((sitofp .f32) : (⟨S_, .i32⟩ : BufTy).Contents (Elt F) → (⟨S_, .f32⟩ : BufTy).Contents (Elt F))) assign V 142 rfl rfl
    (after_take_of_lt assign V (i := 132) (j := 142) (x := main_c_22) rfl (by decide))

theorem val_call2_cst_1 (V : Valuation τ sig (Elt F)) :
    R V main_call2_cst_1 = (constant S_ .f32 0x47435000#32 : (⟨S_, .f32⟩ : BufTy).Contents (Elt F)) :=
  final_nullary (y := main_call2_cst_1) assign V 143 rfl rfl

theorem val_call2_v8 (V : Valuation τ sig (Elt F)) :
    R V main_call2_v8 = subf (R V main_call2_cst_1 : (⟨S_, .f32⟩ : BufTy).Contents (Elt F)) (R V main_call2_v7 : (⟨S_, .f32⟩ : BufTy).Contents (Elt F)) :=
  final_binary (a := main_call2_cst_1) (b := main_call2_v7) (y := main_call2_v8) (f := (subf : (⟨S_, .f32⟩ : BufTy).Contents (Elt F) → (⟨S_, .f32⟩ : BufTy).Contents (Elt F) → (⟨S_, .f32⟩ : BufTy).Contents (Elt F))) assign V 144 rfl rfl
    (after_take_of_lt assign V (i := 143) (j := 144) (x := main_call2_cst_1) rfl (by decide))
    (after_take_of_lt assign V (i := 142) (j := 144) (x := main_call2_v7) rfl (by decide))

theorem val_call2_cst_2 (V : Valuation τ sig (Elt F)) :
    R V main_call2_cst_2 = (constant S_ .f32 0x00000000#32 : (⟨S_, .f32⟩ : BufTy).Contents (Elt F)) :=
  final_nullary (y := main_call2_cst_2) assign V 145 rfl rfl

theorem val_call2_v9 (V : Valuation τ sig (Elt F)) :
    R V main_call2_v9 = Host.reduceAdd (R V main_call2_v6 : (⟨S50000x256, .f32⟩ : BufTy).Contents (Elt F)) (R V main_call2_cst_2 : (⟨S_, .f32⟩ : BufTy).Contents (Elt F)) reducesTo_S50000x256_S256_d0 h_S_ :=
  final_binary (a := main_call2_v6) (b := main_call2_cst_2) (y := main_call2_v9) (f := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F))) assign V 146 rfl rfl
    (after_take_of_lt assign V (i := 141) (j := 146) (x := main_call2_v6) rfl (by decide))
    (after_take_of_lt assign V (i := 145) (j := 146) (x := main_call2_cst_2) rfl (by decide))

theorem val_call2_v10 (V : Valuation τ sig (Elt F)) :
    R V main_call2_v10 = broadcastInDim S256 ![] bcast_S_S256 (R V main_call2_v8 : (⟨S_, .f32⟩ : BufTy).Contents (Elt F)) :=
  final_unary (x := main_call2_v8) (y := main_call2_v10) (f := ((broadcastInDim S256 ![] bcast_S_S256) : (⟨S_, .f32⟩ : BufTy).Contents (Elt F) → (⟨S256, .f32⟩ : BufTy).Contents (Elt F))) assign V 147 rfl rfl
    (after_take_of_lt assign V (i := 144) (j := 147) (x := main_call2_v8) rfl (by decide))

theorem val_call2_v11 (V : Valuation τ sig (Elt F)) :
    R V main_call2_v11 = Host.divf (R V main_call2_v9 : (⟨S256, .f32⟩ : BufTy).Contents (Elt F)) (R V main_call2_v10 : (⟨S256, .f32⟩ : BufTy).Contents (Elt F)) :=
  final_binary (a := main_call2_v9) (b := main_call2_v10) (y := main_call2_v11) (f := (Host.divf : (⟨S256, .f32⟩ : BufTy).Contents (Elt F) → (⟨S256, .f32⟩ : BufTy).Contents (Elt F) → (⟨S256, .f32⟩ : BufTy).Contents (Elt F))) assign V 148 rfl rfl
    (after_take_of_lt assign V (i := 146) (j := 148) (x := main_call2_v9) rfl (by decide))
    (after_take_of_lt assign V (i := 147) (j := 148) (x := main_call2_v10) rfl (by decide))

theorem val_call2_cst_3 (V : Valuation τ sig (Elt F)) :
    R V main_call2_cst_3 = (constant S_ .f32 0x00000000#32 : (⟨S_, .f32⟩ : BufTy).Contents (Elt F)) :=
  final_nullary (y := main_call2_cst_3) assign V 149 rfl rfl

theorem val_call2_v12 (V : Valuation τ sig (Elt F)) :
    R V main_call2_v12 = cmpf .ogt (R V main_call2_v8 : (⟨S_, .f32⟩ : BufTy).Contents (Elt F)) (R V main_call2_cst_3 : (⟨S_, .f32⟩ : BufTy).Contents (Elt F)) :=
  final_binary (a := main_call2_v8) (b := main_call2_cst_3) (y := main_call2_v12) (f := ((cmpf .ogt) : (⟨S_, .f32⟩ : BufTy).Contents (Elt F) → (⟨S_, .f32⟩ : BufTy).Contents (Elt F) → (⟨S_, .i1⟩ : BufTy).Contents (Elt F))) assign V 150 rfl rfl
    (after_take_of_lt assign V (i := 144) (j := 150) (x := main_call2_v8) rfl (by decide))
    (after_take_of_lt assign V (i := 149) (j := 150) (x := main_call2_cst_3) rfl (by decide))

theorem val_call2_cst_4 (V : Valuation τ sig (Elt F)) :
    R V main_call2_cst_4 = (constant S_ .f32 0x7FC00000#32 : (⟨S_, .f32⟩ : BufTy).Contents (Elt F)) :=
  final_nullary (y := main_call2_cst_4) assign V 151 rfl rfl

theorem val_call2_call0_v0 (V : Valuation τ sig (Elt F)) :
    R V main_call2_call0_v0 = id (R V main_call2_cst_4 : (⟨S_, .f32⟩ : BufTy).Contents (Elt F)) :=
  final_unary (x := main_call2_cst_4) (y := main_call2_call0_v0) (f := (id : (⟨S_, .f32⟩ : BufTy).Contents (Elt F) → (⟨S_, .f32⟩ : BufTy).Contents (Elt F))) assign V 152 rfl rfl
    (after_take_of_lt assign V (i := 151) (j := 152) (x := main_call2_cst_4) rfl (by decide))

theorem val_call2_call0_v1 (V : Valuation τ sig (Elt F)) :
    R V main_call2_call0_v1 = broadcastInDim S256 ![] bcast_S_S256 (R V main_call2_call0_v0 : (⟨S_, .f32⟩ : BufTy).Contents (Elt F)) :=
  final_unary (x := main_call2_call0_v0) (y := main_call2_call0_v1) (f := ((broadcastInDim S256 ![] bcast_S_S256) : (⟨S_, .f32⟩ : BufTy).Contents (Elt F) → (⟨S256, .f32⟩ : BufTy).Contents (Elt F))) assign V 153 rfl rfl
    (after_take_of_lt assign V (i := 152) (j := 153) (x := main_call2_call0_v0) rfl (by decide))

theorem val_v104 (V : Valuation τ sig (Elt F)) :
    R V main_v104 = select (broadcastInDim S256 ![] bcast_S_S256 (R V main_call2_v12 : (⟨S_, .i1⟩ : BufTy).Contents (Elt F))) (R V main_call2_v11 : (⟨S256, .f32⟩ : BufTy).Contents (Elt F)) (R V main_call2_call0_v1 : (⟨S256, .f32⟩ : BufTy).Contents (Elt F)) :=
  final_ternary (c := main_call2_v12) (a := main_call2_v11) (b := main_call2_call0_v1) (y := main_v104) (f := ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F))) assign V 154 rfl rfl
    (after_take_of_lt assign V (i := 150) (j := 154) (x := main_call2_v12) rfl (by decide))
    (after_take_of_lt assign V (i := 148) (j := 154) (x := main_call2_v11) rfl (by decide))
    (after_take_of_lt assign V (i := 153) (j := 154) (x := main_call2_call0_v1) rfl (by decide))

theorem val_v105 (V : Valuation τ sig (Elt F)) :
    R V main_v105 = broadcastInDim S1x256 ![1] bcast_S256_S1x256_1 (R V main_v103 : (⟨S256, .f32⟩ : BufTy).Contents (Elt F)) :=
  final_unary (x := main_v103) (y := main_v105) (f := (broadcastInDim S1x256 ![1] bcast_S256_S1x256_1 : (⟨S256, .f32⟩ : BufTy).Contents (Elt F) → (⟨S1x256, .f32⟩ : BufTy).Contents (Elt F))) assign V 155 rfl rfl
    (after_take_of_lt assign V (i := 131) (j := 155) (x := main_v103) rfl (by decide))

theorem val_v106 (V : Valuation τ sig (Elt F)) :
    R V main_v106 = broadcastInDim S50000x256 ![0, 1] bcast_S1x256_S50000x256_0_1 (R V main_v105 : (⟨S1x256, .f32⟩ : BufTy).Contents (Elt F)) :=
  final_unary (x := main_v105) (y := main_v106) (f := (broadcastInDim S50000x256 ![0, 1] bcast_S1x256_S50000x256_0_1 : (⟨S1x256, .f32⟩ : BufTy).Contents (Elt F) → (⟨S50000x256, .f32⟩ : BufTy).Contents (Elt F))) assign V 156 rfl rfl
    (after_take_of_lt assign V (i := 155) (j := 156) (x := main_v105) rfl (by decide))

theorem val_v107 (V : Valuation τ sig (Elt F)) :
    R V main_v107 = subf (R V main_v100 : (⟨S50000x256, .f32⟩ : BufTy).Contents (Elt F)) (R V main_v106 : (⟨S50000x256, .f32⟩ : BufTy).Contents (Elt F)) :=
  final_binary (a := main_v100) (b := main_v106) (y := main_v107) (f := (subf : (⟨S50000x256, .f32⟩ : BufTy).Contents (Elt F) → (⟨S50000x256, .f32⟩ : BufTy).Contents (Elt F) → (⟨S50000x256, .f32⟩ : BufTy).Contents (Elt F))) assign V 157 rfl rfl
    (after_take_of_lt assign V (i := 126) (j := 157) (x := main_v100) rfl (by decide))
    (after_take_of_lt assign V (i := 156) (j := 157) (x := main_v106) rfl (by decide))

theorem val_cst_23 (V : Valuation τ sig (Elt F)) :
    R V main_cst_23 = (constant S_ .f32 0x3727C5AC#32 : (⟨S_, .f32⟩ : BufTy).Contents (Elt F)) :=
  final_nullary (y := main_cst_23) assign V 158 rfl rfl

theorem val_v108 (V : Valuation τ sig (Elt F)) :
    R V main_v108 = broadcastInDim S256 ![] bcast_S_S256 (R V main_cst_23 : (⟨S_, .f32⟩ : BufTy).Contents (Elt F)) :=
  final_unary (x := main_cst_23) (y := main_v108) (f := (broadcastInDim S256 ![] bcast_S_S256 : (⟨S_, .f32⟩ : BufTy).Contents (Elt F) → (⟨S256, .f32⟩ : BufTy).Contents (Elt F))) assign V 159 rfl rfl
    (after_take_of_lt assign V (i := 158) (j := 159) (x := main_cst_23) rfl (by decide))

theorem val_v109 (V : Valuation τ sig (Elt F)) :
    R V main_v109 = addf (R V main_v104 : (⟨S256, .f32⟩ : BufTy).Contents (Elt F)) (R V main_v108 : (⟨S256, .f32⟩ : BufTy).Contents (Elt F)) :=
  final_binary (a := main_v104) (b := main_v108) (y := main_v109) (f := (addf : (⟨S256, .f32⟩ : BufTy).Contents (Elt F) → (⟨S256, .f32⟩ : BufTy).Contents (Elt F) → (⟨S256, .f32⟩ : BufTy).Contents (Elt F))) assign V 160 rfl rfl
    (after_take_of_lt assign V (i := 154) (j := 160) (x := main_v104) rfl (by decide))
    (after_take_of_lt assign V (i := 159) (j := 160) (x := main_v108) rfl (by decide))

theorem val_v110 (V : Valuation τ sig (Elt F)) :
    R V main_v110 = Host.rsqrt (R V main_v109 : (⟨S256, .f32⟩ : BufTy).Contents (Elt F)) :=
  final_unary (x := main_v109) (y := main_v110) (f := (Host.rsqrt : (⟨S256, .f32⟩ : BufTy).Contents (Elt F) → (⟨S256, .f32⟩ : BufTy).Contents (Elt F))) assign V 161 rfl rfl
    (after_take_of_lt assign V (i := 160) (j := 161) (x := main_v109) rfl (by decide))

theorem val_v111 (V : Valuation τ sig (Elt F)) :
    R V main_v111 = broadcastInDim S1x256 ![1] bcast_S256_S1x256_1 (R V main_v110 : (⟨S256, .f32⟩ : BufTy).Contents (Elt F)) :=
  final_unary (x := main_v110) (y := main_v111) (f := (broadcastInDim S1x256 ![1] bcast_S256_S1x256_1 : (⟨S256, .f32⟩ : BufTy).Contents (Elt F) → (⟨S1x256, .f32⟩ : BufTy).Contents (Elt F))) assign V 162 rfl rfl
    (after_take_of_lt assign V (i := 161) (j := 162) (x := main_v110) rfl (by decide))

theorem val_v112 (V : Valuation τ sig (Elt F)) :
    R V main_v112 = broadcastInDim S50000x256 ![0, 1] bcast_S1x256_S50000x256_0_1 (R V main_v111 : (⟨S1x256, .f32⟩ : BufTy).Contents (Elt F)) :=
  final_unary (x := main_v111) (y := main_v112) (f := (broadcastInDim S50000x256 ![0, 1] bcast_S1x256_S50000x256_0_1 : (⟨S1x256, .f32⟩ : BufTy).Contents (Elt F) → (⟨S50000x256, .f32⟩ : BufTy).Contents (Elt F))) assign V 163 rfl rfl
    (after_take_of_lt assign V (i := 162) (j := 163) (x := main_v111) rfl (by decide))

theorem val_v113 (V : Valuation τ sig (Elt F)) :
    R V main_v113 = mulf (R V main_v107 : (⟨S50000x256, .f32⟩ : BufTy).Contents (Elt F)) (R V main_v112 : (⟨S50000x256, .f32⟩ : BufTy).Contents (Elt F)) :=
  final_binary (a := main_v107) (b := main_v112) (y := main_v113) (f := (mulf : (⟨S50000x256, .f32⟩ : BufTy).Contents (Elt F) → (⟨S50000x256, .f32⟩ : BufTy).Contents (Elt F) → (⟨S50000x256, .f32⟩ : BufTy).Contents (Elt F))) assign V 164 rfl rfl
    (after_take_of_lt assign V (i := 157) (j := 164) (x := main_v107) rfl (by decide))
    (after_take_of_lt assign V (i := 163) (j := 164) (x := main_v112) rfl (by decide))

theorem val_v114 (V : Valuation τ sig (Elt F)) :
    R V main_v114 = broadcastInDim S1x256 ![1] bcast_S256_S1x256_1 (R V main_arg9 : (⟨S256, .f32⟩ : BufTy).Contents (Elt F)) :=
  final_unary (x := main_arg9) (y := main_v114) (f := (broadcastInDim S1x256 ![1] bcast_S256_S1x256_1 : (⟨S256, .f32⟩ : BufTy).Contents (Elt F) → (⟨S1x256, .f32⟩ : BufTy).Contents (Elt F))) assign V 165 rfl rfl
    (after_take_of_not_assigned assign V 165 arg9_not_written)

theorem val_v115 (V : Valuation τ sig (Elt F)) :
    R V main_v115 = broadcastInDim S50000x256 ![0, 1] bcast_S1x256_S50000x256_0_1 (R V main_v114 : (⟨S1x256, .f32⟩ : BufTy).Contents (Elt F)) :=
  final_unary (x := main_v114) (y := main_v115) (f := (broadcastInDim S50000x256 ![0, 1] bcast_S1x256_S50000x256_0_1 : (⟨S1x256, .f32⟩ : BufTy).Contents (Elt F) → (⟨S50000x256, .f32⟩ : BufTy).Contents (Elt F))) assign V 166 rfl rfl
    (after_take_of_lt assign V (i := 165) (j := 166) (x := main_v114) rfl (by decide))

theorem val_v116 (V : Valuation τ sig (Elt F)) :
    R V main_v116 = mulf (R V main_v113 : (⟨S50000x256, .f32⟩ : BufTy).Contents (Elt F)) (R V main_v115 : (⟨S50000x256, .f32⟩ : BufTy).Contents (Elt F)) :=
  final_binary (a := main_v113) (b := main_v115) (y := main_v116) (f := (mulf : (⟨S50000x256, .f32⟩ : BufTy).Contents (Elt F) → (⟨S50000x256, .f32⟩ : BufTy).Contents (Elt F) → (⟨S50000x256, .f32⟩ : BufTy).Contents (Elt F))) assign V 167 rfl rfl
    (after_take_of_lt assign V (i := 164) (j := 167) (x := main_v113) rfl (by decide))
    (after_take_of_lt assign V (i := 166) (j := 167) (x := main_v115) rfl (by decide))

theorem val_v117 (V : Valuation τ sig (Elt F)) :
    R V main_v117 = broadcastInDim S1x256 ![1] bcast_S256_S1x256_1 (R V main_arg10 : (⟨S256, .f32⟩ : BufTy).Contents (Elt F)) :=
  final_unary (x := main_arg10) (y := main_v117) (f := (broadcastInDim S1x256 ![1] bcast_S256_S1x256_1 : (⟨S256, .f32⟩ : BufTy).Contents (Elt F) → (⟨S1x256, .f32⟩ : BufTy).Contents (Elt F))) assign V 168 rfl rfl
    (after_take_of_not_assigned assign V 168 arg10_not_written)

theorem val_v118 (V : Valuation τ sig (Elt F)) :
    R V main_v118 = broadcastInDim S50000x256 ![0, 1] bcast_S1x256_S50000x256_0_1 (R V main_v117 : (⟨S1x256, .f32⟩ : BufTy).Contents (Elt F)) :=
  final_unary (x := main_v117) (y := main_v118) (f := (broadcastInDim S50000x256 ![0, 1] bcast_S1x256_S50000x256_0_1 : (⟨S1x256, .f32⟩ : BufTy).Contents (Elt F) → (⟨S50000x256, .f32⟩ : BufTy).Contents (Elt F))) assign V 169 rfl rfl
    (after_take_of_lt assign V (i := 168) (j := 169) (x := main_v117) rfl (by decide))

theorem val_v119 (V : Valuation τ sig (Elt F)) :
    R V main_v119 = addf (R V main_v116 : (⟨S50000x256, .f32⟩ : BufTy).Contents (Elt F)) (R V main_v118 : (⟨S50000x256, .f32⟩ : BufTy).Contents (Elt F)) :=
  final_binary (a := main_v116) (b := main_v118) (y := main_v119) (f := (addf : (⟨S50000x256, .f32⟩ : BufTy).Contents (Elt F) → (⟨S50000x256, .f32⟩ : BufTy).Contents (Elt F) → (⟨S50000x256, .f32⟩ : BufTy).Contents (Elt F))) assign V 170 rfl rfl
    (after_take_of_lt assign V (i := 167) (j := 170) (x := main_v116) rfl (by decide))
    (after_take_of_lt assign V (i := 169) (j := 170) (x := main_v118) rfl (by decide))

theorem val_call3_cst (V : Valuation τ sig (Elt F)) :
    R V main_call3_cst = (constant S_ .f32 0x00000000#32 : (⟨S_, .f32⟩ : BufTy).Contents (Elt F)) :=
  final_nullary (y := main_call3_cst) assign V 171 rfl rfl

theorem val_call3_v0 (V : Valuation τ sig (Elt F)) :
    R V main_call3_v0 = broadcastInDim S50000x256 ![] bcast_S_S50000x256 (R V main_call3_cst : (⟨S_, .f32⟩ : BufTy).Contents (Elt F)) :=
  final_unary (x := main_call3_cst) (y := main_call3_v0) (f := ((broadcastInDim S50000x256 ![] bcast_S_S50000x256) : (⟨S_, .f32⟩ : BufTy).Contents (Elt F) → (⟨S50000x256, .f32⟩ : BufTy).Contents (Elt F))) assign V 172 rfl rfl
    (after_take_of_lt assign V (i := 171) (j := 172) (x := main_call3_cst) rfl (by decide))

theorem val_v120 (V : Valuation τ sig (Elt F)) :
    R V main_v120 = maximumf (R V main_v119 : (⟨S50000x256, .f32⟩ : BufTy).Contents (Elt F)) (R V main_call3_v0 : (⟨S50000x256, .f32⟩ : BufTy).Contents (Elt F)) :=
  final_binary (a := main_v119) (b := main_call3_v0) (y := main_v120) (f := (maximumf : (⟨S50000x256, .f32⟩ : BufTy).Contents (Elt F) → (⟨S50000x256, .f32⟩ : BufTy).Contents (Elt F) → (⟨S50000x256, .f32⟩ : BufTy).Contents (Elt F))) assign V 173 rfl rfl
    (after_take_of_lt assign V (i := 170) (j := 173) (x := main_v119) rfl (by decide))
    (after_take_of_lt assign V (i := 172) (j := 173) (x := main_call3_v0) rfl (by decide))

theorem val_v121 (V : Valuation τ sig (Elt F)) :
    R V main_v121 = Host.dotGeneral dot_S50000x256_S256x20_S50000x20_1_0_0_1_n_n none (R V main_v120 : (⟨S50000x256, .f32⟩ : BufTy).Contents (Elt F)) (R V main_arg11 : (⟨S256x20, .f32⟩ : BufTy).Contents (Elt F)) :=
  final_binary (a := main_v120) (b := main_arg11) (y := main_v121) (f := ((fun l r => Host.dotGeneral dot_S50000x256_S256x20_S50000x20_1_0_0_1_n_n none l r) : (⟨S50000x256, .f32⟩ : BufTy).Contents (Elt F) → (⟨S256x20, .f32⟩ : BufTy).Contents (Elt F) → (⟨S50000x20, .f32⟩ : BufTy).Contents (Elt F))) assign V 174 rfl rfl
    (after_take_of_lt assign V (i := 173) (j := 174) (x := main_v120) rfl (by decide))
    (after_take_of_not_assigned assign V 174 arg11_not_written)

theorem val_v122 (V : Valuation τ sig (Elt F)) :
    R V main_v122 = broadcastInDim S1x20 ![1] bcast_S20_S1x20_1 (R V main_arg12 : (⟨S20, .f32⟩ : BufTy).Contents (Elt F)) :=
  final_unary (x := main_arg12) (y := main_v122) (f := (broadcastInDim S1x20 ![1] bcast_S20_S1x20_1 : (⟨S20, .f32⟩ : BufTy).Contents (Elt F) → (⟨S1x20, .f32⟩ : BufTy).Contents (Elt F))) assign V 175 rfl rfl
    (after_take_of_not_assigned assign V 175 arg12_not_written)

theorem val_v123 (V : Valuation τ sig (Elt F)) :
    R V main_v123 = broadcastInDim S50000x20 ![0, 1] bcast_S1x20_S50000x20_0_1 (R V main_v122 : (⟨S1x20, .f32⟩ : BufTy).Contents (Elt F)) :=
  final_unary (x := main_v122) (y := main_v123) (f := (broadcastInDim S50000x20 ![0, 1] bcast_S1x20_S50000x20_0_1 : (⟨S1x20, .f32⟩ : BufTy).Contents (Elt F) → (⟨S50000x20, .f32⟩ : BufTy).Contents (Elt F))) assign V 176 rfl rfl
    (after_take_of_lt assign V (i := 175) (j := 176) (x := main_v122) rfl (by decide))

theorem val_v124 (V : Valuation τ sig (Elt F)) :
    R V main_v124 = addf (R V main_v121 : (⟨S50000x20, .f32⟩ : BufTy).Contents (Elt F)) (R V main_v123 : (⟨S50000x20, .f32⟩ : BufTy).Contents (Elt F)) :=
  final_binary (a := main_v121) (b := main_v123) (y := main_v124) (f := (addf : (⟨S50000x20, .f32⟩ : BufTy).Contents (Elt F) → (⟨S50000x20, .f32⟩ : BufTy).Contents (Elt F) → (⟨S50000x20, .f32⟩ : BufTy).Contents (Elt F))) assign V 177 rfl rfl
    (after_take_of_lt assign V (i := 174) (j := 177) (x := main_v121) rfl (by decide))
    (after_take_of_lt assign V (i := 176) (j := 177) (x := main_v123) rfl (by decide))

theorem val_cst_24 (V : Valuation τ sig (Elt F)) :
    R V main_cst_24 = (constant S_ .f32 0xFF800000#32 : (⟨S_, .f32⟩ : BufTy).Contents (Elt F)) :=
  final_nullary (y := main_cst_24) assign V 178 rfl rfl

theorem val_v125 (V : Valuation τ sig (Elt F)) :
    R V main_v125 = Host.reduce FloatOps.maximumf (R V main_v124 : (⟨S50000x20, .f32⟩ : BufTy).Contents (Elt F)) (R V main_cst_24 : (⟨S_, .f32⟩ : BufTy).Contents (Elt F)) reducesTo_S50000x20_S50000_d1 h_S_ :=
  final_binary (a := main_v124) (b := main_cst_24) (y := main_v125) (f := ((fun x v => Host.reduce FloatOps.maximumf x v reducesTo_S50000x20_S50000_d1 h_S_) : (⟨S50000x20, .f32⟩ : BufTy).Contents (Elt F) → (⟨S_, .f32⟩ : BufTy).Contents (Elt F) → (⟨S50000, .f32⟩ : BufTy).Contents (Elt F))) assign V 179 rfl rfl
    (after_take_of_lt assign V (i := 177) (j := 179) (x := main_v124) rfl (by decide))
    (after_take_of_lt assign V (i := 178) (j := 179) (x := main_cst_24) rfl (by decide))

theorem val_cst_25 (V : Valuation τ sig (Elt F)) :
    R V main_cst_25 = (constant S_ .f32 0xFF800000#32 : (⟨S_, .f32⟩ : BufTy).Contents (Elt F)) :=
  final_nullary (y := main_cst_25) assign V 180 rfl rfl

theorem val_v126 (V : Valuation τ sig (Elt F)) :
    R V main_v126 = broadcastInDim S50000 ![] bcast_S_S50000 (R V main_cst_25 : (⟨S_, .f32⟩ : BufTy).Contents (Elt F)) :=
  final_unary (x := main_cst_25) (y := main_v126) (f := (broadcastInDim S50000 ![] bcast_S_S50000 : (⟨S_, .f32⟩ : BufTy).Contents (Elt F) → (⟨S50000, .f32⟩ : BufTy).Contents (Elt F))) assign V 181 rfl rfl
    (after_take_of_lt assign V (i := 180) (j := 181) (x := main_cst_25) rfl (by decide))

theorem val_v127 (V : Valuation τ sig (Elt F)) :
    R V main_v127 = maximumf (R V main_v126 : (⟨S50000, .f32⟩ : BufTy).Contents (Elt F)) (R V main_v125 : (⟨S50000, .f32⟩ : BufTy).Contents (Elt F)) :=
  final_binary (a := main_v126) (b := main_v125) (y := main_v127) (f := (maximumf : (⟨S50000, .f32⟩ : BufTy).Contents (Elt F) → (⟨S50000, .f32⟩ : BufTy).Contents (Elt F) → (⟨S50000, .f32⟩ : BufTy).Contents (Elt F))) assign V 182 rfl rfl
    (after_take_of_lt assign V (i := 181) (j := 182) (x := main_v126) rfl (by decide))
    (after_take_of_lt assign V (i := 179) (j := 182) (x := main_v125) rfl (by decide))

theorem val_v128 (V : Valuation τ sig (Elt F)) :
    R V main_v128 = broadcastInDim S50000x1 ![0] bcast_S50000_S50000x1_0 (R V main_v127 : (⟨S50000, .f32⟩ : BufTy).Contents (Elt F)) :=
  final_unary (x := main_v127) (y := main_v128) (f := (broadcastInDim S50000x1 ![0] bcast_S50000_S50000x1_0 : (⟨S50000, .f32⟩ : BufTy).Contents (Elt F) → (⟨S50000x1, .f32⟩ : BufTy).Contents (Elt F))) assign V 183 rfl rfl
    (after_take_of_lt assign V (i := 182) (j := 183) (x := main_v127) rfl (by decide))

theorem val_v129 (V : Valuation τ sig (Elt F)) :
    R V main_v129 = broadcastInDim S50000x20 ![0, 1] bcast_S50000x1_S50000x20_0_1 (R V main_v128 : (⟨S50000x1, .f32⟩ : BufTy).Contents (Elt F)) :=
  final_unary (x := main_v128) (y := main_v129) (f := (broadcastInDim S50000x20 ![0, 1] bcast_S50000x1_S50000x20_0_1 : (⟨S50000x1, .f32⟩ : BufTy).Contents (Elt F) → (⟨S50000x20, .f32⟩ : BufTy).Contents (Elt F))) assign V 184 rfl rfl
    (after_take_of_lt assign V (i := 183) (j := 184) (x := main_v128) rfl (by decide))

theorem val_v130 (V : Valuation τ sig (Elt F)) :
    R V main_v130 = subf (R V main_v124 : (⟨S50000x20, .f32⟩ : BufTy).Contents (Elt F)) (R V main_v129 : (⟨S50000x20, .f32⟩ : BufTy).Contents (Elt F)) :=
  final_binary (a := main_v124) (b := main_v129) (y := main_v130) (f := (subf : (⟨S50000x20, .f32⟩ : BufTy).Contents (Elt F) → (⟨S50000x20, .f32⟩ : BufTy).Contents (Elt F) → (⟨S50000x20, .f32⟩ : BufTy).Contents (Elt F))) assign V 185 rfl rfl
    (after_take_of_lt assign V (i := 177) (j := 185) (x := main_v124) rfl (by decide))
    (after_take_of_lt assign V (i := 184) (j := 185) (x := main_v129) rfl (by decide))

theorem val_v131 (V : Valuation τ sig (Elt F)) :
    R V main_v131 = Host.exp (R V main_v130 : (⟨S50000x20, .f32⟩ : BufTy).Contents (Elt F)) :=
  final_unary (x := main_v130) (y := main_v131) (f := (Host.exp : (⟨S50000x20, .f32⟩ : BufTy).Contents (Elt F) → (⟨S50000x20, .f32⟩ : BufTy).Contents (Elt F))) assign V 186 rfl rfl
    (after_take_of_lt assign V (i := 185) (j := 186) (x := main_v130) rfl (by decide))

theorem val_cst_26 (V : Valuation τ sig (Elt F)) :
    R V main_cst_26 = (constant S_ .f32 0x00000000#32 : (⟨S_, .f32⟩ : BufTy).Contents (Elt F)) :=
  final_nullary (y := main_cst_26) assign V 187 rfl rfl

theorem val_v132 (V : Valuation τ sig (Elt F)) :
    R V main_v132 = Host.reduceAdd (R V main_v131 : (⟨S50000x20, .f32⟩ : BufTy).Contents (Elt F)) (R V main_cst_26 : (⟨S_, .f32⟩ : BufTy).Contents (Elt F)) reducesTo_S50000x20_S50000_d1 h_S_ :=
  final_binary (a := main_v131) (b := main_cst_26) (y := main_v132) (f := ((fun x v => Host.reduceAdd x v reducesTo_S50000x20_S50000_d1 h_S_) : (⟨S50000x20, .f32⟩ : BufTy).Contents (Elt F) → (⟨S_, .f32⟩ : BufTy).Contents (Elt F) → (⟨S50000, .f32⟩ : BufTy).Contents (Elt F))) assign V 188 rfl rfl
    (after_take_of_lt assign V (i := 186) (j := 188) (x := main_v131) rfl (by decide))
    (after_take_of_lt assign V (i := 187) (j := 188) (x := main_cst_26) rfl (by decide))

theorem val_v133 (V : Valuation τ sig (Elt F)) :
    R V main_v133 = broadcastInDim S50000x1 ![0] bcast_S50000_S50000x1_0 (R V main_v132 : (⟨S50000, .f32⟩ : BufTy).Contents (Elt F)) :=
  final_unary (x := main_v132) (y := main_v133) (f := (broadcastInDim S50000x1 ![0] bcast_S50000_S50000x1_0 : (⟨S50000, .f32⟩ : BufTy).Contents (Elt F) → (⟨S50000x1, .f32⟩ : BufTy).Contents (Elt F))) assign V 189 rfl rfl
    (after_take_of_lt assign V (i := 188) (j := 189) (x := main_v132) rfl (by decide))

theorem val_v134 (V : Valuation τ sig (Elt F)) :
    R V main_v134 = broadcastInDim S50000x20 ![0, 1] bcast_S50000x1_S50000x20_0_1 (R V main_v133 : (⟨S50000x1, .f32⟩ : BufTy).Contents (Elt F)) :=
  final_unary (x := main_v133) (y := main_v134) (f := (broadcastInDim S50000x20 ![0, 1] bcast_S50000x1_S50000x20_0_1 : (⟨S50000x1, .f32⟩ : BufTy).Contents (Elt F) → (⟨S50000x20, .f32⟩ : BufTy).Contents (Elt F))) assign V 190 rfl rfl
    (after_take_of_lt assign V (i := 189) (j := 190) (x := main_v133) rfl (by decide))

theorem val_v135 (V : Valuation τ sig (Elt F)) :
    R V main_v135 = Host.divf (R V main_v131 : (⟨S50000x20, .f32⟩ : BufTy).Contents (Elt F)) (R V main_v134 : (⟨S50000x20, .f32⟩ : BufTy).Contents (Elt F)) :=
  final_binary (a := main_v131) (b := main_v134) (y := main_v135) (f := (Host.divf : (⟨S50000x20, .f32⟩ : BufTy).Contents (Elt F) → (⟨S50000x20, .f32⟩ : BufTy).Contents (Elt F) → (⟨S50000x20, .f32⟩ : BufTy).Contents (Elt F))) assign V 191 rfl rfl
    (after_take_of_lt assign V (i := 186) (j := 191) (x := main_v131) rfl (by decide))
    (after_take_of_lt assign V (i := 190) (j := 191) (x := main_v134) rfl (by decide))
end Cert.ReferenceIdeal.Hand

end
-- ==== Proof.RefVals.lean ====
/-
  The reference's run, one equation per assigned variable: the three windows together.
-/
import proofs.«116509_j71700184039973_1_alg».proof.Proof.RefVals0
import proofs.«116509_j71700184039973_1_alg».proof.Proof.RefVals1
import proofs.«116509_j71700184039973_1_alg».proof.Proof.RefVals2
-- ==== Proof.Frames.lean ====
/-
  The three frame claims and the idealization claim, and the reference's run with its result read.

  The kernel's two frames are the generated frame certificates at the two instances. The reference is a straight line
  of host operations in single-assignment form: its run ends with every buffer at the fold of the operations over the
  launch contents; the result buffer is read as the final value `R` of its variable, and the thirteen arguments,
  assigned by no operation, hold their launch contents.
-/
import proofs.«116509_j71700184039973_1_alg».proof.Defs
import proofs.«116509_j71700184039973_1_alg».proof.Proof.Gen.Kernel.Frame
import proofs.«116509_j71700184039973_1_alg».proof.Proof.Gen.KernelIdeal.Frame
import proofs.«116509_j71700184039973_1_alg».proof.Proof.Gen.Pre_finite_inputs
import proofs.«116509_j71700184039973_1_alg».proof.Proof.RefVals

noncomputable section

namespace Cert.Proof.Parts

open Idealize.ShloMosaic Idealize.ShloMosaic.TcCoe Idealize.SL.Sem Idealize.ShloMosaic.StableHlo
open Cert.ReferenceIdeal.Hand (R)

/-- The kernel runs and leaves its arguments unchanged: the generated frame certificate. -/
theorem frame_p : Cert.frame_Kernel := fun m ρ _ => Cert.Kernel.Gen.frame m ρ

/-- The same at the ideal instance. -/
theorem frame_pi : Cert.frame_KernelIdeal := fun m ρ _ => Cert.KernelIdeal.Gen.frame m ρ

/-- The reference's run at the ideal instance: it terminates with the result buffer at the final value of its variable
    over the launch contents, and every argument unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v135) = R (launchContents m' c) Cert.ReferenceIdeal.main_v135
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)) :=
  (θ_run (Cert.ReferenceIdeal.defs (F := Ideal)) _ _).mono (fun _ h c => ⟨h c Cert.ReferenceIdeal.main_v135,
      (h c Cert.ReferenceIdeal.main_arg0).trans (Cert.ReferenceIdeal.Hand.kept_arg0 (launchContents m' c)),
      (h c Cert.ReferenceIdeal.main_arg1).trans (Cert.ReferenceIdeal.Hand.kept_arg1 (launchContents m' c)),
      (h c Cert.ReferenceIdeal.main_arg2).trans (Cert.ReferenceIdeal.Hand.kept_arg2 (launchContents m' c)),
      (h c Cert.ReferenceIdeal.main_arg3).trans (Cert.ReferenceIdeal.Hand.kept_arg3 (launchContents m' c)),
      (h c Cert.ReferenceIdeal.main_arg4).trans (Cert.ReferenceIdeal.Hand.kept_arg4 (launchContents m' c)),
      (h c Cert.ReferenceIdeal.main_arg5).trans (Cert.ReferenceIdeal.Hand.kept_arg5 (launchContents m' c)),
      (h c Cert.ReferenceIdeal.main_arg6).trans (Cert.ReferenceIdeal.Hand.kept_arg6 (launchContents m' c)),
      (h c Cert.ReferenceIdeal.main_arg7).trans (Cert.ReferenceIdeal.Hand.kept_arg7 (launchContents m' c)),
      (h c Cert.ReferenceIdeal.main_arg8).trans (Cert.ReferenceIdeal.Hand.kept_arg8 (launchContents m' c)),
      (h c Cert.ReferenceIdeal.main_arg9).trans (Cert.ReferenceIdeal.Hand.kept_arg9 (launchContents m' c)),
      (h c Cert.ReferenceIdeal.main_arg10).trans (Cert.ReferenceIdeal.Hand.kept_arg10 (launchContents m' c)),
      (h c Cert.ReferenceIdeal.main_arg11).trans (Cert.ReferenceIdeal.Hand.kept_arg11 (launchContents m' c)),
      (h c Cert.ReferenceIdeal.main_arg12).trans (Cert.ReferenceIdeal.Hand.kept_arg12 (launchContents m' c))⟩)
    (Cert.ReferenceIdeal.Hand.run_main m' ρ')

/-- The reference runs and leaves its arguments unchanged. -/
theorem frame_ri : Cert.frame_ReferenceIdeal := fun m ρ _ =>
  (θ_run (Cert.ReferenceIdeal.defs (F := Ideal)) _ _).mono (fun _ h c => (h c).2) (ref_run m ρ)

/-- The idealization rewrote no operation. -/
theorem preserves : Cert.preserves_Kernel_KernelIdeal := trivial

end Cert.Proof.Parts

end
-- ==== Proof.KernelRun.lean ====
/-
  The idealized kernel's run with its result named: from any launch memory, every weakly fair execution of @main
  terminates, nothing faults, the argument arrays end as launched, and the result buffer ends at the contents the
  fold of the program's twelve segments (five stretches of host operations, seven pallas regions) assigns to it.
  The segments, their proof data and the launch are the generated frame's; only the post-condition reads one more
  buffer off the last boundary's contents.
-/
import proofs.«116509_j71700184039973_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents. -/
theorem run_value : θ_run defs (onTc (τ := τ) (main (F := F))) ⟨m, fun _ => 0, ρ⟩ (fun r => ∀ c : Dev nD,
      r.2.mem ((c.tc : Thread nD τ).loc main_v105) = W12 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v105 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.Hand

end
-- ==== Proof.Spec.lean ====
/-
  The network's stages as whole-array functions on the extended reals, spelt with the host operations the reference
  program applies: a rectifier, the graph-convolution epilogue  relu (agg + xp · (1/deg)[:,None] + b[None,:]),
  a dense layer with its bias row, a column sum, and the decoder's tail (batch normalisation with given mean and
  variance vectors, rectifier, the last dense layer, a row softmax).  Each kernel region is shown to compute one of
  these of its input arrays; the reference computes the same functions of the same arrays.
-/
import Idealize.ShloMosaic.PureOps
import Idealize.ShloMosaic.PureOps.Ideal
import Idealize.ShloMosaic.Lib.ValueIdx

noncomputable section

namespace Cert.Gnn

open Idealize.ShloMosaic

abbrev Sc : Shape := ⟨0, ![]⟩
abbrev SN : Shape := ⟨1, ![50000]⟩
abbrev SD : Shape := ⟨1, ![256]⟩
abbrev SC : Shape := ⟨1, ![20]⟩
abbrev SND : Shape := ⟨2, ![50000, 256]⟩
abbrev SN1 : Shape := ⟨2, ![50000, 1]⟩
abbrev S1D : Shape := ⟨2, ![1, 256]⟩
abbrev SDD : Shape := ⟨2, ![256, 256]⟩
abbrev SDC : Shape := ⟨2, ![256, 20]⟩
abbrev SNC : Shape := ⟨2, ![50000, 20]⟩
abbrev S1C : Shape := ⟨2, ![1, 20]⟩

/-- The rectifier: the maximum with a broadcast scalar zero. -/
def relu (x : FVec Ideal SND .f32) : FVec Ideal SND .f32 :=
  maximumf x (broadcastInDim SND ![] (by decide) (constant (F := Ideal) Sc .f32 0x00000000#32))

/-- A vector put on the second axis of a one-row matrix. -/
def rowD (v : FVec Ideal SD .f32) : FVec Ideal S1D .f32 := broadcastInDim S1D ![1] (by decide) v
def rowC (v : FVec Ideal SC .f32) : FVec Ideal S1C .f32 := broadcastInDim S1C ![1] (by decide) v
/-- A one-row matrix repeated down the rows. -/
def downD (r : FVec Ideal S1D .f32) : FVec Ideal SND .f32 := broadcastInDim SND ![0, 1] (by decide) r
def downC (r : FVec Ideal S1C .f32) : FVec Ideal SNC .f32 := broadcastInDim SNC ![0, 1] (by decide) r
/-- A one-column matrix repeated along the columns. -/
def acrossD (k : FVec Ideal SN1 .f32) : FVec Ideal SND .f32 := broadcastInDim SND ![0, 1] (by decide) k
def acrossC (k : FVec Ideal SN1 .f32) : FVec Ideal SNC .f32 := broadcastInDim SNC ![0, 1] (by decide) k
/-- A vector of row values as a one-column matrix. -/
def colN (v : FVec Ideal SN .f32) : FVec Ideal SN1 .f32 := broadcastInDim SN1 ![0] (by decide) v

/-- The graph convolution's epilogue: relu (agg + xp · invdeg + bias), `invdeg` a column, `bias` a row. -/
def epilogue (agg xp : FVec Ideal SND .f32) (invcol : FVec Ideal SN1 .f32) (brow : FVec Ideal S1D .f32) :
    FVec Ideal SND .f32 :=
  relu (addf (addf agg (mulf xp (acrossD invcol))) (downD brow))

/-- The plain product of an N×256 array with a 256×256 weight. -/
def proj (h : FVec Ideal SND .f32) (w : FVec Ideal SDD .f32) : FVec Ideal SND .f32 :=
  Host.dotGeneral (DotDims.plain 50000 256 256) none h w

/-- A dense layer: the product plus a bias row repeated down the rows. -/
def denseBias (h : FVec Ideal SND .f32) (w : FVec Ideal SDD .f32) (brow : FVec Ideal S1D .f32) : FVec Ideal SND .f32 :=
  addf (proj h w) (downD brow)

/-- The sum of each column, from the scalar zero. -/
def colSum (x : FVec Ideal SND .f32) : FVec Ideal SD .f32 :=
  Host.reduceAdd x (constant (F := Ideal) Sc .f32 0x00000000#32) (by decide : SND.ReducesTo [0] SD) (by decide)

/-- The decoder's tail: (h1 − mean) · rsqrt (var + ε) · γ + β, rectified, times the last weight plus its bias, and the
    softmax of each row (the row maximum taken from −∞ and joined with −∞ once more, as jax prints it). -/
def tail (h1 : FVec Ideal SND .f32) (mean var γ β : FVec Ideal SD .f32) (w2 : FVec Ideal SDC .f32)
    (b2 : FVec Ideal SC .f32) : FVec Ideal SNC .f32 :=
  let xc : FVec Ideal SND .f32 := subf h1 (downD (rowD mean))
  let rs : FVec Ideal SD .f32 :=
    Host.rsqrt (addf var (broadcastInDim SD ![] (by decide) (constant (F := Ideal) Sc .f32 0x3727C5AC#32)))
  let hn : FVec Ideal SND .f32 := addf (mulf (mulf xc (downD (rowD rs))) (downD (rowD γ))) (downD (rowD β))
  let z : FVec Ideal SNC .f32 :=
    addf (Host.dotGeneral (DotDims.plain 50000 256 20) none (relu hn) w2) (downC (rowC b2))
  let mx : FVec Ideal SN .f32 :=
    maximumf (broadcastInDim SN ![] (by decide) (constant (F := Ideal) Sc .f32 0xFF800000#32))
      (Host.reduce FloatOps.maximumf z (constant (F := Ideal) Sc .f32 0xFF800000#32) (by decide : SNC.ReducesTo [1] SN) (by decide))
  let e : FVec Ideal SNC .f32 := Host.exp (subf z (acrossC (colN mx)))
  let se : FVec Ideal SN .f32 :=
    Host.reduceAdd e (constant (F := Ideal) Sc .f32 0x00000000#32) (by decide : SNC.ReducesTo [1] SN) (by decide)
  Host.divf e (acrossC (colN se))

/-- Every entry a real number. -/
def IsReal {s : Shape} (x : s.Idx → EReal) : Prop := ∀ i, ∃ r : ℝ, x i = (r : EReal)

/-- The node count as a broadcast scalar. -/
def countD : FVec Ideal SD .f32 := broadcastInDim SD ![] (by decide) (constant (F := Ideal) Sc .f32 0x47435000#32)

/-- The batch mean of each column from the column sums. -/
def meanOf (s : FVec Ideal SD .f32) : FVec Ideal SD .f32 := Host.divf s countD

/-- The one-pass batch variance from the column sums and the column sums of squares: sq/N − (s/N)². -/
def varOnePass (s sq : FVec Ideal SD .f32) : FVec Ideal SD .f32 :=
  subf (Host.divf sq countD) (mulf (Host.divf s countD) (Host.divf s countD))

/-- The two-pass batch variance as jax's `var` prints it: the mean of the squared deviations from the column mean, the
    divisor N − 0 taken from an integer zero, the quotient selected against a NaN by the test N − 0 > 0. -/
def varTwoPass (h1 : FVec Ideal SND .f32) : FVec Ideal SD .f32 :=
  let mu : FVec Ideal S1D .f32 :=
    Host.divf (rowD (colSum h1)) (broadcastInDim S1D ![] (by decide) (constant (F := Ideal) Sc .f32 0x47435000#32))
  let dv : FVec Ideal SND .f32 := subf h1 (downD mu)
  let n0 : FVec Ideal Sc .f32 :=
    subf (constant (F := Ideal) Sc .f32 0x47435000#32) (sitofp .f32 (constantI Sc 32 0#32))
  let q : FVec Ideal SD .f32 := Host.divf (colSum (mulf dv dv)) (broadcastInDim SD ![] (by decide) n0)
  select (broadcastInDim SD ![] (by decide) (cmpf .ogt n0 (constant (F := Ideal) Sc .f32 0x00000000#32))) q
    (broadcastInDim SD ![] (by decide) (id (constant (F := Ideal) Sc .f32 0x7FC00000#32)))

end Cert.Gnn

end
-- ==== Proof.Graph.lean ====
/-
  The message passing of one graph-convolution layer as whole-array functions of the edge list and the projected
  features, spelt with the host operations both programs apply (they are the same operations on both sides, so the
  certificate never opens them): the source and destination rows of the edge list, the degree vector (the number of
  incoming edges plus one, an accumulating scatter of ones), the symmetric normalisation rsqrt(deg)[src]·rsqrt(deg)[dst],
  the aggregation (an accumulating scatter of the normalised gathered rows) and the inverse-degree column; then one
  layer, and the whole network with the batch variance left as a parameter (one pass in the kernel, two in the reference).
-/
import proofs.«116509_j71700184039973_1_alg».proof.Proof.Spec

noncomputable section

namespace Cert.Gnn

open Idealize.ShloMosaic

abbrev S2E : Shape := ⟨2, ![2, 800000]⟩
abbrev S1E : Shape := ⟨2, ![1, 800000]⟩
abbrev SE : Shape := ⟨1, ![800000]⟩
abbrev SE1 : Shape := ⟨2, ![800000, 1]⟩
abbrev SED : Shape := ⟨2, ![800000, 256]⟩
abbrev SNG : Shape := ⟨2, ![50000, 1002]⟩
abbrev SGD : Shape := ⟨2, ![1002, 256]⟩

/-- The dimension numbers of the accumulating scatters and of the gathers (a row index per edge). -/
def scatterVec : ScatterDims SN SE1 SE where
  updateWindowDims := []
  insertedWindowDims := [0]
  scatterDimsToOperandDims := [0]
  indexVectorDim := 1
  wf := by decide
def scatterRows : ScatterDims SND SE1 SED where
  updateWindowDims := [1]
  insertedWindowDims := [0]
  scatterDimsToOperandDims := [0]
  indexVectorDim := 1
  wf := by decide
def gatherVec : GatherDims SN SE1 SE where
  offsetDims := []
  collapsedSliceDims := [0]
  operandBatchingDims := []
  startIndicesBatchingDims := []
  startIndexMap := [0]
  indexVectorDim := 1
  sliceSizes := ![1]
  wf := by decide
def gatherRows : GatherDims SND SE1 SED where
  offsetDims := [1]
  collapsedSliceDims := [0]
  operandBatchingDims := []
  startIndicesBatchingDims := []
  startIndexMap := [0]
  indexVectorDim := 1
  sliceSizes := ![1, 256]
  wf := by decide

/-- Row `r` of the edge list as a vector of node numbers. -/
def edgeRow (r : Nat) (hs : S2E.Slices ![r, 0] S1E) (ei : IVec S2E 32) : IVec SE 32 :=
  fun i => shapeCast SE (extractStridedSlice S1E ![r, 0] ei hs) (by decide) i
def srcOf (ei : IVec S2E 32) : IVec SE 32 := edgeRow 0 (by decide) ei
def dstOf (ei : IVec S2E 32) : IVec SE 32 := edgeRow 1 (by decide) ei

/-- A node-number vector as a gather / scatter index column, negative numbers wrapped by the node count first. -/
def wrapIdx (v : IVec SE 32) : IVec SE1 32 :=
  broadcastInDim SE1 ![0] (by decide)
    (select (cmpi .slt v (broadcastInDim SE ![] (by decide) (constantI Sc 32 0#32)))
      (addi v (broadcastInDim SE ![] (by decide) (constantI Sc 32 50000#32))) v)
/-- The same column with no wrapping (the scatters' index). -/
def rawIdx (v : IVec SE 32) : IVec SE1 32 := broadcastInDim SE1 ![0] (by decide) v

/-- The degree of each node: incoming edges plus the self loop. -/
def degOf (dst : IVec SE 32) : FVec Ideal SN .f32 :=
  addf (Host.scatterAdd scatterVec
      (broadcastInDim SN ![] (by decide) (constant (F := Ideal) Sc .f32 0x00000000#32)) (rawIdx dst)
      (broadcastInDim SE ![] (by decide) (constant (F := Ideal) Sc .f32 0x3F800000#32)))
    (broadcastInDim SN ![] (by decide) (constant (F := Ideal) Sc .f32 0x3F800000#32))

/-- The edge weights rsqrt(deg)[src] · rsqrt(deg)[dst], as a column. -/
def normCol (src dst : IVec SE 32) : FVec Ideal SE1 .f32 :=
  broadcastInDim SE1 ![0] (by decide)
    (mulf (Host.gather gatherVec (Host.rsqrt (degOf dst)) (wrapIdx src))
      (Host.gather gatherVec (Host.rsqrt (degOf dst)) (wrapIdx dst)))

/-- The aggregated messages: for each node the sum over its incoming edges of weight · features of the source. -/
def aggOf (src dst : IVec SE 32) (xp : FVec Ideal SND .f32) : FVec Ideal SND .f32 :=
  Host.scatterAdd scatterRows
    (broadcastInDim SND ![] (by decide) (constant (F := Ideal) Sc .f32 0x00000000#32)) (rawIdx dst)
    (mulf (broadcastInDim SED ![0, 1] (by decide) (normCol src dst)) (Host.gather gatherRows xp (wrapIdx src)))

/-- 1 / deg as a column. -/
def invDegCol (dst : IVec SE 32) : FVec Ideal SN1 .f32 :=
  colN (Host.divf (broadcastInDim SN ![] (by decide) (constant (F := Ideal) Sc .f32 0x3F800000#32)) (degOf dst))

/-- One graph-convolution layer on projected features. -/
def layer (src dst : IVec SE 32) (xp : FVec Ideal SND .f32) (b : FVec Ideal SD .f32) : FVec Ideal SND .f32 :=
  epilogue (aggOf src dst xp) xp (invDegCol dst) (rowD b)

/-- The encoder: the input projection and the two layers. -/
def encoder (x : FVec Ideal SNG .f32) (ei : IVec S2E 32) (lw : FVec Ideal SGD .f32) (w1 : FVec Ideal SDD .f32)
    (b1 : FVec Ideal SD .f32) (w2 : FVec Ideal SDD .f32) (b2 : FVec Ideal SD .f32) : FVec Ideal SND .f32 :=
  layer (srcOf ei) (dstOf ei)
    (proj (layer (srcOf ei) (dstOf ei)
      (proj (Host.dotGeneral (F := Ideal) (DotDims.plain 50000 1002 256) none x lw) w1) b1) w2) b2

/-- The decoder's first dense layer on the encoder's output. -/
def hidden (x : FVec Ideal SNG .f32) (ei : IVec S2E 32) (lw : FVec Ideal SGD .f32) (w1 : FVec Ideal SDD .f32)
    (b1 : FVec Ideal SD .f32) (w2 : FVec Ideal SDD .f32) (b2 : FVec Ideal SD .f32) (w3 : FVec Ideal SDD .f32)
    (b3 : FVec Ideal SD .f32) : FVec Ideal SND .f32 :=
  denseBias (encoder x ei lw w1 b1 w2 b2) w3 (rowD b3)

end Cert.Gnn

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«116509_j71700184039973_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.RowProducts.lean ====
/-
  The three row-tiled products of the kernel (the encoder projection and the two graph-convolution projections): each
  grid point multiplies its 2000 rows by the whole weight on the vector unit, from the zero accumulator, with both
  operands passed through a change of float format that is the identity on the extended reals. Entry `(p, q)` of point
  `t`'s block is `∑ k, A (2000·t + p, k) · W (k, q)`, which is entry `(2000·t + p, q)` of the one product the host's
  `dot_general` forms; the 25 blocks tile the result, so the array the region leaves IS that product.
-/
import proofs.«116509_j71700184039973_1_alg».proof.Proof.Gen.KernelIdeal.Frame
import proofs.«116509_j71700184039973_1_alg».proof.Proof.Spec
import proofs.«116509_j71700184039973_1_alg».proof.Proof.LibRowBlock
import Idealize.ShloMosaic.Lib.Pipeline.Value
import Idealize.ShloMosaic.Lib.ValueIdx

set_option maxRecDepth 16384

noncomputable section

namespace Cert.KernelIdeal.ProjValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: a product tiled over its rows -/

/-- The whole product of the two arrays the region finds. -/
abbrev prod0 (c : Dev nD) : S50000x256.Idx → Elt Ideal .f32 := Host.dotGeneral (F := Ideal) (φ₁ := .f32) (φ₂ := .f32) (DotDims.plain 50000 1002 256) none (V c main_arg0) (V c main_arg2)

/-- The body's payload at an entry: row `p` of the block times column `q` of the weight, which is the whole
    product's entry `(P, q)` when row `p` of the block is row `P` of the array. -/
theorem pay0_apply (A : FVec Ideal ⟨2, ![50000, 1002]⟩ .f32) (W : FVec Ideal ⟨2, ![1002, 256]⟩ .f32)
    (x0 : Vec Ideal ⟨2, ![2000, 1002]⟩ .f32) (x1 : Vec Ideal ⟨2, ![1002, 256]⟩ .f32) (P : Fin 50000) (p : Fin 2000) (q : Fin 256)
    (hx : ∀ k : Fin 1002, (x0 (ix2 p k) : EReal) = A (ix2 P k)) (hw : ∀ k : Fin 1002, (x1 (ix2 k q) : EReal) = W (ix2 k q)) :
    k0_pay1 (F := Ideal) x0 x1 (ix2 p q) = Host.dotGeneral (F := Ideal) (DotDims.plain 50000 1002 256) none A W (ix2 P q) := by
  unfold k0_pay1
  exact Cert.Lib.RowBlock.matmul_eq_dotGeneral none none .single A W _ _ P p q
    hx hw

/-- The printed index maps over the grid: point `t` takes rows `2000·t …` of the left operand and of the result, and
    the whole weight. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed0_eq (c : Dev nD) (t : Fin cfg0.N) :
    (dat0 (F := Ideal) V c).flushed 2 t = ((cfg0.win 2).blk t).view.read (Elt Ideal) (prod0 V c) := by
  show (cfg0.win 2).cut (grid0.coords t) ((dat0 (F := Ideal) V c).after 2 t) = _
  rw [after0_2]
  unfold out0_2
  rw [View.canon_unit_zero hz]
  simp only [View.ld_unit_zero (S := S2000x1002) hz, View.ld_unit_zero (S := S1002x256) hz]
  obtain ⟨e0, e1, e2, e3, e4, e5⟩ := idx_facts0 t
  funext j
  obtain ⟨p, q, rfl⟩ : ∃ (p : Fin 2000) (q : Fin 256), j = ix2 p q := ⟨j 0, j 1, eq_ix2 j⟩
  have hN : cfg0.N = 25 := N_0
  have hP : t.val * 2000 + p.val < 50000 := by
    have := t.isLt; have := p.isLt; omega
  refine (pay0_apply (V c main_arg0) (V c main_arg2) _ _ ⟨t.val * 2000 + p.val, hP⟩ p q (fun k => ?_) (fun k => ?_)).trans ?_
  · show V c main_arg0 (((cfg0.win 0).blk t).view.emb (ix2 p k)) = V c main_arg0 (ix2 ⟨t.val * 2000 + p.val, hP⟩ k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 1002 + 1 * k.val = k.val; omega
  · show V c main_arg2 (((cfg0.win 1).blk t).view.emb (ix2 k q)) = V c main_arg2 (ix2 k q)
    refine congrArg _ (funext fun a => Fin.ext ?_)
    match a with
    | ⟨0, _⟩ => show win0_1.index t (0 : Fin 2) * 1002 + 1 * k.val = k.val; omega
    | ⟨1, _⟩ => show win0_1.index t (1 : Fin 2) * 256 + 1 * q.val = q.val; omega
  · show prod0 V c (ix2 ⟨t.val * 2000 + p.val, hP⟩ q) = prod0 V c (((cfg0.win 2).blk t).view.emb (ix2 p q))
    refine congrArg _ (funext fun a => Fin.ext ?_)
    match a with
    | ⟨0, _⟩ => show t.val * 2000 + p.val = win0_2.index t (0 : Fin 2) * 2000 + 1 * p.val; omega
    | ⟨1, _⟩ => show q.val = win0_2.index t (1 : Fin 2) * 256 + 1 * q.val; omega

/-- An index of the result is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v4).slice (win0_2.rect t)).set ↔ _
  rw [View.set_slice_whole, Rect.mem_set_unit]
  exact Iff.rfl

/-- Every row of the result lies in the block of the point `row / 2000`. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  have ht : (i 0).val / 2000 < cfg0.N := by omega
  refine ⟨⟨(i 0).val / 2000, ht⟩, flush0_2 _, ?_⟩
  obtain ⟨-, -, -, -, e4, e5⟩ := idx_facts0 ⟨(i 0).val / 2000, ht⟩
  rw [mem_blk0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 256 ≤ (i 1).val
      ∧ (i 1).val < win0_2.index ⟨(i 0).val / 2000, ht⟩ (1 : Fin 2) * 256 + 256
    rw [e5]; omega

/-- The result array after the region is the whole product of the arrays the region found. -/
theorem proj0_value (c : Dev nD) : (dat0 (F := Ideal) V c).arrAt 2 cfg0.N = prod0 V c :=
  (dat0 (F := Ideal) V c).arrAt_eq_of_cover 2 (prod0 V c) (fun t _ => flushed0_eq V c t) (cover0)

/-! ## Region 1: a product tiled over its rows -/

/-- The whole product of the two arrays the region finds. -/
abbrev prod1 (c : Dev nD) : S50000x256.Idx → Elt Ideal .f32 := Cert.Gnn.proj (V c main_v4) (V c main_arg3)

/-- The body's payload at an entry: row `p` of the block times column `q` of the weight, which is the whole
    product's entry `(P, q)` when row `p` of the block is row `P` of the array. -/
theorem pay1_apply (A : FVec Ideal ⟨2, ![50000, 256]⟩ .f32) (W : FVec Ideal ⟨2, ![256, 256]⟩ .f32)
    (x0 : Vec Ideal ⟨2, ![2000, 256]⟩ .f32) (x1 : Vec Ideal ⟨2, ![256, 256]⟩ .f32) (P : Fin 50000) (p : Fin 2000) (q : Fin 256)
    (hx : ∀ k : Fin 256, (x0 (ix2 p k) : EReal) = A (ix2 P k)) (hw : ∀ k : Fin 256, (x1 (ix2 k q) : EReal) = W (ix2 k q)) :
    k1_pay1 (F := Ideal) x0 x1 (ix2 p q) = Host.dotGeneral (F := Ideal) (DotDims.plain 50000 256 256) none A W (ix2 P q) := by
  unfold k1_pay1
  exact Cert.Lib.RowBlock.matmul_eq_dotGeneral none none .single A W _ _ P p q
    (fun k => (congrFun (shapeCast_self (x0 : (⟨2, ![2000, 256]⟩ : Shape).Idx → EReal) _) (ix2 p k)).trans (hx k)) hw

/-- The printed index maps over the grid: point `t` takes rows `2000·t …` of the left operand and of the result, and
    the whole weight. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product. -/
theorem flushed1_eq (c : Dev nD) (t : Fin cfg1.N) :
    (dat1 (F := Ideal) V c).flushed 2 t = ((cfg1.win 2).blk t).view.read (Elt Ideal) (prod1 V c) := by
  show (cfg1.win 2).cut (grid1.coords t) ((dat1 (F := Ideal) V c).after 2 t) = _
  rw [after1_2]
  unfold out1_2
  rw [View.canon_unit_zero hz]
  simp only [View.ld_unit_zero (S := S2000x256) hz, View.ld_unit_zero (S := S256x256) hz]
  obtain ⟨e0, e1, e2, e3, e4, e5⟩ := idx_facts1 t
  funext j
  obtain ⟨p, q, rfl⟩ : ∃ (p : Fin 2000) (q : Fin 256), j = ix2 p q := ⟨j 0, j 1, eq_ix2 j⟩
  have hN : cfg1.N = 25 := N_1
  have hP : t.val * 2000 + p.val < 50000 := by
    have := t.isLt; have := p.isLt; omega
  refine (pay1_apply (V c main_v4) (V c main_arg3) _ _ ⟨t.val * 2000 + p.val, hP⟩ p q (fun k => ?_) (fun k => ?_)).trans ?_
  · show V c main_v4 (((cfg1.win 0).blk t).view.emb (ix2 p k)) = V c main_v4 (ix2 ⟨t.val * 2000 + p.val, hP⟩ k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * k.val = k.val; omega
  · show V c main_arg3 (((cfg1.win 1).blk t).view.emb (ix2 k q)) = V c main_arg3 (ix2 k q)
    refine congrArg _ (funext fun a => Fin.ext ?_)
    match a with
    | ⟨0, _⟩ => show win1_1.index t (0 : Fin 2) * 256 + 1 * k.val = k.val; omega
    | ⟨1, _⟩ => show win1_1.index t (1 : Fin 2) * 256 + 1 * q.val = q.val; omega
  · show prod1 V c (ix2 ⟨t.val * 2000 + p.val, hP⟩ q) = prod1 V c (((cfg1.win 2).blk t).view.emb (ix2 p q))
    refine congrArg _ (funext fun a => Fin.ext ?_)
    match a with
    | ⟨0, _⟩ => show t.val * 2000 + p.val = win1_2.index t (0 : Fin 2) * 2000 + 1 * p.val; omega
    | ⟨1, _⟩ => show q.val = win1_2.index t (1 : Fin 2) * 256 + 1 * q.val; omega

/-- An index of the result is in point `t`'s block iff each coordinate is in the block's range on its axis. -/
theorem mem_blk1 (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v5).slice (win1_2.rect t)).set ↔ _
  rw [View.set_slice_whole, Rect.mem_set_unit]
  exact Iff.rfl

/-- Every row of the result lies in the block of the point `row / 2000`. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  have ht : (i 0).val / 2000 < cfg1.N := by omega
  refine ⟨⟨(i 0).val / 2000, ht⟩, flush1_2 _, ?_⟩
  obtain ⟨-, -, -, -, e4, e5⟩ := idx_facts1 ⟨(i 0).val / 2000, ht⟩
  rw [mem_blk1]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 256 ≤ (i 1).val
      ∧ (i 1).val < win1_2.index ⟨(i 0).val / 2000, ht⟩ (1 : Fin 2) * 256 + 256
    rw [e5]; omega

/-- The result array after the region is the whole product of the arrays the region found. -/
theorem proj1_value (c : Dev nD) : (dat1 (F := Ideal) V c).arrAt 2 cfg1.N = prod1 V c :=
  (dat1 (F := Ideal) V c).arrAt_eq_of_cover 2 (prod1 V c) (fun t _ => flushed1_eq V c t) (cover1)

/-! ## Region 3: a product tiled over its rows -/

/-- The whole product of the two arrays the region finds. -/
abbrev prod3 (c : Dev nD) : S50000x256.Idx → Elt Ideal .f32 := Cert.Gnn.proj (V c main_v45) (V c main_arg5)

/-- The body's payload at an entry: row `p` of the block times column `q` of the weight, which is the whole
    product's entry `(P, q)` when row `p` of the block is row `P` of the array. -/
theorem pay3_apply (A : FVec Ideal ⟨2, ![50000, 256]⟩ .f32) (W : FVec Ideal ⟨2, ![256, 256]⟩ .f32)
    (x0 : Vec Ideal ⟨2, ![2000, 256]⟩ .f32) (x1 : Vec Ideal ⟨2, ![256, 256]⟩ .f32) (P : Fin 50000) (p : Fin 2000) (q : Fin 256)
    (hx : ∀ k : Fin 256, (x0 (ix2 p k) : EReal) = A (ix2 P k)) (hw : ∀ k : Fin 256, (x1 (ix2 k q) : EReal) = W (ix2 k q)) :
    k3_pay1 (F := Ideal) x0 x1 (ix2 p q) = Host.dotGeneral (F := Ideal) (DotDims.plain 50000 256 256) none A W (ix2 P q) := by
  unfold k3_pay1
  exact Cert.Lib.RowBlock.matmul_eq_dotGeneral none none .single A W _ _ P p q
    (fun k => (congrFun (shapeCast_self (x0 : (⟨2, ![2000, 256]⟩ : Shape).Idx → EReal) _) (ix2 p k)).trans (hx k)) hw

/-- The printed index maps over the grid: point `t` takes rows `2000·t …` of the left operand and of the result, and
    the whole weight. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole product. -/
theorem flushed3_eq (c : Dev nD) (t : Fin cfg3.N) :
    (dat3 (F := Ideal) V c).flushed 2 t = ((cfg3.win 2).blk t).view.read (Elt Ideal) (prod3 V c) := by
  show (cfg3.win 2).cut (grid3.coords t) ((dat3 (F := Ideal) V c).after 2 t) = _
  rw [after3_2]
  unfold out3_2
  rw [View.canon_unit_zero hz]
  simp only [View.ld_unit_zero (S := S2000x256) hz, View.ld_unit_zero (S := S256x256) hz]
  obtain ⟨e0, e1, e2, e3, e4, e5⟩ := idx_facts3 t
  funext j
  obtain ⟨p, q, rfl⟩ : ∃ (p : Fin 2000) (q : Fin 256), j = ix2 p q := ⟨j 0, j 1, eq_ix2 j⟩
  have hN : cfg3.N = 25 := N_3
  have hP : t.val * 2000 + p.val < 50000 := by
    have := t.isLt; have := p.isLt; omega
  refine (pay3_apply (V c main_v45) (V c main_arg5) _ _ ⟨t.val * 2000 + p.val, hP⟩ p q (fun k => ?_) (fun k => ?_)).trans ?_
  · show V c main_v45 (((cfg3.win 0).blk t).view.emb (ix2 p k)) = V c main_v45 (ix2 ⟨t.val * 2000 + p.val, hP⟩ k)
    refine congrArg _ (funext fun a => Fin.ext ?_)
    match a with
    | ⟨0, _⟩ => show win3_0.index t (0 : Fin 2) * 2000 + 1 * p.val = t.val * 2000 + p.val; omega
    | ⟨1, _⟩ => show win3_0.index t (1 : Fin 2) * 256 + 1 * k.val = k.val; omega
  · show V c main_arg5 (((cfg3.win 1).blk t).view.emb (ix2 k q)) = V c main_arg5 (ix2 k q)
    refine congrArg _ (funext fun a => Fin.ext ?_)
    match a with
    | ⟨0, _⟩ => show win3_1.index t (0 : Fin 2) * 256 + 1 * k.val = k.val; omega
    | ⟨1, _⟩ => show win3_1.index t (1 : Fin 2) * 256 + 1 * q.val = q.val; omega
  · show prod3 V c (ix2 ⟨t.val * 2000 + p.val, hP⟩ q) = prod3 V c (((cfg3.win 2).blk t).view.emb (ix2 p q))
    refine congrArg _ (funext fun a => Fin.ext ?_)
    match a with
    | ⟨0, _⟩ => show t.val * 2000 + p.val = win3_2.index t (0 : Fin 2) * 2000 + 1 * p.val; omega
    | ⟨1, _⟩ => show q.val = win3_2.index t (1 : Fin 2) * 256 + 1 * q.val; omega

/-- An index of the result is in point `t`'s block iff each coordinate is in the block's range on its axis. -/
theorem mem_blk3 (t : Fin cfg3.N) (i : S50000x256.Idx) :
    i ∈ ((cfg3.win 2).blk t).view.set ↔ ∀ a : Fin 2, win3_2.index t a * S2000x256.size a ≤ (i a).val
      ∧ (i a).val < win3_2.index t a * S2000x256.size a + S2000x256.size a := by
  show i ∈ ((View.whole main_v46).slice (win3_2.rect t)).set ↔ _
  rw [View.set_slice_whole, Rect.mem_set_unit]
  exact Iff.rfl

/-- Every row of the result lies in the block of the point `row / 2000`. -/
theorem cover3 (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have hN : cfg3.N = 25 := N_3
  have ht : (i 0).val / 2000 < cfg3.N := by omega
  refine ⟨⟨(i 0).val / 2000, ht⟩, flush3_2 _, ?_⟩
  obtain ⟨-, -, -, -, e4, e5⟩ := idx_facts3 ⟨(i 0).val / 2000, ht⟩
  rw [mem_blk3]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, ht⟩ (1 : Fin 2) * 256 ≤ (i 1).val
      ∧ (i 1).val < win3_2.index ⟨(i 0).val / 2000, ht⟩ (1 : Fin 2) * 256 + 256
    rw [e5]; omega

/-- The result array after the region is the whole product of the arrays the region found. -/
theorem proj3_value (c : Dev nD) : (dat3 (F := Ideal) V c).arrAt 2 cfg3.N = prod3 V c :=
  (dat3 (F := Ideal) V c).arrAt_eq_of_cover 2 (prod3 V c) (fun t _ => flushed3_eq V c t) (cover3)

end Cert.KernelIdeal.ProjValue

end
-- ==== Proof.LibAffineRows.lean ====
/-
  A dense layer applied to a block of rows, against the same layer applied to the whole array, on the extended reals.

  Let `A` be an `M×K` array, `W` a `K×N` weight and `b` a bias vector of length `N`. A kernel that tiles the rows of
  `A` computes, on a `B×K` block `x` whose row `p` is row `P` of `A`, the product `x · W` on the vector unit from the zero
  accumulator and adds the bias laid out as one row `[1, N]` and broadcast over the block's rows; the host computes the
  one product `A · W` and adds the bias broadcast over all rows. Entry `(p, q)` of the first is entry `(P, q)` of the
  second: both are `∑ k, A (P, k) * W (k, q) + b q`, the same sum term by term, so no finiteness is asked of any entry
  and the operands' float formats do not matter. Also here: the two spellings of "a vector as a row, repeated down the
  rows" read at an entry (a shape cast to `[1, N]` then a row broadcast; two `broadcast_in_dim`), and the rectifier
  `max (·, 0)` with its zero spelt as a splat scalar on one side and a broadcast rank-0 constant on the other.
-/
import proofs.«116509_j71700184039973_1_alg».proof.Proof.LibRowBlock
import Idealize.ShloMosaic.Lib.ValueLayout
import Idealize.ShloMosaic.Lib.Pipeline.Value

noncomputable section

namespace Cert.Lib.AffineRows

open Idealize.ShloMosaic Idealize.ShloMosaic.ValueIdx

variable {α : Type}

/-- A vector `[N]` cast to one row `[1, N]` and broadcast over `B` rows reads, at `(p, j)`, the vector at `j`. -/
theorem castRow_apply {B N : ℕ} (b : (⟨1, ![N]⟩ : Shape).Idx → α) (h1 : (⟨1, ![N]⟩ : Shape).ShapeCasts ⟨2, ![1, N]⟩)
    (h2 : (⟨2, ![1, N]⟩ : Shape).Broadcasts ⟨2, ![B, N]⟩) (p : Fin B) (j : Fin N) :
    broadcastTo ⟨2, ![B, N]⟩ (shapeCast ⟨2, ![1, N]⟩ b h1) h2 (ix2 p j) = b (ix1 j) :=
  (broadcastTo_1b_ab_apply _ h2 p j).trans (shapeCast_a_1a_apply b h1 0 j)

/-- A vector `[N]` put on axis 1 of `[1, N]` and that row put on both axes of `[M, N]` reads, at `(P, j)`, the vector at `j`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (P : Fin M) (j : Fin N) :
    broadcastInDim ⟨2, ![M, N]⟩ ![0, 1] h2 (broadcastInDim ⟨2, ![1, N]⟩ ![1] h1 b) (ix2 P j) = b (ix1 j) := by
  have hj : j.val = if N = 1 then 0 else j.val := by
    split
    · have := j.isLt; omega
    · rfl
  refine (broadcastInDim_apply _ h2 _ (ix2 P j) (ix2 (0 : Fin 1) j) fun a => ?_).trans
    (broadcastInDim_apply _ h1 b (ix2 (0 : Fin 1) j) (ix1 j) fun a => ?_)
  · match a with
    | ⟨0, _⟩ => rfl
    | ⟨1, _⟩ => exact hj
  · match a with
    | ⟨0, _⟩ => exact hj

/-- One dense layer on a block of rows is, row for row, the layer on the whole array. -/
theorem layer_row {M K N B : ℕ} {φ₁ φ₂ ψ₁ ψ₂ : FTy} (prec prec' : Option ContractPrecision)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (bk : FVec Ideal ⟨2, ![B, N]⟩ .f32) (bR : FVec Ideal ⟨2, ![M, N]⟩ .f32) (P : Fin M) (p : Fin B) (q : Fin N)
    (hx : ∀ k : Fin K, (x (ix2 p k) : EReal) = A (ix2 P k)) (hw : ∀ k : Fin K, (w (ix2 k q) : EReal) = W (ix2 k q))
    (hb : (bk (ix2 p q) : EReal) = bR (ix2 P q)) :
    addf (matmul (DotDims.plain B K N) prec x w (constant ⟨2, ![B, N]⟩ .f32 0x00000000#32)) bk (ix2 p q)
      = addf (Host.dotGeneral (DotDims.plain M K N) prec' A W) bR (ix2 P q) := by
  show FloatOps.addf _ _ = FloatOps.addf _ _
  rw [hb]
  exact congrArg (FloatOps.addf · _) (Cert.Lib.RowBlock.matmul_eq_dotGeneral prec prec' .single A W x w P p q hx hw)

/-- The rectifier at an entry: the zero a splat scalar on one side, a broadcast rank-0 constant on the other. -/
theorem relu_row {s t : Shape} (u : FVec Ideal s .f32) (v : FVec Ideal t .f32) (i : s.Idx) (j : t.Idx)
    (hbc : (⟨0, ![]⟩ : Shape).BroadcastsInDim t ![]) (huv : (u i : EReal) = v j) :
    maximumf u (broadcast s (Scalar.ofBits .f32 0x00000000#32)) i
      = maximumf v (broadcastInDim t ![] hbc (constant ⟨0, ![]⟩ .f32 0x00000000#32)) j := by
  show FloatOps.maximumf (u i) _ = FloatOps.maximumf (v j) _
  rw [huv]
  rfl

end Cert.Lib.AffineRows

end
-- ==== Proof.LibRowLayers.lean ====
/-
  The two kernel bodies of a row-tiled graph-convolution layer at ONE entry, against the host's operations on the whole
  array, on the extended reals.

  A dense body multiplies its `B×K` block of rows by the whole `K×N` weight on the vector unit, from the zero accumulator
  and with both operands passed through a change of float format (the identity on the extended reals), and adds a bias
  row `[1, N]` broadcast over the block's rows. At entry `(p, q)`, with row `p` of the block being row `P` of the array,
  that is `∑ k, A (P, k) * W (k, q) + r (0, q)`: entry `(P, q)` of the host's product plus the same row put on both axes of
  `[M, N]` (`dense_bias_point`), and, when the row is zero, entry `(P, q)` of the product alone, because `y + 0 = y` for every
  extended real `y`, the infinities included (`dense_zero_point`). A bias-and-rectifier body computes `max (g + r, 0)` on
  its block, entry for entry what the host computes on the whole array (`bias_relu_point`). No finiteness is asked anywhere:
  the two sides are the same sums and the same maxima, term by term.
-/
import proofs.«116509_j71700184039973_1_alg».proof.Proof.LibAffineRows

noncomputable section

open scoped BigOperators

namespace Cert.Lib.RowLayers

open Idealize.ShloMosaic Idealize.ShloMosaic.ValueIdx

variable {M K N B : ℕ}

/-- One row `[1, N]`, cast to its own shape and broadcast over `B` rows, reads at `(p, q)` its entry `(0, q)`. -/
theorem rowOver_apply {α : Type} (r : (⟨2, ![1, N]⟩ : Shape).Idx → α) (h1 : (⟨2, ![1, N]⟩ : Shape).ShapeCasts ⟨2, ![1, N]⟩)
    (h2 : (⟨2, ![1, N]⟩ : Shape).Broadcasts ⟨2, ![B, N]⟩) (p : Fin B) (q : Fin N) :
    broadcastTo ⟨2, ![B, N]⟩ (shapeCast ⟨2, ![1, N]⟩ r h1) h2 (ix2 p q) = r (ix2 (0 : Fin 1) q) := by
  rw [shapeCast_self]
  exact broadcastTo_1b_ab_apply r h2 p q

/-- One row `[1, N]` put on both axes of `[M, N]` reads at `(P, q)` its entry `(0, q)`. -/
theorem rowInDim_apply {α : Type} (r : (⟨2, ![1, N]⟩ : Shape).Idx → α)
    (h : (⟨2, ![1, N]⟩ : Shape).BroadcastsInDim ⟨2, ![M, N]⟩ ![0, 1]) (P : Fin M) (q : Fin N) :
    broadcastInDim ⟨2, ![M, N]⟩ ![0, 1] h r (ix2 P q) = r (ix2 (0 : Fin 1) q) := by
  refine broadcastInDim_apply _ h r (ix2 P q) (ix2 (0 : Fin 1) q) fun a => ?_
  match a with
  | ⟨0, _⟩ => rfl
  | ⟨1, _⟩ =>
    show q.val = if N = 1 then 0 else q.val
    split
    · have := q.isLt; omega
    · rfl

/-- A dense body with a bias row, at one entry: the host's product plus the row put on both axes. -/
theorem dense_bias_point (prec prec' : Option ContractPrecision)
    (A : FVec Ideal ⟨2, ![M, K]⟩ .f32) (W : FVec Ideal ⟨2, ![K, N]⟩ .f32) (R : FVec Ideal ⟨2, ![1, N]⟩ .f32)
    (x : FVec Ideal ⟨2, ![B, K]⟩ .f32) (w : FVec Ideal ⟨2, ![K, N]⟩ .f32) (r : FVec Ideal ⟨2, ![1, N]⟩ .f32)
    (hlt : FTy.bf16.bits < FTy.f32.bits)
    (h1 : (⟨2, ![1, N]⟩ : Shape).ShapeCasts ⟨2, ![1, N]⟩) (h2 : (⟨2, ![1, N]⟩ : Shape).Broadcasts ⟨2, ![B, N]⟩)
    (h3 : (⟨2, ![1, N]⟩ : Shape).BroadcastsInDim ⟨2, ![M, N]⟩ ![0, 1])
    (P : Fin M) (p : Fin B) (q : Fin N)
    (hx : ∀ k : Fin K, (x (ix2 p k) : EReal) = A (ix2 P k)) (hw : ∀ k : Fin K, (w (ix2 k q) : EReal) = W (ix2 k q))
    (hr : (r (ix2 (0 : Fin 1) q) : EReal) = R (ix2 (0 : Fin 1) q)) :
    addf (matmul (DotDims.plain B K N) prec (truncf .bf16 x hlt) (truncf .bf16 w hlt) (constant ⟨2, ![B, N]⟩ .f32 0x00000000#32))
        (broadcastTo ⟨2, ![B, N]⟩ (shapeCast ⟨2, ![1, N]⟩ r h1) h2) (ix2 p q)
      = addf (Host.dotGeneral (DotDims.plain M K N) prec' A W) (broadcastInDim ⟨2, ![M, N]⟩ ![0, 1] h3 R) (ix2 P q) :=
  Cert.Lib.AffineRows.layer_row prec prec' A W (truncf .bf16 x hlt) (truncf .bf16 w hlt) _ _ P p q hx hw
    ((rowOver_apply r h1 h2 p q).trans (hr.trans (rowInDim_apply R h3 P q).symm))

/-- A dense body whose bias row is zero, at one entry: the host's product alone (`y + 0 = y` on the extended reals). -/
theorem dense_zero_point (prec prec' : Option ContractPrecision)
    (A : FVec Ideal ⟨2, ![M, K]⟩ .f32) (W : FVec Ideal ⟨2, ![K, N]⟩ .f32)
    (x : FVec Ideal ⟨2, ![B, K]⟩ .f32) (w : FVec Ideal ⟨2, ![K, N]⟩ .f32) (r : FVec Ideal ⟨2, ![1, N]⟩ .f32)
    (hlt : FTy.bf16.bits < FTy.f32.bits)
    (h1 : (⟨2, ![1, N]⟩ : Shape).ShapeCasts ⟨2, ![1, N]⟩) (h2 : (⟨2, ![1, N]⟩ : Shape).Broadcasts ⟨2, ![B, N]⟩)
    (P : Fin M) (p : Fin B) (q : Fin N)
    (hx : ∀ k : Fin K, (x (ix2 p k) : EReal) = A (ix2 P k)) (hw : ∀ k : Fin K, (w (ix2 k q) : EReal) = W (ix2 k q))
    (hr : (r (ix2 (0 : Fin 1) q) : EReal) = 0) :
    addf (matmul (DotDims.plain B K N) prec (truncf .bf16 x hlt) (truncf .bf16 w hlt) (constant ⟨2, ![B, N]⟩ .f32 0x00000000#32))
        (broadcastTo ⟨2, ![B, N]⟩ (shapeCast ⟨2, ![1, N]⟩ r h1) h2) (ix2 p q)
      = Host.dotGeneral (DotDims.plain M K N) prec' A W (ix2 P q) := by
  show FloatOps.addf (matmul (DotDims.plain B K N) prec (truncf .bf16 x hlt) (truncf .bf16 w hlt)
      (constant ⟨2, ![B, N]⟩ .f32 0x00000000#32) (ix2 p q)) (broadcastTo ⟨2, ![B, N]⟩ (shapeCast ⟨2, ![1, N]⟩ r h1) h2 (ix2 p q)) = _
  rw [rowOver_apply, hr, Ideal.addf_def, add_zero]
  exact Cert.Lib.RowBlock.matmul_eq_dotGeneral prec prec' .single A W (truncf .bf16 x hlt) (truncf .bf16 w hlt) P p q hx hw

/-- A bias-and-rectifier body at one entry: `max (g + r, 0)` on the block is `max (G + R, 0)` on the array. -/
theorem bias_relu_point (G : FVec Ideal ⟨2, ![M, N]⟩ .f32) (R : FVec Ideal ⟨2, ![1, N]⟩ .f32)
    (g : FVec Ideal ⟨2, ![B, N]⟩ .f32) (r : FVec Ideal ⟨2, ![1, N]⟩ .f32)
    (h0 : (⟨2, ![B, N]⟩ : Shape).ShapeCasts ⟨2, ![B, N]⟩)
    (h1 : (⟨2, ![1, N]⟩ : Shape).ShapeCasts ⟨2, ![1, N]⟩) (h2 : (⟨2, ![1, N]⟩ : Shape).Broadcasts ⟨2, ![B, N]⟩)
    (h3 : (⟨2, ![1, N]⟩ : Shape).BroadcastsInDim ⟨2, ![M, N]⟩ ![0, 1])
    (hbc : (⟨0, ![]⟩ : Shape).BroadcastsInDim ⟨2, ![M, N]⟩ ![])
    (P : Fin M) (p : Fin B) (q : Fin N)
    (hg : (g (ix2 p q) : EReal) = G (ix2 P q)) (hr : (r (ix2 (0 : Fin 1) q) : EReal) = R (ix2 (0 : Fin 1) q)) :
    maximumf (addf (shapeCast ⟨2, ![B, N]⟩ g h0) (broadcastTo ⟨2, ![B, N]⟩ (shapeCast ⟨2, ![1, N]⟩ r h1) h2))
        (broadcast ⟨2, ![B, N]⟩ (Scalar.ofBits .f32 0x00000000#32)) (ix2 p q)
      = maximumf (addf G (broadcastInDim ⟨2, ![M, N]⟩ ![0, 1] h3 R))
        (broadcastInDim ⟨2, ![M, N]⟩ ![] hbc (constant ⟨0, ![]⟩ .f32 0x00000000#32)) (ix2 P q) :=
  Cert.Lib.AffineRows.relu_row _ _ (ix2 p q) (ix2 P q) hbc (by
    show FloatOps.addf (shapeCast ⟨2, ![B, N]⟩ g h0 (ix2 p q)) (broadcastTo ⟨2, ![B, N]⟩ (shapeCast ⟨2, ![1, N]⟩ r h1) h2 (ix2 p q))
      = FloatOps.addf (G (ix2 P q)) (broadcastInDim ⟨2, ![M, N]⟩ ![0, 1] h3 R (ix2 P q))
    rw [shapeCast_self, rowOver_apply, rowInDim_apply, hg, hr])

end Cert.Lib.RowLayers

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibRowSoftmax.lean ====
/-
  A row softmax computed two ways, read at one entry on the extended reals.

  The first computation works on a block of `B` rows of width `N` with vector operations: the row maximum by a
  `vector.multi_reduction <maximumf>` from `-∞`, taken once more against `-∞`, kept as a column (`shape_cast` then
  `broadcast`), subtracted; the exponential; the row sum by a `vector.multi_reduction <add>`, kept as a column in the
  same way; the quotient. The second works on a whole `M × N` matrix with the host's operations: `stablehlo.reduce`
  with a maximum body from `-∞`, a maximum against the broadcast `-∞`, two `broadcast_in_dim`, a subtraction, the
  exponential, `stablehlo.reduce` with an add body from `0`, two `broadcast_in_dim`, the quotient.

  When row `p` of the block is row `P` of the matrix, entry `(p, q)` of the first result is entry `(P, q)` of the
  second: both are `exp (x_q - m) / Σ_k exp (x_k - m)` with `m = max (-∞) (max_k x_k)`, where a fold of `max` and a
  finite sum do not depend on the order of their terms. Nothing is assumed finite.
-/
import Idealize.ShloMosaic.PureOps.Ideal.Laws
import Idealize.ShloMosaic.Lib.ValueIdx
import Idealize.ShloMosaic.Lib.Pipeline.Value
import proofs.«116509_j71700184039973_1_alg».proof.Proof.LibKeepdims

noncomputable section

namespace Cert.Lib.RowSoftmax

open Idealize.ShloMosaic Idealize.ShloMosaic.ValueIdx Idealize.ShloMosaic.ValueKeepdims

/-! ## The two ways of keeping a row quantity as a column and spreading it over the row -/

/-- A vector of `a` entries cast to a column and broadcast over `b` columns reads, at `(i, j)`, the vector at `i`. -/
theorem column_spread_apply {α : Type} {a b : ℕ} (v : (⟨1, ![a]⟩ : Shape).Idx → α)
    (hSC : (⟨1, ![a]⟩ : Shape).ShapeCasts ⟨2, ![a, 1]⟩) (hBC : (⟨2, ![a, 1]⟩ : Shape).Broadcasts ⟨2, ![a, b]⟩)
    (i : Fin a) (j : Fin b) :
    broadcastTo ⟨2, ![a, b]⟩ (shapeCast ⟨2, ![a, 1]⟩ v hSC) hBC (ix2 i j) = v (ix1 i) :=
  (broadcastTo_a1_ab_apply _ hBC i j).trans (shapeCast_a_a1_apply v hSC i 0)

/-- A vector of `a` entries broadcast in dimension `0` to a column reads, at `(i, u)`, the vector at `i`. -/
theorem broadcastInDim_a_a1_apply {α : Type} {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column of `a` entries broadcast in dimensions `0, 1` over `b` columns reads, at `(i, j)`, the column at `(i, 0)`. -/
theorem broadcastInDim_a1_ab_apply {α : Type} {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (i : Fin a) (j : Fin b) : broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- The two together: a vector broadcast to a column and then over `b` columns reads, at `(i, j)`, the vector at `i`. -/
theorem host_column_spread_apply {α : Type} {a b : ℕ} (v : (⟨1, ![a]⟩ : Shape).Idx → α)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (i : Fin a) (j : Fin b) :
    broadcastInDim ⟨2, ![a, b]⟩ ![0, 1] h2 (broadcastInDim ⟨2, ![a, 1]⟩ ![0] h1 v) (ix2 i j) = v (ix1 i) :=
  (broadcastInDim_a1_ab_apply _ h2 i j).trans (broadcastInDim_a_a1_apply v h1 i 0)

/-! ## The host's two row reductions read at a row -/

/-- A reduction over the second axis into a vector is, in particular, one into a shape of positive rank. -/
theorem reduces_of_reducesTo {a b : ℕ} (h : (⟨2, ![a, b]⟩ : Shape).ReducesTo [1] (⟨1, ![a]⟩ : Shape)) :
    (⟨2, ![a, b]⟩ : Shape).Reduces [1] (⟨1, ![a]⟩ : Shape) := by
  obtain ⟨h1, h2⟩ := h
  exact ⟨h1, Nat.one_pos, h2⟩

/-- The host's `stablehlo.reduce` with a maximum body of an `[a, b]` matrix over its second axis, from a rank-zero constant,
    read on the extended reals at row `i`: the fold of `max`, from the constant's value, over the row's entries. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (hu : 0 < (⟨0, ![]⟩ : Shape).numel) (i : Fin a) :
    Host.reduce (FloatOps.maximumf (F := Ideal) (φ := .f32)) x (constant (F := Ideal) ⟨0, ![]⟩ .f32 w) h' hu (ix1 i)
      = (Finset.univ : Finset (Fin b)).fold max (Ideal.ofBits .f32 w) (fun k => x (ix2 i k)) := by
  have h := reduces_of_reducesTo h'
  rw [Host.reduce_eq_fold_single (FloatOps.maximumf (F := Ideal) (φ := .f32)) x _ h' h hu]
  have hf : (x ∘ h.lift (ix1 i)) = fun k : Fin b => x (ix2 i k) :=
    funext fun k => congrArg x (lift_axis1_ix2 h i k)
  exact congrArg (fun f => Finset.fold max (Ideal.ofBits .f32 w) f (Finset.univ : Finset (Fin b))) hf

/-- The host's `stablehlo.reduce` with an add body of an `[a, b]` matrix over its second axis, from a rank-zero constant,
    read on the extended reals at row `i`: the constant's value plus the sum of the row's entries. -/
theorem hostReduceAdd_row {a b : ℕ} (x : FVec Ideal ⟨2, ![a, b]⟩ .f32) (w : BitVec 32)
    (h' : (⟨2, ![a, b]⟩ : Shape).ReducesTo [1] (⟨1, ![a]⟩ : Shape)) (hu : 0 < (⟨0, ![]⟩ : Shape).numel) (i : Fin a) :
    Host.reduceAdd (F := Ideal) x (constant (F := Ideal) ⟨0, ![]⟩ .f32 w) h' hu (ix1 i)
      = Ideal.ofBits .f32 w + ∑ k : Fin b, x (ix2 i k) := by
  have h := reduces_of_reducesTo h'
  show Ideal.hostReduceAdd h' x (Ideal.ofBits .f32 w) (ix1 i) = _
  rw [Ideal.hostReduceAdd_single h' h]
  exact congrArg (_ + ·) (Finset.sum_congr rfl fun k _ => congrArg x (lift_axis1_ix2 h i k))

/-! ## The block's side -/

/-- The block's row maximum, taken once more against `-∞`'s word, at row `i`. -/
theorem kernel_rowmax_apply {a b : ℕ} (z : FVec Ideal ⟨2, ![a, b]⟩ .f32) (w : BitVec 32)
    (hR : (⟨2, ![a, b]⟩ : Shape).Reduces [1] (⟨1, ![a]⟩ : Shape)) (hφ : FKind.Formats .f32)
    (hacc : w = FKind.maximumf.neutral .f32 hφ) (i : Fin a) :
    maximumf (broadcast ⟨1, ![a]⟩ (FloatOps.ofBits (F := Ideal) .f32 w))
        (multiReduction (F := Ideal) .maximumf [1] ⟨1, ![a]⟩ z w hR hφ hacc) (ix1 i)
      = max (Ideal.ofBits .f32 w) ((Finset.univ : Finset (Fin b)).fold max (Ideal.ofBits .f32 w) (fun k => z (ix2 i k))) :=
  congrArg (max (Ideal.ofBits .f32 w)) (multiReduction_maximumf_row z w hR hφ hacc i)

/-- The host's row maximum, taken once more against the broadcast `-∞`'s word, at row `i`. -/
theorem host_rowmax_apply {a b : ℕ} (Z : FVec Ideal ⟨2, ![a, b]⟩ .f32) (w : BitVec 32)
    (h' : (⟨2, ![a, b]⟩ : Shape).ReducesTo [1] (⟨1, ![a]⟩ : Shape)) (hu : 0 < (⟨0, ![]⟩ : Shape).numel)
    (hb0 : (⟨0, ![]⟩ : Shape).BroadcastsInDim ⟨1, ![a]⟩ (![] : Fin 0 → Fin (⟨1, ![a]⟩ : Shape).rank)) (i : Fin a) :
    maximumf (broadcastInDim ⟨1, ![a]⟩ ![] hb0 (constant (F := Ideal) ⟨0, ![]⟩ .f32 w))
        (Host.reduce (FloatOps.maximumf (F := Ideal) (φ := .f32)) Z (constant (F := Ideal) ⟨0, ![]⟩ .f32 w) h' hu) (ix1 i)
      = max (Ideal.ofBits .f32 w) ((Finset.univ : Finset (Fin b)).fold max (Ideal.ofBits .f32 w) (fun k => Z (ix2 i k))) :=
  congrArg (max (Ideal.ofBits .f32 w)) (hostReduce_maximumf_row Z w h' hu i)

/-- The block's shifted exponentials at `(i, j)`: `exp (z_j - m)`, `m` the row's maximum taken against `-∞`'s word. -/
theorem kernel_exp_apply {a b : ℕ} (z : FVec Ideal ⟨2, ![a, b]⟩ .f32) (w : BitVec 32)
    (hR : (⟨2, ![a, b]⟩ : Shape).Reduces [1] (⟨1, ![a]⟩ : Shape)) (hφ : FKind.Formats .f32)
    (hacc : w = FKind.maximumf.neutral .f32 hφ)
    (hSC : (⟨1, ![a]⟩ : Shape).ShapeCasts ⟨2, ![a, 1]⟩) (hBC : (⟨2, ![a, 1]⟩ : Shape).Broadcasts ⟨2, ![a, b]⟩)
    (i : Fin a) (j : Fin b) :
    exp (subf z (broadcastTo ⟨2, ![a, b]⟩ (shapeCast ⟨2, ![a, 1]⟩
        (maximumf (broadcast ⟨1, ![a]⟩ (FloatOps.ofBits (F := Ideal) .f32 w))
          (multiReduction (F := Ideal) .maximumf [1] ⟨1, ![a]⟩ z w hR hφ hacc)) hSC) hBC)) (ix2 i j)
      = Ideal.exp (z (ix2 i j) - max (Ideal.ofBits .f32 w)
          ((Finset.univ : Finset (Fin b)).fold max (Ideal.ofBits .f32 w) (fun k => z (ix2 i k)))) := by
  show Ideal.exp (z (ix2 i j) - broadcastTo ⟨2, ![a, b]⟩ (shapeCast ⟨2, ![a, 1]⟩ _ hSC) hBC (ix2 i j)) = _
  rw [column_spread_apply, kernel_rowmax_apply]

/-- The block's quotient by the row sum kept as a column, at `(i, j)`: the entry over the sum of the row's entries. -/
theorem kernel_quotient_apply {a b : ℕ} (E : FVec Ideal ⟨2, ![a, b]⟩ .f32) (w : BitVec 32)
    (hR : (⟨2, ![a, b]⟩ : Shape).Reduces [1] (⟨1, ![a]⟩ : Shape)) (hφ : FKind.Formats .f32)
    (hacc : w = FKind.add.neutral .f32 hφ)
    (hSC : (⟨1, ![a]⟩ : Shape).ShapeCasts ⟨2, ![a, 1]⟩) (hBC : (⟨2, ![a, 1]⟩ : Shape).Broadcasts ⟨2, ![a, b]⟩)
    (i : Fin a) (j : Fin b) :
    divf E (broadcastTo ⟨2, ![a, b]⟩ (shapeCast ⟨2, ![a, 1]⟩
        (multiReduction (F := Ideal) .add [1] ⟨1, ![a]⟩ E w hR hφ hacc) hSC) hBC) (ix2 i j)
      = Ideal.div (E (ix2 i j)) (∑ k : Fin b, E (ix2 i k)) := by
  show Ideal.div (E (ix2 i j)) (broadcastTo ⟨2, ![a, b]⟩ (shapeCast ⟨2, ![a, 1]⟩ _ hSC) hBC (ix2 i j)) = _
  rw [column_spread_apply, multiReduction_add_row]

/-! ## The host's side -/

/-- The host's shifted exponentials at `(i, j)`: `exp (Z_j - m)`, `m` the row's maximum taken against `-∞`'s word. -/
theorem host_exp_apply {a b : ℕ} (Z : FVec Ideal ⟨2, ![a, b]⟩ .f32) (w : BitVec 32)
    (h' : (⟨2, ![a, b]⟩ : Shape).ReducesTo [1] (⟨1, ![a]⟩ : Shape)) (hu : 0 < (⟨0, ![]⟩ : Shape).numel)
    (hb0 : (⟨0, ![]⟩ : Shape).BroadcastsInDim ⟨1, ![a]⟩ (![] : Fin 0 → Fin (⟨1, ![a]⟩ : Shape).rank))
    (hb1 : (⟨1, ![a]⟩ : Shape).BroadcastsInDim ⟨2, ![a, 1]⟩ (![0] : Fin 1 → Fin (⟨2, ![a, 1]⟩ : Shape).rank))
    (hb2 : (⟨2, ![a, 1]⟩ : Shape).BroadcastsInDim ⟨2, ![a, b]⟩ (![0, 1] : Fin 2 → Fin (⟨2, ![a, b]⟩ : Shape).rank))
    (i : Fin a) (j : Fin b) :
    Host.exp (subf Z (broadcastInDim ⟨2, ![a, b]⟩ ![0, 1] hb2 (broadcastInDim ⟨2, ![a, 1]⟩ ![0] hb1
        (maximumf (broadcastInDim ⟨1, ![a]⟩ ![] hb0 (constant (F := Ideal) ⟨0, ![]⟩ .f32 w))
          (Host.reduce (FloatOps.maximumf (F := Ideal) (φ := .f32)) Z (constant (F := Ideal) ⟨0, ![]⟩ .f32 w) h' hu))))) (ix2 i j)
      = Ideal.exp (Z (ix2 i j) - max (Ideal.ofBits .f32 w)
          ((Finset.univ : Finset (Fin b)).fold max (Ideal.ofBits .f32 w) (fun k => Z (ix2 i k)))) := by
  show Ideal.exp (Z (ix2 i j) - broadcastInDim ⟨2, ![a, b]⟩ ![0, 1] hb2 (broadcastInDim (s := ⟨1, ![a]⟩) ⟨2, ![a, 1]⟩ ![0] hb1 _) (ix2 i j)) = _
  rw [host_column_spread_apply, host_rowmax_apply]

/-- The host's quotient by the row sum from `0` kept as a column, at `(i, j)`: the entry over the sum of the row's entries. -/
theorem host_quotient_apply {a b : ℕ} (E : FVec Ideal ⟨2, ![a, b]⟩ .f32)
    (h' : (⟨2, ![a, b]⟩ : Shape).ReducesTo [1] (⟨1, ![a]⟩ : Shape)) (hu : 0 < (⟨0, ![]⟩ : Shape).numel)
    (hb1 : (⟨1, ![a]⟩ : Shape).BroadcastsInDim ⟨2, ![a, 1]⟩ (![0] : Fin 1 → Fin (⟨2, ![a, 1]⟩ : Shape).rank))
    (hb2 : (⟨2, ![a, 1]⟩ : Shape).BroadcastsInDim ⟨2, ![a, b]⟩ (![0, 1] : Fin 2 → Fin (⟨2, ![a, b]⟩ : Shape).rank))
    (i : Fin a) (j : Fin b) :
    Host.divf E (broadcastInDim ⟨2, ![a, b]⟩ ![0, 1] hb2 (broadcastInDim ⟨2, ![a, 1]⟩ ![0] hb1
        (Host.reduceAdd (F := Ideal) E (constant (F := Ideal) ⟨0, ![]⟩ .f32 0x00000000#32) h' hu))) (ix2 i j)
      = Ideal.div (E (ix2 i j)) (∑ k : Fin b, E (ix2 i k)) := by
  show Ideal.div (E (ix2 i j)) (broadcastInDim ⟨2, ![a, b]⟩ ![0, 1] hb2 (broadcastInDim (s := ⟨1, ![a]⟩) ⟨2, ![a, 1]⟩ ![0] hb1 _) (ix2 i j)) = _
  rw [host_column_spread_apply, hostReduceAdd_row, Ideal.ofBits_zero_f32, zero_add]

/-! ## The two sides meet -/

/-- ROW SOFTMAX, BLOCK AGAINST WHOLE MATRIX. `z` is a block of `B` rows and `Z` a matrix of `M` rows, both `N` wide; row
    `p` of the block is row `P` of the matrix (`hz`). Then the block's softmax by the vector operations, read at `(p, q)`, is
    the matrix's softmax by the host's operations, read at `(P, q)`: on the extended reals both are
    `exp (x_q - m) / Σ_k exp (x_k - m)` with `m = max (-∞) (max_k x_k)` over the common row `x`. The remaining hypotheses
    are the shape conditions the operations ask for. -/
theorem softmax_row {M B N : ℕ} (z : FVec Ideal ⟨2, ![B, N]⟩ .f32) (Z : FVec Ideal ⟨2, ![M, N]⟩ .f32)
    (hR : (⟨2, ![B, N]⟩ : Shape).Reduces [1] (⟨1, ![B]⟩ : Shape)) (hφ : FKind.Formats .f32)
    (hmax : (0xFF800000#32 : BitVec 32) = FKind.maximumf.neutral .f32 hφ)
    (hadd : (0x00000000#32 : BitVec 32) = FKind.add.neutral .f32 hφ)
    (hSC : (⟨1, ![B]⟩ : Shape).ShapeCasts ⟨2, ![B, 1]⟩) (hBC : (⟨2, ![B, 1]⟩ : Shape).Broadcasts ⟨2, ![B, N]⟩)
    (hRT : (⟨2, ![M, N]⟩ : Shape).ReducesTo [1] (⟨1, ![M]⟩ : Shape)) (hu : 0 < (⟨0, ![]⟩ : Shape).numel)
    (hb0 : (⟨0, ![]⟩ : Shape).BroadcastsInDim ⟨1, ![M]⟩ (![] : Fin 0 → Fin (⟨1, ![M]⟩ : Shape).rank))
    (hb1 : (⟨1, ![M]⟩ : Shape).BroadcastsInDim ⟨2, ![M, 1]⟩ (![0] : Fin 1 → Fin (⟨2, ![M, 1]⟩ : Shape).rank))
    (hb2 : (⟨2, ![M, 1]⟩ : Shape).BroadcastsInDim ⟨2, ![M, N]⟩ (![0, 1] : Fin 2 → Fin (⟨2, ![M, N]⟩ : Shape).rank))
    (p : Fin B) (P : Fin M) (q : Fin N)
    (hz : ∀ q' : Fin N, (z (ix2 p q') : EReal) = Z (ix2 P q')) :
    divf
        (exp (subf z (broadcastTo ⟨2, ![B, N]⟩ (shapeCast ⟨2, ![B, 1]⟩
          (maximumf (broadcast ⟨1, ![B]⟩ (FloatOps.ofBits (F := Ideal) .f32 0xFF800000#32))
            (multiReduction (F := Ideal) .maximumf [1] ⟨1, ![B]⟩ z 0xFF800000#32 hR hφ hmax)) hSC) hBC)))
        (broadcastTo ⟨2, ![B, N]⟩ (shapeCast ⟨2, ![B, 1]⟩
          (multiReduction (F := Ideal) .add [1] ⟨1, ![B]⟩
            (exp (subf z (broadcastTo ⟨2, ![B, N]⟩ (shapeCast ⟨2, ![B, 1]⟩
              (maximumf (broadcast ⟨1, ![B]⟩ (FloatOps.ofBits (F := Ideal) .f32 0xFF800000#32))
                (multiReduction (F := Ideal) .maximumf [1] ⟨1, ![B]⟩ z 0xFF800000#32 hR hφ hmax)) hSC) hBC)))
            0x00000000#32 hR hφ hadd) hSC) hBC)
        (ix2 p q)
      = Host.divf
        (Host.exp (subf Z (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce (FloatOps.maximumf (F := Ideal) (φ := .f32)) Z (constant (F := Ideal) ⟨0, ![]⟩ .f32 0xFF800000#32) hRT hu))))))
        (broadcastInDim ⟨2, ![M, N]⟩ ![0, 1] hb2 (broadcastInDim ⟨2, ![M, 1]⟩ ![0] hb1
          (Host.reduceAdd (F := Ideal)
            (Host.exp (subf Z (broadcastInDim ⟨2, ![M, N]⟩ ![0, 1] hb2 (broadcastInDim ⟨2, ![M, 1]⟩ ![0] hb1
              (maximumf (broadcastInDim ⟨1, ![M]⟩ ![] hb0 (constant (F := Ideal) ⟨0, ![]⟩ .f32 0xFF800000#32))
                (Host.reduce (FloatOps.maximumf (F := Ideal) (φ := .f32)) Z (constant (F := Ideal) ⟨0, ![]⟩ .f32 0xFF800000#32) hRT hu))))))
            (constant (F := Ideal) ⟨0, ![]⟩ .f32 0x00000000#32) hRT hu)))
        (ix2 P q) := by
  have hrow : (fun k : Fin N => z (ix2 p k)) = fun k : Fin N => Z (ix2 P k) := funext hz
  have hexp : ∀ j : Fin N,
      exp (subf z (broadcastTo ⟨2, ![B, N]⟩ (shapeCast ⟨2, ![B, 1]⟩
          (maximumf (broadcast ⟨1, ![B]⟩ (FloatOps.ofBits (F := Ideal) .f32 0xFF800000#32))
            (multiReduction (F := Ideal) .maximumf [1] ⟨1, ![B]⟩ z 0xFF800000#32 hR hφ hmax)) hSC) hBC)) (ix2 p j)
        = Host.exp (subf Z (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce (FloatOps.maximumf (F := Ideal) (φ := .f32)) Z (constant (F := Ideal) ⟨0, ![]⟩ .f32 0xFF800000#32) hRT hu))))) (ix2 P j) := by
    intro j
    rw [kernel_exp_apply, host_exp_apply, hrow, hz j]
  rw [kernel_quotient_apply, host_quotient_apply, hexp q]
  exact congrArg (Ideal.div _) (Finset.sum_congr rfl fun k _ => hexp k)

/-- The instance the lemma is meant for: a block of 1024 rows against a matrix of 1024 rows, 47 wide. -/
example (z Z : FVec Ideal ⟨2, ![1024, 47]⟩ .f32)
    (hR : (⟨2, ![1024, 47]⟩ : Shape).Reduces [1] (⟨1, ![1024]⟩ : Shape))
    (hSC : (⟨1, ![1024]⟩ : Shape).ShapeCasts ⟨2, ![1024, 1]⟩) (hBC : (⟨2, ![1024, 1]⟩ : Shape).Broadcasts ⟨2, ![1024, 47]⟩)
    (hRT : (⟨2, ![1024, 47]⟩ : Shape).ReducesTo [1] (⟨1, ![1024]⟩ : Shape)) (hu : 0 < (⟨0, ![]⟩ : Shape).numel)
    (hb0 : (⟨0, ![]⟩ : Shape).BroadcastsInDim ⟨1, ![1024]⟩ (![] : Fin 0 → Fin (⟨1, ![1024]⟩ : Shape).rank))
    (hb1 : (⟨1, ![1024]⟩ : Shape).BroadcastsInDim ⟨2, ![1024, 1]⟩ (![0] : Fin 1 → Fin (⟨2, ![1024, 1]⟩ : Shape).rank))
    (hb2 : (⟨2, ![1024, 1]⟩ : Shape).BroadcastsInDim ⟨2, ![1024, 47]⟩ (![0, 1] : Fin 2 → Fin (⟨2, ![1024, 47]⟩ : Shape).rank))
    (p P : Fin 1024) (q : Fin 47) (hz : ∀ q' : Fin 47, (z (ix2 p q') : EReal) = Z (ix2 P q')) :
    divf
        (exp (subf z (broadcastTo ⟨2, ![1024, 47]⟩ (shapeCast ⟨2, ![1024, 1]⟩
          (maximumf (broadcast ⟨1, ![1024]⟩ (Scalar.ofBits (F := Ideal) .f32 0xFF800000#32))
            (multiReduction (F := Ideal) .maximumf [1] ⟨1, ![1024]⟩ z 0xFF800000#32 hR (.inl rfl) rfl)) hSC) hBC)))
        (broadcastTo ⟨2, ![1024, 47]⟩ (shapeCast ⟨2, ![1024, 1]⟩
          (multiReduction (F := Ideal) .add [1] ⟨1, ![1024]⟩
            (exp (subf z (broadcastTo ⟨2, ![1024, 47]⟩ (shapeCast ⟨2, ![1024, 1]⟩
              (maximumf (broadcast ⟨1, ![1024]⟩ (Scalar.ofBits (F := Ideal) .f32 0xFF800000#32))
                (multiReduction (F := Ideal) .maximumf [1] ⟨1, ![1024]⟩ z 0xFF800000#32 hR (.inl rfl) rfl)) hSC) hBC)))
            0x00000000#32 hR (.inl rfl) rfl) hSC) hBC)
        (ix2 p q)
      = Host.divf
        (Host.exp (subf Z (broadcastInDim ⟨2, ![1024, 47]⟩ ![0, 1] hb2 (broadcastInDim ⟨2, ![1024, 1]⟩ ![0] hb1
          (maximumf (broadcastInDim ⟨1, ![1024]⟩ ![] hb0 (constant (F := Ideal) ⟨0, ![]⟩ .f32 0xFF800000#32))
            (Host.reduce (FloatOps.maximumf (F := Ideal) (φ := .f32)) Z (constant (F := Ideal) ⟨0, ![]⟩ .f32 0xFF800000#32) hRT hu))))))
        (broadcastInDim ⟨2, ![1024, 47]⟩ ![0, 1] hb2 (broadcastInDim ⟨2, ![1024, 1]⟩ ![0] hb1
          (Host.reduceAdd (F := Ideal)
            (Host.exp (subf Z (broadcastInDim ⟨2, ![1024, 47]⟩ ![0, 1] hb2 (broadcastInDim ⟨2, ![1024, 1]⟩ ![0] hb1
              (maximumf (broadcastInDim ⟨1, ![1024]⟩ ![] hb0 (constant (F := Ideal) ⟨0, ![]⟩ .f32 0xFF800000#32))
                (Host.reduce (FloatOps.maximumf (F := Ideal) (φ := .f32)) Z (constant (F := Ideal) ⟨0, ![]⟩ .f32 0xFF800000#32) hRT hu))))))
            (constant (F := Ideal) ⟨0, ![]⟩ .f32 0x00000000#32) hRT hu)))
        (ix2 P q) :=
  softmax_row z Z hR (.inl rfl) rfl rfl hSC hBC hRT hu hb0 hb1 hb2 p P q hz

end Cert.Lib.RowSoftmax

end
-- ==== Proof.Epilogue.lean ====
/-
  The graph convolution's epilogue, once per layer: each grid point takes 2000 rows of the aggregated messages, of the
  projected features and of the inverse-degree column, and the whole bias row, and writes
  max (agg + xp · invdeg + bias, 0) for its rows. Entry by entry that is the whole-array epilogue read at row
  2000·t + p; the 25 blocks tile the result.
-/
import proofs.«116509_j71700184039973_1_alg».proof.Proof.Gen.KernelIdeal.Frame
import proofs.«116509_j71700184039973_1_alg».proof.Proof.Spec
import proofs.«116509_j71700184039973_1_alg».proof.Proof.LibRowLayers
import proofs.«116509_j71700184039973_1_alg».proof.Proof.LibRowSoftmax
import Idealize.ShloMosaic.Lib.Pipeline.Value
import Idealize.ShloMosaic.Lib.ValueIdx

set_option maxRecDepth 16384

noncomputable section

namespace Cert.KernelIdeal.EpilogueValue

open Cert.KernelIdeal Cert.KernelIdeal.Gen Idealize.ShloMosaic Idealize.ShloMosaic.TcCoe Idealize.ShloMosaic.ValueIdx
open Idealize.ShloMosaic.ValueKeepdims
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 2 -/

/-- The body's payload at an entry, against the whole-array epilogue at the entry's row of the array. -/
theorem pay2_apply (agg xp : FVec Ideal Cert.Gnn.SND .f32) (invcol : FVec Ideal Cert.Gnn.SN1 .f32) (brow : FVec Ideal Cert.Gnn.S1D .f32)
    (x0 x1 : Vec Ideal ⟨2, ![2000, 256]⟩ .f32) (x2 : Vec Ideal ⟨2, ![2000, 1]⟩ .f32) (x3 : Vec Ideal ⟨2, ![1, 256]⟩ .f32)
    (P : Fin 50000) (p : Fin 2000) (q : Fin 256)
    (h0 : (x0 (ix2 p q) : EReal) = agg (ix2 P q)) (h1 : (x1 (ix2 p q) : EReal) = xp (ix2 P q))
    (h2 : (x2 (ix2 p (0 : Fin 1)) : EReal) = invcol (ix2 P (0 : Fin 1)))
    (h3 : (x3 (ix2 (0 : Fin 1) q) : EReal) = brow (ix2 (0 : Fin 1) q)) :
    k2_pay1 (F := Ideal) x0 x1 x2 x3 (ix2 p q) = Cert.Gnn.epilogue agg xp invcol brow (ix2 P q) := by
  unfold k2_pay1 Cert.Gnn.epilogue Cert.Gnn.relu
  refine Cert.Lib.AffineRows.relu_row _ _ _ _ _ ?_
  show FloatOps.addf (FloatOps.addf (shapeCast _ x0 _ (ix2 p q))
        (FloatOps.mulf (shapeCast _ x1 _ (ix2 p q)) (broadcastTo _ (shapeCast _ x2 _) _ (ix2 p q))))
        (broadcastTo _ (shapeCast _ x3 _) _ (ix2 p q))
      = FloatOps.addf (FloatOps.addf (agg (ix2 P q)) (FloatOps.mulf (xp (ix2 P q)) (Cert.Gnn.acrossD invcol (ix2 P q))))
        (Cert.Gnn.downD brow (ix2 P q))
  rw [shapeCast_self, shapeCast_self, shapeCast_self, broadcastTo_a1_ab_apply, Cert.Lib.RowLayers.rowOver_apply, h0, h1, h2, h3]
  unfold Cert.Gnn.acrossD Cert.Gnn.downD
  rw [Cert.Lib.RowSoftmax.broadcastInDim_a1_ab_apply, Cert.Lib.RowLayers.rowInDim_apply]

/-- The printed index maps over the grid: point `t` takes rows `2000·t …` of the three N-row operands and of the
    result, and the whole bias row. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the whole-array epilogue. -/
theorem flushed2_eq (c : Dev nD) (t : Fin cfg2.N) :
    (dat2 (F := Ideal) V c).flushed 4 t
      = ((cfg2.win 4).blk t).view.read (Elt Ideal)
          (Cert.Gnn.epilogue (V c main_v40) (V c main_v5) (V c main_v43) (V c main_v44)) := by
  show (cfg2.win 4).cut (grid2.coords t) ((dat2 (F := Ideal) V c).after 4 t) = _
  rw [after2_4]
  unfold out2_4
  rw [View.canon_unit_zero hz]
  simp only [View.ld_unit_zero (S := S2000x256) hz, View.ld_unit_zero (S := S2000x1) hz,
    View.ld_unit_zero (S := S1x256) hz]
  obtain ⟨e0, e1, e2, e3, e4, e5, e6, e7, e8, e9⟩ := idx_facts2 t
  funext j
  obtain ⟨p, q, rfl⟩ : ∃ (p : Fin 2000) (q : Fin 256), j = ix2 p q := ⟨j 0, j 1, eq_ix2 j⟩
  have hN : cfg2.N = 25 := N_2
  have hP : t.val * 2000 + p.val < 50000 := by
    have := t.isLt; have := p.isLt; omega
  refine (pay2_apply (V c main_v40) (V c main_v5) (V c main_v43) (V c main_v44) _ _ _ _ ⟨t.val * 2000 + p.val, hP⟩ p q ?_ ?_ ?_ ?_).trans ?_
  · show V c main_v40 (((cfg2.win 0).blk t).view.emb (ix2 p q)) = V c main_v40 (ix2 ⟨t.val * 2000 + p.val, hP⟩ q)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 256 + 1 * q.val = q.val; omega
  · show V c main_v5 (((cfg2.win 1).blk t).view.emb (ix2 p q)) = V c main_v5 (ix2 ⟨t.val * 2000 + p.val, hP⟩ q)
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 256 + 1 * q.val = q.val; omega
  · show V c main_v43 (((cfg2.win 2).blk t).view.emb (ix2 p (0 : Fin 1))) = V c main_v43 (ix2 ⟨t.val * 2000 + p.val, hP⟩ (0 : Fin 1))
    refine congrArg _ (funext fun a => Fin.ext ?_)
    match a with
    | ⟨0, _⟩ => show win2_2.index t (0 : Fin 2) * 2000 + 1 * p.val = t.val * 2000 + p.val; omega
    | ⟨1, _⟩ => show win2_2.index t (1 : Fin 2) * 1 + 1 * 0 = 0; omega
  · show V c main_v44 (((cfg2.win 3).blk t).view.emb (ix2 (0 : Fin 1) q)) = V c main_v44 (ix2 (0 : Fin 1) q)
    refine congrArg _ (funext fun a => Fin.ext ?_)
    match a with
    | ⟨0, _⟩ => show win2_3.index t (0 : Fin 2) * 1 + 1 * 0 = 0; omega
    | ⟨1, _⟩ => show win2_3.index t (1 : Fin 2) * 256 + 1 * q.val = q.val; omega
  · show _ = (Cert.Gnn.epilogue (V c main_v40) (V c main_v5) (V c main_v43) (V c main_v44)) (((cfg2.win 4).blk t).view.emb (ix2 p q))
    refine congrArg _ (funext fun a => Fin.ext ?_)
    match a with
    | ⟨0, _⟩ => show t.val * 2000 + p.val = win2_4.index t (0 : Fin 2) * 2000 + 1 * p.val; omega
    | ⟨1, _⟩ => show q.val = win2_4.index t (1 : Fin 2) * 256 + 1 * q.val; omega

/-- An index of the result is in point `t`'s block iff each coordinate is in the block's range on its axis. -/
theorem mem_blk2 (t : Fin cfg2.N) (i : S50000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v45).slice (win2_4.rect t)).set ↔ _
  rw [View.set_slice_whole, Rect.mem_set_unit]
  exact Iff.rfl

/-- Every row of the result lies in the block of the point `row / 2000`. -/
theorem cover2 (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hN : cfg2.N = 25 := N_2
  have ht : (i 0).val / 2000 < cfg2.N := by omega
  refine ⟨⟨(i 0).val / 2000, ht⟩, flush2_4 _, ?_⟩
  obtain ⟨-, -, -, -, -, -, -, -, e8, e9⟩ := idx_facts2 ⟨(i 0).val / 2000, ht⟩
  rw [mem_blk2]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e8]; show (i 0).val / 2000 * 2000 ≤ (i 0).val ∧ (i 0).val < (i 0).val / 2000 * 2000 + 2000; omega
  | ⟨1, _⟩ =>
    show win2_4.index ⟨(i 0).val / 2000, ht⟩ (1 : Fin 2) * 256 ≤ (i 1).val
      ∧ (i 1).val < win2_4.index ⟨(i 0).val / 2000, ht⟩ (1 : Fin 2) * 256 + 256
    rw [e9]; omega

/-- The array the region leaves is the epilogue of the arrays it found. -/
theorem epi2_value (c : Dev nD) :
    (dat2 (F := Ideal) V c).arrAt 4 cfg2.N
      = Cert.Gnn.epilogue (V c main_v40) (V c main_v5) (V c main_v43) (V c main_v44) :=
  (dat2 (F := Ideal) V c).arrAt_eq_of_cover 4 _ (fun t _ => flushed2_eq V c t) (cover2)

/-! ## Region 4 -/

/-- The body's payload at an entry, against the whole-array epilogue at the entry's row of the array. -/
theorem pay4_apply (agg xp : FVec Ideal Cert.Gnn.SND .f32) (invcol : FVec Ideal Cert.Gnn.SN1 .f32) (brow : FVec Ideal Cert.Gnn.S1D .f32)
    (x0 x1 : Vec Ideal ⟨2, ![2000, 256]⟩ .f32) (x2 : Vec Ideal ⟨2, ![2000, 1]⟩ .f32) (x3 : Vec Ideal ⟨2, ![1, 256]⟩ .f32)
    (P : Fin 50000) (p : Fin 2000) (q : Fin 256)
    (h0 : (x0 (ix2 p q) : EReal) = agg (ix2 P q)) (h1 : (x1 (ix2 p q) : EReal) = xp (ix2 P q))
    (h2 : (x2 (ix2 p (0 : Fin 1)) : EReal) = invcol (ix2 P (0 : Fin 1)))
    (h3 : (x3 (ix2 (0 : Fin 1) q) : EReal) = brow (ix2 (0 : Fin 1) q)) :
    k4_pay1 (F := Ideal) x0 x1 x2 x3 (ix2 p q) = Cert.Gnn.epilogue agg xp invcol brow (ix2 P q) := by
  unfold k4_pay1 Cert.Gnn.epilogue Cert.Gnn.relu
  refine Cert.Lib.AffineRows.relu_row _ _ _ _ _ ?_
  show FloatOps.addf (FloatOps.addf (shapeCast _ x0 _ (ix2 p q))
        (FloatOps.mulf (shapeCast _ x1 _ (ix2 p q)) (broadcastTo _ (shapeCast _ x2 _) _ (ix2 p q))))
        (broadcastTo _ (shapeCast _ x3 _) _ (ix2 p q))
      = FloatOps.addf (FloatOps.addf (agg (ix2 P q)) (FloatOps.mulf (xp (ix2 P q)) (Cert.Gnn.acrossD invcol (ix2 P q))))
        (Cert.Gnn.downD brow (ix2 P q))
  rw [shapeCast_self, shapeCast_self, shapeCast_self, broadcastTo_a1_ab_apply, Cert.Lib.RowLayers.rowOver_apply, h0, h1, h2, h3]
  unfold Cert.Gnn.acrossD Cert.Gnn.downD
  rw [Cert.Lib.RowSoftmax.broadcastInDim_a1_ab_apply, Cert.Lib.RowLayers.rowInDim_apply]

/-- The printed index maps over the grid: point `t` takes rows `2000·t …` of the three N-row operands and of the
    result, and the whole bias row. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point `t` writes back is block `t` of the whole-array epilogue. -/
theorem flushed4_eq (c : Dev nD) (t : Fin cfg4.N) :
    (dat4 (F := Ideal) V c).flushed 4 t
      = ((cfg4.win 4).blk t).view.read (Elt Ideal)
          (Cert.Gnn.epilogue (V c main_v81) (V c main_v46) (V c main_v84) (V c main_v85)) := by
  show (cfg4.win 4).cut (grid4.coords t) ((dat4 (F := Ideal) V c).after 4 t) = _
  rw [after4_4]
  unfold out4_4
  rw [View.canon_unit_zero hz]
  simp only [View.ld_unit_zero (S := S2000x256) hz, View.ld_unit_zero (S := S2000x1) hz,
    View.ld_unit_zero (S := S1x256) hz]
  obtain ⟨e0, e1, e2, e3, e4, e5, e6, e7, e8, e9⟩ := idx_facts4 t
  funext j
  obtain ⟨p, q, rfl⟩ : ∃ (p : Fin 2000) (q : Fin 256), j = ix2 p q := ⟨j 0, j 1, eq_ix2 j⟩
  have hN : cfg4.N = 25 := N_4
  have hP : t.val * 2000 + p.val < 50000 := by
    have := t.isLt; have := p.isLt; omega
  refine (pay4_apply (V c main_v81) (V c main_v46) (V c main_v84) (V c main_v85) _ _ _ _ ⟨t.val * 2000 + p.val, hP⟩ p q ?_ ?_ ?_ ?_).trans ?_
  · show V c main_v81 (((cfg4.win 0).blk t).view.emb (ix2 p q)) = V c main_v81 (ix2 ⟨t.val * 2000 + p.val, hP⟩ q)
    refine congrArg _ (funext fun a => Fin.ext ?_)
    match a with
    | ⟨0, _⟩ => show win4_0.index t (0 : Fin 2) * 2000 + 1 * p.val = t.val * 2000 + p.val; omega
    | ⟨1, _⟩ => show win4_0.index t (1 : Fin 2) * 256 + 1 * q.val = q.val; omega
  · show V c main_v46 (((cfg4.win 1).blk t).view.emb (ix2 p q)) = V c main_v46 (ix2 ⟨t.val * 2000 + p.val, hP⟩ q)
    refine congrArg _ (funext fun a => Fin.ext ?_)
    match a with
    | ⟨0, _⟩ => show win4_1.index t (0 : Fin 2) * 2000 + 1 * p.val = t.val * 2000 + p.val; omega
    | ⟨1, _⟩ => show win4_1.index t (1 : Fin 2) * 256 + 1 * q.val = q.val; omega
  · show V c main_v84 (((cfg4.win 2).blk t).view.emb (ix2 p (0 : Fin 1))) = V c main_v84 (ix2 ⟨t.val * 2000 + p.val, hP⟩ (0 : Fin 1))
    refine congrArg _ (funext fun a => Fin.ext ?_)
    match a with
    | ⟨0, _⟩ => show win4_2.index t (0 : Fin 2) * 2000 + 1 * p.val = t.val * 2000 + p.val; omega
    | ⟨1, _⟩ => show win4_2.index t (1 : Fin 2) * 1 + 1 * 0 = 0; omega
  · show V c main_v85 (((cfg4.win 3).blk t).view.emb (ix2 (0 : Fin 1) q)) = V c main_v85 (ix2 (0 : Fin 1) q)
    refine congrArg _ (funext fun a => Fin.ext ?_)
    match a with
    | ⟨0, _⟩ => show win4_3.index t (0 : Fin 2) * 1 + 1 * 0 = 0; omega
    | ⟨1, _⟩ => show win4_3.index t (1 : Fin 2) * 256 + 1 * q.val = q.val; omega
  · show _ = (Cert.Gnn.epilogue (V c main_v81) (V c main_v46) (V c main_v84) (V c main_v85)) (((cfg4.win 4).blk t).view.emb (ix2 p q))
    refine congrArg _ (funext fun a => Fin.ext ?_)
    match a with
    | ⟨0, _⟩ => show t.val * 2000 + p.val = win4_4.index t (0 : Fin 2) * 2000 + 1 * p.val; omega
    | ⟨1, _⟩ => show q.val = win4_4.index t (1 : Fin 2) * 256 + 1 * q.val; omega

/-- An index of the result is in point `t`'s block iff each coordinate is in the block's range on its axis. -/
theorem mem_blk4 (t : Fin cfg4.N) (i : S50000x256.Idx) :
    i ∈ ((cfg4.win 4).blk t).view.set ↔ ∀ a : Fin 2, win4_4.index t a * S2000x256.size a ≤ (i a).val
      ∧ (i a).val < win4_4.index t a * S2000x256.size a + S2000x256.size a := by
  show i ∈ ((View.whole main_v86).slice (win4_4.rect t)).set ↔ _
  rw [View.set_slice_whole, Rect.mem_set_unit]
  exact Iff.rfl

/-- Every row of the result lies in the block of the point `row / 2000`. -/
theorem cover4 (i : S50000x256.Idx) :
    ∃ t : Fin cfg4.N, (cfg4.win 4).flush t = true ∧ i ∈ ((cfg4.win 4).blk t).view.set := by
  have hi0 : (i 0).val < 50000 := (i 0).isLt
  have hi1 : (i 1).val < 256 := (i 1).isLt
  have hN : cfg4.N = 25 := N_4
  have ht : (i 0).val / 2000 < cfg4.N := by omega
  refine ⟨⟨(i 0).val / 2000, ht⟩, flush4_4 _, ?_⟩
  obtain ⟨-, -, -, -, -, -, -, -, e8, e9⟩ := idx_facts4 ⟨(i 0).val / 2000, ht⟩
  rw [mem_blk4]
  intro a
  match a with
  | ⟨0, _⟩ =>
    show win4_4.index ⟨(i 0).val / 2000, ht⟩ (0 : Fin 2) * 2000 ≤ (i 0).val
      ∧ (i 0).val < win4_4.index ⟨(i 0).val / 2000, ht⟩ (0 : Fin 2) * 2000 + 2000
    rw [e8]; show (i 0).val / 2000 * 2000 ≤ (i 0).val ∧ (i 0).val < (i 0).val / 2000 * 2000 + 2000; omega
  | ⟨1, _⟩ =>
    show win4_4.index ⟨(i 0).val / 2000, ht⟩ (1 : Fin 2) * 256 ≤ (i 1).val
      ∧ (i 1).val < win4_4.index ⟨(i 0).val / 2000, ht⟩ (1 : Fin 2) * 256 + 256
    rw [e9]; omega

/-- The array the region leaves is the epilogue of the arrays it found. -/
theorem epi4_value (c : Dev nD) :
    (dat4 (F := Ideal) V c).arrAt 4 cfg4.N
      = Cert.Gnn.epilogue (V c main_v81) (V c main_v46) (V c main_v84) (V c main_v85) :=
  (dat4 (F := Ideal) V c).arrAt_eq_of_cover 4 _ (fun t _ => flushed4_eq V c t) (cover4)

end Cert.KernelIdeal.EpilogueValue

end
-- ==== Proof.LibBiasRow.lean ====
/-
  A vector laid out as one row, two ways.

  The kernel's host code reshapes a bias vector `[N]` to the row `[1, N]`; the reference puts the vector on axis 1 of
  `[1, N]`. Both rows hold the vector's entry `j` at `(0, j)`, so they are one array (`row_of_vec`).
-/
import Idealize.ShloMosaic.Lib.ValueLayout
import Idealize.ShloMosaic.Lib.Pipeline.Value

noncomputable section

namespace Cert.Lib.BiasRow

open Idealize.ShloMosaic Idealize.ShloMosaic.ValueIdx

/-- A vector reshaped to a row is the vector put on the row's second axis. -/
theorem row_of_vec {α : Type} {N : ℕ} (b : (⟨1, ![N]⟩ : Shape).Idx → α)
    (h1 : (⟨1, ![N]⟩ : Shape).ShapeCasts ⟨2, ![1, N]⟩) (h2 : (⟨1, ![N]⟩ : Shape).BroadcastsInDim ⟨2, ![1, N]⟩ ![1]) :
    shapeCast ⟨2, ![1, N]⟩ b h1 = broadcastInDim ⟨2, ![1, N]⟩ ![1] h2 b := by
  funext i
  obtain ⟨z, j, rfl⟩ : ∃ (z : Fin 1) (j : Fin N), i = ix2 z j := ⟨i 0, i 1, eq_ix2 i⟩
  have hz : z = 0 := Fin.ext (by have := z.isLt; omega)
  subst hz
  rw [shapeCast_a_1a_apply b h1 0 j]
  refine (broadcastInDim_apply _ h2 b (ix2 (0 : Fin 1) j) (ix1 j) fun a => ?_).symm
  match a with
  | ⟨0, _⟩ =>
    show j.val = if N = 1 then 0 else j.val
    split
    · have := j.isLt; omega
    · rfl

end Cert.Lib.BiasRow

end
-- ==== Proof.KernelValueA.lean ====
/-
  The idealized kernel's buffers at the boundaries of its segments, read as the network's stages (first part: the
  encoder). Each boundary's contents are the previous boundary's with one segment applied: a stretch of host
  operations (read by composing the operations' functions) or a pallas region (its output array is the whole-array
  function the region's value lemma names, every other buffer is as it was). So: the edge rows after the first
  stretch; the input projection after region 0; the first layer's projection after region 1; its aggregated
  messages, inverse-degree column and bias row after the second stretch; the first layer after region 2; and the same
  again for the second layer (regions 3 and 4).
-/
import proofs.«116509_j71700184039973_1_alg».proof.Proof.Gen.KernelIdeal.Frame
import proofs.«116509_j71700184039973_1_alg».proof.Proof.Graph
import proofs.«116509_j71700184039973_1_alg».proof.Proof.RowProducts
import proofs.«116509_j71700184039973_1_alg».proof.Proof.Epilogue
import proofs.«116509_j71700184039973_1_alg».proof.Proof.LibBiasRow
import Idealize.ShloMosaic.Lib.StableHlo.Run

set_option maxRecDepth 16384

noncomputable section

namespace Cert.KernelIdeal.Hand

open Cert.KernelIdeal Cert.KernelIdeal.Gen Cert.Gnn
open Idealize.ShloMosaic Idealize.ShloMosaic.TcCoe Idealize.ShloMosaic.StableHlo
open Idealize.SL.Sem
open Idealize.ShloMosaic.Pipeline (Dat)

/-- A buffer no operation of a host stretch writes holds after the stretch what it held before. -/
macro "host_keep" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

/-- An argument array at launch. -/
abbrev argAt (b : Ref sig .tc) : Buf (Elt Ideal) ((c : Thread nD τ).loc b) := m ((c : Thread nD τ).loc b)

/-! ## What the host stretches compute, at any entry contents -/

theorem host0_v1 (W : Valuation τ sig (Elt Ideal)) :
    after hostOps0 W (Proc.devRef .tc main_v1) = srcOf (W (Proc.devRef .tc main_arg1)) := by
  after_results; rfl
theorem host0_v3 (W : Valuation τ sig (Elt Ideal)) :
    after hostOps0 W (Proc.devRef .tc main_v3) = dstOf (W (Proc.devRef .tc main_arg1)) := by
  after_results; rfl

set_option maxHeartbeats 1600000 in
theorem host2_v40 (W : Valuation τ sig (Elt Ideal)) :
    after hostOps2 W (Proc.devRef .tc main_v40)
      = aggOf (W (Proc.devRef .tc main_v1)) (W (Proc.devRef .tc main_v3)) (W (Proc.devRef .tc main_v5)) := by
  after_results_simp; rfl
theorem host2_v43 (W : Valuation τ sig (Elt Ideal)) :
    after hostOps2 W (Proc.devRef .tc main_v43) = invDegCol (W (Proc.devRef .tc main_v3)) := by
  after_results; rfl
theorem host2_v44 (W : Valuation τ sig (Elt Ideal)) :
    after hostOps2 W (Proc.devRef .tc main_v44) = rowD (W (Proc.devRef .tc main_arg4)) := by
  after_results
  exact Cert.Lib.BiasRow.row_of_vec _ _ _

set_option maxHeartbeats 1600000 in
theorem host4_v81 (W : Valuation τ sig (Elt Ideal)) :
    after hostOps4 W (Proc.devRef .tc main_v81)
      = aggOf (W (Proc.devRef .tc main_v1)) (W (Proc.devRef .tc main_v3)) (W (Proc.devRef .tc main_v46)) := by
  after_results_simp; rfl
theorem host4_v84 (W : Valuation τ sig (Elt Ideal)) :
    after hostOps4 W (Proc.devRef .tc main_v84) = invDegCol (W (Proc.devRef .tc main_v3)) := by
  after_results; rfl
theorem host4_v85 (W : Valuation τ sig (Elt Ideal)) :
    after hostOps4 W (Proc.devRef .tc main_v85) = rowD (W (Proc.devRef .tc main_arg6)) := by
  after_results
  exact Cert.Lib.BiasRow.row_of_vec _ _ _

theorem host5_v87 (W : Valuation τ sig (Elt Ideal)) :
    after hostOps5 W (Proc.devRef .tc main_v87) = rowD (W (Proc.devRef .tc main_arg8)) := by
  after_results
  exact Cert.Lib.BiasRow.row_of_vec _ _ _

/-! ## Buffers carried unchanged across segments -/

theorem keep_arg0_1_0 : W1 m ρ c (Proc.devRef .tc main_arg0) = W0 m ρ c (Proc.devRef .tc main_arg0) :=
  calc W1 m ρ c (Proc.devRef .tc main_arg0)
    _ = W0 m ρ c (Proc.devRef .tc main_arg0) := (by host_keep hostOps0)
theorem keep_arg2_1_0 : W1 m ρ c (Proc.devRef .tc main_arg2) = W0 m ρ c (Proc.devRef .tc main_arg2) :=
  calc W1 m ρ c (Proc.devRef .tc main_arg2)
    _ = W0 m ρ c (Proc.devRef .tc main_arg2) := (by host_keep hostOps0)
theorem keep_arg3_2_0 : W2 m ρ c (Proc.devRef .tc main_arg3) = W0 m ρ c (Proc.devRef .tc main_arg3) :=
  calc W2 m ρ c (Proc.devRef .tc main_arg3)
    _ = W1 m ρ c (Proc.devRef .tc main_arg3) := (W2_of_ne m ρ c main_arg3 (by decide))
    _ = W0 m ρ c (Proc.devRef .tc main_arg3) := (by host_keep hostOps0)
theorem keep_v1_3_1 : W3 m ρ c (Proc.devRef .tc main_v1) = W1 m ρ c (Proc.devRef .tc main_v1) :=
  calc W3 m ρ c (Proc.devRef .tc main_v1)
    _ = W2 m ρ c (Proc.devRef .tc main_v1) := (W3_of_ne m ρ c main_v1 (by decide))
    _ = W1 m ρ c (Proc.devRef .tc main_v1) := (W2_of_ne m ρ c main_v1 (by decide))
theorem keep_v3_3_1 : W3 m ρ c (Proc.devRef .tc main_v3) = W1 m ρ c (Proc.devRef .tc main_v3) :=
  calc W3 m ρ c (Proc.devRef .tc main_v3)
    _ = W2 m ρ c (Proc.devRef .tc main_v3) := (W3_of_ne m ρ c main_v3 (by decide))
    _ = W1 m ρ c (Proc.devRef .tc main_v3) := (W2_of_ne m ρ c main_v3 (by decide))
theorem keep_arg4_3_0 : W3 m ρ c (Proc.devRef .tc main_arg4) = W0 m ρ c (Proc.devRef .tc main_arg4) :=
  calc W3 m ρ c (Proc.devRef .tc main_arg4)
    _ = W2 m ρ c (Proc.devRef .tc main_arg4) := (W3_of_ne m ρ c main_arg4 (by decide))
    _ = W1 m ρ c (Proc.devRef .tc main_arg4) := (W2_of_ne m ρ c main_arg4 (by decide))
    _ = W0 m ρ c (Proc.devRef .tc main_arg4) := (by host_keep hostOps0)
theorem keep_v5_4_3 : W4 m ρ c (Proc.devRef .tc main_v5) = W3 m ρ c (Proc.devRef .tc main_v5) :=
  calc W4 m ρ c (Proc.devRef .tc main_v5)
    _ = W3 m ρ c (Proc.devRef .tc main_v5) := (by host_keep hostOps2)
theorem keep_arg5_5_0 : W5 m ρ c (Proc.devRef .tc main_arg5) = W0 m ρ c (Proc.devRef .tc main_arg5) :=
  calc W5 m ρ c (Proc.devRef .tc main_arg5)
    _ = W4 m ρ c (Proc.devRef .tc main_arg5) := (W5_of_ne m ρ c main_arg5 (by decide))
    _ = W3 m ρ c (Proc.devRef .tc main_arg5) := (by host_keep hostOps2)
    _ = W2 m ρ c (Proc.devRef .tc main_arg5) := (W3_of_ne m ρ c main_arg5 (by decide))
    _ = W1 m ρ c (Proc.devRef .tc main_arg5) := (W2_of_ne m ρ c main_arg5 (by decide))
    _ = W0 m ρ c (Proc.devRef .tc main_arg5) := (by host_keep hostOps0)
theorem keep_v1_6_3 : W6 m ρ c (Proc.devRef .tc main_v1) = W3 m ρ c (Proc.devRef .tc main_v1) :=
  calc W6 m ρ c (Proc.devRef .tc main_v1)
    _ = W5 m ρ c (Proc.devRef .tc main_v1) := (W6_of_ne m ρ c main_v1 (by decide))
    _ = W4 m ρ c (Proc.devRef .tc main_v1) := (W5_of_ne m ρ c main_v1 (by decide))
    _ = W3 m ρ c (Proc.devRef .tc main_v1) := (by host_keep hostOps2)
theorem keep_v3_6_3 : W6 m ρ c (Proc.devRef .tc main_v3) = W3 m ρ c (Proc.devRef .tc main_v3) :=
  calc W6 m ρ c (Proc.devRef .tc main_v3)
    _ = W5 m ρ c (Proc.devRef .tc main_v3) := (W6_of_ne m ρ c main_v3 (by decide))
    _ = W4 m ρ c (Proc.devRef .tc main_v3) := (W5_of_ne m ρ c main_v3 (by decide))
    _ = W3 m ρ c (Proc.devRef .tc main_v3) := (by host_keep hostOps2)
theorem keep_arg6_6_0 : W6 m ρ c (Proc.devRef .tc main_arg6) = W0 m ρ c (Proc.devRef .tc main_arg6) :=
  calc W6 m ρ c (Proc.devRef .tc main_arg6)
    _ = W5 m ρ c (Proc.devRef .tc main_arg6) := (W6_of_ne m ρ c main_arg6 (by decide))
    _ = W4 m ρ c (Proc.devRef .tc main_arg6) := (W5_of_ne m ρ c main_arg6 (by decide))
    _ = W3 m ρ c (Proc.devRef .tc main_arg6) := (by host_keep hostOps2)
    _ = W2 m ρ c (Proc.devRef .tc main_arg6) := (W3_of_ne m ρ c main_arg6 (by decide))
    _ = W1 m ρ c (Proc.devRef .tc main_arg6) := (W2_of_ne m ρ c main_arg6 (by decide))
    _ = W0 m ρ c (Proc.devRef .tc main_arg6) := (by host_keep hostOps0)
theorem keep_v46_7_6 : W7 m ρ c (Proc.devRef .tc main_v46) = W6 m ρ c (Proc.devRef .tc main_v46) :=
  calc W7 m ρ c (Proc.devRef .tc main_v46)
    _ = W6 m ρ c (Proc.devRef .tc main_v46) := (by host_keep hostOps4)
theorem keep_arg8_8_0 : W8 m ρ c (Proc.devRef .tc main_arg8) = W0 m ρ c (Proc.devRef .tc main_arg8) :=
  calc W8 m ρ c (Proc.devRef .tc main_arg8)
    _ = W7 m ρ c (Proc.devRef .tc main_arg8) := (W8_of_ne m ρ c main_arg8 (by decide))
    _ = W6 m ρ c (Proc.devRef .tc main_arg8) := (by host_keep hostOps4)
    _ = W5 m ρ c (Proc.devRef .tc main_arg8) := (W6_of_ne m ρ c main_arg8 (by decide))
    _ = W4 m ρ c (Proc.devRef .tc main_arg8) := (W5_of_ne m ρ c main_arg8 (by decide))
    _ = W3 m ρ c (Proc.devRef .tc main_arg8) := (by host_keep hostOps2)
    _ = W2 m ρ c (Proc.devRef .tc main_arg8) := (W3_of_ne m ρ c main_arg8 (by decide))
    _ = W1 m ρ c (Proc.devRef .tc main_arg8) := (W2_of_ne m ρ c main_arg8 (by decide))
    _ = W0 m ρ c (Proc.devRef .tc main_arg8) := (by host_keep hostOps0)
theorem keep_v86_9_8 : W9 m ρ c (Proc.devRef .tc main_v86) = W8 m ρ c (Proc.devRef .tc main_v86) :=
  calc W9 m ρ c (Proc.devRef .tc main_v86)
    _ = W8 m ρ c (Proc.devRef .tc main_v86) := (by host_keep hostOps5)
theorem keep_arg7_9_0 : W9 m ρ c (Proc.devRef .tc main_arg7) = W0 m ρ c (Proc.devRef .tc main_arg7) :=
  calc W9 m ρ c (Proc.devRef .tc main_arg7)
    _ = W8 m ρ c (Proc.devRef .tc main_arg7) := (by host_keep hostOps5)
    _ = W7 m ρ c (Proc.devRef .tc main_arg7) := (W8_of_ne m ρ c main_arg7 (by decide))
    _ = W6 m ρ c (Proc.devRef .tc main_arg7) := (by host_keep hostOps4)
    _ = W5 m ρ c (Proc.devRef .tc main_arg7) := (W6_of_ne m ρ c main_arg7 (by decide))
    _ = W4 m ρ c (Proc.devRef .tc main_arg7) := (W5_of_ne m ρ c main_arg7 (by decide))
    _ = W3 m ρ c (Proc.devRef .tc main_arg7) := (by host_keep hostOps2)
    _ = W2 m ρ c (Proc.devRef .tc main_arg7) := (W3_of_ne m ρ c main_arg7 (by decide))
    _ = W1 m ρ c (Proc.devRef .tc main_arg7) := (W2_of_ne m ρ c main_arg7 (by decide))
    _ = W0 m ρ c (Proc.devRef .tc main_arg7) := (by host_keep hostOps0)

/-! ## The boundaries' contents -/

/-- The edge list's two rows after the first stretch. -/
theorem w1_v1 : W1 m ρ c (Proc.devRef .tc main_v1) = srcOf (argAt m c main_arg1) := host0_v1 _
theorem w1_v3 : W1 m ρ c (Proc.devRef .tc main_v3) = dstOf (argAt m c main_arg1) := host0_v3 _

/-- The input projection, after region 0. -/
theorem w2_v4 : W2 m ρ c (Proc.devRef .tc main_v4)
    = Host.dotGeneral (F := Ideal) (φ₁ := .f32) (φ₂ := .f32) (DotDims.plain 50000 1002 256) none (argAt m c main_arg0) (argAt m c main_arg2) := by
  refine (W2_arr m ρ c 2).trans ((Cert.KernelIdeal.ProjValue.proj0_value (V1 m ρ) c).trans ?_)
  show Host.dotGeneral (F := Ideal) (φ₁ := .f32) (φ₂ := .f32) (DotDims.plain 50000 1002 256) none (W1 m ρ c (Proc.devRef .tc main_arg0)) (W1 m ρ c (Proc.devRef .tc main_arg2)) = _
  rw [keep_arg0_1_0, keep_arg2_1_0]

/-- The first layer's projected features, after region 1. -/
theorem w3_v5 : W3 m ρ c (Proc.devRef .tc main_v5) = proj (W2 m ρ c (Proc.devRef .tc main_v4)) (argAt m c main_arg3) := by
  refine (W3_arr m ρ c 2).trans ((Cert.KernelIdeal.ProjValue.proj1_value (V2 m ρ) c).trans ?_)
  show proj (W2 m ρ c (Proc.devRef .tc main_v4)) (W2 m ρ c (Proc.devRef .tc main_arg3)) = _
  rw [keep_arg3_2_0]

/-- The first layer, after region 2. -/
theorem w5_v45 : W5 m ρ c (Proc.devRef .tc main_v45)
    = layer (srcOf (argAt m c main_arg1)) (dstOf (argAt m c main_arg1)) (W3 m ρ c (Proc.devRef .tc main_v5)) (argAt m c main_arg4) := by
  refine (W5_arr m ρ c 4).trans ((Cert.KernelIdeal.EpilogueValue.epi2_value (V4 m ρ) c).trans ?_)
  show epilogue (W4 m ρ c (Proc.devRef .tc main_v40)) (W4 m ρ c (Proc.devRef .tc main_v5))
      (W4 m ρ c (Proc.devRef .tc main_v43)) (W4 m ρ c (Proc.devRef .tc main_v44)) = _
  rw [show W4 m ρ c (Proc.devRef .tc main_v40) = _ from host2_v40 _, show W4 m ρ c (Proc.devRef .tc main_v43) = _ from host2_v43 _,
    show W4 m ρ c (Proc.devRef .tc main_v44) = _ from host2_v44 _, keep_v5_4_3, keep_v1_3_1, keep_v3_3_1, keep_arg4_3_0, w1_v1, w1_v3]
  rfl

/-- The second layer's projected features, after region 3. -/
theorem w6_v46 : W6 m ρ c (Proc.devRef .tc main_v46) = proj (W5 m ρ c (Proc.devRef .tc main_v45)) (argAt m c main_arg5) := by
  refine (W6_arr m ρ c 2).trans ((Cert.KernelIdeal.ProjValue.proj3_value (V5 m ρ) c).trans ?_)
  show proj (W5 m ρ c (Proc.devRef .tc main_v45)) (W5 m ρ c (Proc.devRef .tc main_arg5)) = _
  rw [keep_arg5_5_0]

/-- The second layer, after region 4. -/
theorem w8_v86 : W8 m ρ c (Proc.devRef .tc main_v86)
    = layer (srcOf (argAt m c main_arg1)) (dstOf (argAt m c main_arg1)) (W6 m ρ c (Proc.devRef .tc main_v46)) (argAt m c main_arg6) := by
  refine (W8_arr m ρ c 4).trans ((Cert.KernelIdeal.EpilogueValue.epi4_value (V7 m ρ) c).trans ?_)
  show epilogue (W7 m ρ c (Proc.devRef .tc main_v81)) (W7 m ρ c (Proc.devRef .tc main_v46))
      (W7 m ρ c (Proc.devRef .tc main_v84)) (W7 m ρ c (Proc.devRef .tc main_v85)) = _
  rw [show W7 m ρ c (Proc.devRef .tc main_v81) = _ from host4_v81 _, show W7 m ρ c (Proc.devRef .tc main_v84) = _ from host4_v84 _,
    show W7 m ρ c (Proc.devRef .tc main_v85) = _ from host4_v85 _, keep_v46_7_6, keep_v1_6_3, keep_v3_6_3, keep_v1_3_1, keep_v3_3_1,
    keep_arg6_6_0, w1_v1, w1_v3]
  rfl

/-- The encoder's output, after region 4: the whole encoder of the argument arrays. -/
theorem w8_encoder : W8 m ρ c (Proc.devRef .tc main_v86)
    = encoder (argAt m c main_arg0) (argAt m c main_arg1) (argAt m c main_arg2) (argAt m c main_arg3) (argAt m c main_arg4)
        (argAt m c main_arg5) (argAt m c main_arg6) := by
  rw [w8_v86, w6_v46, w5_v45, w3_v5, w2_v4]
  rfl

/-- The decoder's first bias as a row, and the encoder's output and the weight carried to region 5's entry. -/
theorem w9_v87 : W9 m ρ c (Proc.devRef .tc main_v87) = rowD (argAt m c main_arg8) := by
  refine (host5_v87 _).trans ?_
  rw [keep_arg8_8_0]

end Cert.KernelIdeal.Hand

end
-- ==== Proof.KernelHost6.lean ====
/-
  What the kernel's last stretch of host operations leaves, at any contents on entry.

  The stretch reshapes the two accumulated rows (the column sums s and the column sums of squares sq, each a one-row
  matrix) to vectors, divides by the node count, forms mean = s / N and var = sq / N − (s / N)², reshapes both back
  to rows, and reshapes the scale, shift and last bias vectors to rows. A vector reshaped to a one-row matrix is the
  vector put on the row's second axis, and that row reshaped back is the vector; so the stretch leaves the rows of
  meanOf s and varOnePass s sq, and the rows of the three argument vectors.
-/
import proofs.«116509_j71700184039973_1_alg».proof.Proof.Gen.KernelIdeal.Frame
import proofs.«116509_j71700184039973_1_alg».proof.Proof.Spec
import proofs.«116509_j71700184039973_1_alg».proof.Proof.LibBiasRow
import Idealize.ShloMosaic.Lib.StableHlo.Run

set_option maxRecDepth 16384

noncomputable section

namespace Cert.KernelIdeal.Hand

open Cert.KernelIdeal Cert.KernelIdeal.Gen Cert.Gnn
open Idealize.ShloMosaic Idealize.ShloMosaic.TcCoe Idealize.ShloMosaic.StableHlo
open Idealize.SL.Sem

/-- A vector laid out as a row and reshaped back to a vector is the vector. -/
theorem vec_of_rowD (v : FVec Ideal SD .f32) (h : S1D.ShapeCasts SD) : shapeCast SD (rowD v) h = v := by
  unfold rowD
  rw [← Cert.Lib.BiasRow.row_of_vec v (by decide) _]
  exact shapeCast_shapeCast _ _ _

/-- The mean row: the accumulated column sums over the node count. -/
theorem host6_v92 (W : Valuation τ sig (Elt Ideal)) (s : FVec Ideal SD .f32)
    (h : W (Proc.devRef .tc main_v88_1) = rowD s) :
    after hostOps6 W (Proc.devRef .tc main_v92) = rowD (meanOf s) := by
  after_results
  rw [h]
  show shapeCast S1D (Host.divf (shapeCast SD (rowD s) (by decide)) countD) (by decide) = rowD (meanOf s)
  rw [vec_of_rowD]
  exact Cert.Lib.BiasRow.row_of_vec _ _ _

/-- The variance row: sq / N − (s / N)² of the two accumulated rows. -/
theorem host6_v101 (W : Valuation τ sig (Elt Ideal)) (s sq : FVec Ideal SD .f32)
    (h1 : W (Proc.devRef .tc main_v88_1) = rowD s) (h2 : W (Proc.devRef .tc main_v88_2) = rowD sq) :
    after hostOps6 W (Proc.devRef .tc main_v101) = rowD (varOnePass s sq) := by
  after_results
  rw [h1, h2]
  show shapeCast S1D
      (subf (Host.divf (shapeCast SD (rowD sq) (by decide)) countD)
        (mulf (Host.divf (shapeCast SD (rowD s) (by decide)) countD) (Host.divf (shapeCast SD (rowD s) (by decide)) countD)))
      (by decide) = rowD (varOnePass s sq)
  rw [vec_of_rowD, vec_of_rowD]
  exact Cert.Lib.BiasRow.row_of_vec _ _ _

/-- The scale, the shift and the last bias as rows. -/
theorem host6_v102 (W : Valuation τ sig (Elt Ideal)) :
    after hostOps6 W (Proc.devRef .tc main_v102) = rowD (W (Proc.devRef .tc main_arg9)) := by
  after_results
  exact Cert.Lib.BiasRow.row_of_vec _ _ _
theorem host6_v103 (W : Valuation τ sig (Elt Ideal)) :
    after hostOps6 W (Proc.devRef .tc main_v103) = rowD (W (Proc.devRef .tc main_arg10)) := by
  after_results
  exact Cert.Lib.BiasRow.row_of_vec _ _ _
theorem host6_v104 (W : Valuation τ sig (Elt Ideal)) :
    after hostOps6 W (Proc.devRef .tc main_v104) = rowC (W (Proc.devRef .tc main_arg12)) := by
  after_results
  exact Cert.Lib.BiasRow.row_of_vec _ _ _

end Cert.KernelIdeal.Hand

end
-- ==== Proof.StatsPieces.lean ====
/-
  Region 5 (the dense layer with its batch statistics accumulated over the grid): what each of the body's two control
  cases leaves in the staging buffers of its three outputs, as the body's payload functions of the buffers' contents.
  At the first point (the accumulators are cleared first) the accumulators end at the payload over the cleared row; at
  every other point they end at the payload over what they held. The block of the dense layer's result is the same
  payload in both cases. Stated for any float values.
-/
import proofs.«116509_j71700184039973_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.StatsValue

open Cert.KernelIdeal Cert.KernelIdeal.Gen Idealize.ShloMosaic Idealize.ShloMosaic.TcCoe Idealize.ShloMosaic.ValueIdx
open Idealize.SL.Sem

variable {F : FTy → Type} [FloatOps F]

theorem hz : (![0, 0] : Fin 2 → Nat) = fun _ => 0 := funext fun a => by fin_cases a <;> rfl

/-- First point, the result block: one covering store of the dense payload. -/
theorem out_A_3 (c : Dev nD) (i : grid5.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S2000x256 .f32) (h4 : a4.IsWhole) (a5 : Memref sig .tc .vmem S1x256 .f32) (h5 : a5.IsWhole)
    (a6 : Memref sig .tc .vmem S1x256 .f32) (h6 : a6.IsWhole) (hc : cond5_0 i)
    (x0 : Vec F S2000x256 .f32) (x1 : Vec F S256x256 .f32) (x2 : Vec F S1x256 .f32) :
    out5_A_3 c i a1 h1 a2 h2 a3 h3 a4 h4 a5 h5 a6 h6 hc x0 x1 x2 = k5_pay3 x0 x1 x2 := by
  unfold out5_A_3
  rw [View.read_writes_eq_canon _ _ _ (cover5_A_3 c i a1 h1 a2 h2 a3 h3 a4 h4 a5 h5 a6 h6 hc x0 x1 x2)]
  unfold kernelRun5_A
  dsimp only
  rw [View.canon_unit_zero hz]
  simp only [View.readAt_eq_ld, h1.read_unread, h2.read_unread, h3.read_unread, h5.read_unread, h6.read_unread,
    View.ld_unit_zero (S := S2000x256) hz, View.ld_unit_zero (S := S256x256) hz, View.ld_unit_zero (S := S1x256) hz]

/-- First point, the sum row: the cleared row is stored, read back, and the block's column sums added to it. -/
theorem out_A_4 (c : Dev nD) (i : grid5.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S2000x256 .f32) (h4 : a4.IsWhole) (a5 : Memref sig .tc .vmem S1x256 .f32) (h5 : a5.IsWhole)
    (a6 : Memref sig .tc .vmem S1x256 .f32) (h6 : a6.IsWhole) (hc : cond5_0 i)
    (x0 : Vec F S2000x256 .f32) (x1 : Vec F S256x256 .f32) (x2 : Vec F S1x256 .f32) :
    out5_A_4 c i a1 h1 a2 h2 a3 h3 a4 h4 a5 h5 a6 h6 hc x0 x1 x2 = k5_pay4 x0 x1 x2 (k5_pay1 (F := F)) := by
  unfold out5_A_4
  rw [View.read_writes_eq_canon _ _ _ (cover5_A_4 c i a1 h1 a2 h2 a3 h3 a4 h4 a5 h5 a6 h6 hc x0 x1 x2)]
  unfold kernelRun5_A
  dsimp only
  sl_unfold_words
  rw [View.canon_cons_unit_zero (S := S1x256) hz, View.readCov_unit_zero (S := S1x256) _ hz]
  simp only [View.readAt_eq_ld, h1.read_unread, h2.read_unread, h3.read_unread, h5.read_unread, h6.read_unread,
    View.ld_unit_zero (S := S2000x256) hz, View.ld_unit_zero (S := S256x256) hz, View.ld_unit_zero (S := S1x256) hz]

/-- First point, the row of sums of squares: the same over the squared block. -/
theorem out_A_5 (c : Dev nD) (i : grid5.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S2000x256 .f32) (h4 : a4.IsWhole) (a5 : Memref sig .tc .vmem S1x256 .f32) (h5 : a5.IsWhole)
    (a6 : Memref sig .tc .vmem S1x256 .f32) (h6 : a6.IsWhole) (hc : cond5_0 i)
    (x0 : Vec F S2000x256 .f32) (x1 : Vec F S256x256 .f32) (x2 : Vec F S1x256 .f32) :
    out5_A_5 c i a1 h1 a2 h2 a3 h3 a4 h4 a5 h5 a6 h6 hc x0 x1 x2 = k5_pay5 x0 x1 x2 (k5_pay2 (F := F)) := by
  unfold out5_A_5
  rw [View.read_writes_eq_canon _ _ _ (cover5_A_5 c i a1 h1 a2 h2 a3 h3 a4 h4 a5 h5 a6 h6 hc x0 x1 x2)]
  unfold kernelRun5_A
  dsimp only
  sl_unfold_words
  rw [View.canon_cons_unit_zero (S := S1x256) hz, View.readCov_unit_zero (S := S1x256) _ hz]
  simp only [View.readAt_eq_ld, h1.read_unread, h2.read_unread, h3.read_unread, h5.read_unread, h6.read_unread,
    View.ld_unit_zero (S := S2000x256) hz, View.ld_unit_zero (S := S256x256) hz, View.ld_unit_zero (S := S1x256) hz]

/-- A later point, the result block. -/
theorem out_B_3 (c : Dev nD) (i : grid5.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S2000x256 .f32) (h4 : a4.IsWhole) (a5 : Memref sig .tc .vmem S1x256 .f32) (h5 : a5.IsWhole)
    (a6 : Memref sig .tc .vmem S1x256 .f32) (h6 : a6.IsWhole) (hc : ¬cond5_0 i)
    (x0 : Vec F S2000x256 .f32) (x1 : Vec F S256x256 .f32) (x2 : Vec F S1x256 .f32) (xo4 xo5 : Vec F S1x256 .f32) :
    out5_B_3 c i a1 h1 a2 h2 a3 h3 a4 h4 a5 h5 a6 h6 hc x0 x1 x2 xo4 xo5 = k5_pay3 x0 x1 x2 := by
  unfold out5_B_3
  rw [View.read_writes_eq_canon _ _ _ (cover5_B_3 c i a1 h1 a2 h2 a3 h3 a4 h4 a5 h5 a6 h6 hc x0 x1 x2 xo4 xo5)]
  unfold kernelRun5_B
  dsimp only
  rw [View.canon_unit_zero hz]
  simp only [View.readAt_eq_ld, h1.read_unread, h2.read_unread, h3.read_unread, h5.read_unread, h6.read_unread,
    View.ld_unit_zero (S := S2000x256) hz, View.ld_unit_zero (S := S256x256) hz, View.ld_unit_zero (S := S1x256) hz]

/-- A later point, the sum row: the block's column sums added to what the row held. -/
theorem out_B_4 (c : Dev nD) (i : grid5.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S2000x256 .f32) (h4 : a4.IsWhole) (a5 : Memref sig .tc .vmem S1x256 .f32) (h5 : a5.IsWhole)
    (a6 : Memref sig .tc .vmem S1x256 .f32) (h6 : a6.IsWhole) (hc : ¬cond5_0 i)
    (x0 : Vec F S2000x256 .f32) (x1 : Vec F S256x256 .f32) (x2 : Vec F S1x256 .f32) (xo4 xo5 : Vec F S1x256 .f32) :
    out5_B_4 c i a1 h1 a2 h2 a3 h3 a4 h4 a5 h5 a6 h6 hc x0 x1 x2 xo4 xo5 = k5_pay4 x0 x1 x2 xo4 := by
  unfold out5_B_4
  rw [View.read_writes_eq_canon _ _ _ (cover5_B_4 c i a1 h1 a2 h2 a3 h3 a4 h4 a5 h5 a6 h6 hc x0 x1 x2 xo4 xo5)]
  unfold kernelRun5_B
  dsimp only
  rw [View.canon_unit_zero hz]
  simp only [View.readAt_eq_ld, h1.read_unread, h2.read_unread, h3.read_unread, h5.read_unread, h6.read_unread,
    View.ld_unit_zero (S := S2000x256) hz, View.ld_unit_zero (S := S256x256) hz, View.ld_unit_zero (S := S1x256) hz]

/-- A later point, the row of sums of squares. -/
theorem out_B_5 (c : Dev nD) (i : grid5.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S2000x256 .f32) (h4 : a4.IsWhole) (a5 : Memref sig .tc .vmem S1x256 .f32) (h5 : a5.IsWhole)
    (a6 : Memref sig .tc .vmem S1x256 .f32) (h6 : a6.IsWhole) (hc : ¬cond5_0 i)
    (x0 : Vec F S2000x256 .f32) (x1 : Vec F S256x256 .f32) (x2 : Vec F S1x256 .f32) (xo4 xo5 : Vec F S1x256 .f32) :
    out5_B_5 c i a1 h1 a2 h2 a3 h3 a4 h4 a5 h5 a6 h6 hc x0 x1 x2 xo4 xo5 = k5_pay5 x0 x1 x2 xo5 := by
  unfold out5_B_5
  rw [View.read_writes_eq_canon _ _ _ (cover5_B_5 c i a1 h1 a2 h2 a3 h3 a4 h4 a5 h5 a6 h6 hc x0 x1 x2 xo4 xo5)]
  unfold kernelRun5_B
  dsimp only
  rw [View.canon_unit_zero hz]
  simp only [View.readAt_eq_ld, h1.read_unread, h2.read_unread, h3.read_unread, h5.read_unread, h6.read_unread,
    View.ld_unit_zero (S := S2000x256) hz, View.ld_unit_zero (S := S256x256) hz, View.ld_unit_zero (S := S1x256) hz]

end Cert.KernelIdeal.StatsValue

end
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.StatsPoint.lean ====
/-
  Region 5 (the dense layer with its batch statistics), the arithmetic of one grid point and of the whole array, on the
  extended reals. The dense payload at entry (p, q) of a block whose row p is row P of the array is entry (P, q) of the
  host's dense layer. The two accumulator payloads add, to what the accumulator row held at column j, the sum over the
  block's 2000 rows of the dense payload (of its square) at column j; the cleared rows are zero. On the host's side, the
  column sum of an array is, at column j, the sum of the 50000 entries of that column, which is the sum over the 25
  blocks of 2000 consecutive rows of each block's sum.
-/
import proofs.«116509_j71700184039973_1_alg».proof.Proof.Gen.KernelIdeal.Skeleton
import proofs.«116509_j71700184039973_1_alg».proof.Proof.Spec
import proofs.«116509_j71700184039973_1_alg».proof.Proof.LibRowLayers
import proofs.«116509_j71700184039973_1_alg».proof.Proof.LibColumnSum
import proofs.«116509_j71700184039973_1_alg».proof.Proof.LibBiasRow
import proofs.«116509_j71700184039973_1_alg».proof.Proof.LibBlockSum
import Idealize.ShloMosaic.Lib.ValueLayout
import Idealize.ShloMosaic.Lib.Pipeline.Value

set_option maxRecDepth 16384

noncomputable section

open scoped BigOperators

namespace Cert.KernelIdeal.StatsValue

open Cert.KernelIdeal Cert.KernelIdeal.Gen Idealize.ShloMosaic Idealize.ShloMosaic.ValueIdx Idealize.ShloMosaic.ValueKeepdims

/-- The dense payload at an entry: row p of the block times column q of the weight plus the bias row's entry q, which is
    the host's dense layer at (P, q) when row p of the block is row P of the array. -/
theorem pay3_apply (A : FVec Ideal ⟨2, ![50000, 256]⟩ .f32) (W : FVec Ideal ⟨2, ![256, 256]⟩ .f32) (R : FVec Ideal ⟨2, ![1, 256]⟩ .f32)
    (x0 : Vec Ideal ⟨2, ![2000, 256]⟩ .f32) (x1 : Vec Ideal ⟨2, ![256, 256]⟩ .f32) (x2 : Vec Ideal ⟨2, ![1, 256]⟩ .f32)
    (P : Fin 50000) (p : Fin 2000) (q : Fin 256)
    (hx : ∀ k : Fin 256, (x0 (ix2 p k) : EReal) = A (ix2 P k)) (hw : ∀ k : Fin 256, (x1 (ix2 k q) : EReal) = W (ix2 k q))
    (hr : (x2 (ix2 (0 : Fin 1) q) : EReal) = R (ix2 (0 : Fin 1) q)) :
    k5_pay3 (F := Ideal) x0 x1 x2 (ix2 p q) = Cert.Gnn.denseBias A W R (ix2 P q) := by
  have e : k5_pay3 (F := Ideal) x0 x1 x2
      = addf (matmul (DotDims.plain 2000 256 256) none (truncf .bf16 (x0 : FVec Ideal ⟨2, ![2000, 256]⟩ .f32) bitsLt_bf16_f32)
          (truncf .bf16 (x1 : FVec Ideal ⟨2, ![256, 256]⟩ .f32) bitsLt_bf16_f32) (constant ⟨2, ![2000, 256]⟩ .f32 0x00000000#32))
        (broadcastTo ⟨2, ![2000, 256]⟩ (shapeCast ⟨2, ![1, 256]⟩ (x2 : FVec Ideal ⟨2, ![1, 256]⟩ .f32) shapeCasts_S1x256_S1x256)
          broadcasts_S1x256_S2000x256) := by
    unfold k5_pay3
    dsimp only
    rw [shapeCast_self x0 shapeCasts_S2000x256_S2000x256]
    rfl
  rw [e]
  exact Cert.Lib.RowLayers.dense_bias_point none none A W R (x0 : FVec Ideal ⟨2, ![2000, 256]⟩ .f32) (x1 : FVec Ideal ⟨2, ![256, 256]⟩ .f32)
    (x2 : FVec Ideal ⟨2, ![1, 256]⟩ .f32) bitsLt_bf16_f32 shapeCasts_S1x256_S1x256 broadcasts_S1x256_S2000x256 (by decide) P p q hx hw hr

/-- The cleared sum row is zero. -/
theorem pay1_apply (j : Fin 256) : (k5_pay1 (F := Ideal) (ix2 (0 : Fin 1) j) : EReal) = 0 := Ideal.ofBits_zero_f32

/-- The cleared row of sums of squares is zero. -/
theorem pay2_apply (j : Fin 256) : (k5_pay2 (F := Ideal) (ix2 (0 : Fin 1) j) : EReal) = 0 := Ideal.ofBits_zero_f32

/-- The sum row's payload at column j: what the row held plus the block's column sum of the dense payload. -/
theorem pay4_apply (x0 : Vec Ideal ⟨2, ![2000, 256]⟩ .f32) (x1 : Vec Ideal ⟨2, ![256, 256]⟩ .f32) (x2 : Vec Ideal ⟨2, ![1, 256]⟩ .f32)
    (acc : Vec Ideal ⟨2, ![1, 256]⟩ .f32) (j : Fin 256) :
    (k5_pay4 (F := Ideal) x0 x1 x2 acc (ix2 (0 : Fin 1) j) : EReal)
      = acc (ix2 (0 : Fin 1) j) + ∑ p : Fin 2000, (k5_pay3 (F := Ideal) x0 x1 x2 (ix2 p j) : EReal) := by
  unfold k5_pay4
  show FloatOps.addf (shapeCast S1x256 acc shapeCasts_S1x256_S1x256 (ix2 (0 : Fin 1) j))
      (shapeCast S1x256 (multiReduction .add [0] S256 (k5_pay3 (F := Ideal) x0 x1 x2) 0x00000000#32 reduces_S2000x256_S256 (.inl rfl) rfl)
        shapeCasts_S256_S1x256 (ix2 (0 : Fin 1) j)) = _
  refine congrArg₂ (fun a b : EReal => a + b) (congrFun (shapeCast_self acc shapeCasts_S1x256_S1x256) (ix2 (0 : Fin 1) j)) ?_
  refine (shapeCast_a_1a_apply _ shapeCasts_S256_S1x256 (0 : Fin 1) j).trans ?_
  exact colSum_at (k5_pay3 (F := Ideal) x0 x1 x2) reduces_S2000x256_S256 (.inl rfl) rfl j

/-- The payload of the row of sums of squares at column j: what the row held plus the block's column sum of the squared
    dense payload. -/
theorem pay5_apply (x0 : Vec Ideal ⟨2, ![2000, 256]⟩ .f32) (x1 : Vec Ideal ⟨2, ![256, 256]⟩ .f32) (x2 : Vec Ideal ⟨2, ![1, 256]⟩ .f32)
    (acc : Vec Ideal ⟨2, ![1, 256]⟩ .f32) (j : Fin 256) :
    (k5_pay5 (F := Ideal) x0 x1 x2 acc (ix2 (0 : Fin 1) j) : EReal)
      = acc (ix2 (0 : Fin 1) j)
        + ∑ p : Fin 2000, ((k5_pay3 (F := Ideal) x0 x1 x2 (ix2 p j) : EReal) * (k5_pay3 (F := Ideal) x0 x1 x2 (ix2 p j) : EReal)) := by
  unfold k5_pay5
  show FloatOps.addf (shapeCast S1x256 acc shapeCasts_S1x256_S1x256 (ix2 (0 : Fin 1) j))
      (shapeCast S1x256 (multiReduction .add [0] S256 (mulf (k5_pay3 (F := Ideal) x0 x1 x2) (k5_pay3 (F := Ideal) x0 x1 x2)) 0x00000000#32
        reduces_S2000x256_S256 (.inl rfl) rfl) shapeCasts_S256_S1x256 (ix2 (0 : Fin 1) j)) = _
  refine congrArg₂ (fun a b : EReal => a + b) (congrFun (shapeCast_self acc shapeCasts_S1x256_S1x256) (ix2 (0 : Fin 1) j)) ?_
  refine (shapeCast_a_1a_apply _ shapeCasts_S256_S1x256 (0 : Fin 1) j).trans ?_
  exact colSum_at (mulf (k5_pay3 (F := Ideal) x0 x1 x2) (k5_pay3 (F := Ideal) x0 x1 x2)) reduces_S2000x256_S256 (.inl rfl) rfl j

/-- The host's column sum at column j: the sum of the column's 50000 entries (the initial value is zero). -/
theorem colSum_apply (X : FVec Ideal Cert.Gnn.SND .f32) (j : Fin 256) :
    (Cert.Gnn.colSum X (ix1 j) : EReal) = ∑ P : Fin 50000, (X (ix2 P j) : EReal) := by
  have h : Cert.Gnn.SND.Reduces [0] Cert.Gnn.SD := by decide
  refine (Ideal.hostReduceAdd_single (by decide : Cert.Gnn.SND.ReducesTo [0] Cert.Gnn.SD) h X
    (Ideal.ofBits .f32 0x00000000#32) (ix1 j)).trans ?_
  rw [Ideal.ofBits_zero_f32, zero_add]
  exact Finset.sum_congr rfl fun k _ => congrArg X (lift_axis0_ix2 h j k)

/-- A vector put on a row reads, at (0, j), the vector at j. -/
theorem rowD_apply (v : FVec Ideal Cert.Gnn.SD .f32) (j : Fin 256) :
    (Cert.Gnn.rowD v (ix2 (0 : Fin 1) j) : EReal) = v (ix1 j) :=
  (congrFun (Cert.Lib.BiasRow.row_of_vec v (by decide) (by decide)) (ix2 (0 : Fin 1) j)).symm.trans
    (shapeCast_a_1a_apply v (by decide) (0 : Fin 1) j)

/-- The sum of block s's 2000 consecutive entries of a sequence of 50000, zero past the 25th block. -/
def blockSum (f : Fin 50000 → EReal) (s : ℕ) : EReal :=
  if h : s < 25 then ∑ p : Fin 2000, f ⟨s * 2000 + p.val, by have := p.isLt; omega⟩ else 0

/-- The 25 block sums add up to the whole sum. -/
theorem sum_blockSum (f : Fin 50000 → EReal) : ∑ s ∈ Finset.range 25, blockSum f s = ∑ P : Fin 50000, f P := by
  rw [Cert.Lib.BlockSum.sum_blocks 25 2000 f, ← Fin.sum_univ_eq_sum_range (blockSum f) 25]
  refine Finset.sum_congr rfl fun s _ => ?_
  unfold blockSum
  rw [dif_pos s.isLt]

end Cert.KernelIdeal.StatsValue

end
-- ==== Proof.Stats.lean ====
/-
  Region 5 (the dense layer with its batch statistics accumulated over the 25 sequential grid points), as values of the
  arrays the region finds. Point t multiplies rows 2000·t … of the input by the whole weight and adds the bias row: its
  block of the first output is rows 2000·t … of the host's dense layer H, and the 25 blocks tile that output. The two
  accumulator rows are cleared at the first point; every point adds, at column j, the sum over its 2000 rows of H (of
  H·H) at column j. By induction on the point, after point n the rows hold the sums over the first n + 1 blocks; the one
  write-back, after the last point, leaves the sums over all 50000 rows, which is what the host's column sum computes.
-/
import proofs.«116509_j71700184039973_1_alg».proof.Proof.StatsPieces
import proofs.«116509_j71700184039973_1_alg».proof.Proof.StatsPoint
import Idealize.ShloMosaic.Lib.Pipeline.Value
import Idealize.ShloMosaic.Lib.ValueIdx

set_option maxRecDepth 16384

noncomputable section

open scoped BigOperators

namespace Cert.KernelIdeal.StatsValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps over the grid: point t takes rows 2000·t … of the input and of the first output, and the
    whole weight, bias row and accumulator rows. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The host's dense layer of the arrays the region finds. -/
abbrev H5 (c : Dev nD) : FVec Ideal Cert.Gnn.SND .f32 := Cert.Gnn.denseBias (V c main_v86) (V c main_arg7) (V c main_v87)

/-- Point t's dense payload at (p, q) is H at row 2000·t + p, column q. -/
theorem blk_pay3 (c : Dev nD) (t : Fin cfg5.N) (p : Fin 2000) (q : Fin 256) (hP : t.val * 2000 + p.val < 50000) :
    (k5_pay3 (F := Ideal) (iblk5 V c 0 t) (iblk5 V c 1 t) (iblk5 V c 2 t) (ix2 p q) : EReal) = H5 V c (ix2 ⟨t.val * 2000 + p.val, hP⟩ q) := by
  obtain ⟨e0, e1, e2, e3, e4, e5, -⟩ := idx_facts5 t
  refine pay3_apply (V c main_v86) (V c main_arg7) (V c main_v87) (iblk5 V c 0 t) (iblk5 V c 1 t) (iblk5 V c 2 t)
    ⟨t.val * 2000 + p.val, hP⟩ p q (fun k => ?_) (fun k => ?_) ?_
  · show V c main_v86 (((cfg5.win 0).blk t).view.emb (ix2 p k)) = V c main_v86 (ix2 ⟨t.val * 2000 + p.val, hP⟩ k)
    refine congrArg _ (funext fun a => Fin.ext ?_)
    match a with
    | ⟨0, _⟩ => show win5_0.index t (0 : Fin 2) * 2000 + 1 * p.val = t.val * 2000 + p.val; omega
    | ⟨1, _⟩ => show win5_0.index t (1 : Fin 2) * 256 + 1 * k.val = k.val; omega
  · show V c main_arg7 (((cfg5.win 1).blk t).view.emb (ix2 k q)) = V c main_arg7 (ix2 k q)
    refine congrArg _ (funext fun a => Fin.ext ?_)
    match a with
    | ⟨0, _⟩ => show win5_1.index t (0 : Fin 2) * 256 + 1 * k.val = k.val; omega
    | ⟨1, _⟩ => show win5_1.index t (1 : Fin 2) * 256 + 1 * q.val = q.val; omega
  · show V c main_v87 (((cfg5.win 2).blk t).view.emb (ix2 (0 : Fin 1) q)) = V c main_v87 (ix2 (0 : Fin 1) q)
    refine congrArg _ (funext fun a => Fin.ext ?_)
    match a with
    | ⟨0, _⟩ => show win5_2.index t (0 : Fin 2) * 1 + 1 * 0 = 0; omega
    | ⟨1, _⟩ => show win5_2.index t (1 : Fin 2) * 256 + 1 * q.val = q.val; omega

/-- What the first point leaves in the three staging buffers. -/
theorem outs_A (c : Dev nD) (t : Fin cfg5.N) (h0 : t.val % 25 = 0) :
    outsAt5 (F := Ideal) V c t.val t.isLt
      = (k5_pay3 (iblk5 V c 0 t) (iblk5 V c 1 t) (iblk5 V c 2 t), k5_pay4 (iblk5 V c 0 t) (iblk5 V c 1 t) (iblk5 V c 2 t) (k5_pay1 (F := Ideal)),
          k5_pay5 (iblk5 V c 0 t) (iblk5 V c 1 t) (iblk5 V c 2 t) (k5_pay2 (F := Ideal))) :=
  (outsAt5_A V c t h0).trans (congrArg₂ Prod.mk
    (out_A_3 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (iblk5 V c 0 t) (iblk5 V c 1 t) (iblk5 V c 2 t))
    (congrArg₂ Prod.mk
      (out_A_4 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (iblk5 V c 0 t) (iblk5 V c 1 t) (iblk5 V c 2 t))
      (out_A_5 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (iblk5 V c 0 t) (iblk5 V c 1 t) (iblk5 V c 2 t))))

/-- What a later point leaves in them, over what the point before left in the accumulator rows. -/
theorem outs_B (c : Dev nD) (t : Fin cfg5.N) (h0 : ¬t.val % 25 = 0) :
    outsAt5 (F := Ideal) V c t.val t.isLt
      = (k5_pay3 (iblk5 V c 0 t) (iblk5 V c 1 t) (iblk5 V c 2 t), k5_pay4 (iblk5 V c 0 t) (iblk5 V c 1 t) (iblk5 V c 2 t) (outsAt5 V c (t.val - 1) (Nat.lt_of_le_of_lt (Nat.sub_le _ _) t.isLt)).2.1,
          k5_pay5 (iblk5 V c 0 t) (iblk5 V c 1 t) (iblk5 V c 2 t) (outsAt5 V c (t.val - 1) (Nat.lt_of_le_of_lt (Nat.sub_le _ _) t.isLt)).2.2) :=
  (outsAt5_B V c t h0).trans (congrArg₂ Prod.mk
    (out_B_3 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) (iblk5 V c 0 t) (iblk5 V c 1 t) (iblk5 V c 2 t) (outsAt5 V c (t.val - 1) (Nat.lt_of_le_of_lt (Nat.sub_le _ _) t.isLt)).2.1 (outsAt5 V c (t.val - 1) (Nat.lt_of_le_of_lt (Nat.sub_le _ _) t.isLt)).2.2)
    (congrArg₂ Prod.mk
      (out_B_4 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) (iblk5 V c 0 t) (iblk5 V c 1 t) (iblk5 V c 2 t) (outsAt5 V c (t.val - 1) (Nat.lt_of_le_of_lt (Nat.sub_le _ _) t.isLt)).2.1 (outsAt5 V c (t.val - 1) (Nat.lt_of_le_of_lt (Nat.sub_le _ _) t.isLt)).2.2)
      (out_B_5 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) (iblk5 V c 0 t) (iblk5 V c 1 t) (iblk5 V c 2 t) (outsAt5 V c (t.val - 1) (Nat.lt_of_le_of_lt (Nat.sub_le _ _) t.isLt)).2.1 (outsAt5 V c (t.val - 1) (Nat.lt_of_le_of_lt (Nat.sub_le _ _) t.isLt)).2.2)))

/-! ## The first output: the dense layer, tiled over its rows -/

/-- Every point leaves the dense payload of its blocks in the first output's buffer. -/
theorem after3 (c : Dev nD) (t : Fin cfg5.N) :
    (outsAt5 (F := Ideal) V c t.val t.isLt).1 = k5_pay3 (iblk5 V c 0 t) (iblk5 V c 1 t) (iblk5 V c 2 t) := by
  by_cases h0 : t.val % 25 = 0
  · rw [outs_A V c t h0]
  · rw [outs_B V c t h0]

/-- What point t writes back is block t of the dense layer. -/
theorem flushed3_eq (c : Dev nD) (t : Fin cfg5.N) :
    (dat5 (F := Ideal) V c).flushed 3 t = ((cfg5.win 3).blk t).view.read (Elt Ideal) (H5 V c) := by
  show (cfg5.win 3).cut (grid5.coords t) ((dat5 (F := Ideal) V c).after 3 t) = _
  rw [after5_3, after3]
  obtain ⟨-, -, -, -, -, -, e6, e7, -⟩ := idx_facts5 t
  funext j
  obtain ⟨p, q, rfl⟩ : ∃ (p : Fin 2000) (q : Fin 256), j = ix2 p q := ⟨j 0, j 1, eq_ix2 j⟩
  have hP : t.val * 2000 + p.val < 50000 := by
    have := t.isLt; have hN : cfg5.N = 25 := N_5; have := p.isLt; omega
  refine (blk_pay3 V c t p q hP).trans ?_
  show _ = (H5 V c) (((cfg5.win 3).blk t).view.emb (ix2 p q))
  refine congrArg _ (funext fun a => Fin.ext ?_)
  match a with
  | ⟨0, _⟩ => show t.val * 2000 + p.val = win5_3.index t (0 : Fin 2) * 2000 + 1 * p.val; omega
  | ⟨1, _⟩ => show q.val = win5_3.index t (1 : Fin 2) * 256 + 1 * q.val; omega

/-- An index whose row lies among point t's 2000 rows is in point t's block of the first output. -/
theorem mem_blk3 (t : Fin cfg5.N) (i : (⟨2, ![50000, 256]⟩ : Shape).Idx)
    (h : t.val * 2000 ≤ (i 0).val ∧ (i 0).val < t.val * 2000 + 2000) : i ∈ ((cfg5.win 3).blk t).view.set := by
  have hi1 : (i 1).val < 256 := (i 1).isLt
  obtain ⟨-, -, -, -, -, -, e6, e7, -⟩ := idx_facts5 t
  show i ∈ ((View.whole main_v88_0).slice (win5_3.rect t)).set
  rw [View.set_slice_whole, Rect.mem_set_unit]
  intro a
  match a with
  | ⟨0, _⟩ =>
    show win5_3.index t (0 : Fin 2) * 2000 ≤ (i 0).val ∧ (i 0).val < win5_3.index t (0 : Fin 2) * 2000 + 2000
    rw [e6]; exact h
  | ⟨1, _⟩ =>
    show win5_3.index t (1 : Fin 2) * 256 ≤ (i 1).val ∧ (i 1).val < win5_3.index t (1 : Fin 2) * 256 + 256
    rw [e7]; omega

/-- Every row of the first output lies in the block of the point row / 2000. -/
theorem cover3 (i : (⟨2, ![50000, 256]⟩ : Shape).Idx) :
    ∃ t : Fin cfg5.N, (cfg5.win 3).flush t = true ∧ i ∈ ((cfg5.win 3).blk t).view.set := by
  have hi0 : (i 0).val < 50000 := (i 0).isLt
  have hN : cfg5.N = 25 := N_5
  exact ⟨⟨(i 0).val / 2000, by omega⟩, flush5_3 _, mem_blk3 ⟨(i 0).val / 2000, by omega⟩ i (by dsimp only; omega)⟩

/-- The first output after the region is the dense layer of the arrays the region found. -/
theorem h1_value (c : Dev nD) : (dat5 (F := Ideal) V c).arrAt 3 cfg5.N = H5 V c :=
  (dat5 (F := Ideal) V c).arrAt_eq_of_cover 3 _ (fun t _ => flushed3_eq V c t) cover3

/-! ## The accumulator rows: sums over the blocks seen so far -/

/-- Column j of the dense layer, and of its square, as sequences of 50000 entries. -/
abbrev colOf (c : Dev nD) (j : Fin 256) : Fin 50000 → EReal := fun P => H5 V c (ix2 P j)
abbrev sqOf (c : Dev nD) (j : Fin 256) : Fin 50000 → EReal := fun P => mulf (H5 V c) (H5 V c) (ix2 P j)

/-- Point t's column sum of its dense payload is block t's sum of column j of H. -/
theorem blk_sum (c : Dev nD) (t : Fin cfg5.N) (j : Fin 256) :
    ∑ p : Fin 2000, (k5_pay3 (F := Ideal) (iblk5 V c 0 t) (iblk5 V c 1 t) (iblk5 V c 2 t) (ix2 p j) : EReal) = blockSum (colOf V c j) t.val := by
  have hN : cfg5.N = 25 := N_5
  unfold blockSum
  rw [dif_pos (by have := t.isLt; omega)]
  have hP : ∀ p : Fin 2000, t.val * 2000 + p.val < 50000 := fun p => by have := t.isLt; have := p.isLt; omega
  exact Finset.sum_congr rfl fun p _ => blk_pay3 V c t p j (hP p)

/-- The same for the squares. -/
theorem blk_sq (c : Dev nD) (t : Fin cfg5.N) (j : Fin 256) :
    ∑ p : Fin 2000, ((k5_pay3 (F := Ideal) (iblk5 V c 0 t) (iblk5 V c 1 t) (iblk5 V c 2 t) (ix2 p j) : EReal)
        * (k5_pay3 (F := Ideal) (iblk5 V c 0 t) (iblk5 V c 1 t) (iblk5 V c 2 t) (ix2 p j) : EReal)) = blockSum (sqOf V c j) t.val := by
  have hN : cfg5.N = 25 := N_5
  unfold blockSum
  rw [dif_pos (by have := t.isLt; omega)]
  have hP : ∀ p : Fin 2000, t.val * 2000 + p.val < 50000 := fun p => by have := t.isLt; have := p.isLt; omega
  exact Finset.sum_congr rfl fun p _ =>
    congrArg₂ (fun a b : EReal => a * b) (blk_pay3 V c t p j (hP p)) (blk_pay3 V c t p j (hP p))

/-- After point n the accumulator rows hold, at column j, the sums over the first n + 1 blocks. -/
theorem acc_eq (c : Dev nD) : ∀ (n : ℕ) (hn : n < cfg5.N) (j : Fin 256),
    ((outsAt5 (F := Ideal) V c n hn).2.1 (ix2 (0 : Fin 1) j) : EReal) = ∑ s ∈ Finset.range (n + 1), blockSum (colOf V c j) s
    ∧ ((outsAt5 (F := Ideal) V c n hn).2.2 (ix2 (0 : Fin 1) j) : EReal) = ∑ s ∈ Finset.range (n + 1), blockSum (sqOf V c j) s
  | 0, hn, j => by
    rw [show outsAt5 (F := Ideal) V c 0 hn = _ from outs_A V c ⟨0, hn⟩ rfl]
    dsimp only
    rw [pay4_apply, pay5_apply, pay1_apply, pay2_apply]
    simp only [zero_add, Finset.sum_range_one]
    exact ⟨blk_sum V c ⟨0, hn⟩ j, blk_sq V c ⟨0, hn⟩ j⟩
  | n + 1, hn, j => by
    have hN : cfg5.N = 25 := N_5
    have hB : ¬(⟨n + 1, hn⟩ : Fin cfg5.N).val % 25 = 0 := by dsimp only; omega
    obtain ⟨ih1, ih2⟩ := acc_eq c n (Nat.lt_of_succ_lt hn) j
    rw [show outsAt5 (F := Ideal) V c (n + 1) hn = _ from outs_B V c ⟨n + 1, hn⟩ hB]
    dsimp only
    rw [pay4_apply, pay5_apply, Finset.sum_range_succ _ (n + 1), Finset.sum_range_succ _ (n + 1)]
    refine ⟨congrArg₂ (fun a b : EReal => a + b) ih1 (blk_sum V c ⟨n + 1, hn⟩ j),
      congrArg₂ (fun a b : EReal => a + b) ih2 (blk_sq V c ⟨n + 1, hn⟩ j)⟩

/-! ## The write-back of the accumulator rows -/

/-- Only the last point writes accumulator row 4 back, and it holds the column sums of the dense layer. -/
theorem flushed4_eq (c : Dev nD) (t : Fin cfg5.N) (hf : (cfg5.win 4).flush t = true) :
    (dat5 (F := Ideal) V c).flushed 4 t = ((cfg5.win 4).blk t).view.read (Elt Ideal) (Cert.Gnn.rowD (Cert.Gnn.colSum (H5 V c))) := by
  have hN : cfg5.N = 25 := N_5
  have h24 : t.val + 1 = 25 := by have := (flush5_4 t).mp hf; have := t.isLt; omega
  show (cfg5.win 4).cut (grid5.coords t) ((dat5 (F := Ideal) V c).after 4 t) = _
  rw [after5_4]
  obtain ⟨-, -, -, -, -, -, -, -, e8, e9, e10, e11⟩ := idx_facts5 t
  funext i
  obtain ⟨z, j, rfl⟩ : ∃ (z : Fin 1) (j : Fin 256), i = ix2 z j := ⟨i 0, i 1, eq_ix2 i⟩
  obtain rfl : z = 0 := Fin.ext (by have := z.isLt; omega)
  refine ((acc_eq V c t.val t.isLt j).1).trans ?_
  rw [h24]
  refine (sum_blockSum _).trans ((colSum_apply (H5 V c) j).symm.trans ((rowD_apply _ j).symm.trans ?_))
  show (Cert.Gnn.rowD (Cert.Gnn.colSum (H5 V c))) (ix2 (0 : Fin 1) j) = (Cert.Gnn.rowD (Cert.Gnn.colSum (H5 V c))) (((cfg5.win 4).blk t).view.emb (ix2 (0 : Fin 1) j))
  refine congrArg _ (funext fun a => Fin.ext ?_)
  match a with
  | ⟨0, _⟩ => show 0 = win5_4.index t (0 : Fin 2) * 1 + 1 * 0; omega
  | ⟨1, _⟩ => show j.val = win5_4.index t (1 : Fin 2) * 256 + 1 * j.val; omega

/-- The last point's block of accumulator row 4 is the whole row. -/
theorem cover4 (i : (⟨2, ![1, 256]⟩ : Shape).Idx) :
    ∃ t : Fin cfg5.N, (cfg5.win 4).flush t = true ∧ i ∈ ((cfg5.win 4).blk t).view.set := by
  have hi0 : (i 0).val < 1 := (i 0).isLt
  have hi1 : (i 1).val < 256 := (i 1).isLt
  have hN : cfg5.N = 25 := N_5
  have h24 : 24 < cfg5.N := by omega
  refine ⟨⟨24, h24⟩, (flush5_4 ⟨24, h24⟩).mpr rfl, ?_⟩
  obtain ⟨-, -, -, -, -, -, -, -, e8, e9, e10, e11⟩ := idx_facts5 ⟨24, h24⟩
  show i ∈ ((View.whole main_v88_1).slice (win5_4.rect ⟨24, h24⟩)).set
  rw [View.set_slice_whole, Rect.mem_set_unit]
  intro a
  match a with
  | ⟨0, _⟩ =>
    show win5_4.index ⟨24, h24⟩ (0 : Fin 2) * 1 ≤ (i 0).val ∧ (i 0).val < win5_4.index ⟨24, h24⟩ (0 : Fin 2) * 1 + 1
    omega
  | ⟨1, _⟩ =>
    show win5_4.index ⟨24, h24⟩ (1 : Fin 2) * 256 ≤ (i 1).val ∧ (i 1).val < win5_4.index ⟨24, h24⟩ (1 : Fin 2) * 256 + 256
    omega

/-- Only the last point writes accumulator row 5 back, and it holds the column sums of its square. -/
theorem flushed5_eq (c : Dev nD) (t : Fin cfg5.N) (hf : (cfg5.win 5).flush t = true) :
    (dat5 (F := Ideal) V c).flushed 5 t = ((cfg5.win 5).blk t).view.read (Elt Ideal) (Cert.Gnn.rowD (Cert.Gnn.colSum (mulf (H5 V c) (H5 V c)))) := by
  have hN : cfg5.N = 25 := N_5
  have h24 : t.val + 1 = 25 := by have := (flush5_5 t).mp hf; have := t.isLt; omega
  show (cfg5.win 5).cut (grid5.coords t) ((dat5 (F := Ideal) V c).after 5 t) = _
  rw [after5_5]
  obtain ⟨-, -, -, -, -, -, -, -, e8, e9, e10, e11⟩ := idx_facts5 t
  funext i
  obtain ⟨z, j, rfl⟩ : ∃ (z : Fin 1) (j : Fin 256), i = ix2 z j := ⟨i 0, i 1, eq_ix2 i⟩
  obtain rfl : z = 0 := Fin.ext (by have := z.isLt; omega)
  refine ((acc_eq V c t.val t.isLt j).2).trans ?_
  rw [h24]
  refine (sum_blockSum _).trans ((colSum_apply (mulf (H5 V c) (H5 V c)) j).symm.trans ((rowD_apply _ j).symm.trans ?_))
  show (Cert.Gnn.rowD (Cert.Gnn.colSum (mulf (H5 V c) (H5 V c)))) (ix2 (0 : Fin 1) j) = (Cert.Gnn.rowD (Cert.Gnn.colSum (mulf (H5 V c) (H5 V c)))) (((cfg5.win 5).blk t).view.emb (ix2 (0 : Fin 1) j))
  refine congrArg _ (funext fun a => Fin.ext ?_)
  match a with
  | ⟨0, _⟩ => show 0 = win5_5.index t (0 : Fin 2) * 1 + 1 * 0; omega
  | ⟨1, _⟩ => show j.val = win5_5.index t (1 : Fin 2) * 256 + 1 * j.val; omega

/-- The last point's block of accumulator row 5 is the whole row. -/
theorem cover5 (i : (⟨2, ![1, 256]⟩ : Shape).Idx) :
    ∃ t : Fin cfg5.N, (cfg5.win 5).flush t = true ∧ i ∈ ((cfg5.win 5).blk t).view.set := by
  have hi0 : (i 0).val < 1 := (i 0).isLt
  have hi1 : (i 1).val < 256 := (i 1).isLt
  have hN : cfg5.N = 25 := N_5
  have h24 : 24 < cfg5.N := by omega
  refine ⟨⟨24, h24⟩, (flush5_5 ⟨24, h24⟩).mpr rfl, ?_⟩
  obtain ⟨-, -, -, -, -, -, -, -, e8, e9, e10, e11⟩ := idx_facts5 ⟨24, h24⟩
  show i ∈ ((View.whole main_v88_2).slice (win5_5.rect ⟨24, h24⟩)).set
  rw [View.set_slice_whole, Rect.mem_set_unit]
  intro a
  match a with
  | ⟨0, _⟩ =>
    show win5_5.index ⟨24, h24⟩ (0 : Fin 2) * 1 ≤ (i 0).val ∧ (i 0).val < win5_5.index ⟨24, h24⟩ (0 : Fin 2) * 1 + 1
    omega
  | ⟨1, _⟩ =>
    show win5_5.index ⟨24, h24⟩ (1 : Fin 2) * 256 ≤ (i 1).val ∧ (i 1).val < win5_5.index ⟨24, h24⟩ (1 : Fin 2) * 256 + 256
    omega

/-! ## The region's three results -/

/-- The first output after the region: the dense layer of the arrays the region found, its bias row a vector put on a row. -/
theorem stats_h1 (c : Dev nD) (b1 : FVec Ideal Cert.Gnn.SD .f32) (hb : V c main_v87 = Cert.Gnn.rowD b1) :
    (dat5 (F := Ideal) V c).arrAt 3 cfg5.N
      = Cert.Gnn.denseBias (V c main_v86) (V c main_arg7) (Cert.Gnn.rowD b1) := by
  rw [← hb]
  exact h1_value V c

/-- The second output after the region: the column sums of the dense layer, as a row. -/
theorem stats_sum (c : Dev nD) (b1 : FVec Ideal Cert.Gnn.SD .f32) (hb : V c main_v87 = Cert.Gnn.rowD b1) :
    (dat5 (F := Ideal) V c).arrAt 4 cfg5.N
      = Cert.Gnn.rowD (Cert.Gnn.colSum (Cert.Gnn.denseBias (V c main_v86) (V c main_arg7) (Cert.Gnn.rowD b1))) := by
  rw [← hb]
  exact (dat5 (F := Ideal) V c).arrAt_eq_of_cover 4 _ (flushed4_eq V c) cover4

/-- The third output after the region: the column sums of the squared dense layer, as a row. -/
theorem stats_sumsq (c : Dev nD) (b1 : FVec Ideal Cert.Gnn.SD .f32) (hb : V c main_v87 = Cert.Gnn.rowD b1) :
    (dat5 (F := Ideal) V c).arrAt 5 cfg5.N
      = Cert.Gnn.rowD (Cert.Gnn.colSum (mulf (Cert.Gnn.denseBias (V c main_v86) (V c main_arg7) (Cert.Gnn.rowD b1))
          (Cert.Gnn.denseBias (V c main_v86) (V c main_arg7) (Cert.Gnn.rowD b1)))) := by
  rw [← hb]
  exact (dat5 (F := Ideal) V c).arrAt_eq_of_cover 5 _ (flushed5_eq V c) cover5

end Cert.KernelIdeal.StatsValue

end
-- ==== Proof.HeadPoint.lean ====
/-
  The decoder's tail at one entry, a block of rows against the whole array, on the extended reals.

  A block of 2000 rows of the 50000×256 array h1 is normalised with one row each of mean, variance, scale and shift
  ((x − mean) · rsqrt (var + ε) · γ + β, the four rows broadcast down the block), rectified, multiplied
  by the whole 256×20 weight from the zero accumulator (both operands through a change of float format, the identity
  on the extended reals), a bias row is added, and each row's softmax is taken. The host does the
  same to the whole array with its own operations (Spec.lean's tail). When row p of the block is row P of the array and
  the rows and the weight hold the host's vectors and weight, entry (p, q) of the block's result is entry (P, q) of the
  host's: the normalised entries agree factor by factor, the products are the same sums term by term, and the two
  softmaxes of one row agree. Nothing is assumed finite.
-/
import proofs.«116509_j71700184039973_1_alg».proof.Proof.Spec
import proofs.«116509_j71700184039973_1_alg».proof.Proof.LibRowSoftmax
import proofs.«116509_j71700184039973_1_alg».proof.Proof.LibRowLayers

noncomputable section

namespace Cert.KernelIdeal.HeadValue

open Idealize.ShloMosaic Idealize.ShloMosaic.ValueIdx Cert.Gnn

/-- A vector put on the second axis of a one-row matrix reads, at (0, j), the vector at j. -/
theorem vecRow_apply {α : Type} {N : ℕ} (b : (⟨1, ![N]⟩ : Shape).Idx → α)
    (h : (⟨1, ![N]⟩ : Shape).BroadcastsInDim ⟨2, ![1, N]⟩ ![1]) (j : Fin N) :
    broadcastInDim ⟨2, ![1, N]⟩ ![1] h b (ix2 (0 : Fin 1) j) = b (ix1 j) := by
  refine broadcastInDim_apply _ h b (ix2 (0 : Fin 1) j) (ix1 j) fun a => ?_
  match a with
  | ⟨0, _⟩ =>
    show j.val = if N = 1 then 0 else j.val
    split
    · have := j.isLt; omega
    · rfl

/-! ## The two normalisations -/

/-- The block's rows normalised by the four rows, as the block's operations compute them. -/
def blockNorm (x0 : FVec Ideal ⟨2, ![2000, 256]⟩ .f32) (x1 x2 x3 x4 : FVec Ideal ⟨2, ![1, 256]⟩ .f32)
    (hS0 : (⟨2, ![2000, 256]⟩ : Shape).ShapeCasts ⟨2, ![2000, 256]⟩)
    (hS1 : (⟨2, ![1, 256]⟩ : Shape).ShapeCasts ⟨2, ![1, 256]⟩)
    (hB1 : (⟨2, ![1, 256]⟩ : Shape).Broadcasts ⟨2, ![2000, 256]⟩) : FVec Ideal ⟨2, ![2000, 256]⟩ .f32 :=
  addf
    (mulf
      (mulf
        (subf (shapeCast ⟨2, ![2000, 256]⟩ x0 hS0) (broadcastTo ⟨2, ![2000, 256]⟩ (shapeCast ⟨2, ![1, 256]⟩ x1 hS1) hB1))
        (broadcastTo ⟨2, ![2000, 256]⟩
          (rsqrt (addf (shapeCast ⟨2, ![1, 256]⟩ x2 hS1)
            (broadcast ⟨2, ![1, 256]⟩ (Scalar.ofBits (F := Ideal) .f32 0x3727C5AC#32)))) hB1))
      (broadcastTo ⟨2, ![2000, 256]⟩ (shapeCast ⟨2, ![1, 256]⟩ x3 hS1) hB1))
    (broadcastTo ⟨2, ![2000, 256]⟩ (shapeCast ⟨2, ![1, 256]⟩ x4 hS1) hB1)

/-- The whole array normalised by the four vectors, as the host's operations compute it. -/
def hostNorm (h1 : FVec Ideal SND .f32) (mean var γ β : FVec Ideal SD .f32) : FVec Ideal SND .f32 :=
  addf
    (mulf
      (mulf (subf h1 (downD (rowD mean)))
        (downD (rowD (Host.rsqrt
          (addf var (broadcastInDim SD ![] (by decide) (constant (F := Ideal) Sc .f32 0x3727C5AC#32)))))))
      (downD (rowD γ)))
    (downD (rowD β))

/-- A vector as a row repeated down 50000 rows reads, at (P, k), the vector at k. -/
theorem downRow_apply (v : FVec Ideal SD .f32) (P : Fin 50000) (k : Fin 256) : downD (rowD v) (ix2 P k) = v (ix1 k) :=
  Cert.Lib.AffineRows.inDimRow_apply v (by decide) (by decide) P k

/-- The normalised entries agree: (x − mean) · rsqrt (var + ε) · γ + β, factor by factor. -/
theorem norm_point (x0 : FVec Ideal ⟨2, ![2000, 256]⟩ .f32) (x1 x2 x3 x4 : FVec Ideal ⟨2, ![1, 256]⟩ .f32)
    (hS0 : (⟨2, ![2000, 256]⟩ : Shape).ShapeCasts ⟨2, ![2000, 256]⟩)
    (hS1 : (⟨2, ![1, 256]⟩ : Shape).ShapeCasts ⟨2, ![1, 256]⟩)
    (hB1 : (⟨2, ![1, 256]⟩ : Shape).Broadcasts ⟨2, ![2000, 256]⟩)
    (h1 : FVec Ideal SND .f32) (mean var γ β : FVec Ideal SD .f32)
    (p : Fin 2000) (P : Fin 50000) (k : Fin 256)
    (hx0 : (x0 (ix2 p k) : EReal) = h1 (ix2 P k))
    (hx1 : (x1 (ix2 (0 : Fin 1) k) : EReal) = mean (ix1 k)) (hx2 : (x2 (ix2 (0 : Fin 1) k) : EReal) = var (ix1 k))
    (hx3 : (x3 (ix2 (0 : Fin 1) k) : EReal) = γ (ix1 k)) (hx4 : (x4 (ix2 (0 : Fin 1) k) : EReal) = β (ix1 k)) :
    blockNorm x0 x1 x2 x3 x4 hS0 hS1 hB1 (ix2 p k) = hostNorm h1 mean var γ β (ix2 P k) := by
  have e0 : shapeCast ⟨2, ![2000, 256]⟩ x0 hS0 (ix2 p k) = h1 (ix2 P k) := by rw [shapeCast_self]; exact hx0
  have e1 : broadcastTo ⟨2, ![2000, 256]⟩ (shapeCast ⟨2, ![1, 256]⟩ x1 hS1) hB1 (ix2 p k) = downD (rowD mean) (ix2 P k) :=
    (Cert.Lib.RowLayers.rowOver_apply x1 hS1 hB1 p k).trans (hx1.trans (downRow_apply mean P k).symm)
  have e3 : broadcastTo ⟨2, ![2000, 256]⟩ (shapeCast ⟨2, ![1, 256]⟩ x3 hS1) hB1 (ix2 p k) = downD (rowD γ) (ix2 P k) :=
    (Cert.Lib.RowLayers.rowOver_apply x3 hS1 hB1 p k).trans (hx3.trans (downRow_apply γ P k).symm)
  have e4 : broadcastTo ⟨2, ![2000, 256]⟩ (shapeCast ⟨2, ![1, 256]⟩ x4 hS1) hB1 (ix2 p k) = downD (rowD β) (ix2 P k) :=
    (Cert.Lib.RowLayers.rowOver_apply x4 hS1 hB1 p k).trans (hx4.trans (downRow_apply β P k).symm)
  have e2 : broadcastTo ⟨2, ![2000, 256]⟩
        (rsqrt (addf (shapeCast ⟨2, ![1, 256]⟩ x2 hS1)
          (broadcast ⟨2, ![1, 256]⟩ (Scalar.ofBits (F := Ideal) .f32 0x3727C5AC#32)))) hB1 (ix2 p k)
      = downD (rowD (Host.rsqrt
          (addf var (broadcastInDim SD ![] (by decide) (constant (F := Ideal) Sc .f32 0x3727C5AC#32))))) (ix2 P k) := by
    refine (broadcastTo_1b_ab_apply _ hB1 p k).trans (Eq.trans ?_ (downRow_apply _ P k).symm)
    show Ideal.rsqrt (shapeCast ⟨2, ![1, 256]⟩ x2 hS1 (ix2 (0 : Fin 1) k) + _) = Ideal.rsqrt (var (ix1 k) + _)
    rw [shapeCast_self, hx2]
    rfl
  show FloatOps.addf (FloatOps.mulf (FloatOps.mulf (FloatOps.subf _ _) _) _) _
    = FloatOps.addf (FloatOps.mulf (FloatOps.mulf (FloatOps.subf _ _) _) _) _
  rw [e0, e1, e2, e3, e4]

/-! ## The two logits -/

/-- The block's logits: the rectified normalised rows times the weight, plus the bias row. -/
def blockLogits (x0 : FVec Ideal ⟨2, ![2000, 256]⟩ .f32) (x1 x2 x3 x4 : FVec Ideal ⟨2, ![1, 256]⟩ .f32)
    (x5 : FVec Ideal ⟨2, ![256, 20]⟩ .f32) (x6 : FVec Ideal ⟨2, ![1, 20]⟩ .f32)
    (hS0 : (⟨2, ![2000, 256]⟩ : Shape).ShapeCasts ⟨2, ![2000, 256]⟩)
    (hS1 : (⟨2, ![1, 256]⟩ : Shape).ShapeCasts ⟨2, ![1, 256]⟩)
    (hB1 : (⟨2, ![1, 256]⟩ : Shape).Broadcasts ⟨2, ![2000, 256]⟩)
    (hlt : FTy.bf16.bits < FTy.f32.bits)
    (hS6 : (⟨2, ![1, 20]⟩ : Shape).ShapeCasts ⟨2, ![1, 20]⟩)
    (hB6 : (⟨2, ![1, 20]⟩ : Shape).Broadcasts ⟨2, ![2000, 20]⟩) : FVec Ideal ⟨2, ![2000, 20]⟩ .f32 :=
  addf
    (matmul (DotDims.plain 2000 256 20) none
      (truncf .bf16 (maximumf (blockNorm x0 x1 x2 x3 x4 hS0 hS1 hB1)
        (broadcast ⟨2, ![2000, 256]⟩ (Scalar.ofBits (F := Ideal) .f32 0x00000000#32))) hlt)
      (truncf .bf16 x5 hlt) (constant ⟨2, ![2000, 20]⟩ .f32 0x00000000#32))
    (broadcastTo ⟨2, ![2000, 20]⟩ (shapeCast ⟨2, ![1, 20]⟩ x6 hS6) hB6)

/-- The host's logits. -/
def hostLogits (h1 : FVec Ideal SND .f32) (mean var γ β : FVec Ideal SD .f32) (w2 : FVec Ideal SDC .f32)
    (b2 : FVec Ideal SC .f32) : FVec Ideal SNC .f32 :=
  addf (Host.dotGeneral (DotDims.plain 50000 256 20) none (relu (hostNorm h1 mean var γ β)) w2) (downC (rowC b2))

/-- The logits agree entry for entry. -/
theorem logits_point (x0 : FVec Ideal ⟨2, ![2000, 256]⟩ .f32) (x1 x2 x3 x4 : FVec Ideal ⟨2, ![1, 256]⟩ .f32)
    (x5 : FVec Ideal ⟨2, ![256, 20]⟩ .f32) (x6 : FVec Ideal ⟨2, ![1, 20]⟩ .f32)
    (hS0 : (⟨2, ![2000, 256]⟩ : Shape).ShapeCasts ⟨2, ![2000, 256]⟩)
    (hS1 : (⟨2, ![1, 256]⟩ : Shape).ShapeCasts ⟨2, ![1, 256]⟩)
    (hB1 : (⟨2, ![1, 256]⟩ : Shape).Broadcasts ⟨2, ![2000, 256]⟩)
    (hlt : FTy.bf16.bits < FTy.f32.bits)
    (hS6 : (⟨2, ![1, 20]⟩ : Shape).ShapeCasts ⟨2, ![1, 20]⟩)
    (hB6 : (⟨2, ![1, 20]⟩ : Shape).Broadcasts ⟨2, ![2000, 20]⟩)
    (h1 : FVec Ideal SND .f32) (mean var γ β : FVec Ideal SD .f32) (w2 : FVec Ideal SDC .f32) (b2 : FVec Ideal SC .f32)
    (p : Fin 2000) (P : Fin 50000) (q : Fin 20)
    (hx0 : ∀ k : Fin 256, (x0 (ix2 p k) : EReal) = h1 (ix2 P k))
    (hx1 : ∀ k : Fin 256, (x1 (ix2 (0 : Fin 1) k) : EReal) = mean (ix1 k))
    (hx2 : ∀ k : Fin 256, (x2 (ix2 (0 : Fin 1) k) : EReal) = var (ix1 k))
    (hx3 : ∀ k : Fin 256, (x3 (ix2 (0 : Fin 1) k) : EReal) = γ (ix1 k))
    (hx4 : ∀ k : Fin 256, (x4 (ix2 (0 : Fin 1) k) : EReal) = β (ix1 k))
    (hx5 : ∀ k : Fin 256, (x5 (ix2 k q) : EReal) = w2 (ix2 k q))
    (hx6 : (x6 (ix2 (0 : Fin 1) q) : EReal) = b2 (ix1 q)) :
    blockLogits x0 x1 x2 x3 x4 x5 x6 hS0 hS1 hB1 hlt hS6 hB6 (ix2 p q) = hostLogits h1 mean var γ β w2 b2 (ix2 P q) :=
  Cert.Lib.RowLayers.dense_bias_point none none (relu (hostNorm h1 mean var γ β)) w2 (rowC b2) _ x5 x6 hlt hS6 hB6
    (by decide) P p q
    (fun k => Cert.Lib.AffineRows.relu_row _ _ (ix2 p k) (ix2 P k) (by decide)
      (norm_point x0 x1 x2 x3 x4 hS0 hS1 hB1 h1 mean var γ β p P k (hx0 k) (hx1 k) (hx2 k) (hx3 k) (hx4 k)))
    hx5 (hx6.trans (vecRow_apply b2 (by decide) q).symm)

/-! ## The two softmaxes -/

/-- THE TAIL AT AN ENTRY. Entry (p, q) of the block's softmax of its logits is entry (P, q) of the host's tail. -/
theorem tail_point (x0 : FVec Ideal ⟨2, ![2000, 256]⟩ .f32) (x1 x2 x3 x4 : FVec Ideal ⟨2, ![1, 256]⟩ .f32)
    (x5 : FVec Ideal ⟨2, ![256, 20]⟩ .f32) (x6 : FVec Ideal ⟨2, ![1, 20]⟩ .f32)
    (hS0 : (⟨2, ![2000, 256]⟩ : Shape).ShapeCasts ⟨2, ![2000, 256]⟩)
    (hS1 : (⟨2, ![1, 256]⟩ : Shape).ShapeCasts ⟨2, ![1, 256]⟩)
    (hB1 : (⟨2, ![1, 256]⟩ : Shape).Broadcasts ⟨2, ![2000, 256]⟩)
    (hlt : FTy.bf16.bits < FTy.f32.bits)
    (hS6 : (⟨2, ![1, 20]⟩ : Shape).ShapeCasts ⟨2, ![1, 20]⟩)
    (hB6 : (⟨2, ![1, 20]⟩ : Shape).Broadcasts ⟨2, ![2000, 20]⟩)
    (hR : (⟨2, ![2000, 20]⟩ : Shape).Reduces [1] (⟨1, ![2000]⟩ : Shape)) (hφ : FKind.Formats .f32)
    (hmax : (0xFF800000#32 : BitVec 32) = FKind.maximumf.neutral .f32 hφ)
    (hadd : (0x00000000#32 : BitVec 32) = FKind.add.neutral .f32 hφ)
    (hSC : (⟨1, ![2000]⟩ : Shape).ShapeCasts ⟨2, ![2000, 1]⟩) (hBC : (⟨2, ![2000, 1]⟩ : Shape).Broadcasts ⟨2, ![2000, 20]⟩)
    (h1 : FVec Ideal SND .f32) (mean var γ β : FVec Ideal SD .f32) (w2 : FVec Ideal SDC .f32) (b2 : FVec Ideal SC .f32)
    (p : Fin 2000) (P : Fin 50000) (q : Fin 20)
    (hx0 : ∀ k : Fin 256, (x0 (ix2 p k) : EReal) = h1 (ix2 P k))
    (hx1 : ∀ k : Fin 256, (x1 (ix2 (0 : Fin 1) k) : EReal) = mean (ix1 k))
    (hx2 : ∀ k : Fin 256, (x2 (ix2 (0 : Fin 1) k) : EReal) = var (ix1 k))
    (hx3 : ∀ k : Fin 256, (x3 (ix2 (0 : Fin 1) k) : EReal) = γ (ix1 k))
    (hx4 : ∀ k : Fin 256, (x4 (ix2 (0 : Fin 1) k) : EReal) = β (ix1 k))
    (hx5 : ∀ (k : Fin 256) (q' : Fin 20), (x5 (ix2 k q') : EReal) = w2 (ix2 k q'))
    (hx6 : ∀ q' : Fin 20, (x6 (ix2 (0 : Fin 1) q') : EReal) = b2 (ix1 q')) :
    divf
        (exp (subf (blockLogits x0 x1 x2 x3 x4 x5 x6 hS0 hS1 hB1 hlt hS6 hB6) (broadcastTo ⟨2, ![2000, 20]⟩ (shapeCast ⟨2, ![2000, 1]⟩
          (maximumf (broadcast ⟨1, ![2000]⟩ (Scalar.ofBits (F := Ideal) .f32 0xFF800000#32))
            (multiReduction (F := Ideal) .maximumf [1] ⟨1, ![2000]⟩ (blockLogits x0 x1 x2 x3 x4 x5 x6 hS0 hS1 hB1 hlt hS6 hB6)
              0xFF800000#32 hR hφ hmax)) hSC) hBC)))
        (broadcastTo ⟨2, ![2000, 20]⟩ (shapeCast ⟨2, ![2000, 1]⟩
          (multiReduction (F := Ideal) .add [1] ⟨1, ![2000]⟩
            (exp (subf (blockLogits x0 x1 x2 x3 x4 x5 x6 hS0 hS1 hB1 hlt hS6 hB6) (broadcastTo ⟨2, ![2000, 20]⟩ (shapeCast ⟨2, ![2000, 1]⟩
              (maximumf (broadcast ⟨1, ![2000]⟩ (Scalar.ofBits (F := Ideal) .f32 0xFF800000#32))
                (multiReduction (F := Ideal) .maximumf [1] ⟨1, ![2000]⟩ (blockLogits x0 x1 x2 x3 x4 x5 x6 hS0 hS1 hB1 hlt hS6 hB6)
                  0xFF800000#32 hR hφ hmax)) hSC) hBC)))
            0x00000000#32 hR hφ hadd) hSC) hBC)
        (ix2 p q)
      = tail h1 mean var γ β w2 b2 (ix2 P q) :=
  Cert.Lib.RowSoftmax.softmax_row (blockLogits x0 x1 x2 x3 x4 x5 x6 hS0 hS1 hB1 hlt hS6 hB6) (hostLogits h1 mean var γ β w2 b2)
    hR hφ hmax hadd hSC hBC (by decide) (by decide) (by decide) (by decide) (by decide) p P q
    (fun q' => logits_point x0 x1 x2 x3 x4 x5 x6 hS0 hS1 hB1 hlt hS6 hB6 h1 mean var γ β w2 b2 p P q'
      hx0 hx1 hx2 hx3 hx4 (fun k => hx5 k q') (hx6 q'))

end Cert.KernelIdeal.HeadValue

end
-- ==== Proof.Head.lean ====
/-
  What the decoder's last region writes: the tail of its input arrays.

  The region runs over 25 grid points. At point t it reads rows 2000·t … 2000·t + 1999 of the 50000×256 array h1, the
  whole rows of mean, variance, scale and shift, the whole 256×20 weight and the whole bias row, and writes rows
  2000·t … 2000·t + 1999 of the 50000×20 result. Entry (p, q) of the block written at point t is entry (2000·t + p, q) of
  the tail of the whole arrays (HeadPoint.lean); the 25 blocks tile the result, the point covering row r being r / 2000;
  so the result array ends holding the tail.
-/
import proofs.«116509_j71700184039973_1_alg».proof.Proof.Gen.KernelIdeal.Frame
import proofs.«116509_j71700184039973_1_alg».proof.Proof.HeadPoint
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HeadValue

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-! ## The block written at a point, entry by entry -/

/-- Entry (p, q) of what the body leaves in the output's buffer, from blocks whose rows are the arrays' rows. -/
theorem out_point (x0 : Vec Ideal S2000x256 .f32) (x1 x2 x3 x4 : Vec Ideal S1x256 .f32) (x5 : Vec Ideal S256x20 .f32)
    (x6 : Vec Ideal S1x20 .f32)
    (h1 : FVec Ideal Cert.Gnn.SND .f32) (mean var γ β : FVec Ideal Cert.Gnn.SD .f32) (w2 : FVec Ideal Cert.Gnn.SDC .f32)
    (b2 : FVec Ideal Cert.Gnn.SC .f32) (p : Fin 2000) (P : Fin 50000) (q : Fin 20)
    (hx0 : ∀ k : Fin 256, (x0 (ix2 p k) : EReal) = h1 (ix2 P k))
    (hx1 : ∀ k : Fin 256, (x1 (ix2 (0 : Fin 1) k) : EReal) = mean (ix1 k))
    (hx2 : ∀ k : Fin 256, (x2 (ix2 (0 : Fin 1) k) : EReal) = var (ix1 k))
    (hx3 : ∀ k : Fin 256, (x3 (ix2 (0 : Fin 1) k) : EReal) = γ (ix1 k))
    (hx4 : ∀ k : Fin 256, (x4 (ix2 (0 : Fin 1) k) : EReal) = β (ix1 k))
    (hx5 : ∀ (k : Fin 256) (q' : Fin 20), (x5 (ix2 k q') : EReal) = w2 (ix2 k q'))
    (hx6 : ∀ q' : Fin 20, (x6 (ix2 (0 : Fin 1) q') : EReal) = b2 (ix1 q')) :
    out6_7 (F := Ideal) x0 x1 x2 x3 x4 x5 x6 (ix2 p q) = Cert.Gnn.tail h1 mean var γ β w2 b2 (ix2 P q) := by
  unfold out6_7
  rw [View.canon_unit_zero zero_offsets]
  simp only [View.ld_unit_zero (S := S2000x256) zero_offsets, View.ld_unit_zero (S := S1x256) zero_offsets,
    View.ld_unit_zero (S := S256x20) zero_offsets, View.ld_unit_zero (S := S1x20) zero_offsets]
  exact tail_point x0 x1 x2 x3 x4 x5 x6 shapeCasts_S2000x256_S2000x256 shapeCasts_S1x256_S1x256
    broadcasts_S1x256_S2000x256 bitsLt_bf16_f32 shapeCasts_S1x20_S1x20 broadcasts_S1x20_S2000x20 reduces_S2000x20_S2000
    (.inl rfl) rfl rfl shapeCasts_S2000_S2000x1 broadcasts_S2000x1_S2000x20 h1 mean var γ β w2 b2 p P q
    hx0 hx1 hx2 hx3 hx4 hx5 hx6

/-! ## The windows' blocks as rows of their arrays -/

/-- The printed index maps over the 25 grid points: windows 0 and 7 move one block of rows per point, the others stay. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- Row p of window 0's block at point t is row 2000·t + p of its array. -/
theorem iblk0_apply (c : Dev nD) (t : Fin cfg6.N) (p : Fin 2000) (k : Fin 256) (P : Fin 50000)
    (hP : P.val = t.val * 2000 + p.val) :
    (iblk6 V c 0 t : Vec Ideal S2000x256 .f32) (ix2 p k) = (V c main_v88_0 : Cert.Gnn.SND.Idx → EReal) (ix2 P k) := by
  obtain ⟨e0, e1, -⟩ := idx_facts t
  unfold iblk6
  rw [View.read_apply]
  show V c main_v88_0 _ = V c main_v88_0 _
  congr 1
  funext a
  apply Fin.ext
  match a with
  | ⟨0, _⟩ => show win6_0.index t (0 : Fin 2) * 2000 + 1 * p.val = P.val; rw [e0, hP]; omega
  | ⟨1, _⟩ => show win6_0.index t (1 : Fin 2) * 256 + 1 * k.val = k.val; rw [e1]; omega

/-- Windows 1 to 6 hold their whole arrays at every point. -/
theorem iblk1_eq (c : Dev nD) (t : Fin cfg6.N) : (iblk6 V c 1 t : Vec Ideal S1x256 .f32) = V c main_v92 := by
  obtain ⟨-, -, e0, e1, -⟩ := idx_facts t
  funext j
  unfold iblk6
  rw [View.read_apply]
  show V c main_v92 _ = V c main_v92 j
  congr 1
  funext a
  apply Fin.ext
  match a with
  | ⟨0, _⟩ => show win6_1.index t (0 : Fin 2) * 1 + 1 * (j 0).val = (j 0).val; rw [e0]; omega
  | ⟨1, _⟩ => show win6_1.index t (1 : Fin 2) * 256 + 1 * (j 1).val = (j 1).val; rw [e1]; omega

theorem iblk2_eq (c : Dev nD) (t : Fin cfg6.N) : (iblk6 V c 2 t : Vec Ideal S1x256 .f32) = V c main_v101 := by
  obtain ⟨-, -, -, -, e0, e1, -⟩ := idx_facts t
  funext j
  unfold iblk6
  rw [View.read_apply]
  show V c main_v101 _ = V c main_v101 j
  congr 1
  funext a
  apply Fin.ext
  match a with
  | ⟨0, _⟩ => show win6_2.index t (0 : Fin 2) * 1 + 1 * (j 0).val = (j 0).val; rw [e0]; omega
  | ⟨1, _⟩ => show win6_2.index t (1 : Fin 2) * 256 + 1 * (j 1).val = (j 1).val; rw [e1]; omega

theorem iblk3_eq (c : Dev nD) (t : Fin cfg6.N) : (iblk6 V c 3 t : Vec Ideal S1x256 .f32) = V c main_v102 := by
  obtain ⟨-, -, -, -, -, -, e0, e1, -⟩ := idx_facts t
  funext j
  unfold iblk6
  rw [View.read_apply]
  show V c main_v102 _ = V c main_v102 j
  congr 1
  funext a
  apply Fin.ext
  match a with
  | ⟨0, _⟩ => show win6_3.index t (0 : Fin 2) * 1 + 1 * (j 0).val = (j 0).val; rw [e0]; omega
  | ⟨1, _⟩ => show win6_3.index t (1 : Fin 2) * 256 + 1 * (j 1).val = (j 1).val; rw [e1]; omega

theorem iblk4_eq (c : Dev nD) (t : Fin cfg6.N) : (iblk6 V c 4 t : Vec Ideal S1x256 .f32) = V c main_v103 := by
  obtain ⟨-, -, -, -, -, -, -, -, e0, e1, -⟩ := idx_facts t
  funext j
  unfold iblk6
  rw [View.read_apply]
  show V c main_v103 _ = V c main_v103 j
  congr 1
  funext a
  apply Fin.ext
  match a with
  | ⟨0, _⟩ => show win6_4.index t (0 : Fin 2) * 1 + 1 * (j 0).val = (j 0).val; rw [e0]; omega
  | ⟨1, _⟩ => show win6_4.index t (1 : Fin 2) * 256 + 1 * (j 1).val = (j 1).val; rw [e1]; omega

theorem iblk5_eq (c : Dev nD) (t : Fin cfg6.N) : (iblk6 V c 5 t : Vec Ideal S256x20 .f32) = V c main_arg11 := by
  obtain ⟨-, -, -, -, -, -, -, -, -, -, e0, e1, -⟩ := idx_facts t
  funext j
  unfold iblk6
  rw [View.read_apply]
  show V c main_arg11 _ = V c main_arg11 j
  congr 1
  funext a
  apply Fin.ext
  match a with
  | ⟨0, _⟩ => show win6_5.index t (0 : Fin 2) * 256 + 1 * (j 0).val = (j 0).val; rw [e0]; omega
  | ⟨1, _⟩ => show win6_5.index t (1 : Fin 2) * 20 + 1 * (j 1).val = (j 1).val; rw [e1]; omega

theorem iblk6_eq (c : Dev nD) (t : Fin cfg6.N) : (iblk6 V c 6 t : Vec Ideal S1x20 .f32) = V c main_v104 := by
  obtain ⟨-, -, -, -, -, -, -, -, -, -, -, -, e0, e1, -⟩ := idx_facts t
  funext j
  unfold iblk6
  rw [View.read_apply]
  show V c main_v104 _ = V c main_v104 j
  congr 1
  funext a
  apply Fin.ext
  match a with
  | ⟨0, _⟩ => show win6_6.index t (0 : Fin 2) * 1 + 1 * (j 0).val = (j 0).val; rw [e0]; omega
  | ⟨1, _⟩ => show win6_6.index t (1 : Fin 2) * 20 + 1 * (j 1).val = (j 1).val; rw [e1]; omega

/-! ## What a point writes back -/

section
variable (c : Dev nD) (mean var γ β : FVec Ideal Cert.Gnn.SD .f32) (b2 : FVec Ideal Cert.Gnn.SC .f32)
  (hm : V c main_v92 = Cert.Gnn.rowD mean) (hv : V c main_v101 = Cert.Gnn.rowD var)
  (hg : V c main_v102 = Cert.Gnn.rowD γ) (hb : V c main_v103 = Cert.Gnn.rowD β) (h2 : V c main_v104 = Cert.Gnn.rowC b2)

include hm hv hg hb h2 in
/-- WHAT POINT t WRITES BACK is block t of the tail of the arrays as the region finds them. -/
theorem flushed_eq (t : Fin cfg6.N) :
    (dat6 (F := Ideal) V c).flushed 7 t
      = ((cfg6.win 7).blk t).view.read (Elt Ideal)
          (Cert.Gnn.tail (V c main_v88_0) mean var γ β (V c main_arg11) b2) := by
  show (cfg6.win 7).cut (grid6.coords t) ((dat6 V c).after 7 t) = _
  rw [after6_7]
  funext j
  rw [View.read_apply]
  have hN : cfg6.N = 25 := N_6
  have htl : t.val < 25 := hN ▸ t.isLt
  have hj0 : (j 0).val < 2000 := (j 0).isLt
  have hPlt : t.val * 2000 + (j 0).val < 50000 := by omega
  obtain ⟨-, -, -, -, -, -, -, -, -, -, -, -, -, -, e70, e71⟩ := idx_facts t
  have hemb : ((cfg6.win 7).blk t).view.emb j
      = (ix2 (⟨t.val * 2000 + (j 0).val, hPlt⟩ : Fin 50000) (j 1) : Cert.Gnn.SNC.Idx) := by
    funext a
    apply Fin.ext
    match a with
    | ⟨0, _⟩ => show win6_7.index t (0 : Fin 2) * 2000 + 1 * (j 0).val = t.val * 2000 + (j 0).val; rw [e70]; omega
    | ⟨1, _⟩ => show win6_7.index t (1 : Fin 2) * 20 + 1 * (j 1).val = (j 1).val; rw [e71]; omega
  have hjj : (j : S2000x20.Idx) = ix2 (j 0) (j 1) := eq_ix2 (n0 := 2000) (n1 := 20) j
  rw [hemb]
  refine (congrArg (out6_7 (F := Ideal) (iblk6 V c 0 t) (iblk6 V c 1 t) (iblk6 V c 2 t) (iblk6 V c 3 t) (iblk6 V c 4 t)
    (iblk6 V c 5 t) (iblk6 V c 6 t)) hjj).trans ?_
  exact out_point (iblk6 V c 0 t) (iblk6 V c 1 t) (iblk6 V c 2 t) (iblk6 V c 3 t) (iblk6 V c 4 t) (iblk6 V c 5 t)
    (iblk6 V c 6 t) (V c main_v88_0) mean var γ β (V c main_arg11) b2 (j 0) ⟨t.val * 2000 + (j 0).val, hPlt⟩ (j 1)
    (fun k => iblk0_apply V c t (j 0) k ⟨t.val * 2000 + (j 0).val, hPlt⟩ rfl)
    (fun k => (congrFun (iblk1_eq V c t) _).trans ((congrFun hm _).trans (vecRow_apply mean (by decide) k)))
    (fun k => (congrFun (iblk2_eq V c t) _).trans ((congrFun hv _).trans (vecRow_apply var (by decide) k)))
    (fun k => (congrFun (iblk3_eq V c t) _).trans ((congrFun hg _).trans (vecRow_apply γ (by decide) k)))
    (fun k => (congrFun (iblk4_eq V c t) _).trans ((congrFun hb _).trans (vecRow_apply β (by decide) k)))
    (fun k q' => congrFun (iblk5_eq V c t) _)
    (fun q' => (congrFun (iblk6_eq V c t) _).trans ((congrFun h2 _).trans (vecRow_apply b2 (by decide) q')))

/-! ## The blocks tile the result -/

/-- An index of the result is in point t's block iff each coordinate is in the block's range on its axis. -/
theorem mem_blk (t : Fin cfg6.N) (i : Cert.Gnn.SNC.Idx) :
    i ∈ ((cfg6.win 7).blk t).view.set
      ↔ ∀ a : Fin 2, win6_7.index t a * S2000x20.size a ≤ (i a).val
          ∧ (i a).val < win6_7.index t a * S2000x20.size a + S2000x20.size a := by
  show i ∈ ((View.whole main_v105).slice (win6_7.rect t)).set ↔ _
  rw [View.set_slice_whole, Rect.mem_set_unit]
  exact Iff.rfl

/-- Every index of the result is in the block of the point its row falls in: row r is written at point r / 2000. -/
theorem covered (i : Cert.Gnn.SNC.Idx) :
    ∃ t : Fin cfg6.N, (cfg6.win 7).flush t = true ∧ i ∈ ((cfg6.win 7).blk t).view.set := by
  have hN : cfg6.N = 25 := N_6
  have hi0 : (i 0).val < 50000 := (i 0).isLt
  have hi1 : (i 1).val < 20 := (i 1).isLt
  have ht : (i 0).val / 2000 < cfg6.N := by rw [hN]; omega
  obtain ⟨-, -, -, -, -, -, -, -, -, -, -, -, -, -, e70, e71⟩ := idx_facts ⟨(i 0).val / 2000, ht⟩
  refine ⟨⟨(i 0).val / 2000, ht⟩, flush6_7 _, ?_⟩
  rw [mem_blk]
  intro a
  match a with
  | ⟨0, _⟩ =>
    show win6_7.index ⟨(i 0).val / 2000, ht⟩ (0 : Fin 2) * 2000 ≤ (i 0).val
      ∧ (i 0).val < win6_7.index ⟨(i 0).val / 2000, ht⟩ (0 : Fin 2) * 2000 + 2000
    rw [e70]
    show (i 0).val / 2000 * 2000 ≤ (i 0).val ∧ (i 0).val < (i 0).val / 2000 * 2000 + 2000
    omega
  | ⟨1, _⟩ =>
    show win6_7.index ⟨(i 0).val / 2000, ht⟩ (1 : Fin 2) * 20 ≤ (i 1).val
      ∧ (i 1).val < win6_7.index ⟨(i 0).val / 2000, ht⟩ (1 : Fin 2) * 20 + 20
    rw [e71]
    omega

include hm hv hg hb h2 in
/-- THE RESULT ARRAY after the region: the tail of the arrays the region finds. -/
theorem head_value :
    (Cert.KernelIdeal.Gen.dat6 (F := Ideal) V c).arrAt 7 cfg6.N
      = Cert.Gnn.tail (V c main_v88_0) mean var γ β (V c main_arg11) b2 :=
  (dat6 (F := Ideal) V c).arrAt_eq_of_cover 7 (Cert.Gnn.tail (V c main_v88_0) mean var γ β (V c main_arg11) b2)
    (fun t _ => flushed_eq V c mean var γ β b2 hm hv hg hb h2 t) covered

end

end Cert.KernelIdeal.HeadValue

end
-- ==== Proof.KernelValueB.lean ====
/-
  The idealized kernel's buffers at the boundaries of its segments, read as the network's stages (second part: the
  decoder). After region 5 the hidden layer's output and its column sums and sums of squares, as rows; after the last
  host stretch the batch mean and the one-pass variance as rows, beside the scale, shift and last bias as rows; after
  region 6 the result: the decoder's tail of the hidden layer with that mean and variance.
-/
import proofs.«116509_j71700184039973_1_alg».proof.Proof.KernelValueA
import proofs.«116509_j71700184039973_1_alg».proof.Proof.KernelHost6
import proofs.«116509_j71700184039973_1_alg».proof.Proof.Stats
import proofs.«116509_j71700184039973_1_alg».proof.Proof.Head

set_option maxRecDepth 16384

noncomputable section

namespace Cert.KernelIdeal.Hand

open Cert.KernelIdeal Cert.KernelIdeal.Gen Cert.Gnn
open Idealize.ShloMosaic Idealize.ShloMosaic.TcCoe Idealize.ShloMosaic.StableHlo
open Idealize.SL.Sem
open Idealize.ShloMosaic.Pipeline (Dat)

variable (m : (ℓ : Loc nD τ sig) → Buf (Elt Ideal) ℓ) (ρ : Dev nD → PrngReg) (c : Dev nD)

/-- The hidden layer of the argument arrays. -/
abbrev hid : FVec Ideal SND .f32 :=
  hidden (argAt m c main_arg0) (argAt m c main_arg1) (argAt m c main_arg2) (argAt m c main_arg3) (argAt m c main_arg4)
    (argAt m c main_arg5) (argAt m c main_arg6) (argAt m c main_arg7) (argAt m c main_arg8)

theorem keep_arg9_10_0 : W10 m ρ c (Proc.devRef .tc main_arg9) = W0 m ρ c (Proc.devRef .tc main_arg9) :=
  calc W10 m ρ c (Proc.devRef .tc main_arg9)
    _ = W9 m ρ c (Proc.devRef .tc main_arg9) := (W10_of_ne m ρ c main_arg9 (by decide))
    _ = W8 m ρ c (Proc.devRef .tc main_arg9) := (by host_keep hostOps5)
    _ = W7 m ρ c (Proc.devRef .tc main_arg9) := (W8_of_ne m ρ c main_arg9 (by decide))
    _ = W6 m ρ c (Proc.devRef .tc main_arg9) := (by host_keep hostOps4)
    _ = W5 m ρ c (Proc.devRef .tc main_arg9) := (W6_of_ne m ρ c main_arg9 (by decide))
    _ = W4 m ρ c (Proc.devRef .tc main_arg9) := (W5_of_ne m ρ c main_arg9 (by decide))
    _ = W3 m ρ c (Proc.devRef .tc main_arg9) := (by host_keep hostOps2)
    _ = W2 m ρ c (Proc.devRef .tc main_arg9) := (W3_of_ne m ρ c main_arg9 (by decide))
    _ = W1 m ρ c (Proc.devRef .tc main_arg9) := (W2_of_ne m ρ c main_arg9 (by decide))
    _ = W0 m ρ c (Proc.devRef .tc main_arg9) := (by host_keep hostOps0)
theorem keep_arg10_10_0 : W10 m ρ c (Proc.devRef .tc main_arg10) = W0 m ρ c (Proc.devRef .tc main_arg10) :=
  calc W10 m ρ c (Proc.devRef .tc main_arg10)
    _ = W9 m ρ c (Proc.devRef .tc main_arg10) := (W10_of_ne m ρ c main_arg10 (by decide))
    _ = W8 m ρ c (Proc.devRef .tc main_arg10) := (by host_keep hostOps5)
    _ = W7 m ρ c (Proc.devRef .tc main_arg10) := (W8_of_ne m ρ c main_arg10 (by decide))
    _ = W6 m ρ c (Proc.devRef .tc main_arg10) := (by host_keep hostOps4)
    _ = W5 m ρ c (Proc.devRef .tc main_arg10) := (W6_of_ne m ρ c main_arg10 (by decide))
    _ = W4 m ρ c (Proc.devRef .tc main_arg10) := (W5_of_ne m ρ c main_arg10 (by decide))
    _ = W3 m ρ c (Proc.devRef .tc main_arg10) := (by host_keep hostOps2)
    _ = W2 m ρ c (Proc.devRef .tc main_arg10) := (W3_of_ne m ρ c main_arg10 (by decide))
    _ = W1 m ρ c (Proc.devRef .tc main_arg10) := (W2_of_ne m ρ c main_arg10 (by decide))
    _ = W0 m ρ c (Proc.devRef .tc main_arg10) := (by host_keep hostOps0)
theorem keep_arg12_10_0 : W10 m ρ c (Proc.devRef .tc main_arg12) = W0 m ρ c (Proc.devRef .tc main_arg12) :=
  calc W10 m ρ c (Proc.devRef .tc main_arg12)
    _ = W9 m ρ c (Proc.devRef .tc main_arg12) := (W10_of_ne m ρ c main_arg12 (by decide))
    _ = W8 m ρ c (Proc.devRef .tc main_arg12) := (by host_keep hostOps5)
    _ = W7 m ρ c (Proc.devRef .tc main_arg12) := (W8_of_ne m ρ c main_arg12 (by decide))
    _ = W6 m ρ c (Proc.devRef .tc main_arg12) := (by host_keep hostOps4)
    _ = W5 m ρ c (Proc.devRef .tc main_arg12) := (W6_of_ne m ρ c main_arg12 (by decide))
    _ = W4 m ρ c (Proc.devRef .tc main_arg12) := (W5_of_ne m ρ c main_arg12 (by decide))
    _ = W3 m ρ c (Proc.devRef .tc main_arg12) := (by host_keep hostOps2)
    _ = W2 m ρ c (Proc.devRef .tc main_arg12) := (W3_of_ne m ρ c main_arg12 (by decide))
    _ = W1 m ρ c (Proc.devRef .tc main_arg12) := (W2_of_ne m ρ c main_arg12 (by decide))
    _ = W0 m ρ c (Proc.devRef .tc main_arg12) := (by host_keep hostOps0)
theorem keep_v88_0_11_10 : W11 m ρ c (Proc.devRef .tc main_v88_0) = W10 m ρ c (Proc.devRef .tc main_v88_0) :=
  calc W11 m ρ c (Proc.devRef .tc main_v88_0)
    _ = W10 m ρ c (Proc.devRef .tc main_v88_0) := (by host_keep hostOps6)
theorem keep_arg11_11_0 : W11 m ρ c (Proc.devRef .tc main_arg11) = W0 m ρ c (Proc.devRef .tc main_arg11) :=
  calc W11 m ρ c (Proc.devRef .tc main_arg11)
    _ = W10 m ρ c (Proc.devRef .tc main_arg11) := (by host_keep hostOps6)
    _ = W9 m ρ c (Proc.devRef .tc main_arg11) := (W10_of_ne m ρ c main_arg11 (by decide))
    _ = W8 m ρ c (Proc.devRef .tc main_arg11) := (by host_keep hostOps5)
    _ = W7 m ρ c (Proc.devRef .tc main_arg11) := (W8_of_ne m ρ c main_arg11 (by decide))
    _ = W6 m ρ c (Proc.devRef .tc main_arg11) := (by host_keep hostOps4)
    _ = W5 m ρ c (Proc.devRef .tc main_arg11) := (W6_of_ne m ρ c main_arg11 (by decide))
    _ = W4 m ρ c (Proc.devRef .tc main_arg11) := (W5_of_ne m ρ c main_arg11 (by decide))
    _ = W3 m ρ c (Proc.devRef .tc main_arg11) := (by host_keep hostOps2)
    _ = W2 m ρ c (Proc.devRef .tc main_arg11) := (W3_of_ne m ρ c main_arg11 (by decide))
    _ = W1 m ρ c (Proc.devRef .tc main_arg11) := (W2_of_ne m ρ c main_arg11 (by decide))
    _ = W0 m ρ c (Proc.devRef .tc main_arg11) := (by host_keep hostOps0)

/-- Region 5's dense layer reads the encoder's output, the weight and the bias row. -/
theorem v9_dense : denseBias (V9 m ρ c main_v86) (V9 m ρ c main_arg7) (rowD (argAt m c main_arg8)) = hid m c := by
  show denseBias (W9 m ρ c (Proc.devRef .tc main_v86)) (W9 m ρ c (Proc.devRef .tc main_arg7)) _ = _
  rw [keep_v86_9_8, keep_arg7_9_0, w8_encoder]
  rfl

/-- After region 5: the hidden layer, its column sums and its column sums of squares. -/
theorem w10_v88_0 : W10 m ρ c (Proc.devRef .tc main_v88_0) = hid m c :=
  (W10_arr m ρ c 3).trans ((Cert.KernelIdeal.StatsValue.stats_h1 (V9 m ρ) c (argAt m c main_arg8) (w9_v87 m ρ c)).trans (v9_dense m ρ c))
theorem w10_v88_1 : W10 m ρ c (Proc.devRef .tc main_v88_1) = rowD (colSum (hid m c)) :=
  (W10_arr m ρ c 4).trans ((Cert.KernelIdeal.StatsValue.stats_sum (V9 m ρ) c (argAt m c main_arg8) (w9_v87 m ρ c)).trans
    (congrArg (fun h => rowD (colSum h)) (v9_dense m ρ c)))
theorem w10_v88_2 : W10 m ρ c (Proc.devRef .tc main_v88_2) = rowD (colSum (mulf (hid m c) (hid m c))) :=
  (W10_arr m ρ c 5).trans ((Cert.KernelIdeal.StatsValue.stats_sumsq (V9 m ρ) c (argAt m c main_arg8) (w9_v87 m ρ c)).trans
    (congrArg (fun h => rowD (colSum (mulf h h))) (v9_dense m ρ c)))

/-- THE KERNEL'S RESULT: the decoder's tail of the hidden layer, with the batch mean and the ONE-PASS variance. -/
theorem kernel_value : W12 m ρ c (Proc.devRef .tc main_v105)
    = tail (hid m c) (meanOf (colSum (hid m c))) (varOnePass (colSum (hid m c)) (colSum (mulf (hid m c) (hid m c))))
        (argAt m c main_arg9) (argAt m c main_arg10) (argAt m c main_arg11) (argAt m c main_arg12) := by
  refine (W12_arr m ρ c 7).trans ((Cert.KernelIdeal.HeadValue.head_value (V11 m ρ) c
    (meanOf (colSum (hid m c))) (varOnePass (colSum (hid m c)) (colSum (mulf (hid m c) (hid m c))))
    (argAt m c main_arg9) (argAt m c main_arg10) (argAt m c main_arg12) ?_ ?_ ?_ ?_ ?_).trans ?_)
  · exact host6_v92 _ _ (w10_v88_1 m ρ c)
  · exact host6_v101 _ _ _ (w10_v88_1 m ρ c) (w10_v88_2 m ρ c)
  · exact (host6_v102 _).trans (congrArg rowD (keep_arg9_10_0 m ρ c))
  · exact (host6_v103 _).trans (congrArg rowD (keep_arg10_10_0 m ρ c))
  · exact (host6_v104 _).trans (congrArg rowC (keep_arg12_10_0 m ρ c))
  · show tail (W11 m ρ c (Proc.devRef .tc main_v88_0)) _ _ _ _ (W11 m ρ c (Proc.devRef .tc main_arg11)) _ = _
    rw [keep_v88_0_11_10, keep_arg11_11_0, w10_v88_0]

end Cert.KernelIdeal.Hand

end
-- ==== Proof.RefValue.lean ====
/-
  The reference's result as the network's stages.

  The reference is a line of host operations in single-assignment form; the final contents of each variable is its
  operation's function of the final contents of its operands (one equation per variable). Read stage by stage, the
  variables hold: the two rows of the edge list; the degree vector; the input projection and the first layer's projected
  features; the edge weights, the aggregated messages and the inverse-degree column; the first layer; the same for the
  second layer; the decoder's first dense layer H; the column mean of H; the two-pass variance of H; and the tail of H
  with these statistics. Each stage is closed by unfolding its name: the stage's definition is spelt with the very
  operations the line applies.
-/
import proofs.«116509_j71700184039973_1_alg».proof.Proof.RefVals
import proofs.«116509_j71700184039973_1_alg».proof.Proof.Graph

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Gnn

variable (V : Valuation τ sig (Elt Ideal))

/-! ## The arguments -/

abbrev argX : FVec Ideal SNG .f32 := V (Proc.devRef .tc main_arg0)
abbrev argEI : IVec S2E 32 := V (Proc.devRef .tc main_arg1)
abbrev argLW : FVec Ideal SGD .f32 := V (Proc.devRef .tc main_arg2)
abbrev argW1 : FVec Ideal SDD .f32 := V (Proc.devRef .tc main_arg3)
abbrev argB1 : FVec Ideal SD .f32 := V (Proc.devRef .tc main_arg4)
abbrev argW2 : FVec Ideal SDD .f32 := V (Proc.devRef .tc main_arg5)
abbrev argB2 : FVec Ideal SD .f32 := V (Proc.devRef .tc main_arg6)
abbrev argW3 : FVec Ideal SDD .f32 := V (Proc.devRef .tc main_arg7)
abbrev argB3 : FVec Ideal SD .f32 := V (Proc.devRef .tc main_arg8)
abbrev argG : FVec Ideal SD .f32 := V (Proc.devRef .tc main_arg9)
abbrev argBt : FVec Ideal SD .f32 := V (Proc.devRef .tc main_arg10)
abbrev argWc : FVec Ideal SDC .f32 := V (Proc.devRef .tc main_arg11)
abbrev argBc : FVec Ideal SC .f32 := V (Proc.devRef .tc main_arg12)

/-- The source and destination rows of the edge list. -/
abbrev src : IVec SE 32 := srcOf (argEI V)
abbrev dst : IVec SE 32 := dstOf (argEI V)

/-! ## The edge list and the degrees -/

theorem ref_src : R V main_v1 = src V := by
  rw [val_v1 V, val_v0 V, kept_arg1 V]; rfl

theorem ref_dst : R V main_v3 = dst V := by
  rw [val_v3 V, val_v2 V, kept_arg1 V]; rfl

theorem ref_deg : R V main_v11 = degOf (dst V) := by
  rw [val_v11 V, val_v9 V, val_v10 V, val_cst_1 V, val_v7 V, val_cst_0 V, val_v8 V, val_v6 V, val_cst V, ref_dst V]; rfl

theorem ref_deg' : R V main_v57 = degOf (dst V) := by
  rw [val_v57 V, val_v55 V, val_v56 V, val_cst_11 V, val_v53 V, val_cst_10 V, val_v54 V, val_v52 V, val_cst_9 V, ref_dst V]; rfl

/-! ## The gather indices -/

theorem ref_wrap_src : R V main_v18 = wrapIdx (src V) := by
  rw [val_v18 V, val_v17 V, val_v14 V, val_v16 V, val_v13 V, val_c V, val_v15 V, val_c_2 V, ref_src V]; rfl

theorem ref_wrap_dst : R V main_v25 = wrapIdx (dst V) := by
  rw [val_v25 V, val_v24 V, val_v21 V, val_v23 V, val_v20 V, val_c_3 V, val_v22 V, val_c_4 V, ref_dst V]; rfl

theorem ref_wrap_src' : R V main_v34 = wrapIdx (src V) := by
  rw [val_v34 V, val_v33 V, val_v30 V, val_v32 V, val_v29 V, val_c_5 V, val_v31 V, val_c_6 V, ref_src V]; rfl

theorem ref_wrap_src2 : R V main_v64 = wrapIdx (src V) := by
  rw [val_v64 V, val_v63 V, val_v60 V, val_v62 V, val_v59 V, val_c_12 V, val_v61 V, val_c_13 V, ref_src V]; rfl

theorem ref_wrap_dst2 : R V main_v71 = wrapIdx (dst V) := by
  rw [val_v71 V, val_v70 V, val_v67 V, val_v69 V, val_v66 V, val_c_14 V, val_v68 V, val_c_15 V, ref_dst V]; rfl

theorem ref_wrap_src2' : R V main_v80 = wrapIdx (src V) := by
  rw [val_v80 V, val_v79 V, val_v76 V, val_v78 V, val_v75 V, val_c_16 V, val_v77 V, val_c_17 V, ref_src V]; rfl

/-! ## The first layer -/

/-- The input projection. -/
abbrev X0 : FVec Ideal SND .f32 := Host.dotGeneral (F := Ideal) (DotDims.plain 50000 1002 256) none (argX V) (argLW V)
/-- The first layer's projected features. -/
abbrev XP1 : FVec Ideal SND .f32 := proj (X0 V) (argW1 V)

theorem ref_x0 : R V main_v4 = X0 V := by
  rw [val_v4 V, kept_arg0 V, kept_arg2 V]; rfl

theorem ref_xp1 : R V main_v5 = XP1 V := by
  rw [val_v5 V, ref_x0 V, kept_arg3 V]; rfl

theorem ref_norm1 : R V main_v28 = normCol (src V) (dst V) := by
  rw [val_v28 V, val_v27 V, val_v19 V, val_v26 V, val_v12 V, ref_deg V, ref_wrap_src V, ref_wrap_dst V]; rfl

theorem ref_agg1 : R V main_v40 = aggOf (src V) (dst V) (XP1 V) := by
  rw [val_v40 V, val_v38 V, val_cst_7 V, val_v39 V, val_v37 V, val_v36 V, val_v35 V, ref_norm1 V, ref_wrap_src' V,
    ref_xp1 V, ref_dst V]; rfl

theorem ref_inv1 : R V main_v43 = invDegCol (dst V) := by
  rw [val_v43 V, val_v42 V, val_v41 V, val_cst_8 V, ref_deg V]; rfl

/-- The first layer. -/
abbrev L1 : FVec Ideal SND .f32 := layer (src V) (dst V) (XP1 V) (argB1 V)

theorem ref_layer1 : R V main_v50 = L1 V := by
  rw [val_v50 V, val_call0_v0 V, val_call0_cst V, val_v49 V, val_v46 V, val_v45 V, val_v44 V, val_v48 V, val_v47 V,
    ref_agg1 V, ref_inv1 V, ref_xp1 V, kept_arg4 V]; rfl

/-! ## The second layer -/

abbrev XP2 : FVec Ideal SND .f32 := proj (L1 V) (argW2 V)

theorem ref_xp2 : R V main_v51 = XP2 V := by
  rw [val_v51 V, ref_layer1 V, kept_arg5 V]; rfl

theorem ref_norm2 : R V main_v74 = normCol (src V) (dst V) := by
  rw [val_v74 V, val_v73 V, val_v65 V, val_v72 V, val_v58 V, ref_deg' V, ref_wrap_src2 V, ref_wrap_dst2 V]; rfl

theorem ref_agg2 : R V main_v86 = aggOf (src V) (dst V) (XP2 V) := by
  rw [val_v86 V, val_v84 V, val_cst_18 V, val_v85 V, val_v83 V, val_v82 V, val_v81 V, ref_norm2 V, ref_wrap_src2' V,
    ref_xp2 V, ref_dst V]; rfl

theorem ref_inv2 : R V main_v89 = invDegCol (dst V) := by
  rw [val_v89 V, val_v88 V, val_v87 V, val_cst_19 V, ref_deg' V]; rfl

/-- The encoder's output. -/
abbrev Enc : FVec Ideal SND .f32 :=
  encoder (argX V) (argEI V) (argLW V) (argW1 V) (argB1 V) (argW2 V) (argB2 V)

theorem ref_layer2 : R V main_v96 = Enc V := by
  rw [val_v96 V, val_call1_v0 V, val_call1_cst V, val_v95 V, val_v92 V, val_v91 V, val_v90 V, val_v94 V, val_v93 V,
    ref_agg2 V, ref_inv2 V, ref_xp2 V, kept_arg6 V]; rfl

/-! ## The decoder's first dense layer and its statistics -/

/-- The decoder's first dense layer on the encoder's output. -/
abbrev H : FVec Ideal SND .f32 :=
  hidden (argX V) (argEI V) (argLW V) (argW1 V) (argB1 V) (argW2 V) (argB2 V) (argW3 V) (argB3 V)

theorem ref_h1 : R V main_v100 = H V := by
  rw [val_v100 V, val_v97 V, val_v99 V, val_v98 V, ref_layer2 V, kept_arg7 V, kept_arg8 V]; rfl

theorem ref_mean : R V main_v103 = meanOf (colSum (H V)) := by
  rw [val_v103 V, val_v101 V, val_cst_20 V, val_v102 V, val_cst_21 V, ref_h1 V]; rfl

/-- The column mean as a row, as the variance computes it. -/
theorem ref_mu : R V main_call2_v3
    = Host.divf (rowD (colSum (H V))) (broadcastInDim S1D ![] (by decide) (constant (F := Ideal) Sc .f32 0x47435000#32)) := by
  rw [val_call2_v3 V, val_call2_v1 V, val_call2_v0 V, val_call2_cst V, val_call2_v2 V, val_call2_cst_0 V, ref_h1 V]; rfl

/-- The divisor N − 0. -/
theorem ref_n0 : R V main_call2_v8
    = subf (constant (F := Ideal) Sc .f32 0x47435000#32) (sitofp .f32 (constantI Sc 32 0#32)) := by
  rw [val_call2_v8 V, val_call2_cst_1 V, val_call2_v7 V, val_c_22 V]

/-- The squared deviations summed down the columns. -/
theorem ref_sq : R V main_call2_v9
    = colSum (mulf
        (subf (H V) (downD (Host.divf (rowD (colSum (H V)))
          (broadcastInDim S1D ![] (by decide) (constant (F := Ideal) Sc .f32 0x47435000#32)))))
        (subf (H V) (downD (Host.divf (rowD (colSum (H V)))
          (broadcastInDim S1D ![] (by decide) (constant (F := Ideal) Sc .f32 0x47435000#32)))))) := by
  rw [val_call2_v9 V, val_call2_cst_2 V, val_call2_v6 V, val_call2_v5 V, val_call2_v4 V, ref_mu V, ref_h1 V]; rfl

theorem ref_var : R V main_v104 = varTwoPass (H V) := by
  rw [val_v104 V, val_call2_v12 V, val_call2_cst_3 V, val_call2_v11 V, val_call2_v10 V, val_call2_call0_v1 V,
    val_call2_call0_v0 V, val_call2_cst_4 V, ref_sq V, ref_n0 V]; rfl

/-! ## The tail -/

/-- The tail's stages by name (Spec.lean's tail, its intermediate arrays as functions). -/
def tailNorm (h1 : FVec Ideal SND .f32) (mean var γ β : FVec Ideal SD .f32) : FVec Ideal SND .f32 :=
  addf (mulf (mulf (subf h1 (downD (rowD mean)))
      (downD (rowD (Host.rsqrt
        (addf var (broadcastInDim SD ![] (by decide) (constant (F := Ideal) Sc .f32 0x3727C5AC#32)))))))
    (downD (rowD γ))) (downD (rowD β))

def tailLogits (h1 : FVec Ideal SND .f32) (mean var γ β : FVec Ideal SD .f32) (w2 : FVec Ideal SDC .f32)
    (b2 : FVec Ideal SC .f32) : FVec Ideal SNC .f32 :=
  addf (Host.dotGeneral (DotDims.plain 50000 256 20) none (relu (tailNorm h1 mean var γ β)) w2) (downC (rowC b2))

def tailExp (z : FVec Ideal SNC .f32) : FVec Ideal SNC .f32 :=
  Host.exp (subf z (acrossC (colN
    (maximumf (broadcastInDim SN ![] (by decide) (constant (F := Ideal) Sc .f32 0xFF800000#32))
      (Host.reduce FloatOps.maximumf z (constant (F := Ideal) Sc .f32 0xFF800000#32) (by decide : SNC.ReducesTo [1] SN)
        (by decide))))))

theorem tail_eq (h1 : FVec Ideal SND .f32) (mean var γ β : FVec Ideal SD .f32) (w2 : FVec Ideal SDC .f32)
    (b2 : FVec Ideal SC .f32) :
    tail h1 mean var γ β w2 b2
      = Host.divf (tailExp (tailLogits h1 mean var γ β w2 b2))
          (acrossC (colN (Host.reduceAdd (tailExp (tailLogits h1 mean var γ β w2 b2))
            (constant (F := Ideal) Sc .f32 0x00000000#32) (by decide : SNC.ReducesTo [1] SN) (by decide)))) := rfl

theorem ref_norm : R V main_v119
    = tailNorm (H V) (meanOf (colSum (H V))) (varTwoPass (H V)) (argG V) (argBt V) := by
  rw [val_v119 V, val_v116 V, val_v113 V, val_v107 V, val_v106 V, val_v105 V, val_v112 V, val_v111 V, val_v110 V,
    val_v109 V, val_v108 V, val_cst_23 V, val_v115 V, val_v114 V, val_v118 V, val_v117 V, ref_h1 V, ref_mean V,
    ref_var V, kept_arg9 V, kept_arg10 V]; rfl

theorem ref_logits : R V main_v124
    = tailLogits (H V) (meanOf (colSum (H V))) (varTwoPass (H V)) (argG V) (argBt V) (argWc V) (argBc V) := by
  rw [val_v124 V, val_v121 V, val_v120 V, val_call3_v0 V, val_call3_cst V, val_v123 V, val_v122 V, ref_norm V,
    kept_arg11 V, kept_arg12 V]; rfl

theorem ref_exp : R V main_v131
    = tailExp (tailLogits (H V) (meanOf (colSum (H V))) (varTwoPass (H V)) (argG V) (argBt V) (argWc V) (argBc V)) := by
  rw [val_v131 V, val_v130 V, val_v129 V, val_v128 V, val_v127 V, val_v126 V, val_cst_25 V, val_v125 V, val_cst_24 V,
    ref_logits V]; rfl

/-- THE REFERENCE'S RESULT: the tail of the decoder's first dense layer H with the column mean and the two-pass
    variance of H, the scale, the shift, the last weight and its bias. -/
theorem ref_value :
    R V main_v135
      = tail
          (hidden (V (Proc.devRef .tc main_arg0)) (V (Proc.devRef .tc main_arg1)) (V (Proc.devRef .tc main_arg2))
            (V (Proc.devRef .tc main_arg3)) (V (Proc.devRef .tc main_arg4)) (V (Proc.devRef .tc main_arg5))
            (V (Proc.devRef .tc main_arg6)) (V (Proc.devRef .tc main_arg7)) (V (Proc.devRef .tc main_arg8)))
          (meanOf (colSum
            (hidden (V (Proc.devRef .tc main_arg0)) (V (Proc.devRef .tc main_arg1)) (V (Proc.devRef .tc main_arg2))
              (V (Proc.devRef .tc main_arg3)) (V (Proc.devRef .tc main_arg4)) (V (Proc.devRef .tc main_arg5))
              (V (Proc.devRef .tc main_arg6)) (V (Proc.devRef .tc main_arg7)) (V (Proc.devRef .tc main_arg8)))))
          (varTwoPass
            (hidden (V (Proc.devRef .tc main_arg0)) (V (Proc.devRef .tc main_arg1)) (V (Proc.devRef .tc main_arg2))
              (V (Proc.devRef .tc main_arg3)) (V (Proc.devRef .tc main_arg4)) (V (Proc.devRef .tc main_arg5))
              (V (Proc.devRef .tc main_arg6)) (V (Proc.devRef .tc main_arg7)) (V (Proc.devRef .tc main_arg8))))
          (V (Proc.devRef .tc main_arg9)) (V (Proc.devRef .tc main_arg10)) (V (Proc.devRef .tc main_arg11))
          (V (Proc.devRef .tc main_arg12)) := by
  show R V main_v135 = tail (H V) (meanOf (colSum (H V))) (varTwoPass (H V)) (argG V) (argBt V) (argWc V) (argBc V)
  rw [tail_eq, val_v135 V, val_v134 V, val_v133 V, val_v132 V, val_cst_26 V, ref_exp V]; rfl

end Cert.ReferenceIdeal.Hand

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
/-
  The precondition read entry by entry: `finite_inputs` is the conjunction, over the twelve float arguments, of
  "every entry's absolute value is below +∞"; on the extended reals an entry with |x| < +∞ is a real number. So under
  the precondition every float argument is real-valued.
-/
import proofs.«116509_j71700184039973_1_alg».proof.Pre_finite_inputs
import proofs.«116509_j71700184039973_1_alg».proof.Proof.Gen.Pre_finite_inputs
import proofs.«116509_j71700184039973_1_alg».proof.Proof.Spec
import proofs.«116509_j71700184039973_1_alg».proof.Proof.LibFiniteEntry
import Idealize.ShloMosaic.Lib.ReduceAll
import Idealize.ShloMosaic.Lib.Affine
import Idealize.ShloMosaic.Lib.ValueIdx

noncomputable section

namespace Cert.Gnn

open Idealize.ShloMosaic Cert.Pre_finite_inputs Cert.Lib.FiniteEntry

/-- A conjunction of two scalar tests that holds gives both. -/
theorem andi_at {x y : IVec (⟨0, ![]⟩ : Shape) 1} (i : (⟨0, ![]⟩ : Shape).Idx) (h : andi x y i = 1#1) :
    x i = 1#1 ∧ y i = 1#1 := IntOp.andi_eq_one.mp h

/-- One argument's test, reduced over all its entries, gives a real number at every entry. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (h : Host.reduce IntOp.andi
        (cmpf .olt (Host.absf x) (broadcastInDim s ![] hb (constant (F := Ideal) ⟨0, ![]⟩ .f32 0x7F800000#32)))
        (constantI ⟨0, ![]⟩ 1 1#1) hr hu j = 1#1) : IsReal x :=
  fun i => entry_real hb x i (Host.reduce_andi_all _ _ hr hu j h i)

/-- Under `finite_inputs` every float argument is real-valued. -/
theorem reals_of_pre [Cert.Pre_finite_inputs.Facts]
    (a0 : FVec Ideal S50000x1002 .f32) (a1 : IVec S2x800000 32) (a2 : FVec Ideal S1002x256 .f32)
    (a3 : FVec Ideal S256x256 .f32) (a4 : FVec Ideal S256 .f32) (a5 : FVec Ideal S256x256 .f32) (a6 : FVec Ideal S256 .f32)
    (a7 : FVec Ideal S256x256 .f32) (a8 : FVec Ideal S256 .f32) (a9 : FVec Ideal S256 .f32) (a10 : FVec Ideal S256 .f32)
    (a11 : FVec Ideal S256x20 .f32) (a12 : FVec Ideal S20 .f32)
    (h : Cert.Pre_finite_inputs.fn (F := Ideal) a0 a1 a2 a3 a4 a5 a6 a7 a8 a9 a10 a11 a12 = fun _ => 1#1) :
    IsReal a0 ∧ IsReal a2 ∧ IsReal a3 ∧ IsReal a4 ∧ IsReal a5 ∧ IsReal a6 ∧ IsReal a7 ∧ IsReal a8 ∧ IsReal a9
      ∧ IsReal a10 ∧ IsReal a11 ∧ IsReal a12 := by
  have h0 := congrFun h ValueIdx.ix0
  dsimp only [fn, fn_part1, fn_part2, fn_part3] at h0
  obtain ⟨h0, h12⟩ := andi_at _ h0
  obtain ⟨h0, h11⟩ := andi_at _ h0
  obtain ⟨h0, h10⟩ := andi_at _ h0
  obtain ⟨h0, h9⟩ := andi_at _ h0
  obtain ⟨h0, h8⟩ := andi_at _ h0
  obtain ⟨h0, h7⟩ := andi_at _ h0
  obtain ⟨h0, h6⟩ := andi_at _ h0
  obtain ⟨h0, h5⟩ := andi_at _ h0
  obtain ⟨h0, h4⟩ := andi_at _ h0
  obtain ⟨h0, h3⟩ := andi_at _ h0
  obtain ⟨h0, h2⟩ := andi_at _ h0
  exact ⟨real_of_all a0 _ _ _ _ h0, real_of_all a2 _ _ _ _ h2, real_of_all a3 _ _ _ _ h3, real_of_all a4 _ _ _ _ h4,
    real_of_all a5 _ _ _ _ h5, real_of_all a6 _ _ _ _ h6, real_of_all a7 _ _ _ _ h7, real_of_all a8 _ _ _ _ h8,
    real_of_all a9 _ _ _ _ h9, real_of_all a10 _ _ _ _ h10, real_of_all a11 _ _ _ _ h11, real_of_all a12 _ _ _ _ h12⟩

end Cert.Gnn

end
-- ==== Proof.LibBatchVar.lean ====
/-
  The two-pass and the one-pass batch variance agree.

  For real numbers x₁ … x_N (N > 0) with s = ∑ xᵢ and q = ∑ xᵢ², the one-pass form

      max (q · (1/N) − (s · (1/N))², 0)

  and the two-pass form

      (∑ (xᵢ − s / N)²) / N

  are the same real number: expanding the square, ∑ (xᵢ − μ)² = q − 2 μ s + N μ² with μ = s / N, which is q − s² / N;
  and the common value is a mean of squares, hence non-negative, so the clamp at 0 is the identity. The identity uses
  cancellation, which fails at the infinities: it is stated for real numbers read in the extended reals. The mean
  itself, s · (1/N) against s / N, needs nothing (`Ideal.div_coe`).
-/
import Idealize.ShloMosaic.PureOps.Ideal
import Mathlib.Algebra.BigOperators.Ring.Finset
import Mathlib.Algebra.Order.BigOperators.Ring.Finset
import Mathlib.Tactic.Ring
import Mathlib.Tactic.FieldSimp
import Mathlib.Tactic.Positivity

open Idealize.ShloMosaic

namespace Cert.Lib.BatchVar

variable {ι : Type*} [Fintype ι]

/-- The coercion of a finite real sum is the sum of the coercions. -/
theorem coe_sum' (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- ∑ (xᵢ − μ)² = q − 2 μ s + N μ², for any μ. -/
theorem sum_sq_dev (x : ι → ℝ) (μ : ℝ) :
    ∑ i, (x i - μ) * (x i - μ) = (∑ i, x i * x i) - 2 * μ * (∑ i, x i) + (Fintype.card ι : ℝ) * (μ * μ) := by
  have h : ∀ i, (x i - μ) * (x i - μ) = x i * x i - 2 * μ * x i + μ * μ := fun i => by ring
  simp only [h, Finset.sum_add_distrib, Finset.sum_sub_distrib, ← Finset.mul_sum, Finset.sum_const, Finset.card_univ,
    nsmul_eq_mul]
  ring

/-- The one-pass variance is the two-pass variance, on the reals. -/
theorem var_real (x : ι → ℝ) (n : ℝ) (hcard : (Fintype.card ι : ℝ) = n) (hn : n ≠ 0) :
    (∑ i, x i * x i) * (1 / n) - ((∑ i, x i) * (1 / n)) * ((∑ i, x i) * (1 / n))
      = (∑ i, (x i - (∑ i, x i) * (1 / n)) * (x i - (∑ i, x i) * (1 / n))) * (1 / n) := by
  rw [sum_sq_dev, hcard]
  field_simp
  ring

/-- The two-pass variance is non-negative. -/
theorem var_nonneg (x : ι → ℝ) (μ n : ℝ) (hn : 0 < n) : 0 ≤ (∑ i, (x i - μ) * (x i - μ)) * (1 / n) :=
  mul_nonneg (Finset.sum_nonneg fun i _ => mul_self_nonneg _) (by positivity)

/-- The mean: a real sum times the reciprocal of the count is the quotient by the count, on the extended reals. -/
theorem mean_eq (s : EReal) (n : ℝ) (hn : n ≠ 0) : s * ((1 / n : ℝ) : EReal) = Ideal.div s (n : EReal) :=
  (Ideal.div_coe hn s).symm

/-- The batch variance on the extended reals, for real entries: the one-pass form clamped at zero, over the sums
    `s = ∑ xᵢ` and `q = ∑ xᵢ²` taken in the extended reals, is the two-pass form about the quotient mean. -/
theorem var_eq (x : ι → ℝ) (n : ℝ) (hcard : (Fintype.card ι : ℝ) = n) (hn : 0 < n) :
    max ((∑ i, (x i : EReal) * (x i : EReal)) * ((1 / n : ℝ) : EReal)
          - ((∑ i, (x i : EReal)) * ((1 / n : ℝ) : EReal)) * ((∑ i, (x i : EReal)) * ((1 / n : ℝ) : EReal))) 0
      = Ideal.div (∑ i, ((x i : EReal) - Ideal.div (∑ i, (x i : EReal)) (n : EReal))
          * ((x i : EReal) - Ideal.div (∑ i, (x i : EReal)) (n : EReal))) (n : EReal) := by
  have hn0 : n ≠ 0 := ne_of_gt hn
  rw [Ideal.div_coe hn0, Ideal.div_coe hn0]
  simp only [← EReal.coe_mul, ← coe_sum', ← EReal.coe_sub]
  rw [var_real x n hcard hn0]
  exact max_eq_left (EReal.coe_nonneg.mpr (var_nonneg x _ n hn))

end Cert.Lib.BatchVar
-- ==== Proof.Variance.lean ====
/-
  The one-pass and the two-pass batch variance of a column agree when every entry is a real number.

  For the N = 50000 real entries x₁ … x_N of one column, with s = ∑ xᵢ and q = ∑ xᵢ², the one-pass form is
  q / N − (s / N)² and the two-pass form is (∑ (xᵢ − s / N)²) / (N − 0), the quotient selected against a NaN by the
  test N − 0 > 0. Expanding the square, ∑ (xᵢ − μ)² = q − 2 μ s + N μ² with μ = s / N, which is q − s² / N, so the two
  are one real number. The step uses cancellation, which fails at the infinities (with an entry +∞ one side is ⊥ and
  the other ⊤): hence the hypothesis that every entry is real. Division by the real N is the product with 1/N on the
  extended reals, the divisor N − 0 is N, and the test N − 0 > 0 holds, so the selection returns the quotient.
-/
import Idealize.ShloMosaic.PureOps.Ideal.Laws
import Idealize.ShloMosaic.Lib.ValueIdx
import Idealize.ShloMosaic.Lib.Pipeline.Value
import proofs.«116509_j71700184039973_1_alg».proof.Proof.Spec
import proofs.«116509_j71700184039973_1_alg».proof.Proof.LibBatchVar
import proofs.«116509_j71700184039973_1_alg».proof.Proof.LibColumnSum

noncomputable section

open scoped BigOperators

namespace Cert.Gnn

open Idealize.ShloMosaic Idealize.ShloMosaic.ValueIdx

/-- The f32 word 0x47435000 is the real number 50000: exponent field 142, significand 2²³ + 0x435000 = 12800000,
    and 12800000 · 2^(142 − 127 − 23) = 12800000 / 256. -/
theorem ofBits_count : Ideal.ofBits .f32 0x47435000#32 = ((50000 : ℝ) : EReal) := by
  simp [Ideal.ofBits, Ideal.ieee, -EReal.coe_mul]; norm_num

/-- A column sum read at column j: the sum of the column's entries. -/
theorem colSum_apply (x : FVec Ideal SND .f32) (j : Fin 256) : colSum x (ix1 j) = ∑ k : Fin 50000, x (ix2 k j) := by
  have h : SND.Reduces [0] SD := by decide
  show Ideal.hostReduceAdd _ x (Ideal.ofBits .f32 0x00000000#32) (ix1 j) = _
  rw [Ideal.hostReduceAdd_single _ h, Ideal.ofBits_zero_f32, zero_add]
  exact Finset.sum_congr rfl fun k _ => congrArg x (ValueKeepdims.lift_axis0_ix2 h j k)

/-- The one-pass and two-pass variance of real numbers, the quotients taken on the extended reals. -/
theorem var_ereal {ι : Type*} [Fintype ι] (x : ι → ℝ) (n : ℝ) (hcard : (Fintype.card ι : ℝ) = n) (hn : n ≠ 0) :
    Ideal.div (∑ i, (x i : EReal) * (x i : EReal)) (n : EReal)
        - Ideal.div (∑ i, (x i : EReal)) (n : EReal) * Ideal.div (∑ i, (x i : EReal)) (n : EReal)
      = Ideal.div (∑ i, ((x i : EReal) - Ideal.div (∑ i, (x i : EReal)) (n : EReal))
          * ((x i : EReal) - Ideal.div (∑ i, (x i : EReal)) (n : EReal))) (n : EReal) := by
  simp only [Ideal.div_coe hn, ← EReal.coe_mul, ← Cert.Lib.BatchVar.coe_sum', ← EReal.coe_sub]
  rw [Cert.Lib.BatchVar.var_real x n hcard hn]

/-- The column mean repeated down the rows, read at entry (k, j): the column sum over the count. -/
theorem downMean_apply (h1 : FVec Ideal SND .f32) (k : Fin 50000) (j : Fin 256) :
    downD (Host.divf (rowD (colSum h1))
        (broadcastInDim S1D ![] (by decide) (constant (F := Ideal) Sc .f32 0x47435000#32))) (ix2 k j)
      = Ideal.div (colSum h1 (ix1 j)) ((50000 : ℝ) : EReal) := by
  unfold downD
  rw [broadcastInDim_apply _ _ _ (ix2 k j) (ix2 (0 : Fin 1) j)
    (fun a => match a with | ⟨0, _⟩ => rfl | ⟨1, _⟩ => rfl)]
  show Ideal.div (rowD (colSum h1) (ix2 (0 : Fin 1) j)) (Ideal.ofBits .f32 0x47435000#32) = _
  rw [ofBits_count]
  unfold rowD
  rw [broadcastInDim_apply _ _ _ (ix2 (0 : Fin 1) j) (ix1 j) (fun a => match a with | ⟨0, _⟩ => rfl)]

/-- The one-pass batch variance is the two-pass batch variance when every entry is real. -/
theorem varOnePass_eq (h1 : FVec Ideal SND .f32) (hr : IsReal h1) :
    varOnePass (colSum h1) (colSum (mulf h1 h1)) = varTwoPass h1 := by
  choose r hr' using hr
  funext j'
  obtain ⟨j, rfl⟩ : ∃ j : Fin 256, j' = ix1 j := ⟨j' 0, eq_ix1 j'⟩
  have hn : ((50000 : ℝ)) ≠ 0 := by norm_num
  have hcard : ((Fintype.card (Fin 50000) : ℕ) : ℝ) = 50000 := by simp
  -- the two column sums over the real witnesses
  have hs : colSum h1 (ix1 j) = ∑ k : Fin 50000, ((r (ix2 k j) : ℝ) : EReal) := by
    rw [colSum_apply]; exact Finset.sum_congr rfl fun k _ => hr' _
  have hq : colSum (mulf h1 h1) (ix1 j) = ∑ k : Fin 50000, ((r (ix2 k j) : ℝ) : EReal) * ((r (ix2 k j) : ℝ) : EReal) := by
    rw [colSum_apply]
    exact Finset.sum_congr rfl fun k _ => by
      show h1 (ix2 k j) * h1 (ix2 k j) = _
      rw [hr']
  -- the left side
  have hL : varOnePass (colSum h1) (colSum (mulf h1 h1)) (ix1 j)
      = Ideal.div (colSum (mulf h1 h1) (ix1 j)) ((50000 : ℝ) : EReal)
          - Ideal.div (colSum h1 (ix1 j)) ((50000 : ℝ) : EReal) * Ideal.div (colSum h1 (ix1 j)) ((50000 : ℝ) : EReal) := by
    show Ideal.div (colSum (mulf h1 h1) (ix1 j)) (Ideal.ofBits .f32 0x47435000#32)
          - Ideal.div (colSum h1 (ix1 j)) (Ideal.ofBits .f32 0x47435000#32)
            * Ideal.div (colSum h1 (ix1 j)) (Ideal.ofBits .f32 0x47435000#32) = _
    rw [ofBits_count]
  -- the right side: the divisor N − 0 is N, the test N − 0 > 0 holds
  have hn0 : Ideal.ofBits .f32 0x47435000#32 - (((0#32 : BitVec 32).toInt : ℝ) : EReal) = ((50000 : ℝ) : EReal) := by
    rw [ofBits_count]; simp
  have hR : varTwoPass h1 (ix1 j)
      = Ideal.div (colSum (mulf
            (subf h1 (downD (Host.divf (rowD (colSum h1))
              (broadcastInDim S1D ![] (by decide) (constant (F := Ideal) Sc .f32 0x47435000#32)))))
            (subf h1 (downD (Host.divf (rowD (colSum h1))
              (broadcastInDim S1D ![] (by decide) (constant (F := Ideal) Sc .f32 0x47435000#32)))))) (ix1 j))
          ((50000 : ℝ) : EReal) := by
    show Scalar.select
        (Ideal.cmp .ogt (Ideal.ofBits .f32 0x47435000#32 - (((0#32 : BitVec 32).toInt : ℝ) : EReal))
          (Ideal.ofBits .f32 0x00000000#32))
        (Ideal.div _ (Ideal.ofBits .f32 0x47435000#32 - (((0#32 : BitVec 32).toInt : ℝ) : EReal)))
        (Ideal.ofBits .f32 0x7FC00000#32) = _
    rw [hn0, Ideal.ofBits_zero_f32]
    have hc : Ideal.cmp .ogt ((50000 : ℝ) : EReal) 0 = 1#1 := by
      have : (0 : EReal) < ((50000 : ℝ) : EReal) := by exact_mod_cast (by norm_num : (0 : ℝ) < 50000)
      simp [Ideal.cmp, this]
    rw [hc]
    rfl
  rw [hL, hR, hq, hs, colSum_apply]
  rw [var_ereal (fun k => r (ix2 k j)) 50000 hcard hn]
  refine congrArg (fun t => Ideal.div t ((50000 : ℝ) : EReal)) (Finset.sum_congr rfl fun k _ => ?_)
  symm
  show (h1 (ix2 k j) - downD _ (ix2 k j)) * (h1 (ix2 k j) - downD _ (ix2 k j)) = _
  rw [downMean_apply, hs, hr']

end Cert.Gnn

end
-- ==== Proof.Reals.lean ====
/-
  Real-valuedness is preserved by every operation the network applies.

  On the extended reals the sum, difference and product of two real numbers, the larger of two real numbers, a finite
  sum of real numbers, the reciprocal square root of a positive real number and the quotient of a real number by a
  real number that is not zero are real numbers. Read entry by entry this gives: pointwise sums, differences, products
  and maxima of real-valued arrays are real-valued; so is a rectifier; a broadcast and a gather copy entries of their
  operand (a gather clamps its start index into range, so every result entry is an operand entry), hence keep
  real-valuedness; a matrix product is a finite sum of products; a sum-reduction is its initial value plus a finite sum;
  a scatter with addition is the operand's entry plus the finite sum of the updates landing on it, and is
  non-negative when operand and updates are. The degree vector, a scatter of ones into zeros plus one, therefore has
  every entry a real number at least one, so its reciprocal square root and its reciprocal are real-valued.
-/
import Idealize.ShloMosaic.PureOps.Ideal.Laws
import Idealize.ShloMosaic.Lib.ValueIdx
import Idealize.ShloMosaic.Lib.IdealHost
import proofs.«116509_j71700184039973_1_alg».proof.Proof.Spec

noncomputable section

open scoped BigOperators

namespace Cert.Gnn

open Idealize.ShloMosaic Idealize.ShloMosaic.ValueIdx

/-! ### Finite sums of real numbers -/

section Sums

variable {ι : Type*}

/-- A value plus a finite sum, all of them real numbers with a property that holds of 0 and is closed under
    addition, is a real number with that property. -/
theorem add_sum_coe_of (P : ℝ → Prop) (h0 : P 0) (hadd : ∀ a b, P a → P b → P (a + b)) (a : EReal) (S : Finset ι)
    (f : ι → EReal) (ha : ∃ r : ℝ, P r ∧ a = (r : EReal)) (hf : ∀ i ∈ S, ∃ r : ℝ, P r ∧ f i = (r : EReal)) :
    ∃ r : ℝ, P r ∧ a + ∑ i ∈ S, f i = (r : EReal) := by
  classical
  obtain ⟨ra, hPa, hra⟩ := ha
  have hsum : ∃ r : ℝ, P r ∧ ∑ i ∈ S, f i = (r : EReal) := by
    induction S using Finset.induction_on with
    | empty => exact ⟨0, h0, by simp⟩
    | insert b S hb ih =>
      obtain ⟨rb, hPb, hrb⟩ := hf b (Finset.mem_insert_self b S)
      obtain ⟨rs, hPs, hrs⟩ := ih fun i hi => hf i (Finset.mem_insert_of_mem hi)
      exact ⟨rb + rs, hadd _ _ hPb hPs, by rw [Finset.sum_insert hb, hrb, hrs, EReal.coe_add]⟩
  obtain ⟨rs, hPs, hrs⟩ := hsum
  exact ⟨ra + rs, hadd _ _ hPa hPs, by rw [hra, hrs, EReal.coe_add]⟩

/-- A real number plus a finite sum of real numbers is a real number. -/
theorem real_add_sum (a : EReal) (S : Finset ι) (f : ι → EReal) (ha : ∃ r : ℝ, a = (r : EReal))
    (hf : ∀ i ∈ S, ∃ r : ℝ, f i = (r : EReal)) : ∃ r : ℝ, a + ∑ i ∈ S, f i = (r : EReal) := by
  obtain ⟨r, _, hr⟩ := add_sum_coe_of (fun _ => True) trivial (fun _ _ _ _ => trivial) a S f
    (ha.imp fun _ h => ⟨trivial, h⟩) (fun i hi => (hf i hi).imp fun _ h => ⟨trivial, h⟩)
  exact ⟨r, hr⟩

/-- A finite sum of real numbers is a real number. -/
theorem real_sum (S : Finset ι) (f : ι → EReal) (hf : ∀ i ∈ S, ∃ r : ℝ, f i = (r : EReal)) :
    ∃ r : ℝ, ∑ i ∈ S, f i = (r : EReal) := by
  obtain ⟨r, hr⟩ := real_add_sum 0 S f ⟨0, by simp⟩ hf
  exact ⟨r, by rw [← hr, zero_add]⟩

/-- A non-negative real number plus a finite sum of non-negative real numbers is a non-negative real number. -/
theorem nonneg_add_sum (a : EReal) (S : Finset ι) (f : ι → EReal) (ha : ∃ r : ℝ, 0 ≤ r ∧ a = (r : EReal))
    (hf : ∀ i ∈ S, ∃ r : ℝ, 0 ≤ r ∧ f i = (r : EReal)) : ∃ r : ℝ, 0 ≤ r ∧ a + ∑ i ∈ S, f i = (r : EReal) :=
  add_sum_coe_of (fun r => 0 ≤ r) le_rfl (fun _ _ => add_nonneg) a S f ha hf

end Sums

/-! ### Pointwise operations -/

section Pointwise

variable {s : Shape} {φ : FTy}

theorem isReal_addf {x y : FVec Ideal s φ} (hx : IsReal x) (hy : IsReal y) : IsReal (addf x y) := fun i => by
  obtain ⟨a, ha⟩ := hx i
  obtain ⟨b, hb⟩ := hy i
  exact ⟨a + b, by show x i + y i = _; rw [ha, hb, EReal.coe_add]⟩

theorem isReal_subf {x y : FVec Ideal s φ} (hx : IsReal x) (hy : IsReal y) : IsReal (subf x y) := fun i => by
  obtain ⟨a, ha⟩ := hx i
  obtain ⟨b, hb⟩ := hy i
  exact ⟨a - b, by show x i - y i = _; rw [ha, hb, EReal.coe_sub]⟩

theorem isReal_mulf {x y : FVec Ideal s φ} (hx : IsReal x) (hy : IsReal y) : IsReal (mulf x y) := fun i => by
  obtain ⟨a, ha⟩ := hx i
  obtain ⟨b, hb⟩ := hy i
  exact ⟨a * b, by show x i * y i = _; rw [ha, hb, EReal.coe_mul]⟩

theorem isReal_maximumf {x y : FVec Ideal s φ} (hx : IsReal x) (hy : IsReal y) : IsReal (maximumf x y) := fun i => by
  obtain ⟨a, ha⟩ := hx i
  obtain ⟨b, hb⟩ := hy i
  show ∃ r : ℝ, max (x i) (y i) = (r : EReal)
  rw [ha, hb]
  rcases le_total a b with h | h
  · exact ⟨b, max_eq_right (EReal.coe_le_coe_iff.mpr h)⟩
  · exact ⟨a, max_eq_left (EReal.coe_le_coe_iff.mpr h)⟩

/-- A constant array whose word denotes a real number is real-valued. -/
theorem isReal_constant (b : BitVec φ.bits) (hb : ∃ r : ℝ, Ideal.ofBits φ b = (r : EReal)) :
    IsReal (constant (F := Ideal) s φ b) := fun _ => hb

theorem isReal_constant_zero : IsReal (constant (F := Ideal) s .f32 0x00000000#32) :=
  isReal_constant _ ⟨0, by rw [Ideal.ofBits_zero_f32]; rfl⟩

theorem isReal_constant_one : IsReal (constant (F := Ideal) s .f32 0x3F800000#32) :=
  isReal_constant _ ⟨1, by rw [Ideal.ofBits_one_f32]; rfl⟩

/-- The reciprocal square root of a positive real number is a positive real number. -/
theorem rsqrt_pos {x : FVec Ideal s φ} (hx : ∀ i, ∃ r : ℝ, 0 < r ∧ x i = (r : EReal)) :
    ∀ i, ∃ r : ℝ, 0 < r ∧ Host.rsqrt x i = (r : EReal) := fun i => by
  obtain ⟨r, hr, he⟩ := hx i
  refine ⟨(Real.sqrt r)⁻¹, inv_pos.mpr (Real.sqrt_pos.mpr hr), ?_⟩
  show Ideal.rsqrt (x i) = _
  rw [he, Ideal.rsqrt_coe, if_neg (not_lt.mpr hr.le), if_neg hr.ne']

theorem isReal_rsqrt_of_pos {x : FVec Ideal s φ} (hx : ∀ i, ∃ r : ℝ, 0 < r ∧ x i = (r : EReal)) :
    IsReal (Host.rsqrt x) := fun i => (rsqrt_pos hx i).imp fun _ h => h.2

/-- The quotient of a real number by a real number that is not zero is a real number. -/
theorem isReal_hostDivf {a x : FVec Ideal s φ} (ha : IsReal a) (hx : ∀ i, ∃ r : ℝ, r ≠ 0 ∧ x i = (r : EReal)) :
    IsReal (Host.divf a x) := fun i => by
  obtain ⟨p, hp⟩ := ha i
  obtain ⟨r, hr, he⟩ := hx i
  refine ⟨p * (1 / r), ?_⟩
  show Ideal.div (a i) (x i) = _
  rw [he, Ideal.div_coe hr, hp, EReal.coe_mul]

end Pointwise

/-! ### Operations that copy entries -/

theorem isReal_broadcastInDim {s t : Shape} (dims : Fin s.rank → Fin t.rank) (h : s.BroadcastsInDim t dims)
    {x : s.Idx → EReal} (hx : IsReal x) : IsReal (broadcastInDim t dims h x) := fun _ => hx _

/-- A gather reads, at each result index, one entry of the operand (the start index clamped into range). -/
theorem isReal_gather {s si t : Shape} {w : Nat} (d : GatherDims s si t) {x : s.Idx → EReal} (hx : IsReal x)
    (idx : IVec si w) : IsReal (Host.gather d x idx) := fun _ => hx _

/-- The rectifier at any shape: the maximum with the broadcast zero word. -/
theorem isReal_max_zero {s : Shape} (hb : Sc.BroadcastsInDim s ![]) {x : FVec Ideal s .f32} (hx : IsReal x) :
    IsReal (maximumf x (broadcastInDim s ![] hb (constant (F := Ideal) Sc .f32 0x00000000#32))) :=
  isReal_maximumf hx (isReal_broadcastInDim _ _ isReal_constant_zero)

theorem isReal_relu {x : FVec Ideal SND .f32} (hx : IsReal x) : IsReal (relu x) := isReal_max_zero _ hx

/-- The one word divided by an array of real numbers at least one. -/
theorem isReal_div_one_of_pos {s : Shape} (hb : Sc.BroadcastsInDim s ![]) {x : FVec Ideal s .f32}
    (hx : ∀ i, ∃ r : ℝ, 1 ≤ r ∧ x i = (r : EReal)) :
    IsReal (Host.divf (broadcastInDim s ![] hb (constant (F := Ideal) Sc .f32 0x3F800000#32)) x) :=
  isReal_hostDivf (isReal_broadcastInDim _ _ isReal_constant_one)
    fun i => (hx i).imp fun _ h => ⟨(lt_of_lt_of_le one_pos h.1).ne', h.2⟩

/-! ### Contractions, reductions and scatters -/

/-- A matrix product (any dimension numbers) of real-valued arrays is real-valued: each entry is a finite sum of
    products. -/
theorem isReal_dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral d prec l r) := fun j => by
  show ∃ r' : ℝ, FloatOps.dotGeneral d prec .single l r j = (r' : EReal)
  rw [Ideal.dotGeneral_apply]
  refine real_sum _ _ fun k _ => ?_
  obtain ⟨a, ha⟩ := hl (d.lhsIdx j k)
  obtain ⟨b, hb⟩ := hr (d.rhsIdx j k)
  exact ⟨a * b, by rw [ha, hb, EReal.coe_mul]⟩

/-- A sum-reduction of a real-valued array from a real initial value is real-valued. -/
theorem isReal_reduceAdd {s t u : Shape} {φ : FTy} {axes : List (Fin s.rank)} {x : FVec Ideal s φ}
    {init : u.Idx → Ideal φ} (h : s.ReducesTo axes t) (hu : 0 < u.numel) (hx : IsReal x) (hi : IsReal init) :
    IsReal (Host.reduceAdd x init h hu) := fun j => by
  show ∃ r : ℝ, Ideal.hostReduceAdd h x (init (Shape.Idx.first hu)) j = (r : EReal)
  unfold Ideal.hostReduceAdd
  exact real_add_sum _ _ _ (hi _) fun i _ => hx i

theorem isReal_colSum {x : FVec Ideal SND .f32} (hx : IsReal x) : IsReal (colSum x) :=
  isReal_reduceAdd _ _ hx isReal_constant_zero

/-- A scatter with addition: each entry is the operand's plus the finite sum of the updates landing on it. -/
theorem isReal_scatterAdd {s si su : Shape} {φ : FTy} {w : Nat} (d : ScatterDims s si su) {x : FVec Ideal s φ}
    (idx : IVec si w) {upd : FVec Ideal su φ} (hx : IsReal x) (hu : IsReal upd) :
    IsReal (Host.scatterAdd d x idx upd) := fun i => by
  show ∃ r : ℝ, Ideal.hostScatterAdd d x idx upd i = (r : EReal)
  unfold Ideal.hostScatterAdd
  exact real_add_sum _ _ _ (hx i) fun j _ => hu j

/-- With operand and updates non-negative real numbers, so is every entry of the result. -/
theorem scatterAdd_ge {s si su : Shape} {φ : FTy} {w : Nat} (d : ScatterDims s si su) {x : FVec Ideal s φ}
    (idx : IVec si w) {upd : FVec Ideal su φ} (hx : ∀ i, ∃ r : ℝ, 0 ≤ r ∧ x i = (r : EReal))
    (hu : ∀ j, ∃ r : ℝ, 0 ≤ r ∧ upd j = (r : EReal)) :
    ∀ i, ∃ r : ℝ, 0 ≤ r ∧ Host.scatterAdd d x idx upd i = (r : EReal) := fun i => by
  show ∃ r : ℝ, 0 ≤ r ∧ Ideal.hostScatterAdd d x idx upd i = (r : EReal)
  unfold Ideal.hostScatterAdd
  exact nonneg_add_sum _ _ _ (hx i) fun j _ => hu j

/-! ### The degree vector -/

/-- The degree vector — ones scattered with addition into zeros, plus one — has every entry a real number at least
    one. -/
theorem deg_ge_one {s si su : Shape} {w : Nat} (d : ScatterDims s si su) (idx : IVec si w)
    (hs : Sc.BroadcastsInDim s ![]) (hu : Sc.BroadcastsInDim su ![]) :
    ∀ i, ∃ r : ℝ, 1 ≤ r ∧
      addf (Host.scatterAdd d (broadcastInDim s ![] hs (constant (F := Ideal) Sc .f32 0x00000000#32)) idx
          (broadcastInDim su ![] hu (constant (F := Ideal) Sc .f32 0x3F800000#32)))
        (broadcastInDim s ![] hs (constant (F := Ideal) Sc .f32 0x3F800000#32)) i = (r : EReal) := fun i => by
  obtain ⟨r, hr, he⟩ := scatterAdd_ge d
    (x := broadcastInDim s ![] hs (constant (F := Ideal) Sc .f32 0x00000000#32)) idx
    (upd := broadcastInDim su ![] hu (constant (F := Ideal) Sc .f32 0x3F800000#32))
    (fun _ => ⟨0, le_rfl, by show Ideal.ofBits .f32 0x00000000#32 = _; rw [Ideal.ofBits_zero_f32]; rfl⟩)
    (fun _ => ⟨1, zero_le_one, by show Ideal.ofBits .f32 0x3F800000#32 = _; rw [Ideal.ofBits_one_f32]; rfl⟩) i
  refine ⟨r + 1, by linarith, ?_⟩
  show Host.scatterAdd d _ idx _ i + Ideal.ofBits .f32 0x3F800000#32 = _
  rw [he, Ideal.ofBits_one_f32, EReal.coe_add]
  rfl

end Cert.Gnn

end
-- ==== Proof.HiddenReal.lean ====
/-
  The hidden layer is real-valued when the inputs are.

  Stage by stage through one graph-convolution layer: the degree of every node is a real number at least one (ones
  scattered with addition into zeros, plus one), so its reciprocal square root and its reciprocal are real numbers; the
  edge weights are products of two gathered reciprocal square roots; the aggregated messages are a scatter with
  addition, into zeros, of products of a weight and a gathered feature row; the epilogue adds the aggregate, the
  features times the inverse degree and the bias, and rectifies. Each of these keeps real-valuedness, and so do the
  matrix products between the layers and the dense layer after them.
-/
import proofs.«116509_j71700184039973_1_alg».proof.Proof.Graph
import proofs.«116509_j71700184039973_1_alg».proof.Proof.Reals

noncomputable section

namespace Cert.Gnn

open Idealize.ShloMosaic

/-- Every node's degree is a real number at least one. -/
theorem degOf_ge_one (dst : IVec SE 32) : ∀ i, ∃ r : ℝ, 1 ≤ r ∧ degOf dst i = (r : EReal) := by
  unfold degOf
  exact deg_ge_one scatterVec (rawIdx dst) _ _

/-- The reciprocal square root of the degree is a positive real number. -/
theorem rsqrt_degOf_pos (dst : IVec SE 32) : ∀ i, ∃ r : ℝ, 0 < r ∧ Host.rsqrt (degOf dst) i = (r : EReal) :=
  rsqrt_pos fun i => (degOf_ge_one dst i).imp fun _ h => ⟨lt_of_lt_of_le one_pos h.1, h.2⟩

theorem isReal_rsqrt_degOf (dst : IVec SE 32) : IsReal (Host.rsqrt (degOf dst)) :=
  fun i => (rsqrt_degOf_pos dst i).imp fun _ h => h.2

/-- The edge weights are real numbers. -/
theorem isReal_normCol (src dst : IVec SE 32) : IsReal (normCol src dst) := by
  unfold normCol
  exact isReal_broadcastInDim _ _
    (isReal_mulf (isReal_gather _ (isReal_rsqrt_degOf dst) _) (isReal_gather _ (isReal_rsqrt_degOf dst) _))

/-- The aggregated messages of real-valued features are real-valued. -/
theorem isReal_aggOf (src dst : IVec SE 32) {xp : FVec Ideal SND .f32} (hxp : IsReal xp) : IsReal (aggOf src dst xp) := by
  unfold aggOf
  exact isReal_scatterAdd _ _ (isReal_broadcastInDim _ _ isReal_constant_zero)
    (isReal_mulf (isReal_broadcastInDim _ _ (isReal_normCol src dst)) (isReal_gather _ hxp _))

/-- The inverse-degree column is real-valued. -/
theorem isReal_invDegCol (dst : IVec SE 32) : IsReal (invDegCol dst) := by
  unfold invDegCol colN
  exact isReal_broadcastInDim _ _ (isReal_div_one_of_pos _ (degOf_ge_one dst))

/-- The epilogue of real-valued arrays is real-valued. -/
theorem isReal_epilogue {agg xp : FVec Ideal SND .f32} {invcol : FVec Ideal SN1 .f32} {brow : FVec Ideal S1D .f32}
    (hagg : IsReal agg) (hxp : IsReal xp) (hinv : IsReal invcol) (hb : IsReal brow) :
    IsReal (epilogue agg xp invcol brow) := by
  unfold epilogue acrossD downD
  exact isReal_relu
    (isReal_addf (isReal_addf hagg (isReal_mulf hxp (isReal_broadcastInDim _ _ hinv))) (isReal_broadcastInDim _ _ hb))

/-- One layer on real-valued projected features with a real-valued bias is real-valued. -/
theorem isReal_layer (src dst : IVec SE 32) {xp : FVec Ideal SND .f32} {b : FVec Ideal SD .f32} (hxp : IsReal xp)
    (hb : IsReal b) : IsReal (layer src dst xp b) := by
  unfold layer rowD
  exact isReal_epilogue (isReal_aggOf src dst hxp) hxp (isReal_invDegCol dst) (isReal_broadcastInDim _ _ hb)

theorem isReal_proj {h : FVec Ideal SND .f32} {w : FVec Ideal SDD .f32} (hh : IsReal h) (hw : IsReal w) :
    IsReal (proj h w) := by
  unfold proj
  exact isReal_dotGeneral _ _ hh hw

theorem isReal_denseBias {h : FVec Ideal SND .f32} {w : FVec Ideal SDD .f32} {brow : FVec Ideal S1D .f32}
    (hh : IsReal h) (hw : IsReal w) (hb : IsReal brow) : IsReal (denseBias h w brow) := by
  unfold denseBias downD
  exact isReal_addf (isReal_proj hh hw) (isReal_broadcastInDim _ _ hb)

/-- The encoder's output is real-valued. -/
theorem isReal_encoder (x : FVec Ideal SNG .f32) (ei : IVec S2E 32) (lw : FVec Ideal SGD .f32) (w1 : FVec Ideal SDD .f32)
    (b1 : FVec Ideal SD .f32) (w2 : FVec Ideal SDD .f32) (b2 : FVec Ideal SD .f32) (hx : IsReal x) (hlw : IsReal lw)
    (hw1 : IsReal w1) (hb1 : IsReal b1) (hw2 : IsReal w2) (hb2 : IsReal b2) :
    IsReal (encoder x ei lw w1 b1 w2 b2) := by
  unfold encoder
  exact isReal_layer _ _
    (isReal_proj (isReal_layer _ _ (isReal_proj (isReal_dotGeneral _ _ hx hlw) hw1) hb1) hw2) hb2

/-- The hidden layer is real-valued. -/
theorem isReal_hidden (x : FVec Ideal SNG .f32) (ei : IVec S2E 32) (lw : FVec Ideal SGD .f32) (w1 : FVec Ideal SDD .f32)
    (b1 : FVec Ideal SD .f32) (w2 : FVec Ideal SDD .f32) (b2 : FVec Ideal SD .f32) (w3 : FVec Ideal SDD .f32)
    (b3 : FVec Ideal SD .f32) (hx : IsReal x) (hlw : IsReal lw) (hw1 : IsReal w1) (hb1 : IsReal b1) (hw2 : IsReal w2)
    (hb2 : IsReal b2) (hw3 : IsReal w3) (hb3 : IsReal b3) : IsReal (hidden x ei lw w1 b1 w2 b2 w3 b3) := by
  unfold hidden rowD
  exact isReal_denseBias (isReal_encoder x ei lw w1 b1 w2 b2 hx hlw hw1 hb1 hw2 hb2) hw3
    (isReal_broadcastInDim _ _ hb3)

end Cert.Gnn

end
-- ==== Proof.Algebraic.lean ====
/-
  The algebraic claim: at the ideal instance, from memories that agree on the thirteen arguments and pass the
  finiteness test, the kernel and the reference both run and end with equal results and unchanged arguments.

  The kernel's result is the decoder's tail of the hidden layer with the batch mean and the one-pass variance
  (the mean of the squares less the squared mean); the reference's is the same tail with the two-pass variance (the
  mean of the squared deviations from the mean). Under the finiteness test every argument is real-valued, hence so is
  the hidden layer, and on real entries the two variances are one vector. Everything else in the two results is the
  same function of arguments that agree.
-/
import proofs.«116509_j71700184039973_1_alg».proof.Proof.Frames
import proofs.«116509_j71700184039973_1_alg».proof.Proof.KernelRun
import proofs.«116509_j71700184039973_1_alg».proof.Proof.KernelValueB
import proofs.«116509_j71700184039973_1_alg».proof.Proof.RefValue
import proofs.«116509_j71700184039973_1_alg».proof.Proof.Finite
import proofs.«116509_j71700184039973_1_alg».proof.Proof.Variance
import proofs.«116509_j71700184039973_1_alg».proof.Proof.HiddenReal

set_option maxRecDepth 16384

noncomputable section

namespace Cert.Proof.Parts

open Idealize.ShloMosaic Idealize.ShloMosaic.TcCoe Idealize.SL.Sem Idealize.ShloMosaic.StableHlo

/-- The decoder's tail with the two-pass variance is the tail with the one-pass variance, on arguments that pass the
    finiteness test: every argument is then real-valued, so is the hidden layer, and on real entries the mean of the
    squared deviations is the mean of the squares less the squared mean. -/
theorem tail_variance [Cert.Pre_finite_inputs.Facts]
    (a0 : FVec Ideal Cert.Gnn.SNG .f32) (a1 : IVec Cert.Gnn.S2E 32) (a2 : FVec Ideal Cert.Gnn.SGD .f32)
    (a3 : FVec Ideal Cert.Gnn.SDD .f32) (a4 : FVec Ideal Cert.Gnn.SD .f32) (a5 : FVec Ideal Cert.Gnn.SDD .f32)
    (a6 : FVec Ideal Cert.Gnn.SD .f32) (a7 : FVec Ideal Cert.Gnn.SDD .f32) (a8 : FVec Ideal Cert.Gnn.SD .f32)
    (a9 : FVec Ideal Cert.Gnn.SD .f32) (a10 : FVec Ideal Cert.Gnn.SD .f32) (a11 : FVec Ideal Cert.Gnn.SDC .f32)
    (a12 : FVec Ideal Cert.Gnn.SC .f32)
    (h : Cert.Pre_finite_inputs.fn (F := Ideal) a0 a1 a2 a3 a4 a5 a6 a7 a8 a9 a10 a11 a12 = fun _ => 1#1) :
    Cert.Gnn.tail (Cert.Gnn.hidden a0 a1 a2 a3 a4 a5 a6 a7 a8)
        (Cert.Gnn.meanOf (Cert.Gnn.colSum (Cert.Gnn.hidden a0 a1 a2 a3 a4 a5 a6 a7 a8)))
        (Cert.Gnn.varTwoPass (Cert.Gnn.hidden a0 a1 a2 a3 a4 a5 a6 a7 a8)) a9 a10 a11 a12
      = Cert.Gnn.tail (Cert.Gnn.hidden a0 a1 a2 a3 a4 a5 a6 a7 a8)
        (Cert.Gnn.meanOf (Cert.Gnn.colSum (Cert.Gnn.hidden a0 a1 a2 a3 a4 a5 a6 a7 a8)))
        (Cert.Gnn.varOnePass (Cert.Gnn.colSum (Cert.Gnn.hidden a0 a1 a2 a3 a4 a5 a6 a7 a8))
          (Cert.Gnn.colSum (mulf (Cert.Gnn.hidden a0 a1 a2 a3 a4 a5 a6 a7 a8) (Cert.Gnn.hidden a0 a1 a2 a3 a4 a5 a6 a7 a8))))
        a9 a10 a11 a12 := by
  obtain ⟨h0, h2, h3, h4, h5, h6, h7, h8, -⟩ := Cert.Gnn.reals_of_pre a0 a1 a2 a3 a4 a5 a6 a7 a8 a9 a10 a11 a12 h
  rw [Cert.Gnn.varOnePass_eq _ (Cert.Gnn.isReal_hidden a0 a1 a2 a3 a4 a5 a6 a7 a8 h0 h2 h3 h4 h5 h6 h7 h8)]

/-- The same with the two sides over argument arrays that agree one by one. -/
theorem tail_agree [Cert.Pre_finite_inputs.Facts]
    (b0 : FVec Ideal Cert.Gnn.SNG .f32) (b1 : IVec Cert.Gnn.S2E 32) (b2 : FVec Ideal Cert.Gnn.SGD .f32) (b3 : FVec Ideal Cert.Gnn.SDD .f32) (b4 : FVec Ideal Cert.Gnn.SD .f32) (b5 : FVec Ideal Cert.Gnn.SDD .f32) (b6 : FVec Ideal Cert.Gnn.SD .f32) (b7 : FVec Ideal Cert.Gnn.SDD .f32) (b8 : FVec Ideal Cert.Gnn.SD .f32) (b9 : FVec Ideal Cert.Gnn.SD .f32) (b10 : FVec Ideal Cert.Gnn.SD .f32) (b11 : FVec Ideal Cert.Gnn.SDC .f32) (b12 : FVec Ideal Cert.Gnn.SC .f32)
    (a0 : FVec Ideal Cert.Gnn.SNG .f32) (a1 : IVec Cert.Gnn.S2E 32) (a2 : FVec Ideal Cert.Gnn.SGD .f32) (a3 : FVec Ideal Cert.Gnn.SDD .f32) (a4 : FVec Ideal Cert.Gnn.SD .f32) (a5 : FVec Ideal Cert.Gnn.SDD .f32) (a6 : FVec Ideal Cert.Gnn.SD .f32) (a7 : FVec Ideal Cert.Gnn.SDD .f32) (a8 : FVec Ideal Cert.Gnn.SD .f32) (a9 : FVec Ideal Cert.Gnn.SD .f32) (a10 : FVec Ideal Cert.Gnn.SD .f32) (a11 : FVec Ideal Cert.Gnn.SDC .f32) (a12 : FVec Ideal Cert.Gnn.SC .f32)
    (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12)
    (h : Cert.Pre_finite_inputs.fn (F := Ideal) a0 a1 a2 a3 a4 a5 a6 a7 a8 a9 a10 a11 a12 = fun _ => 1#1) :
    Cert.Gnn.tail (Cert.Gnn.hidden b0 b1 b2 b3 b4 b5 b6 b7 b8) (Cert.Gnn.meanOf (Cert.Gnn.colSum (Cert.Gnn.hidden b0 b1 b2 b3 b4 b5 b6 b7 b8))) (Cert.Gnn.varTwoPass (Cert.Gnn.hidden b0 b1 b2 b3 b4 b5 b6 b7 b8)) b9 b10 b11 b12
      = Cert.Gnn.tail (Cert.Gnn.hidden a0 a1 a2 a3 a4 a5 a6 a7 a8) (Cert.Gnn.meanOf (Cert.Gnn.colSum (Cert.Gnn.hidden a0 a1 a2 a3 a4 a5 a6 a7 a8)))
        (Cert.Gnn.varOnePass (Cert.Gnn.colSum (Cert.Gnn.hidden a0 a1 a2 a3 a4 a5 a6 a7 a8)) (Cert.Gnn.colSum (mulf (Cert.Gnn.hidden a0 a1 a2 a3 a4 a5 a6 a7 a8) (Cert.Gnn.hidden a0 a1 a2 a3 a4 a5 a6 a7 a8))))
        a9 a10 a11 a12 := by
  subst e0 e1 e2 e3 e4 e5 e6 e7 e8 e9 e10 e11 e12
  exact tail_variance _ _ _ _ _ _ _ _ _ _ _ _ _ h

/-- The algebraic claim. -/
theorem algebraic : Cert.algebraic_KernelIdeal_ReferenceIdeal := by
  intro m ρ m' ρ' hpre hagree
  refine ⟨fun c => Cert.KernelIdeal.Gen.W12 m ρ c (Proc.devRef .tc Cert.KernelIdeal.main_v105), Cert.KernelIdeal.Hand.run_value m ρ, ?_⟩
  refine (θ_run (Cert.ReferenceIdeal.defs (F := Ideal)) _ _).mono (fun r h c => ⟨(h c).1.trans ?_, (h c).2⟩) (ref_run m' ρ')
  obtain ⟨e0, e1, e2, e3, e4, e5, e6, e7, e8, e9, e10, e11, e12⟩ := hagree c
  refine (Cert.ReferenceIdeal.Hand.ref_value (launchContents m' c)).trans (Eq.trans ?_ (Cert.KernelIdeal.Hand.kernel_value m ρ c).symm)
  exact tail_agree _ _ _ _ _ _ _ _ _ _ _ _ _ _ _ _ _ _ _ _ _ _ _ _ _ _ e0 e1 e2 e3 e4 e5 e6 e7 e8 e9 e10 e11 e12 (hpre c)

end Cert.Proof.Parts

end
-- ==== Proof.lean ====
/-
  The certificate of a two-layer graph-convolution classifier on 50000 nodes.

  The kernel computes, in seven pallas regions among stretches of host operations: the input projection x·W₀; twice a
  projection h·W followed (on the host) by the symmetric-normalised message passing over the 800000 edges and (in a
  region) the epilogue relu (agg + h·W·(1/deg) + b); a dense layer h1 = h·W₃ + b₃ whose column sums s and column sums
  of squares sq are accumulated over the 25 row tiles; on the host the batch mean s/N and the one-pass variance
  sq/N − (s/N)²; and the decoder's tail: the normalisation (h1 − mean)·rsqrt(var + ε)·γ + β, rectifier, the last dense
  layer and a row softmax. The reference computes the same stages with whole-array host operations and the two-pass
  variance Σ(h1 − mean)²/N.

  On the extended reals every kernel region is, entry by entry, the reference's whole-array stage (a product tiled over
  its rows is the one product; the block sums add up to the column sums), the host stretches are the reference's own
  operations, and the two variances agree because under the precondition every input is real-valued, hence so is h1
  (the degrees are at least 1, so their inverse square roots and inverses are real). The frames of the two kernel
  programs are the generated ones; the reference's run is read off its line of host operations.
-/
import proofs.«116509_j71700184039973_1_alg».proof.Defs
import proofs.«116509_j71700184039973_1_alg».proof.Proof.Frames
import proofs.«116509_j71700184039973_1_alg».proof.Proof.Algebraic

noncomputable section

namespace Cert.Proof

open Cert.Proof.Parts

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
